-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  main_v103

def fn_part5 {F : FTy → Type} [FloatOps F] (main_arg20 : FVec F S64 .f32) (main_arg21 : FVec F S64x1 .f32) (main_arg22 : FVec F S1 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg20
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64x1 .f32 := Host.absf main_arg21
  let main_cst_36 : FVec F S_ .f32 := constant S_ .f32 0x7F800000#32
  let main_v95 : FVec F S64x1 .f32 := broadcastInDim S64x1 ![] bcast_S_S64x1 main_cst_36
  let main_v96 : IVec S64x1 1 := cmpf .olt main_v94 main_v95
  let main_c_37 : IVec S_ 1 := constantI S_ 1 1#1
  let main_v97 : IVec S_ 1 := (fun x v => Host.reduce IntOp.andi x v reducesTo_S64x1_S_d0_1 h_S_) main_v96 main_c_37
  let main_v98 : IVec S_ 1 := andi main_v93 main_v97
  let main_v99 : FVec F S1 .f32 := Host.absf main_arg22
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_v98 main_v101 main_c_39

def fn_part4 {F : FTy → Type} [FloatOps F] (main_arg16 : FVec F S64 .f32) (main_arg17 : FVec F S64x64 .f32) (main_arg18 : FVec F S64 .f32) (main_arg19 : FVec F S64 .f32) (main_arg20 : FVec F S64 .f32) (main_arg21 : FVec F S64x1 .f32) (main_arg22 : FVec F S1 .f32) (main_v63 : IVec S_ 1) (main_v67 : IVec S_ 1) : IVec S_ 1 :=
  let main_v68 : IVec S_ 1 := andi main_v63 main_v67
  let main_v69 : FVec F S64 .f32 := Host.absf main_arg16
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg17
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg18
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg19
  let main_cst_32 : FVec F S_ .f32 := constant S_ .f32 0x7F800000#32
  fn_part5 (F := F) main_arg20 main_arg21 main_arg22 main_v83 main_v84 main_cst_32

def fn_part3 {F : FTy → Type} [FloatOps F] (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64x1 .f32) (main_arg22 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg13
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg14
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg15
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg16 main_arg17 main_arg18 main_arg19 main_arg20 main_arg21 main_arg22 main_v63 main_v67

def fn_part2 {F : FTy → Type} [FloatOps F] (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64x1 .f32) (main_arg22 : FVec F S1 .f32) (main_v33 : IVec S_ 1) : IVec S_ 1 :=
  let main_v34 : FVec F S64x64 .f32 := Host.absf main_arg9
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_arg17 main_arg18 main_arg19 main_arg20 main_arg21 main_arg22 main_v48 main_v49 main_v50

def fn_part1 {F : FTy → Type} [FloatOps F] (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64x1 .f32) (main_arg22 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x128 .f32) (main_arg1 : IVec S2x800000 32) (main_arg2 : IVec S50000 32) (main_arg3 : FVec F S128x64 .f32) (main_arg4 : FVec F S64 .f32) (main_arg5 : FVec F S64x64 .f32) (main_arg6 : FVec F S64 .f32) (main_arg7 : FVec F S64 .f32) (main_arg8 : FVec F S64 .f32) (main_arg9 : FVec F S64x64 .f32) (main_arg10 : FVec F S64 .f32) (main_arg11 : FVec F S64x64 .f32) (main_arg12 : FVec F S64 .f32) (main_arg13 : FVec F S64 .f32) (main_arg14 : FVec F S64 .f32) (main_arg15 : FVec F S64x64 .f32) (main_arg16 : FVec F S64 .f32) (main_arg17 : FVec F S64x64 .f32) (main_arg18 : FVec F S64 .f32) (main_arg19 : FVec F S64 .f32) (main_arg20 : FVec F S64 .f32) (main_arg21 : FVec F S64x1 .f32) (main_arg22 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S256x64 : Shape := ⟨2, ![256, 64]⟩
abbrev S50000x1 : Shape := ⟨2, ![50000, 1]⟩
abbrev S256x1 : Shape := ⟨2, ![256, 1]⟩
abbrev S1x1 : Shape := ⟨2, ![1, 1]⟩

abbrev nBuf : Space → Nat
  | .hbm => 122
  | .vmem => 60
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S64x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S64x1, .f32⟩
  | .hbm, ⟨22, _⟩ => ⟨S1, .f32⟩
  | .hbm, ⟨23, _⟩ => ⟨S1x800000, .i32⟩
  | .hbm, ⟨24, _⟩ => ⟨S800000, .i32⟩
  | .hbm, ⟨25, _⟩ => ⟨S1x800000, .i32⟩
  | .hbm, ⟨26, _⟩ => ⟨S800000, .i32⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S1x64, .f32⟩
  | .hbm, ⟨41, _⟩ => ⟨S1x64, .f32⟩
  | .hbm, ⟨42, _⟩ => ⟨S1x64, .f32⟩
  | .hbm, ⟨43, _⟩ => ⟨S1x64, .f32⟩
  | .hbm, ⟨44, _⟩ => ⟨S50000x64, .f32⟩
  | .hbm, ⟨45, _⟩ => ⟨S1x64, .f32⟩
  | .hbm, ⟨46, _⟩ => ⟨S1x64, .f32⟩
  | .hbm, ⟨47, _⟩ => ⟨S_, .f32⟩
  | .hbm, ⟨48, _⟩ => ⟨S1x64, .f32⟩
  | .hbm, ⟨49, _⟩ => ⟨S1x64, .f32⟩
  | .hbm, ⟨50, _⟩ => ⟨S_, .f32⟩
  | .hbm, ⟨51, _⟩ => ⟨S1x64, .f32⟩
  | .hbm, ⟨52, _⟩ => ⟨S1x64, .f32⟩
  | .hbm, ⟨53, _⟩ => ⟨S1x64, .f32⟩
  | .hbm, ⟨54, _⟩ => ⟨S1x64, .f32⟩
  | .hbm, ⟨55, _⟩ => ⟨S50000x64, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x64, .f32⟩
  | .hbm, ⟨65, _⟩ => ⟨S_, .f32⟩
  | .hbm, ⟨66, _⟩ => ⟨S50000x64, .f32⟩
  | .hbm, ⟨67, _⟩ => ⟨S800000x1, .i32⟩
  | .hbm, ⟨68, _⟩ => ⟨S50000x64, .f32⟩
  | .hbm, ⟨69, _⟩ => ⟨S1x64, .f32⟩
  | .hbm, ⟨70, _⟩ => ⟨S1x64, .f32⟩
  | .hbm, ⟨71, _⟩ => ⟨S1x64, .f32⟩
  | .hbm, ⟨72, _⟩ => ⟨S1x64, .f32⟩
  | .hbm, ⟨73, _⟩ => ⟨S50000x64, .f32⟩
  | .hbm, ⟨74, _⟩ => ⟨S1x64, .f32⟩
  | .hbm, ⟨75, _⟩ => ⟨S1x64, .f32⟩
  | .hbm, ⟨76, _⟩ => ⟨S_, .f32⟩
  | .hbm, ⟨77, _⟩ => ⟨S1x64, .f32⟩
  | .hbm, ⟨78, _⟩ => ⟨S1x64, .f32⟩
  | .hbm, ⟨79, _⟩ => ⟨S_, .f32⟩
  | .hbm, ⟨80, _⟩ => ⟨S1x64, .f32⟩
  | .hbm, ⟨81, _⟩ => ⟨S1x64, .f32⟩
  | .hbm, ⟨82, _⟩ => ⟨S1x64, .f32⟩
  | .hbm, ⟨83, _⟩ => ⟨S1x64, .f32⟩
  | .hbm, ⟨84, _⟩ => ⟨S50000x64, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000x64, .f32⟩
  | .hbm, ⟨94, _⟩ => ⟨S_, .f32⟩
  | .hbm, ⟨95, _⟩ => ⟨S50000x64, .f32⟩
  | .hbm, ⟨96, _⟩ => ⟨S800000x1, .i32⟩
  | .hbm, ⟨97, _⟩ => ⟨S50000x64, .f32⟩
  | .hbm, ⟨98, _⟩ => ⟨S1x64, .f32⟩
  | .hbm, ⟨99, _⟩ => ⟨S1x64, .f32⟩
  | .hbm, ⟨100, _⟩ => ⟨S1x64, .f32⟩
  | .hbm, ⟨101, _⟩ => ⟨S1x64, .f32⟩
  | .hbm, ⟨102, _⟩ => ⟨S50000x64, .f32⟩
  | .hbm, ⟨103, _⟩ => ⟨S1x64, .f32⟩
  | .hbm, ⟨104, _⟩ => ⟨S1x64, .f32⟩
  | .hbm, ⟨105, _⟩ => ⟨S_, .f32⟩
  | .hbm, ⟨106, _⟩ => ⟨S1x64, .f32⟩
  | .hbm, ⟨107, _⟩ => ⟨S1x64, .f32⟩
  | .hbm, ⟨108, _⟩ => ⟨S_, .f32⟩
  | .hbm, ⟨109, _⟩ => ⟨S1x64, .f32⟩
  | .hbm, ⟨110, _⟩ => ⟨S1x64, .f32⟩
  | .hbm, ⟨111, _⟩ => ⟨S1x64, .f32⟩
  | .hbm, ⟨112, _⟩ => ⟨S1x64, .f32⟩
  | .hbm, ⟨113, _⟩ => ⟨S50000x64, .f32⟩
  | .hbm, ⟨114, _⟩ => ⟨S_, .f32⟩
  | .hbm, ⟨115, _⟩ => ⟨S256x64, .f32⟩
  | .hbm, ⟨116, _⟩ => ⟨S50000x1, .i32⟩
  | .hbm, ⟨117, _⟩ => ⟨S256x64, .f32⟩
  | .hbm, ⟨118, _⟩ => ⟨S256x1, .f32⟩
  | .hbm, ⟨119, _⟩ => ⟨S1x1, .f32⟩
  | .hbm, ⟨120, _⟩ => ⟨S256x1, .f32⟩
  | .hbm, ⟨121, _⟩ => ⟨S256x1, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x64, .f32⟩
  | .local _ .vmem, ⟨5, _⟩ => ⟨S1x64, .f32⟩
  | .local _ .vmem, ⟨6, _⟩ => ⟨S64x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S1x64, .f32⟩
  | .local _ .vmem, ⟨31, _⟩ => ⟨S1x64, .f32⟩
  | .local _ .vmem, ⟨32, _⟩ => ⟨S5000x64, .f32⟩
  | .local _ .vmem, ⟨33, _⟩ => ⟨S5000x64, .f32⟩
  | .local _ .vmem, ⟨34, _⟩ => ⟨S1x64, .f32⟩
  | .local _ .vmem, ⟨35, _⟩ => ⟨S1x64, .f32⟩
  | .local _ .vmem, ⟨36, _⟩ => ⟨S1x64, .f32⟩
  | .local _ .vmem, ⟨37, _⟩ => ⟨S1x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x64, .f32⟩
  | .local _ .vmem, ⟨45, _⟩ => ⟨S1x64, .f32⟩
  | .local _ .vmem, ⟨46, _⟩ => ⟨S64x64, .f32⟩
  | .local _ .vmem, ⟨47, _⟩ => ⟨S1x64, .f32⟩
  | .local _ .vmem, ⟨48, _⟩ => ⟨S5000x64, .f32⟩
  | .local _ .vmem, ⟨49, _⟩ => ⟨S5000x64, .f32⟩
  | .local _ .vmem, ⟨50, _⟩ => ⟨S1x64, .f32⟩
  | .local _ .vmem, ⟨51, _⟩ => ⟨S1x64, .f32⟩
  | .local _ .vmem, ⟨52, _⟩ => ⟨S5000x64, .f32⟩
  | .local _ .vmem, ⟨53, _⟩ => ⟨S5000x64, .f32⟩
  | .local _ .vmem, ⟨54, _⟩ => ⟨S1x64, .f32⟩
  | .local _ .vmem, ⟨55, _⟩ => ⟨S1x64, .f32⟩
  | .local _ .vmem, ⟨56, _⟩ => ⟨S1x64, .f32⟩
  | .local _ .vmem, ⟨57, _⟩ => ⟨S1x64, .f32⟩
  | .local _ .vmem, ⟨58, _⟩ => ⟨S5000x64, .f32⟩
  | .local _ .vmem, ⟨59, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | _, _ => false

abbrev semScoped : Fin 0 → Bool
  | ⟨_, h⟩ => absurd h (Nat.not_lt_zero _)

abbrev dmaSemScoped : Fin 60 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | _ => false

abbrev sig : RefSig :=
  ofTc nBuf bufTy 0 60 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18_0 : Ref sig .tc := ⟨.hbm, 44, rfl⟩
abbrev main_v18_1 : Ref sig .tc := ⟨.hbm, 45, rfl⟩
abbrev main_v18_2 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_cst_2 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_c_3 : Ref sig .tc := ⟨.hbm, 56, rfl⟩
abbrev main_v26 : Ref sig .tc := ⟨.hbm, 57, rfl⟩
abbrev main_v27 : Ref sig .tc := ⟨.hbm, 58, rfl⟩
abbrev main_c_4 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_cst_5 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40_0 : Ref sig .tc := ⟨.hbm, 73, rfl⟩
abbrev main_v40_1 : Ref sig .tc := ⟨.hbm, 74, rfl⟩
abbrev main_v40_2 : Ref sig .tc := ⟨.hbm, 75, rfl⟩
abbrev main_cst_6 : Ref sig .tc := ⟨.hbm, 76, rfl⟩
abbrev main_v41 : Ref sig .tc := ⟨.hbm, 77, rfl⟩
abbrev main_v42 : Ref sig .tc := ⟨.hbm, 78, rfl⟩
abbrev main_cst_7 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_c_8 : Ref sig .tc := ⟨.hbm, 85, rfl⟩
abbrev main_v48 : Ref sig .tc := ⟨.hbm, 86, rfl⟩
abbrev main_v49 : Ref sig .tc := ⟨.hbm, 87, rfl⟩
abbrev main_c_9 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_cst_10 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62_0 : Ref sig .tc := ⟨.hbm, 102, rfl⟩
abbrev main_v62_1 : Ref sig .tc := ⟨.hbm, 103, rfl⟩
abbrev main_v62_2 : Ref sig .tc := ⟨.hbm, 104, rfl⟩
abbrev main_cst_11 : Ref sig .tc := ⟨.hbm, 105, rfl⟩
abbrev main_v63 : Ref sig .tc := ⟨.hbm, 106, rfl⟩
abbrev main_v64 : Ref sig .tc := ⟨.hbm, 107, rfl⟩
abbrev main_cst_12 : Ref sig .tc := ⟨.hbm, 108, rfl⟩
abbrev main_v65 : Ref sig .tc := ⟨.hbm, 109, rfl⟩
abbrev main_v66 : Ref sig .tc := ⟨.hbm, 110, rfl⟩
abbrev main_v67 : Ref sig .tc := ⟨.hbm, 111, rfl⟩
abbrev main_v68 : Ref sig .tc := ⟨.hbm, 112, rfl⟩
abbrev main_v69 : Ref sig .tc := ⟨.hbm, 113, rfl⟩
abbrev main_cst_13 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg5_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg8_0 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg5_1 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg1_1 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg4_0 : Ref sig .tc := ⟨.vmem, 46, rfl⟩
abbrev cc4_stg5_0 : Ref sig .tc := ⟨.vmem, 47, rfl⟩
abbrev cc4_stg6_0 : Ref sig .tc := ⟨.vmem, 48, rfl⟩
abbrev cc4_stg6_1 : Ref sig .tc := ⟨.vmem, 49, rfl⟩
abbrev cc4_stg7_0 : Ref sig .tc := ⟨.vmem, 50, rfl⟩
abbrev cc4_stg8_0 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg4_0 : Ref sig .tc := ⟨.vmem, 57, rfl⟩
abbrev cc5_stg5_0 : Ref sig .tc := ⟨.vmem, 58, rfl⟩
abbrev cc5_stg5_1 : Ref sig .tc := ⟨.vmem, 59, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem5_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem8_0 : DmaSem sig := 31
abbrev cc3_sem0_0 : DmaSem sig := 32
abbrev cc3_sem0_1 : DmaSem sig := 33
abbrev cc3_sem1_0 : DmaSem sig := 34
abbrev cc3_sem2_0 : DmaSem sig := 35
abbrev cc3_sem3_0 : DmaSem sig := 36
abbrev cc3_sem4_0 : DmaSem sig := 37
abbrev cc3_sem5_0 : DmaSem sig := 38
abbrev cc3_sem5_1 : DmaSem sig := 39
abbrev cc4_sem0_0 : DmaSem sig := 40
abbrev cc4_sem0_1 : DmaSem sig := 41
abbrev cc4_sem1_0 : DmaSem sig := 42
abbrev cc4_sem1_1 : DmaSem sig := 43
abbrev cc4_sem2_0 : DmaSem sig := 44
abbrev cc4_sem3_0 : DmaSem sig := 45
abbrev cc4_sem4_0 : DmaSem sig := 46
abbrev cc4_sem5_0 : DmaSem sig := 47
abbrev cc4_sem6_0 : DmaSem sig := 48
abbrev cc4_sem6_1 : DmaSem sig := 49
abbrev cc4_sem7_0 : DmaSem sig := 50
abbrev cc4_sem8_0 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem4_0 : DmaSem sig := 57
abbrev cc5_sem5_0 : DmaSem sig := 58
abbrev cc5_sem5_1 : DmaSem sig := 59

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S64x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 2 → Memref sig .tc .vmem S5000x64 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev stage4_7 : Fin 1 → Memref sig .tc .vmem S1x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x64 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  shapeCasts_S5000x64_S5000x64 : S5000x64.ShapeCasts S5000x64
  bcast_S_S50000x64 : S_.BroadcastsInDim S50000x64 (![] : Fin 0 → Fin S50000x64.rank)
  bcast_S_S256x64 : S_.BroadcastsInDim S256x64 (![] : Fin 0 → Fin S256x64.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S256x64_S50000x1_S50000x64_1_0_0_1_wf : ScatterDims.WF S256x64 S50000x1 S50000x64 [1] [0] [0] 1
  dot_S256x64_S64x1_S256x1_1_0_0_1_n_n_wf : DotDims.WF S256x64 S64x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S50000x64.size a
  hwx0_6 : ∀ i : grid0.Coords, EltTy.bits .f32 = 32 ∨ (Rect.block (s := S50000x64) S5000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S50000x64.size a
  hwx2_6 : ∀ i : grid2.Coords, EltTy.bits .f32 = 32 ∨ (Rect.block (s := S50000x64) S5000x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x64.size a ≤ S1x64.size a
  hwx2_7 : ∀ i : grid2.Coords, EltTy.bits .f32 = 32 ∨ (Rect.block (s := S1x64) S1x64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x64.size a ≤ S1x64.size a
  hwx2_8 : ∀ i : grid2.Coords, EltTy.bits .f32 = 32 ∨ (Rect.block (s := S1x64) S1x64.size (cc2_transform_8 i) (hinb2_8 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S64x64.size a ≤ S64x64.size a
  hwx4_4 : ∀ i : grid4.Coords, EltTy.bits .f32 = 32 ∨ (Rect.block (s := S64x64) S64x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 false = 2
  hreads4_6 : ∀ i i' : grid4.Coords, (∀ a, reads4_6 a = true → i a = i' a) → cc4_transform_6 i = cc4_transform_6 i'
  hinb4_6 : ∀ (i : grid4.Coords) a, (cc4_transform_6 i a + 1) * S5000x64.size a ≤ S50000x64.size a
  hwx4_6 : ∀ i : grid4.Coords, EltTy.bits .f32 = 32 ∨ (Rect.block (s := S50000x64) S5000x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x64.size a ≤ S1x64.size a
  hwx4_7 : ∀ i : grid4.Coords, EltTy.bits .f32 = 32 ∨ (Rect.block (s := S1x64) S1x64.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x64.size a ≤ S1x64.size a
  hwx4_8 : ∀ i : grid4.Coords, EltTy.bits .f32 = 32 ∨ (Rect.block (s := S1x64) S1x64.size (cc4_transform_8 i) (hinb4_8 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18_0) S5000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v18_1) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18_2) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v18_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v24) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v25) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v35) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg11) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v40_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v40_1) S1x64.size cc2_transform_7 reads2_7 true true 1 stage2_7 sem2_7
    hrank2 hreads2_7 hinb2_7 nbuf2_7 (Memref.isWhole_whole _) hwx2_7 hstage2_7

abbrev win2_8 : Pipeline.Window sig grid2 :=
  Pipeline.Window.ofSpec (Memref.whole main_v40_2) S1x64.size cc2_transform_8 reads2_8 true true 1 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

abbrev win3_0 : Pipeline.Window sig grid3 :=
  Pipeline.Window.ofSpec (Memref.whole main_v40_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v42) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v38) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v47) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_arg15) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v58) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_arg17) S64x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v59) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v62_0) S5000x64.size cc4_transform_6 reads4_6 true false 2 stage4_6 sem4_6
    hrank4 hreads4_6 hinb4_6 nbuf4_6 (Memref.isWhole_whole _) hwx4_6 hstage4_6

abbrev win4_7 : Pipeline.Window sig grid4 :=
  Pipeline.Window.ofSpec (Memref.whole main_v62_1) S1x64.size cc4_transform_7 reads4_7 true true 1 stage4_7 sem4_7
    hrank4 hreads4_7 hinb4_7 nbuf4_7 (Memref.isWhole_whole _) hwx4_7 hstage4_7

abbrev win4_8 : Pipeline.Window sig grid4 :=
  Pipeline.Window.ofSpec (Memref.whole main_v62_2) S1x64.size cc4_transform_8 reads4_8 true true 1 stage4_8 sem4_8
    hrank4 hreads4_8 hinb4_8 nbuf4_8 (Memref.isWhole_whole _) hwx4_8 hstage4_8

abbrev win4 : Fin 9 → Pipeline.Window sig grid4 := fun | 0 => win4_0 | 1 => win4_1 | 2 => win4_2 | 3 => win4_3 | 4 => win4_4 | 5 => win4_5 | 6 => win4_6 | 7 => win4_7 | 8 => win4_8 | ⟨_ + 9, h⟩ => absurd h (Nat.not_lt.2 (Nat.le_add_left _ _))
abbrev spec4 : Fin 9 → Pipeline.WinSpec sig grid4.rank := fun w => (win4 w).toWinSpec

abbrev win5_0 : Pipeline.Window sig grid5 :=
  Pipeline.Window.ofSpec (Memref.whole main_v62_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v64) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v68) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v60) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v61) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v69) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S256x64 : Shape := ⟨2, ![256, 64]⟩
abbrev S50000x1 : Shape := ⟨2, ![50000, 1]⟩
abbrev S256x1 : Shape := ⟨2, ![256, 1]⟩
abbrev S1x1 : Shape := ⟨2, ![1, 1]⟩

abbrev nBuf : Space → Nat
  | .hbm => 260
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x64, .f32⟩
  | 4 => ⟨S64, .f32⟩
  | 5 => ⟨S64x64, .f32⟩
  | 6 => ⟨S64, .f32⟩
  | 7 => ⟨S64, .f32⟩
  | 8 => ⟨S64, .f32⟩
  | 9 => ⟨S64x64, .f32⟩
  | 10 => ⟨S64, .f32⟩
  | 11 => ⟨S64x64, .f32⟩
  | 12 => ⟨S64, .f32⟩
  | 13 => ⟨S64, .f32⟩
  | 14 => ⟨S64, .f32⟩
  | 15 => ⟨S64x64, .f32⟩
  | 16 => ⟨S64, .f32⟩
  | 17 => ⟨S64x64, .f32⟩
  | 18 => ⟨S64, .f32⟩
  | 19 => ⟨S64, .f32⟩
  | 20 => ⟨S64, .f32⟩
  | 21 => ⟨S64x1, .f32⟩
  | 22 => ⟨S1, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000x128, .f32⟩
  | 41 => ⟨S50000x64, .f32⟩
  | 42 => ⟨S1x64, .f32⟩
  | 43 => ⟨S50000x64, .f32⟩
  | 44 => ⟨S50000x64, .f32⟩
  | 45 => ⟨S_, .f32⟩
  | 46 => ⟨S50000x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S_, .f32⟩
  | 53 => ⟨S50000x64, .f32⟩
  | 54 => ⟨S50000x64, .f32⟩
  | 55 => ⟨S_, .f32⟩
  | 56 => ⟨S64, .f32⟩
  | 57 => ⟨S_, .f32⟩
  | 58 => ⟨S64, .f32⟩
  | 59 => ⟨S64, .f32⟩
  | 60 => ⟨S_, .i32⟩
  | 61 => ⟨S_, .f32⟩
  | 62 => ⟨S64, .f32⟩
  | 63 => ⟨S1x64, .f32⟩
  | 64 => ⟨S_, .f32⟩
  | 65 => ⟨S1x64, .f32⟩
  | 66 => ⟨S1x64, .f32⟩
  | 67 => ⟨S50000x64, .f32⟩
  | 68 => ⟨S50000x64, .f32⟩
  | 69 => ⟨S50000x64, .f32⟩
  | 70 => ⟨S_, .f32⟩
  | 71 => ⟨S_, .f32⟩
  | 72 => ⟨S_, .f32⟩
  | 73 => ⟨S_, .f32⟩
  | 74 => ⟨S64, .f32⟩
  | 75 => ⟨S64, .f32⟩
  | 76 => ⟨S64, .f32⟩
  | 77 => ⟨S_, .f32⟩
  | 78 => ⟨S_, .i1⟩
  | 79 => ⟨S_, .f32⟩
  | 80 => ⟨S_, .f32⟩
  | 81 => ⟨S64, .f32⟩
  | 82 => ⟨S64, .f32⟩
  | 83 => ⟨S1x64, .f32⟩
  | 84 => ⟨S50000x64, .f32⟩
  | 85 => ⟨S50000x64, .f32⟩
  | 86 => ⟨S_, .f32⟩
  | 87 => ⟨S64, .f32⟩
  | 88 => ⟨S64, .f32⟩
  | 89 => ⟨S64, .f32⟩
  | 90 => ⟨S1x64, .f32⟩
  | 91 => ⟨S50000x64, .f32⟩
  | 92 => ⟨S50000x64, .f32⟩
  | 93 => ⟨S1x64, .f32⟩
  | 94 => ⟨S50000x64, .f32⟩
  | 95 => ⟨S50000x64, .f32⟩
  | 96 => ⟨S1x64, .f32⟩
  | 97 => ⟨S50000x64, .f32⟩
  | 98 => ⟨S50000x64, .f32⟩
  | 99 => ⟨S_, .f32⟩
  | 100 => ⟨S50000x64, .f32⟩
  | 101 => ⟨S50000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S_, .f32⟩
  | 112 => ⟨S50000x64, .f32⟩
  | 113 => ⟨S800000x1, .i32⟩
  | 114 => ⟨S50000x64, .f32⟩
  | 115 => ⟨S50000x64, .f32⟩
  | 116 => ⟨S50000x64, .f32⟩
  | 117 => ⟨S1x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S50000x64, .f32⟩
  | 124 => ⟨S1x64, .f32⟩
  | 125 => ⟨S50000x64, .f32⟩
  | 126 => ⟨S50000x64, .f32⟩
  | 127 => ⟨S_, .f32⟩
  | _ => ⟨S50000x128, .f32⟩

abbrev hbmTy0_1 (i : Nat) : BufTy := match i % 128 with
  | 0 => ⟨S50000x64, .f32⟩
  | 1 => ⟨S50000x64, .f32⟩
  | 2 => ⟨S_, .f32⟩
  | 3 => ⟨S64, .f32⟩
  | 4 => ⟨S_, .f32⟩
  | 5 => ⟨S64, .f32⟩
  | 6 => ⟨S64, .f32⟩
  | 7 => ⟨S_, .i32⟩
  | 8 => ⟨S_, .f32⟩
  | 9 => ⟨S64, .f32⟩
  | 10 => ⟨S1x64, .f32⟩
  | 11 => ⟨S_, .f32⟩
  | 12 => ⟨S1x64, .f32⟩
  | 13 => ⟨S1x64, .f32⟩
  | 14 => ⟨S50000x64, .f32⟩
  | 15 => ⟨S50000x64, .f32⟩
  | 16 => ⟨S50000x64, .f32⟩
  | 17 => ⟨S_, .f32⟩
  | 18 => ⟨S_, .f32⟩
  | 19 => ⟨S_, .f32⟩
  | 20 => ⟨S_, .f32⟩
  | 21 => ⟨S64, .f32⟩
  | 22 => ⟨S64, .f32⟩
  | 23 => ⟨S64, .f32⟩
  | 24 => ⟨S_, .f32⟩
  | 25 => ⟨S_, .i1⟩
  | 26 => ⟨S_, .f32⟩
  | 27 => ⟨S_, .f32⟩
  | 28 => ⟨S64, .f32⟩
  | 29 => ⟨S64, .f32⟩
  | 30 => ⟨S1x64, .f32⟩
  | 31 => ⟨S50000x64, .f32⟩
  | 32 => ⟨S50000x64, .f32⟩
  | 33 => ⟨S_, .f32⟩
  | 34 => ⟨S64, .f32⟩
  | 35 => ⟨S64, .f32⟩
  | 36 => ⟨S64, .f32⟩
  | 37 => ⟨S1x64, .f32⟩
  | 38 => ⟨S50000x64, .f32⟩
  | 39 => ⟨S50000x64, .f32⟩
  | 40 => ⟨S1x64, .f32⟩
  | 41 => ⟨S50000x64, .f32⟩
  | 42 => ⟨S50000x64, .f32⟩
  | 43 => ⟨S1x64, .f32⟩
  | 44 => ⟨S50000x64, .f32⟩
  | 45 => ⟨S50000x64, .f32⟩
  | 46 => ⟨S_, .f32⟩
  | 47 => ⟨S50000x64, .f32⟩
  | 48 => ⟨S50000x64, .f32⟩
  | 49 => ⟨S_, .i32⟩
  | 50 => ⟨S800000, .i32⟩
  | 51 => ⟨S800000, .i1⟩
  | 52 => ⟨S_, .i32⟩
  | 53 => ⟨S800000, .i32⟩
  | 54 => ⟨S800000, .i32⟩
  | 55 => ⟨S800000, .i32⟩
  | 56 => ⟨S800000x1, .i32⟩
  | 57 => ⟨S800000x64, .f32⟩
  | 58 => ⟨S_, .f32⟩
  | 59 => ⟨S50000x64, .f32⟩
  | 60 => ⟨S800000x1, .i32⟩
  | 61 => ⟨S50000x64, .f32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S50000x64, .f32⟩
  | 71 => ⟨S1x64, .f32⟩
  | 72 => ⟨S50000x64, .f32⟩
  | 73 => ⟨S50000x64, .f32⟩
  | 74 => ⟨S_, .f32⟩
  | 75 => ⟨S50000x64, .f32⟩
  | 76 => ⟨S50000x64, .f32⟩
  | 77 => ⟨S_, .f32⟩
  | 78 => ⟨S64, .f32⟩
  | 79 => ⟨S_, .f32⟩
  | 80 => ⟨S64, .f32⟩
  | 81 => ⟨S64, .f32⟩
  | 82 => ⟨S_, .i32⟩
  | 83 => ⟨S_, .f32⟩
  | 84 => ⟨S64, .f32⟩
  | 85 => ⟨S1x64, .f32⟩
  | 86 => ⟨S_, .f32⟩
  | 87 => ⟨S1x64, .f32⟩
  | 88 => ⟨S1x64, .f32⟩
  | 89 => ⟨S50000x64, .f32⟩
  | 90 => ⟨S50000x64, .f32⟩
  | 91 => ⟨S50000x64, .f32⟩
  | 92 => ⟨S_, .f32⟩
  | 93 => ⟨S_, .f32⟩
  | 94 => ⟨S_, .f32⟩
  | 95 => ⟨S_, .f32⟩
  | 96 => ⟨S64, .f32⟩
  | 97 => ⟨S64, .f32⟩
  | 98 => ⟨S64, .f32⟩
  | 99 => ⟨S_, .f32⟩
  | 100 => ⟨S_, .i1⟩
  | 101 => ⟨S_, .f32⟩
  | 102 => ⟨S_, .f32⟩
  | 103 => ⟨S64, .f32⟩
  | 104 => ⟨S64, .f32⟩
  | 105 => ⟨S1x64, .f32⟩
  | 106 => ⟨S50000x64, .f32⟩
  | 107 => ⟨S50000x64, .f32⟩
  | 108 => ⟨S_, .f32⟩
  | 109 => ⟨S64, .f32⟩
  | 110 => ⟨S64, .f32⟩
  | 111 => ⟨S64, .f32⟩
  | 112 => ⟨S1x64, .f32⟩
  | 113 => ⟨S50000x64, .f32⟩
  | 114 => ⟨S50000x64, .f32⟩
  | 115 => ⟨S1x64, .f32⟩
  | 116 => ⟨S50000x64, .f32⟩
  | 117 => ⟨S50000x64, .f32⟩
  | 118 => ⟨S1x64, .f32⟩
  | 119 => ⟨S50000x64, .f32⟩
  | 120 => ⟨S50000x64, .f32⟩
  | 121 => ⟨S_, .f32⟩
  | 122 => ⟨S50000x64, .f32⟩
  | 123 => ⟨S50000x64, .f32⟩
  | 124 => ⟨S_, .f32⟩
  | 125 => ⟨S256x64, .f32⟩
  | 126 => ⟨S50000x1, .i32⟩
  | 127 => ⟨S256x64, .f32⟩
  | _ => ⟨S50000x128, .f32⟩

abbrev hbmTy0_2 (i : Nat) : BufTy := match i % 128 with
  | 0 => ⟨S256x1, .f32⟩
  | 1 => ⟨S1x1, .f32⟩
  | 2 => ⟨S256x1, .f32⟩
  | 3 => ⟨S256x1, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_call0_cst : Ref sig .tc := ⟨.hbm, 45, rfl⟩
abbrev main_call0_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_call1_cst : Ref sig .tc := ⟨.hbm, 52, rfl⟩
abbrev main_call1_v0 : Ref sig .tc := ⟨.hbm, 53, rfl⟩
abbrev main_v24 : Ref sig .tc := ⟨.hbm, 54, rfl⟩
abbrev main_cst_1 : Ref sig .tc := ⟨.hbm, 55, rfl⟩
abbrev main_v25 : Ref sig .tc := ⟨.hbm, 56, rfl⟩
abbrev main_cst_2 : Ref sig .tc := ⟨.hbm, 57, rfl⟩
abbrev main_v26 : Ref sig .tc := ⟨.hbm, 58, rfl⟩
abbrev main_v27 : Ref sig .tc := ⟨.hbm, 59, rfl⟩
abbrev main_c_3 : Ref sig .tc := ⟨.hbm, 60, rfl⟩
abbrev main_call2_cst : Ref sig .tc := ⟨.hbm, 61, rfl⟩
abbrev main_call2_v0 : Ref sig .tc := ⟨.hbm, 62, rfl⟩
abbrev main_call2_v1 : Ref sig .tc := ⟨.hbm, 63, rfl⟩
abbrev main_call2_cst_0 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_call2_v5 : Ref sig .tc := ⟨.hbm, 68, rfl⟩
abbrev main_call2_v6 : Ref sig .tc := ⟨.hbm, 69, rfl⟩
abbrev main_call2_v7 : Ref sig .tc := ⟨.hbm, 70, rfl⟩
abbrev main_call2_cst_1 : Ref sig .tc := ⟨.hbm, 71, rfl⟩
abbrev main_call2_v8 : Ref sig .tc := ⟨.hbm, 72, rfl⟩
abbrev main_call2_cst_2 : Ref sig .tc := ⟨.hbm, 73, rfl⟩
abbrev main_call2_v9 : Ref sig .tc := ⟨.hbm, 74, rfl⟩
abbrev main_call2_v10 : Ref sig .tc := ⟨.hbm, 75, rfl⟩
abbrev main_call2_v11 : Ref sig .tc := ⟨.hbm, 76, rfl⟩
abbrev main_call2_cst_3 : Ref sig .tc := ⟨.hbm, 77, rfl⟩
abbrev main_call2_v12 : Ref sig .tc := ⟨.hbm, 78, rfl⟩
abbrev main_call2_cst_4 : Ref sig .tc := ⟨.hbm, 79, rfl⟩
abbrev main_call2_call0_v0 : Ref sig .tc := ⟨.hbm, 80, rfl⟩
abbrev main_call2_call0_v1 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_cst_4 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_v41 : Ref sig .tc := ⟨.hbm, 96, rfl⟩
abbrev main_v42 : Ref sig .tc := ⟨.hbm, 97, rfl⟩
abbrev main_v43 : Ref sig .tc := ⟨.hbm, 98, rfl⟩
abbrev main_call3_cst : Ref sig .tc := ⟨.hbm, 99, rfl⟩
abbrev main_call3_v0 : Ref sig .tc := ⟨.hbm, 100, rfl⟩
abbrev main_v44 : Ref sig .tc := ⟨.hbm, 101, rfl⟩
abbrev main_c_5 : Ref sig .tc := ⟨.hbm, 102, rfl⟩
abbrev main_v45 : Ref sig .tc := ⟨.hbm, 103, rfl⟩
abbrev main_v46 : Ref sig .tc := ⟨.hbm, 104, rfl⟩
abbrev main_c_6 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_cst_7 : Ref sig .tc := ⟨.hbm, 111, rfl⟩
abbrev main_v52 : Ref sig .tc := ⟨.hbm, 112, rfl⟩
abbrev main_v53 : Ref sig .tc := ⟨.hbm, 113, rfl⟩
abbrev main_v54 : Ref sig .tc := ⟨.hbm, 114, rfl⟩
abbrev main_v55 : Ref sig .tc := ⟨.hbm, 115, rfl⟩
abbrev main_v56 : Ref sig .tc := ⟨.hbm, 116, rfl⟩
abbrev main_v57 : Ref sig .tc := ⟨.hbm, 117, rfl⟩
abbrev main_v58 : Ref sig .tc := ⟨.hbm, 118, rfl⟩
abbrev main_v59 : Ref sig .tc := ⟨.hbm, 119, rfl⟩
abbrev main_call4_cst : Ref sig .tc := ⟨.hbm, 120, rfl⟩
abbrev main_call4_v0 : Ref sig .tc := ⟨.hbm, 121, rfl⟩
abbrev main_v60 : Ref sig .tc := ⟨.hbm, 122, rfl⟩
abbrev main_v61 : Ref sig .tc := ⟨.hbm, 123, rfl⟩
abbrev main_v62 : Ref sig .tc := ⟨.hbm, 124, rfl⟩
abbrev main_v63 : Ref sig .tc := ⟨.hbm, 125, rfl⟩
abbrev main_v64 : Ref sig .tc := ⟨.hbm, 126, rfl⟩
abbrev main_call5_cst : Ref sig .tc := ⟨.hbm, 127, rfl⟩
abbrev main_call5_v0 : Ref sig .tc := ⟨.hbm, 128, rfl⟩
abbrev main_v65 : Ref sig .tc := ⟨.hbm, 129, rfl⟩
abbrev main_cst_8 : Ref sig .tc := ⟨.hbm, 130, rfl⟩
abbrev main_v66 : Ref sig .tc := ⟨.hbm, 131, rfl⟩
abbrev main_cst_9 : Ref sig .tc := ⟨.hbm, 132, rfl⟩
abbrev main_v67 : Ref sig .tc := ⟨.hbm, 133, rfl⟩
abbrev main_v68 : Ref sig .tc := ⟨.hbm, 134, rfl⟩
abbrev main_c_10 : Ref sig .tc := ⟨.hbm, 135, rfl⟩
abbrev main_call6_cst : Ref sig .tc := ⟨.hbm, 136, rfl⟩
abbrev main_call6_v0 : Ref sig .tc := ⟨.hbm, 137, rfl⟩
abbrev main_call6_v1 : Ref sig .tc := ⟨.hbm, 138, rfl⟩
abbrev main_call6_cst_0 : Ref sig .tc := ⟨.hbm, 139, rfl⟩
abbrev main_call6_v2 : Ref sig .tc := ⟨.hbm, 140, rfl⟩
abbrev main_call6_v3 : Ref sig .tc := ⟨.hbm, 141, rfl⟩
abbrev main_call6_v4 : Ref sig .tc := ⟨.hbm, 142, rfl⟩
abbrev main_call6_v5 : Ref sig .tc := ⟨.hbm, 143, rfl⟩
abbrev main_call6_v6 : Ref sig .tc := ⟨.hbm, 144, rfl⟩
abbrev main_call6_v7 : Ref sig .tc := ⟨.hbm, 145, rfl⟩
abbrev main_call6_cst_1 : Ref sig .tc := ⟨.hbm, 146, rfl⟩
abbrev main_call6_v8 : Ref sig .tc := ⟨.hbm, 147, rfl⟩
abbrev main_call6_cst_2 : Ref sig .tc := ⟨.hbm, 148, rfl⟩
abbrev main_call6_v9 : Ref sig .tc := ⟨.hbm, 149, rfl⟩
abbrev main_call6_v10 : Ref sig .tc := ⟨.hbm, 150, rfl⟩
abbrev main_call6_v11 : Ref sig .tc := ⟨.hbm, 151, rfl⟩
abbrev main_call6_cst_3 : Ref sig .tc := ⟨.hbm, 152, rfl⟩
abbrev main_call6_v12 : Ref sig .tc := ⟨.hbm, 153, rfl⟩
abbrev main_call6_cst_4 : Ref sig .tc := ⟨.hbm, 154, rfl⟩
abbrev main_call6_call0_v0 : Ref sig .tc := ⟨.hbm, 155, rfl⟩
abbrev main_call6_call0_v1 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_cst_11 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_v77 : Ref sig .tc := ⟨.hbm, 166, rfl⟩
abbrev main_v78 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_call7_cst : Ref sig .tc := ⟨.hbm, 174, rfl⟩
abbrev main_call7_v0 : Ref sig .tc := ⟨.hbm, 175, rfl⟩
abbrev main_v85 : Ref sig .tc := ⟨.hbm, 176, rfl⟩
abbrev main_c_12 : Ref sig .tc := ⟨.hbm, 177, rfl⟩
abbrev main_v86 : Ref sig .tc := ⟨.hbm, 178, rfl⟩
abbrev main_v87 : Ref sig .tc := ⟨.hbm, 179, rfl⟩
abbrev main_c_13 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_cst_14 : Ref sig .tc := ⟨.hbm, 186, rfl⟩
abbrev main_v93 : Ref sig .tc := ⟨.hbm, 187, rfl⟩
abbrev main_v94 : Ref sig .tc := ⟨.hbm, 188, rfl⟩
abbrev main_v95 : Ref sig .tc := ⟨.hbm, 189, rfl⟩
abbrev main_v96 : Ref sig .tc := ⟨.hbm, 190, rfl⟩
abbrev main_v97 : Ref sig .tc := ⟨.hbm, 191, rfl⟩
abbrev main_v98 : Ref sig .tc := ⟨.hbm, 192, rfl⟩
abbrev main_v99 : Ref sig .tc := ⟨.hbm, 193, rfl⟩
abbrev main_v100 : Ref sig .tc := ⟨.hbm, 194, rfl⟩
abbrev main_call8_cst : Ref sig .tc := ⟨.hbm, 195, rfl⟩
abbrev main_call8_v0 : Ref sig .tc := ⟨.hbm, 196, rfl⟩
abbrev main_v101 : Ref sig .tc := ⟨.hbm, 197, rfl⟩
abbrev main_v102 : Ref sig .tc := ⟨.hbm, 198, rfl⟩
abbrev main_v103 : Ref sig .tc := ⟨.hbm, 199, rfl⟩
abbrev main_v104 : Ref sig .tc := ⟨.hbm, 200, rfl⟩
abbrev main_v105 : Ref sig .tc := ⟨.hbm, 201, rfl⟩
abbrev main_call9_cst : Ref sig .tc := ⟨.hbm, 202, rfl⟩
abbrev main_call9_v0 : Ref sig .tc := ⟨.hbm, 203, rfl⟩
abbrev main_v106 : Ref sig .tc := ⟨.hbm, 204, rfl⟩
abbrev main_cst_15 : Ref sig .tc := ⟨.hbm, 205, rfl⟩
abbrev main_v107 : Ref sig .tc := ⟨.hbm, 206, rfl⟩
abbrev main_cst_16 : Ref sig .tc := ⟨.hbm, 207, rfl⟩
abbrev main_v108 : Ref sig .tc := ⟨.hbm, 208, rfl⟩
abbrev main_v109 : Ref sig .tc := ⟨.hbm, 209, rfl⟩
abbrev main_c_17 : Ref sig .tc := ⟨.hbm, 210, rfl⟩
abbrev main_call10_cst : Ref sig .tc := ⟨.hbm, 211, rfl⟩
abbrev main_call10_v0 : Ref sig .tc := ⟨.hbm, 212, rfl⟩
abbrev main_call10_v1 : Ref sig .tc := ⟨.hbm, 213, rfl⟩
abbrev main_call10_cst_0 : Ref sig .tc := ⟨.hbm, 214, rfl⟩
abbrev main_call10_v2 : Ref sig .tc := ⟨.hbm, 215, rfl⟩
abbrev main_call10_v3 : Ref sig .tc := ⟨.hbm, 216, rfl⟩
abbrev main_call10_v4 : Ref sig .tc := ⟨.hbm, 217, rfl⟩
abbrev main_call10_v5 : Ref sig .tc := ⟨.hbm, 218, rfl⟩
abbrev main_call10_v6 : Ref sig .tc := ⟨.hbm, 219, rfl⟩
abbrev main_call10_v7 : Ref sig .tc := ⟨.hbm, 220, rfl⟩
abbrev main_call10_cst_1 : Ref sig .tc := ⟨.hbm, 221, rfl⟩
abbrev main_call10_v8 : Ref sig .tc := ⟨.hbm, 222, rfl⟩
abbrev main_call10_cst_2 : Ref sig .tc := ⟨.hbm, 223, rfl⟩
abbrev main_call10_v9 : Ref sig .tc := ⟨.hbm, 224, rfl⟩
abbrev main_call10_v10 : Ref sig .tc := ⟨.hbm, 225, rfl⟩
abbrev main_call10_v11 : Ref sig .tc := ⟨.hbm, 226, rfl⟩
abbrev main_call10_cst_3 : Ref sig .tc := ⟨.hbm, 227, rfl⟩
abbrev main_call10_v12 : Ref sig .tc := ⟨.hbm, 228, rfl⟩
abbrev main_call10_cst_4 : Ref sig .tc := ⟨.hbm, 229, rfl⟩
abbrev main_call10_call0_v0 : Ref sig .tc := ⟨.hbm, 230, rfl⟩
abbrev main_call10_call0_v1 : Ref sig .tc := ⟨.hbm, 231, rfl⟩
abbrev main_v110 : Ref sig .tc := ⟨.hbm, 232, rfl⟩
abbrev main_v111 : Ref sig .tc := ⟨.hbm, 233, rfl⟩
abbrev main_v112 : Ref sig .tc := ⟨.hbm, 234, rfl⟩
abbrev main_v113 : Ref sig .tc := ⟨.hbm, 235, rfl⟩
abbrev main_cst_18 : Ref sig .tc := ⟨.hbm, 236, rfl⟩
abbrev main_v114 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_v118 : Ref sig .tc := ⟨.hbm, 241, rfl⟩
abbrev main_v119 : Ref sig .tc := ⟨.hbm, 242, rfl⟩
abbrev main_v120 : Ref sig .tc := ⟨.hbm, 243, rfl⟩
abbrev main_v121 : Ref sig .tc := ⟨.hbm, 244, rfl⟩
abbrev main_v122 : Ref sig .tc := ⟨.hbm, 245, rfl⟩
abbrev main_v123 : Ref sig .tc := ⟨.hbm, 246, rfl⟩
abbrev main_v124 : Ref sig .tc := ⟨.hbm, 247, rfl⟩
abbrev main_v125 : Ref sig .tc := ⟨.hbm, 248, rfl⟩
abbrev main_call11_cst : Ref sig .tc := ⟨.hbm, 249, rfl⟩
abbrev main_call11_v0 : Ref sig .tc := ⟨.hbm, 250, rfl⟩
abbrev main_v126 : Ref sig .tc := ⟨.hbm, 251, rfl⟩
abbrev main_cst_19 : Ref sig .tc := ⟨.hbm, 252, rfl⟩
abbrev main_v127 : Ref sig .tc := ⟨.hbm, 253, rfl⟩
abbrev main_v128 : Ref sig .tc := ⟨.hbm, 254, rfl⟩
abbrev main_v129 : Ref sig .tc := ⟨.hbm, 255, rfl⟩
abbrev main_v130 : Ref sig .tc := ⟨.hbm, 256, rfl⟩
abbrev main_v131 : Ref sig .tc := ⟨.hbm, 257, rfl⟩
abbrev main_v132 : Ref sig .tc := ⟨.hbm, 258, rfl⟩
abbrev main_v133 : Ref sig .tc := ⟨.hbm, 259, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S256x64 : S_.BroadcastsInDim S256x64 (![] : Fin 0 → Fin S256x64.rank)
  bcast_S50000_S50000x1_0 : S50000.BroadcastsInDim S50000x1 (![0] : Fin 1 → Fin S50000x1.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S256x64_S50000x1_S50000x64_1_0_0_1_wf : ScatterDims.WF S256x64 S50000x1 S50000x64 [1] [0] [0] 1
  dot_S256x64_S64x1_S256x1_1_0_0_1_n_n_wf : DotDims.WF S256x64 S64x1 S256x1 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S256x64_S50000x1_S50000x64_1_0_0_1 : ScatterDims S256x64 S50000x1 S50000x64 where
  updateWindowDims := [1]
  insertedWindowDims := [0]
  scatterDimsToOperandDims := [0]
  indexVectorDim := 1
  wf := scatter_S256x64_S50000x1_S50000x64_1_0_0_1_wf
def dot_S256x64_S64x1_S256x1_1_0_0_1_n_n : DotDims S256x64 S64x1 S256x1 where
  lhsContracting := [1]
  rhsContracting := [0]
  lhsNonContracting := [0]
  rhsNonContracting := [1]
  lhsBatch := []
  rhsBatch := []
  wf := dot_S256x64_S64x1_S256x1_1_0_0_1_n_n_wf

class Facts : Prop extends Facts₀ where

variable [Facts]
-- ==== Proof.KernelRun.lean ====
import proofs.«173864_j70188355551324_1_alg».proof.Proof.Gen.KernelIdeal.Frame

/-! # The idealized kernel program's run, its result kept

The frame of the kernel program says that every execution of @main terminates and leaves the 23 argument arrays
as launched. The same run also determines the result buffer: at the end every unscoped buffer of core `c` holds
the last boundary's contents `Gen.W13 m ρ c`, the fold of the 7 host stretches and the 6 regions' write-backs over
the launch memory. This module states the run with that one more conjunct — the result buffer `%76` at
`Gen.W13 m ρ c` — at any float model `F`. -/

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of @main on the TensorCores terminates, nothing
    faulting, and in every final state core `c`'s result buffer holds `Gen.W13 m ρ c` at it and the 23 argument
    arrays are as launched: the launch over the 13 segments, the last thread state read against the final state, the
    result buffer being one of the unscoped buffers that state holds at `Gen.W13`. -/
theorem run_W13 : θ_run defs (onTc (τ := τ) (main (F := F))) ⟨m, fun _ => 0, ρ⟩ (fun r => ∀ c : Dev nD,
      r.2.mem ((c.tc : Thread nD τ).loc main_v76) = W13 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m ρ c b)
    (hfin := fun c s' => by
      iintro ⟨⟨Hh, -⟩, HSI⟩
      unfold StableHlo.held
      imodintro
      iapply (pointsTo_read_all (Pipeline.ucRefs τ sig) (fun b => (((c : Thread nD τ)).1, b)) (W13 m ρ c) s')
      isplitl [Hh] <;> iassumption)
    (hQ := fun s h c =>
      ⟨h c _ (mem_uc main_v76 (by decide)),
       (h c _ (mem_uc main_arg0 (by decide))).trans (W13_main_arg0 m ρ c),
       (h c _ (mem_uc main_arg1 (by decide))).trans (W13_main_arg1 m ρ c),
       (h c _ (mem_uc main_arg2 (by decide))).trans (W13_main_arg2 m ρ c),
       (h c _ (mem_uc main_arg3 (by decide))).trans (W13_main_arg3 m ρ c),
       (h c _ (mem_uc main_arg4 (by decide))).trans (W13_main_arg4 m ρ c),
       (h c _ (mem_uc main_arg5 (by decide))).trans (W13_main_arg5 m ρ c),
       (h c _ (mem_uc main_arg6 (by decide))).trans (W13_main_arg6 m ρ c),
       (h c _ (mem_uc main_arg7 (by decide))).trans (W13_main_arg7 m ρ c),
       (h c _ (mem_uc main_arg8 (by decide))).trans (W13_main_arg8 m ρ c),
       (h c _ (mem_uc main_arg9 (by decide))).trans (W13_main_arg9 m ρ c),
       (h c _ (mem_uc main_arg10 (by decide))).trans (W13_main_arg10 m ρ c),
       (h c _ (mem_uc main_arg11 (by decide))).trans (W13_main_arg11 m ρ c),
       (h c _ (mem_uc main_arg12 (by decide))).trans (W13_main_arg12 m ρ c),
       (h c _ (mem_uc main_arg13 (by decide))).trans (W13_main_arg13 m ρ c),
       (h c _ (mem_uc main_arg14 (by decide))).trans (W13_main_arg14 m ρ c),
       (h c _ (mem_uc main_arg15 (by decide))).trans (W13_main_arg15 m ρ c),
       (h c _ (mem_uc main_arg16 (by decide))).trans (W13_main_arg16 m ρ c),
       (h c _ (mem_uc main_arg17 (by decide))).trans (W13_main_arg17 m ρ c),
       (h c _ (mem_uc main_arg18 (by decide))).trans (W13_main_arg18 m ρ c),
       (h c _ (mem_uc main_arg19 (by decide))).trans (W13_main_arg19 m ρ c),
       (h c _ (mem_uc main_arg20 (by decide))).trans (W13_main_arg20 m ρ c),
       (h c _ (mem_uc main_arg21 (by decide))).trans (W13_main_arg21 m ρ c),
       (h c _ (mem_uc main_arg22 (by decide))).trans (W13_main_arg22 m ρ c)⟩)

end Cert.KernelIdeal.RunValue

end
-- ==== Proof.RefOps.lean ====
/- The printed reference program's operation lines copied into list literals: for each printed window of @main the list of its
   operations in order, a call's line replaced by the callee's operation lines over the call's operands and buffer record (the
   unfolding the program's own text describes), and the list of the buffers those operations write. No lemma and no proof is here. -/
import proofs.«173864_j70188355551324_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The operations of the printed window main_part0, in order (87 of them, the calls unfolded). -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.binary main_arg0 main_v13 main_v14 (addf : (⟨S50000x128, .f32⟩ : BufTy).Contents (Elt F) → (⟨S50000x128, .f32⟩ : BufTy).Contents (Elt F) → (⟨S50000x128, .f32⟩ : BufTy).Contents (Elt F)),
    StableHlo.binary main_v14 main_arg3 main_v15 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg4 main_v16 (broadcastInDim S1x64 ![1] bcast_S64_S1x64_1 : (⟨S64, .f32⟩ : BufTy).Contents (Elt F) → (⟨S1x64, .f32⟩ : BufTy).Contents (Elt F)),
    StableHlo.unary main_v16 main_v17 (broadcastInDim S50000x64 ![0, 1] bcast_S1x64_S50000x64_0_1 : (⟨S1x64, .f32⟩ : BufTy).Contents (Elt F) → (⟨S50000x64, .f32⟩ : BufTy).Contents (Elt F)),
    StableHlo.binary main_v15 main_v17 main_v18 (addf : (⟨S50000x64, .f32⟩ : BufTy).Contents (Elt F) → (⟨S50000x64, .f32⟩ : BufTy).Contents (Elt F) → (⟨S50000x64, .f32⟩ : BufTy).Contents (Elt F)),
    StableHlo.TRef.nullary main_call0.cst (constant S_ .f32 0x00000000#32),
    StableHlo.TRef.unary main_call0.cst main_call0.v0 (broadcastInDim S50000x64 ![] bcast_S_S50000x64),
    StableHlo.TRef.binary (.of main_v18) main_call0.v0 main_call0.v1 maximumf,
    StableHlo.binary main_v19 main_arg5 main_v20 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg6 main_v21 (broadcastInDim S1x64 ![1] bcast_S64_S1x64_1 : (⟨S64, .f32⟩ : BufTy).Contents (Elt F) → (⟨S1x64, .f32⟩ : BufTy).Contents (Elt F)),
    StableHlo.unary main_v21 main_v22 (broadcastInDim S50000x64 ![0, 1] bcast_S1x64_S50000x64_0_1 : (⟨S1x64, .f32⟩ : BufTy).Contents (Elt F) → (⟨S50000x64, .f32⟩ : BufTy).Contents (Elt F)),
    StableHlo.binary main_v20 main_v22 main_v23 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v23) main_call1.v0 main_call1.v1 maximumf,
    StableHlo.nullary main_cst_1 (constant S_ .f32 0x00000000#32),
    StableHlo.binary main_v24 main_cst_1 main_v25 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_2 (constant S_ .f32 0x47435000#32),
    StableHlo.unary main_cst_2 main_v26 (broadcastInDim S64 ![] bcast_S_S64 : (⟨S_, .f32⟩ : BufTy).Contents (Elt F) → (⟨S64, .f32⟩ : BufTy).Contents (Elt F)),
    StableHlo.binary main_v25 main_v26 main_v27 (Host.divf : (⟨S64, .f32⟩ : BufTy).Contents (Elt F) → (⟨S64, .f32⟩ : BufTy).Contents (Elt F) → (⟨S64, .f32⟩ : BufTy).Contents (Elt F)),
    StableHlo.nullary main_c_3 (constantI S_ 32 0#32),
    StableHlo.TRef.nullary main_call2.cst (constant S_ .f32 0x00000000#32),
    StableHlo.TRef.binary (.of main_v24) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v24) main_call2.v4 main_call2.v5 subf,
    StableHlo.TRef.binary main_call2.v5 main_call2.v5 main_call2.v6 mulf,
    StableHlo.TRef.unary (.of main_c_3) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v27 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S50000x64 ![0, 1] bcast_S1x64_S50000x64_0_1 : (⟨S1x64, .f32⟩ : BufTy).Contents (Elt F) → (⟨S50000x64, .f32⟩ : BufTy).Contents (Elt F)),
    StableHlo.binary main_v24 main_v30 main_v31 (subf : (⟨S50000x64, .f32⟩ : BufTy).Contents (Elt F) → (⟨S50000x64, .f32⟩ : BufTy).Contents (Elt F) → (⟨S50000x64, .f32⟩ : BufTy).Contents (Elt F)),
    StableHlo.nullary main_cst_4 (constant S_ .f32 0x3727C5AC#32),
    StableHlo.unary main_cst_4 main_v32 (broadcastInDim S64 ![] bcast_S_S64 : (⟨S_, .f32⟩ : BufTy).Contents (Elt F) → (⟨S64, .f32⟩ : BufTy).Contents (Elt F)),
    StableHlo.binary main_v28 main_v32 main_v33 (addf : (⟨S64, .f32⟩ : BufTy).Contents (Elt F) → (⟨S64, .f32⟩ : BufTy).Contents (Elt F) → (⟨S64, .f32⟩ : BufTy).Contents (Elt F)),
    StableHlo.unary main_v33 main_v34 (Host.rsqrt : (⟨S64, .f32⟩ : BufTy).Contents (Elt F) → (⟨S64, .f32⟩ : BufTy).Contents (Elt F)),
    StableHlo.unary main_v34 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S50000x64 ![0, 1] bcast_S1x64_S50000x64_0_1 : (⟨S1x64, .f32⟩ : BufTy).Contents (Elt F) → (⟨S50000x64, .f32⟩ : BufTy).Contents (Elt F)),
    StableHlo.binary main_v31 main_v36 main_v37 (mulf : (⟨S50000x64, .f32⟩ : BufTy).Contents (Elt F) → (⟨S50000x64, .f32⟩ : BufTy).Contents (Elt F) → (⟨S50000x64, .f32⟩ : BufTy).Contents (Elt F)),
    StableHlo.unary main_arg7 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S50000x64 ![0, 1] bcast_S1x64_S50000x64_0_1 : (⟨S1x64, .f32⟩ : BufTy).Contents (Elt F) → (⟨S50000x64, .f32⟩ : BufTy).Contents (Elt F)),
    StableHlo.binary main_v37 main_v39 main_v40 (mulf : (⟨S50000x64, .f32⟩ : BufTy).Contents (Elt F) → (⟨S50000x64, .f32⟩ : BufTy).Contents (Elt F) → (⟨S50000x64, .f32⟩ : BufTy).Contents (Elt F)),
    StableHlo.unary main_arg8 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S50000x64 ![0, 1] bcast_S1x64_S50000x64_0_1 : (⟨S1x64, .f32⟩ : BufTy).Contents (Elt F) → (⟨S50000x64, .f32⟩ : BufTy).Contents (Elt F)),
    StableHlo.binary main_v40 main_v42 main_v43 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v43) main_call3.v0 main_call3.v1 maximumf,
    StableHlo.nullary main_c_5 (constantI S_ 32 0#32),
    StableHlo.unary main_c_5 main_v45 (broadcastInDim S800000 ![] bcast_S_S800000 : (⟨S_, .i32⟩ : BufTy).Contents (Elt F) → (⟨S800000, .i32⟩ : BufTy).Contents (Elt F)),
    StableHlo.binary main_v1 main_v45 main_v46 (cmpi .slt : (⟨S800000, .i32⟩ : BufTy).Contents (Elt F) → (⟨S800000, .i32⟩ : BufTy).Contents (Elt F) → (⟨S800000, .i1⟩ : BufTy).Contents (Elt F)),
    StableHlo.nullary main_c_6 (constantI S_ 32 50000#32),
    StableHlo.unary main_c_6 main_v47 (broadcastInDim S800000 ![] bcast_S_S800000 : (⟨S_, .i32⟩ : BufTy).Contents (Elt F) → (⟨S800000, .i32⟩ : BufTy).Contents (Elt F)),
    StableHlo.binary main_v1 main_v47 main_v48 (addi : (⟨S800000, .i32⟩ : BufTy).Contents (Elt F) → (⟨S800000, .i32⟩ : BufTy).Contents (Elt F) → (⟨S800000, .i32⟩ : BufTy).Contents (Elt F)),
    StableHlo.ternary main_v46 main_v48 main_v1 main_v49 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v49 main_v50 (broadcastInDim S800000x1 ![0] bcast_S800000_S800000x1_0 : (⟨S800000, .i32⟩ : BufTy).Contents (Elt F) → (⟨S800000x1, .i32⟩ : BufTy).Contents (Elt F)) ]

/-- The buffers those operations write, in order. -/
abbrev ops0_W : List (Ref sig .tc) :=
  [ main_v0, main_v1, main_v2, main_v3, main_c, main_v4, main_v5, main_c_0,
    main_v6, main_v7, main_v8, main_v9, main_v10, main_cst, main_v11, main_v12,
    main_v13, main_v14, main_v15, main_v16, main_v17, main_v18, main_call0_cst, main_call0_v0,
    main_v19, main_v20, main_v21, main_v22, main_v23, main_call1_cst, main_call1_v0, main_v24,
    main_cst_1, main_v25, main_cst_2, main_v26, main_v27, main_c_3, main_call2_cst, main_call2_v0,
    main_call2_v1, main_call2_cst_0, main_call2_v2, main_call2_v3, main_call2_v4, main_call2_v5, main_call2_v6, main_call2_v7,
    main_call2_cst_1, main_call2_v8, main_call2_cst_2, main_call2_v9, main_call2_v10, main_call2_v11, main_call2_cst_3, main_call2_v12,
    main_call2_cst_4, main_call2_call0_v0, main_call2_call0_v1, main_v28, main_v29, main_v30, main_v31, main_cst_4,
    main_v32, main_v33, main_v34, main_v35, main_v36, main_v37, main_v38, main_v39,
    main_v40, main_v41, main_v42, main_v43, main_call3_cst, main_call3_v0, main_v44, main_c_5,
    main_v45, main_v46, main_c_6, main_v47, main_v48, main_v49, main_v50 ]

/-- The operations of the printed window main_part1, in order (89 of them, the calls unfolded). -/
abbrev ops1 : List (HloOp τ sig (Elt F)) :=
  [ StableHlo.binary main_v44 main_v50 main_v51 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_7 (constant S_ .f32 0x00000000#32),
    StableHlo.unary main_cst_7 main_v52 (broadcastInDim S50000x64 ![] bcast_S_S50000x64 : (⟨S_, .f32⟩ : BufTy).Contents (Elt F) → (⟨S50000x64, .f32⟩ : BufTy).Contents (Elt F)),
    StableHlo.unary main_v3 main_v53 (broadcastInDim S800000x1 ![0] bcast_S800000_S800000x1_0 : (⟨S800000, .i32⟩ : BufTy).Contents (Elt F) → (⟨S800000x1, .i32⟩ : BufTy).Contents (Elt F)),
    StableHlo.ternary main_v52 main_v53 main_v51 main_v54 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v44 main_v54 main_v55 (addf : (⟨S50000x64, .f32⟩ : BufTy).Contents (Elt F) → (⟨S50000x64, .f32⟩ : BufTy).Contents (Elt F) → (⟨S50000x64, .f32⟩ : BufTy).Contents (Elt F)),
    StableHlo.binary main_v55 main_arg9 main_v56 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v57 (broadcastInDim S1x64 ![1] bcast_S64_S1x64_1 : (⟨S64, .f32⟩ : BufTy).Contents (Elt F) → (⟨S1x64, .f32⟩ : BufTy).Contents (Elt F)),
    StableHlo.unary main_v57 main_v58 (broadcastInDim S50000x64 ![0, 1] bcast_S1x64_S50000x64_0_1 : (⟨S1x64, .f32⟩ : BufTy).Contents (Elt F) → (⟨S50000x64, .f32⟩ : BufTy).Contents (Elt F)),
    StableHlo.binary main_v56 main_v58 main_v59 (addf : (⟨S50000x64, .f32⟩ : BufTy).Contents (Elt F) → (⟨S50000x64, .f32⟩ : BufTy).Contents (Elt F) → (⟨S50000x64, .f32⟩ : BufTy).Contents (Elt F)),
    StableHlo.TRef.nullary main_call4.cst (constant S_ .f32 0x00000000#32),
    StableHlo.TRef.unary main_call4.cst main_call4.v0 (broadcastInDim S50000x64 ![] bcast_S_S50000x64),
    StableHlo.TRef.binary (.of main_v59) main_call4.v0 main_call4.v1 maximumf,
    StableHlo.binary main_v60 main_arg11 main_v61 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg12 main_v62 (broadcastInDim S1x64 ![1] bcast_S64_S1x64_1 : (⟨S64, .f32⟩ : BufTy).Contents (Elt F) → (⟨S1x64, .f32⟩ : BufTy).Contents (Elt F)),
    StableHlo.unary main_v62 main_v63 (broadcastInDim S50000x64 ![0, 1] bcast_S1x64_S50000x64_0_1 : (⟨S1x64, .f32⟩ : BufTy).Contents (Elt F) → (⟨S50000x64, .f32⟩ : BufTy).Contents (Elt F)),
    StableHlo.binary main_v61 main_v63 main_v64 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v64) main_call5.v0 main_call5.v1 maximumf,
    StableHlo.nullary main_cst_8 (constant S_ .f32 0x00000000#32),
    StableHlo.binary main_v65 main_cst_8 main_v66 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_9 (constant S_ .f32 0x47435000#32),
    StableHlo.unary main_cst_9 main_v67 (broadcastInDim S64 ![] bcast_S_S64 : (⟨S_, .f32⟩ : BufTy).Contents (Elt F) → (⟨S64, .f32⟩ : BufTy).Contents (Elt F)),
    StableHlo.binary main_v66 main_v67 main_v68 (Host.divf : (⟨S64, .f32⟩ : BufTy).Contents (Elt F) → (⟨S64, .f32⟩ : BufTy).Contents (Elt F) → (⟨S64, .f32⟩ : BufTy).Contents (Elt F)),
    StableHlo.nullary main_c_10 (constantI S_ 32 0#32),
    StableHlo.TRef.nullary main_call6.cst (constant S_ .f32 0x00000000#32),
    StableHlo.TRef.binary (.of main_v65) main_call6.cst main_call6.v0 (fun x v => Host.reduceAdd x v reducesTo_S50000x64_S64_d0 h_S_),
    StableHlo.TRef.unary main_call6.v0 main_call6.v1 (broadcastInDim S1x64 ![1] bcast_S64_S1x64_1),
    StableHlo.TRef.nullary main_call6.cst_0 (constant S_ .f32 0x47435000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S50000x64 ![0, 1] bcast_S1x64_S50000x64_0_1),
    StableHlo.TRef.binary (.of main_v65) main_call6.v4 main_call6.v5 subf,
    StableHlo.TRef.binary main_call6.v5 main_call6.v5 main_call6.v6 mulf,
    StableHlo.TRef.unary (.of main_c_10) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v68 main_v70 (broadcastInDim S1x64 ![1] bcast_S64_S1x64_1 : (⟨S64, .f32⟩ : BufTy).Contents (Elt F) → (⟨S1x64, .f32⟩ : BufTy).Contents (Elt F)),
    StableHlo.unary main_v70 main_v71 (broadcastInDim S50000x64 ![0, 1] bcast_S1x64_S50000x64_0_1 : (⟨S1x64, .f32⟩ : BufTy).Contents (Elt F) → (⟨S50000x64, .f32⟩ : BufTy).Contents (Elt F)),
    StableHlo.binary main_v65 main_v71 main_v72 (subf : (⟨S50000x64, .f32⟩ : BufTy).Contents (Elt F) → (⟨S50000x64, .f32⟩ : BufTy).Contents (Elt F) → (⟨S50000x64, .f32⟩ : BufTy).Contents (Elt F)),
    StableHlo.nullary main_cst_11 (constant S_ .f32 0x3727C5AC#32),
    StableHlo.unary main_cst_11 main_v73 (broadcastInDim S64 ![] bcast_S_S64 : (⟨S_, .f32⟩ : BufTy).Contents (Elt F) → (⟨S64, .f32⟩ : BufTy).Contents (Elt F)),
    StableHlo.binary main_v69 main_v73 main_v74 (addf : (⟨S64, .f32⟩ : BufTy).Contents (Elt F) → (⟨S64, .f32⟩ : BufTy).Contents (Elt F) → (⟨S64, .f32⟩ : BufTy).Contents (Elt F)),
    StableHlo.unary main_v74 main_v75 (Host.rsqrt : (⟨S64, .f32⟩ : BufTy).Contents (Elt F) → (⟨S64, .f32⟩ : BufTy).Contents (Elt F)),
    StableHlo.unary main_v75 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S50000x64 ![0, 1] bcast_S1x64_S50000x64_0_1 : (⟨S1x64, .f32⟩ : BufTy).Contents (Elt F) → (⟨S50000x64, .f32⟩ : BufTy).Contents (Elt F)),
    StableHlo.binary main_v72 main_v77 main_v78 (mulf : (⟨S50000x64, .f32⟩ : BufTy).Contents (Elt F) → (⟨S50000x64, .f32⟩ : BufTy).Contents (Elt F) → (⟨S50000x64, .f32⟩ : BufTy).Contents (Elt F)),
    StableHlo.unary main_arg13 main_v79 (broadcastInDim S1x64 ![1] bcast_S64_S1x64_1 : (⟨S64, .f32⟩ : BufTy).Contents (Elt F) → (⟨S1x64, .f32⟩ : BufTy).Contents (Elt F)),
    StableHlo.unary main_v79 main_v80 (broadcastInDim S50000x64 ![0, 1] bcast_S1x64_S50000x64_0_1 : (⟨S1x64, .f32⟩ : BufTy).Contents (Elt F) → (⟨S50000x64, .f32⟩ : BufTy).Contents (Elt F)),
    StableHlo.binary main_v78 main_v80 main_v81 (mulf : (⟨S50000x64, .f32⟩ : BufTy).Contents (Elt F) → (⟨S50000x64, .f32⟩ : BufTy).Contents (Elt F) → (⟨S50000x64, .f32⟩ : BufTy).Contents (Elt F)),
    StableHlo.unary main_arg14 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S50000x64 ![0, 1] bcast_S1x64_S50000x64_0_1 : (⟨S1x64, .f32⟩ : BufTy).Contents (Elt F) → (⟨S50000x64, .f32⟩ : BufTy).Contents (Elt F)),
    StableHlo.binary main_v81 main_v83 main_v84 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (.of main_v84) main_call7.v0 main_call7.v1 maximumf,
    StableHlo.nullary main_c_12 (constantI S_ 32 0#32),
    StableHlo.unary main_c_12 main_v86 (broadcastInDim S800000 ![] bcast_S_S800000 : (⟨S_, .i32⟩ : BufTy).Contents (Elt F) → (⟨S800000, .i32⟩ : BufTy).Contents (Elt F)),
    StableHlo.binary main_v1 main_v86 main_v87 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v88 (broadcastInDim S800000 ![] bcast_S_S800000 : (⟨S_, .i32⟩ : BufTy).Contents (Elt F) → (⟨S800000, .i32⟩ : BufTy).Contents (Elt F)),
    StableHlo.binary main_v1 main_v88 main_v89 (addi : (⟨S800000, .i32⟩ : BufTy).Contents (Elt F) → (⟨S800000, .i32⟩ : BufTy).Contents (Elt F) → (⟨S800000, .i32⟩ : BufTy).Contents (Elt F)),
    StableHlo.ternary main_v87 main_v89 main_v1 main_v90 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v90 main_v91 (broadcastInDim S800000x1 ![0] bcast_S800000_S800000x1_0 : (⟨S800000, .i32⟩ : BufTy).Contents (Elt F) → (⟨S800000x1, .i32⟩ : BufTy).Contents (Elt F)),
    StableHlo.binary main_v85 main_v91 main_v92 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_14 (constant S_ .f32 0x00000000#32),
    StableHlo.unary main_cst_14 main_v93 (broadcastInDim S50000x64 ![] bcast_S_S50000x64 : (⟨S_, .f32⟩ : BufTy).Contents (Elt F) → (⟨S50000x64, .f32⟩ : BufTy).Contents (Elt F)),
    StableHlo.unary main_v3 main_v94 (broadcastInDim S800000x1 ![0] bcast_S800000_S800000x1_0 : (⟨S800000, .i32⟩ : BufTy).Contents (Elt F) → (⟨S800000x1, .i32⟩ : BufTy).Contents (Elt F)),
    StableHlo.ternary main_v93 main_v94 main_v92 main_v95 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v85 main_v95 main_v96 (addf : (⟨S50000x64, .f32⟩ : BufTy).Contents (Elt F) → (⟨S50000x64, .f32⟩ : BufTy).Contents (Elt F) → (⟨S50000x64, .f32⟩ : BufTy).Contents (Elt F)),
    StableHlo.binary main_v96 main_arg15 main_v97 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg16 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S50000x64 ![0, 1] bcast_S1x64_S50000x64_0_1 : (⟨S1x64, .f32⟩ : BufTy).Contents (Elt F) → (⟨S50000x64, .f32⟩ : BufTy).Contents (Elt F)),
    StableHlo.binary main_v97 main_v99 main_v100 (addf : (⟨S50000x64, .f32⟩ : BufTy).Contents (Elt F) → (⟨S50000x64, .f32⟩ : BufTy).Contents (Elt F) → (⟨S50000x64, .f32⟩ : BufTy).Contents (Elt F)),
    StableHlo.TRef.nullary main_call8.cst (constant S_ .f32 0x00000000#32),
    StableHlo.TRef.unary main_call8.cst main_call8.v0 (broadcastInDim S50000x64 ![] bcast_S_S50000x64),
    StableHlo.TRef.binary (.of main_v100) main_call8.v0 main_call8.v1 maximumf,
    StableHlo.binary main_v101 main_arg17 main_v102 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)) ]

/-- The buffers those operations write, in order. -/
abbrev ops1_W : List (Ref sig .tc) :=
  [ main_v51, main_cst_7, main_v52, main_v53, main_v54, main_v55, main_v56, main_v57,
    main_v58, main_v59, main_call4_cst, main_call4_v0, main_v60, main_v61, main_v62, main_v63,
    main_v64, main_call5_cst, main_call5_v0, main_v65, main_cst_8, main_v66, main_cst_9, main_v67,
    main_v68, main_c_10, main_call6_cst, main_call6_v0, main_call6_v1, main_call6_cst_0, main_call6_v2, main_call6_v3,
    main_call6_v4, main_call6_v5, main_call6_v6, main_call6_v7, main_call6_cst_1, main_call6_v8, main_call6_cst_2, main_call6_v9,
    main_call6_v10, main_call6_v11, main_call6_cst_3, main_call6_v12, main_call6_cst_4, main_call6_call0_v0, main_call6_call0_v1, main_v69,
    main_v70, main_v71, main_v72, main_cst_11, main_v73, main_v74, main_v75, main_v76,
    main_v77, main_v78, main_v79, main_v80, main_v81, main_v82, main_v83, main_v84,
    main_call7_cst, main_call7_v0, main_v85, main_c_12, main_v86, main_v87, main_c_13, main_v88,
    main_v89, main_v90, main_v91, main_v92, main_cst_14, main_v93, main_v94, main_v95,
    main_v96, main_v97, main_v98, main_v99, main_v100, main_call8_cst, main_call8_v0, main_v101,
    main_v102 ]

/-- The operations of the printed window main_part2, in order (61 of them, the calls unfolded). -/
abbrev ops2 : List (HloOp τ sig (Elt F)) :=
  [ StableHlo.unary main_arg18 main_v103 (broadcastInDim S1x64 ![1] bcast_S64_S1x64_1 : (⟨S64, .f32⟩ : BufTy).Contents (Elt F) → (⟨S1x64, .f32⟩ : BufTy).Contents (Elt F)),
    StableHlo.unary main_v103 main_v104 (broadcastInDim S50000x64 ![0, 1] bcast_S1x64_S50000x64_0_1 : (⟨S1x64, .f32⟩ : BufTy).Contents (Elt F) → (⟨S50000x64, .f32⟩ : BufTy).Contents (Elt F)),
    StableHlo.binary main_v102 main_v104 main_v105 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (.of main_v105) main_call9.v0 main_call9.v1 maximumf,
    StableHlo.nullary main_cst_15 (constant S_ .f32 0x00000000#32),
    StableHlo.binary main_v106 main_cst_15 main_v107 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_16 (constant S_ .f32 0x47435000#32),
    StableHlo.unary main_cst_16 main_v108 (broadcastInDim S64 ![] bcast_S_S64 : (⟨S_, .f32⟩ : BufTy).Contents (Elt F) → (⟨S64, .f32⟩ : BufTy).Contents (Elt F)),
    StableHlo.binary main_v107 main_v108 main_v109 (Host.divf : (⟨S64, .f32⟩ : BufTy).Contents (Elt F) → (⟨S64, .f32⟩ : BufTy).Contents (Elt F) → (⟨S64, .f32⟩ : BufTy).Contents (Elt F)),
    StableHlo.nullary main_c_17 (constantI S_ 32 0#32),
    StableHlo.TRef.nullary main_call10.cst (constant S_ .f32 0x00000000#32),
    StableHlo.TRef.binary (.of main_v106) main_call10.cst main_call10.v0 (fun x v => Host.reduceAdd x v reducesTo_S50000x64_S64_d0 h_S_),
    StableHlo.TRef.unary main_call10.v0 main_call10.v1 (broadcastInDim S1x64 ![1] bcast_S64_S1x64_1),
    StableHlo.TRef.nullary main_call10.cst_0 (constant S_ .f32 0x47435000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S50000x64 ![0, 1] bcast_S1x64_S50000x64_0_1),
    StableHlo.TRef.binary (.of main_v106) main_call10.v4 main_call10.v5 subf,
    StableHlo.TRef.binary main_call10.v5 main_call10.v5 main_call10.v6 mulf,
    StableHlo.TRef.unary (.of main_c_17) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v109 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S50000x64 ![0, 1] bcast_S1x64_S50000x64_0_1 : (⟨S1x64, .f32⟩ : BufTy).Contents (Elt F) → (⟨S50000x64, .f32⟩ : BufTy).Contents (Elt F)),
    StableHlo.binary main_v106 main_v112 main_v113 (subf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x3727C5AC#32),
    StableHlo.unary main_cst_18 main_v114 (broadcastInDim S64 ![] bcast_S_S64 : (⟨S_, .f32⟩ : BufTy).Contents (Elt F) → (⟨S64, .f32⟩ : BufTy).Contents (Elt F)),
    StableHlo.binary main_v110 main_v114 main_v115 (addf : (⟨S64, .f32⟩ : BufTy).Contents (Elt F) → (⟨S64, .f32⟩ : BufTy).Contents (Elt F) → (⟨S64, .f32⟩ : BufTy).Contents (Elt F)),
    StableHlo.unary main_v115 main_v116 (Host.rsqrt : (⟨S64, .f32⟩ : BufTy).Contents (Elt F) → (⟨S64, .f32⟩ : BufTy).Contents (Elt F)),
    StableHlo.unary main_v116 main_v117 (broadcastInDim S1x64 ![1] bcast_S64_S1x64_1 : (⟨S64, .f32⟩ : BufTy).Contents (Elt F) → (⟨S1x64, .f32⟩ : BufTy).Contents (Elt F)),
    StableHlo.unary main_v117 main_v118 (broadcastInDim S50000x64 ![0, 1] bcast_S1x64_S50000x64_0_1 : (⟨S1x64, .f32⟩ : BufTy).Contents (Elt F) → (⟨S50000x64, .f32⟩ : BufTy).Contents (Elt F)),
    StableHlo.binary main_v113 main_v118 main_v119 (mulf : (⟨S50000x64, .f32⟩ : BufTy).Contents (Elt F) → (⟨S50000x64, .f32⟩ : BufTy).Contents (Elt F) → (⟨S50000x64, .f32⟩ : BufTy).Contents (Elt F)),
    StableHlo.unary main_arg19 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S50000x64 ![0, 1] bcast_S1x64_S50000x64_0_1 : (⟨S1x64, .f32⟩ : BufTy).Contents (Elt F) → (⟨S50000x64, .f32⟩ : BufTy).Contents (Elt F)),
    StableHlo.binary main_v119 main_v121 main_v122 (mulf : (⟨S50000x64, .f32⟩ : BufTy).Contents (Elt F) → (⟨S50000x64, .f32⟩ : BufTy).Contents (Elt F) → (⟨S50000x64, .f32⟩ : BufTy).Contents (Elt F)),
    StableHlo.unary main_arg20 main_v123 (broadcastInDim S1x64 ![1] bcast_S64_S1x64_1 : (⟨S64, .f32⟩ : BufTy).Contents (Elt F) → (⟨S1x64, .f32⟩ : BufTy).Contents (Elt F)),
    StableHlo.unary main_v123 main_v124 (broadcastInDim S50000x64 ![0, 1] bcast_S1x64_S50000x64_0_1 : (⟨S1x64, .f32⟩ : BufTy).Contents (Elt F) → (⟨S50000x64, .f32⟩ : BufTy).Contents (Elt F)),
    StableHlo.binary main_v122 main_v124 main_v125 (addf : (⟨S50000x64, .f32⟩ : BufTy).Contents (Elt F) → (⟨S50000x64, .f32⟩ : BufTy).Contents (Elt F) → (⟨S50000x64, .f32⟩ : BufTy).Contents (Elt F)),
    StableHlo.TRef.nullary main_call11.cst (constant S_ .f32 0x00000000#32),
    StableHlo.TRef.unary main_call11.cst main_call11.v0 (broadcastInDim S50000x64 ![] bcast_S_S50000x64),
    StableHlo.TRef.binary (.of main_v125) main_call11.v0 main_call11.v1 maximumf,
    StableHlo.nullary main_cst_19 (constant S_ .f32 0x00000000#32),
    StableHlo.unary main_cst_19 main_v127 (broadcastInDim S256x64 ![] bcast_S_S256x64 : (⟨S_, .f32⟩ : BufTy).Contents (Elt F) → (⟨S256x64, .f32⟩ : BufTy).Contents (Elt F)),
    StableHlo.unary main_arg2 main_v128 (broadcastInDim S50000x1 ![0] bcast_S50000_S50000x1_0 : (⟨S50000, .i32⟩ : BufTy).Contents (Elt F) → (⟨S50000x1, .i32⟩ : BufTy).Contents (Elt F)),
    StableHlo.ternary main_v127 main_v128 main_v126 main_v129 ((fun x i u => Host.scatterAdd scatter_S256x64_S50000x1_S50000x64_1_0_0_1 x i u) : (⟨S256x64, .f32⟩ : BufTy).Contents (Elt F) → (⟨S50000x1, .i32⟩ : BufTy).Contents (Elt F) → (⟨S50000x64, .f32⟩ : BufTy).Contents (Elt F) → (⟨S256x64, .f32⟩ : BufTy).Contents (Elt F)),
    StableHlo.binary main_v129 main_arg21 main_v130 ((fun l r => Host.dotGeneral dot_S256x64_S64x1_S256x1_1_0_0_1_n_n none l r) : (⟨S256x64, .f32⟩ : BufTy).Contents (Elt F) → (⟨S64x1, .f32⟩ : BufTy).Contents (Elt F) → (⟨S256x1, .f32⟩ : BufTy).Contents (Elt F)),
    StableHlo.unary main_arg22 main_v131 (broadcastInDim S1x1 ![1] bcast_S1_S1x1_1 : (⟨S1, .f32⟩ : BufTy).Contents (Elt F) → (⟨S1x1, .f32⟩ : BufTy).Contents (Elt F)),
    StableHlo.unary main_v131 main_v132 (broadcastInDim S256x1 ![0, 1] bcast_S1x1_S256x1_0_1 : (⟨S1x1, .f32⟩ : BufTy).Contents (Elt F) → (⟨S256x1, .f32⟩ : BufTy).Contents (Elt F)),
    StableHlo.binary main_v130 main_v132 main_v133 (addf : (⟨S256x1, .f32⟩ : BufTy).Contents (Elt F) → (⟨S256x1, .f32⟩ : BufTy).Contents (Elt F) → (⟨S256x1, .f32⟩ : BufTy).Contents (Elt F)) ]

/-- The buffers those operations write, in order. -/
abbrev ops2_W : List (Ref sig .tc) :=
  [ main_v103, main_v104, main_v105, main_call9_cst, main_call9_v0, main_v106, main_cst_15, main_v107,
    main_cst_16, main_v108, main_v109, main_c_17, main_call10_cst, main_call10_v0, main_call10_v1, main_call10_cst_0,
    main_call10_v2, main_call10_v3, main_call10_v4, main_call10_v5, main_call10_v6, main_call10_v7, main_call10_cst_1, main_call10_v8,
    main_call10_cst_2, main_call10_v9, main_call10_v10, main_call10_v11, main_call10_cst_3, main_call10_v12, main_call10_cst_4, main_call10_call0_v0,
    main_call10_call0_v1, main_v110, main_v111, main_v112, main_v113, main_cst_18, main_v114, main_v115,
    main_v116, main_v117, main_v118, main_v119, main_v120, main_v121, main_v122, main_v123,
    main_v124, main_v125, main_call11_cst, main_call11_v0, main_v126, main_cst_19, main_v127, main_v128,
    main_v129, main_v130, main_v131, main_v132, main_v133 ]

end Cert.ReferenceIdeal.RefValue

end
-- ==== Proof.RefTerm.lean ====
/-
  What the reference program computes, written as one term per stage.

  Every definition below spells, in the program's own order and with the program's own shape records, the
  stablehlo operations that one stage of the reference prints, read at the extended reals:

    index columns   the two rows of the edge list, the source row with the negative-index wrap, each made a column
    aggregation     gather of the source rows, scatter-add into a zero array at the destination rows
    dense stages    (h + agg)·W1 + b1, rectified, then ·W2 + b2, rectified
    statistics      the column mean (sum / N) and the column variance (centred squares summed, over N − ddof,
                    guarded by N − ddof > 0) of the dense stages' result
    normalisation   (u − mean)·rsqrt(var + ε)·γ + β, rectified
    tail            scatter-add of the last layer's rows into the graphs' pool, the linear head

  and the three layers and the tail composed. Nothing is proved here: these are names for terms.
-/
import proofs.«173864_j70188355551324_1_alg».proof.ReferenceIdeal
import Idealize.ShloMosaic.PureOps.Ideal

noncomputable section

namespace Cert.ReferenceIdeal.RefTerm

open Idealize.ShloMosaic Idealize.SL.Sem

variable [Facts]
open Facts₀ Facts

/-! ## Small pieces used by several stages -/

/-- The rectifier on a [50000,64] array: the maximum with a broadcast zero. -/
def refRelu (x : FVec Ideal S50000x64 .f32) : FVec Ideal S50000x64 .f32 :=
  maximumf x (broadcastInDim S50000x64 ![] bcast_S_S50000x64 (constant (F := Ideal) S_ .f32 0x00000000#32))

/-- A vector [64] made one row [1,64] and then repeated down the 50000 rows. -/
def rowOf (b : FVec Ideal S64 .f32) : FVec Ideal S50000x64 .f32 :=
  broadcastInDim S50000x64 ![0, 1] bcast_S1x64_S50000x64_0_1 (broadcastInDim S1x64 ![1] bcast_S64_S1x64_1 b)

/-! ## The index columns -/

/-- Row 0 of the edge list as a vector: the source node of each edge. -/
def srcIdx (ei : IVec S2x800000 32) : IVec S800000 32 :=
  shapeCast S800000 (extractStridedSlice S1x800000 ![0, 0] ei slices_S2x800000_S1x800000_0_0)
    shapeCasts_S1x800000_S800000

/-- Row 1 of the edge list as a vector: the destination node of each edge. -/
def dstIdx (ei : IVec S2x800000 32) : IVec S800000 32 :=
  shapeCast S800000 (extractStridedSlice S1x800000 ![1, 0] ei slices_S2x800000_S1x800000_1_0)
    shapeCasts_S1x800000_S800000

/-- The source nodes, a negative one wrapped by adding 50000, as a column [800000,1]. -/
def srcFix (ei : IVec S2x800000 32) : IVec S800000x1 32 :=
  broadcastInDim S800000x1 ![0] bcast_S800000_S800000x1_0
    (select (cmpi .slt (srcIdx ei) (broadcastInDim S800000 ![] bcast_S_S800000 (constantI S_ 32 0#32)))
      (addi (srcIdx ei) (broadcastInDim S800000 ![] bcast_S_S800000 (constantI S_ 32 50000#32)))
      (srcIdx ei))

/-- The destination nodes as a column [800000,1]. -/
def dstCol (ei : IVec S2x800000 32) : IVec S800000x1 32 :=
  broadcastInDim S800000x1 ![0] bcast_S800000_S800000x1_0 (dstIdx ei)

/-! ## Aggregation over the edges -/

/-- Width 128: the rows of `h` at the source nodes, added into a zero array at the destination nodes. -/
def refAgg128 (h : FVec Ideal S50000x128 .f32) (ei : IVec S2x800000 32) : FVec Ideal S50000x128 .f32 :=
  Host.scatterAdd scatter_S50000x128_S800000x1_S800000x128_1_0_0_1
    (broadcastInDim S50000x128 ![] bcast_S_S50000x128 (constant (F := Ideal) S_ .f32 0x00000000#32))
    (dstCol ei)
    (Host.gather gather_S50000x128_S800000x1_S800000x128_1_0_n_n_0_1_1128 h (srcFix ei))

/-- Width 64: the same. -/
def refAgg64 (h : FVec Ideal S50000x64 .f32) (ei : IVec S2x800000 32) : FVec Ideal S50000x64 .f32 :=
  Host.scatterAdd scatter_S50000x64_S800000x1_S800000x64_1_0_0_1
    (broadcastInDim S50000x64 ![] bcast_S_S50000x64 (constant (F := Ideal) S_ .f32 0x00000000#32))
    (dstCol ei)
    (Host.gather gather_S50000x64_S800000x1_S800000x64_1_0_n_n_0_1_164 h (srcFix ei))

/-! ## The two dense stages -/

/-- Width 128: relu(relu((h + agg)·W1 + b1)·W2 + b2). -/
def refU128 (h agg : FVec Ideal S50000x128 .f32) (w1 : FVec Ideal S128x64 .f32) (b1 : FVec Ideal S64 .f32)
    (w2 : FVec Ideal S64x64 .f32) (b2 : FVec Ideal S64 .f32) : FVec Ideal S50000x64 .f32 :=
  refRelu (addf (Host.dotGeneral dot_S50000x64_S64x64_S50000x64_1_0_0_1_n_n none
      (refRelu (addf (Host.dotGeneral dot_S50000x128_S128x64_S50000x64_1_0_0_1_n_n none (addf h agg) w1) (rowOf b1)))
      w2) (rowOf b2))

/-- Width 64: the same. -/
def refU64 (h agg : FVec Ideal S50000x64 .f32) (w1 : FVec Ideal S64x64 .f32) (b1 : FVec Ideal S64 .f32)
    (w2 : FVec Ideal S64x64 .f32) (b2 : FVec Ideal S64 .f32) : FVec Ideal S50000x64 .f32 :=
  refRelu (addf (Host.dotGeneral dot_S50000x64_S64x64_S50000x64_1_0_0_1_n_n none
      (refRelu (addf (Host.dotGeneral dot_S50000x64_S64x64_S50000x64_1_0_0_1_n_n none (addf h agg) w1) (rowOf b1)))
      w2) (rowOf b2))

/-! ## The column statistics -/

/-- The column mean: the sum down the rows, divided by the word of 50000. -/
def refMean (u : FVec Ideal S50000x64 .f32) : FVec Ideal S64 .f32 :=
  Host.divf (Host.reduceAdd u (constant (F := Ideal) S_ .f32 0x00000000#32) reducesTo_S50000x64_S64_d0 h_S_)
    (broadcastInDim S64 ![] bcast_S_S64 (constant (F := Ideal) S_ .f32 0x47435000#32))

/-- The entries less their column mean, the mean formed as a row [1,64] and repeated down the rows. -/
def refCentered (u : FVec Ideal S50000x64 .f32) : FVec Ideal S50000x64 .f32 :=
  subf u (broadcastInDim S50000x64 ![0, 1] bcast_S1x64_S50000x64_0_1
    (Host.divf
      (broadcastInDim S1x64 ![1] bcast_S64_S1x64_1
        (Host.reduceAdd u (constant (F := Ideal) S_ .f32 0x00000000#32) reducesTo_S50000x64_S64_d0 h_S_))
      (broadcastInDim S1x64 ![] bcast_S_S1x64 (constant (F := Ideal) S_ .f32 0x47435000#32))))

/-- The variance's divisor: the word of 50000 less the degrees-of-freedom correction, an integer 0 converted. -/
def refVarDen : FVec Ideal S_ .f32 :=
  subf (constant (F := Ideal) S_ .f32 0x47435000#32) (sitofp (F := Ideal) .f32 (constantI S_ 32 0#32))

/-- The column variance: the centred entries squared and summed down the rows, over the divisor, kept where the
    divisor is positive and the quiet not-a-number word otherwise. -/
def refVar (u : FVec Ideal S50000x64 .f32) : FVec Ideal S64 .f32 :=
  select (broadcastInDim S64 ![] bcast_S_S64 (cmpf .ogt refVarDen (constant (F := Ideal) S_ .f32 0x00000000#32)))
    (Host.divf
      (Host.reduceAdd (mulf (refCentered u) (refCentered u)) (constant (F := Ideal) S_ .f32 0x00000000#32)
        reducesTo_S50000x64_S64_d0 h_S_)
      (broadcastInDim S64 ![] bcast_S_S64 refVarDen))
    (broadcastInDim S64 ![] bcast_S_S64 (id (constant (F := Ideal) S_ .f32 0x7FC00000#32)))

/-! ## Normalisation -/

/-- relu((u − mean)·rsqrt(var + ε)·γ + β), every vector repeated down the rows. -/
def refBn (u : FVec Ideal S50000x64 .f32) (mean var γ β : FVec Ideal S64 .f32) : FVec Ideal S50000x64 .f32 :=
  refRelu (addf (mulf (mulf (subf u (rowOf mean))
      (rowOf (Host.rsqrt (addf var
        (broadcastInDim S64 ![] bcast_S_S64 (constant (F := Ideal) S_ .f32 0x3727C5AC#32))))))
      (rowOf γ)) (rowOf β))

/-- A dense result normalised by its own column statistics. -/
def refNorm (u : FVec Ideal S50000x64 .f32) (γ β : FVec Ideal S64 .f32) : FVec Ideal S50000x64 .f32 :=
  refBn u (refMean u) (refVar u) γ β

/-! ## The tail: pooling by graph and the linear head -/

/-- The rows of `h` added into a zero [256,64] array at their graph numbers, times the head's weights, plus its bias. -/
def refTail (h : FVec Ideal S50000x64 .f32) (batch : IVec S50000 32) (fcw : FVec Ideal S64x1 .f32)
    (fcb : FVec Ideal S1 .f32) : FVec Ideal S256x1 .f32 :=
  addf (Host.dotGeneral dot_S256x64_S64x1_S256x1_1_0_0_1_n_n none
      (Host.scatterAdd scatter_S256x64_S50000x1_S50000x64_1_0_0_1
        (broadcastInDim S256x64 ![] bcast_S_S256x64 (constant (F := Ideal) S_ .f32 0x00000000#32))
        (broadcastInDim S50000x1 ![0] bcast_S50000_S50000x1_0 batch)
        h)
      fcw)
    (broadcastInDim S256x1 ![0, 1] bcast_S1x1_S256x1_0_1 (broadcastInDim S1x1 ![1] bcast_S1_S1x1_1 fcb))

/-! ## The layers and the whole program -/

/-- The first layer, on features of width 128. -/
def refLayer128 (h : FVec Ideal S50000x128 .f32) (ei : IVec S2x800000 32) (w1 : FVec Ideal S128x64 .f32)
    (b1 : FVec Ideal S64 .f32) (w2 : FVec Ideal S64x64 .f32) (b2 γ β : FVec Ideal S64 .f32) :
    FVec Ideal S50000x64 .f32 :=
  refNorm (refU128 h (refAgg128 h ei) w1 b1 w2 b2) γ β

/-- A later layer, on features of width 64. -/
def refLayer64 (h : FVec Ideal S50000x64 .f32) (ei : IVec S2x800000 32) (w1 : FVec Ideal S64x64 .f32)
    (b1 : FVec Ideal S64 .f32) (w2 : FVec Ideal S64x64 .f32) (b2 γ β : FVec Ideal S64 .f32) :
    FVec Ideal S50000x64 .f32 :=
  refNorm (refU64 h (refAgg64 h ei) w1 b1 w2 b2) γ β

/-- The reference's result as a function of its 23 arguments, in the program's order. -/
def refOut (x : FVec Ideal S50000x128 .f32) (ei : IVec S2x800000 32) (batch : IVec S50000 32)
    (c1w1 : FVec Ideal S128x64 .f32) (c1b1 : FVec Ideal S64 .f32) (c1w2 : FVec Ideal S64x64 .f32)
    (c1b2 c1g c1be : FVec Ideal S64 .f32)
    (c2w1 : FVec Ideal S64x64 .f32) (c2b1 : FVec Ideal S64 .f32) (c2w2 : FVec Ideal S64x64 .f32)
    (c2b2 c2g c2be : FVec Ideal S64 .f32)
    (c3w1 : FVec Ideal S64x64 .f32) (c3b1 : FVec Ideal S64 .f32) (c3w2 : FVec Ideal S64x64 .f32)
    (c3b2 c3g c3be : FVec Ideal S64 .f32)
    (fcw : FVec Ideal S64x1 .f32) (fcb : FVec Ideal S1 .f32) : FVec Ideal S256x1 .f32 :=
  refTail
    (refLayer64
      (refLayer64 (refLayer128 x ei c1w1 c1b1 c1w2 c1b2 c1g c1be) ei c2w1 c2b1 c2w2 c2b2 c2g c2be)
      ei c3w1 c3b1 c3w2 c3b2 c3g c3be)
    batch fcw fcb

end Cert.ReferenceIdeal.RefTerm

end
-- ==== Proof.RefRunA.lean ====
/-
  The first printed window of the reference's @main (statements 1 … 60) run as a straight line of operations: the
  window equals the line, the line touches TensorCore buffers only and writes only its own results, and from ANY
  contents of the buffers it leaves the two rows of the edge list as vectors, the first layer's result, and the
  wrapped source column the second layer gathers by — each the stage functions' term of what the contents hold at
  the argument buffers.
-/
import proofs.«173864_j70188355551324_1_alg».proof.Proof.RefOps
import proofs.«173864_j70188355551324_1_alg».proof.Proof.RefTerm

noncomputable section

namespace Cert.ReferenceIdeal.RefValue

open Cert.ReferenceIdeal Cert.ReferenceIdeal.Gen Cert.ReferenceIdeal.RefTerm Idealize.ShloMosaic Idealize.ShloMosaic.TcCoe Idealize.SL.Sem Idealize.ShloMosaic.StableHlo

section
variable {F : FTy → Type} [FloatOps F]

set_option maxRecDepth 8192 in
set_option maxHeartbeats 4000000 in
/-- The printed window is that straight line: the outlined functions' bodies unfolded at their calls and the binds
    re-associated, both sides are one chain of operation steps. -/
theorem main_part0_eq (c : Dev nD) : main_part0 (F := F) c = seq ops0 := by
  simp only [main_part0, fn_relu.body, fn_var.body, fn_where.body, seq, bind_assoc, pure_bind] <;> rfl

set_option maxRecDepth 8192 in
/-- Every operation of the window touches TensorCore references only. -/
theorem ops0_sub : (ops0 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- Every operation of the window determines its results. -/
theorem ops0_fresh : ∀ op ∈ (ops0 : List (HloOp τ sig (Elt F))), op.fresh = ∅ := by
  intro _ h
  repeat (cases h with | head => rfl | tail _ h => ?_)
  exact nomatch h

set_option maxRecDepth 8192 in
/-- Each operation writes its own result buffer, which is in the window's list of written buffers. -/
theorem ops0_writes : (ops0 : List (HloOp τ sig (Elt F))).Forall fun op =>
    op.writes ⊆ (ops0_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))

/-- A buffer the window does not write keeps its contents through it. -/
theorem keep0 (V : Valuation τ sig (Elt F)) (r : Ref sig .tc) (h : r ∉ ops0_W) :
    after ops0 V (Proc.devRef .tc r) = V (Proc.devRef .tc r) :=
  after_of_writes_sub ops0 V ops0_writes h

end

set_option maxRecDepth 8192 in
set_option maxHeartbeats 4000000 in
/-- Row 0 of the edge list, as a vector. -/
theorem w0_v1 (V : Valuation τ sig (Elt Ideal)) :
    after ops0 V (Proc.devRef .tc main_v1) = srcIdx (V (Proc.devRef .tc main_arg1)) := by
  after_results_simp
  rfl

set_option maxRecDepth 8192 in
set_option maxHeartbeats 4000000 in
/-- Row 1 of the edge list, as a vector. -/
theorem w0_v3 (V : Valuation τ sig (Elt Ideal)) :
    after ops0 V (Proc.devRef .tc main_v3) = dstIdx (V (Proc.devRef .tc main_arg1)) := by
  after_results_simp
  rfl

set_option maxRecDepth 8192 in
set_option maxHeartbeats 4000000 in
/-- The wrapped source column computed for the second layer's gather. -/
theorem w0_v50 (V : Valuation τ sig (Elt Ideal)) :
    after ops0 V (Proc.devRef .tc main_v50) = srcFix (V (Proc.devRef .tc main_arg1)) := by
  after_results_simp
  rfl

set_option maxRecDepth 8192 in
set_option maxHeartbeats 4000000 in
/-- The first layer's result. -/
theorem w0_v44 (V : Valuation τ sig (Elt Ideal)) :
    after ops0 V (Proc.devRef .tc main_v44)
      = refLayer128 (V (Proc.devRef .tc main_arg0)) (V (Proc.devRef .tc main_arg1)) (V (Proc.devRef .tc main_arg3)) (V (Proc.devRef .tc main_arg4))
          (V (Proc.devRef .tc main_arg5)) (V (Proc.devRef .tc main_arg6)) (V (Proc.devRef .tc main_arg7)) (V (Proc.devRef .tc main_arg8)) := by
  after_results_simp
  rfl

end Cert.ReferenceIdeal.RefValue

end
-- ==== Proof.RefRunB.lean ====
/-
  The second printed window of the reference's @main (statements 61 … 120) run as a straight line of operations: the
  window equals the line, the line touches TensorCore buffers only and writes only its own results, and from any
  contents that hold the edge list's two rows and the wrapped source column at the buffers the first window left
  them in, it leaves the third layer's second product (before its bias) of the second layer's result.
-/
import proofs.«173864_j70188355551324_1_alg».proof.Proof.RefOps
import proofs.«173864_j70188355551324_1_alg».proof.Proof.RefTerm

noncomputable section

namespace Cert.ReferenceIdeal.RefValue

open Cert.ReferenceIdeal Cert.ReferenceIdeal.Gen Cert.ReferenceIdeal.RefTerm Idealize.ShloMosaic Idealize.ShloMosaic.TcCoe Idealize.SL.Sem Idealize.ShloMosaic.StableHlo

section
variable {F : FTy → Type} [FloatOps F]

set_option maxRecDepth 8192 in
set_option maxHeartbeats 4000000 in
/-- The printed window is that straight line: the outlined functions' bodies unfolded at their calls and the binds
    re-associated, both sides are one chain of operation steps. -/
theorem main_part1_eq (c : Dev nD) : main_part1 (F := F) c = seq ops1 := by
  simp only [main_part1, fn_relu.body, fn_var.body, fn_where.body, seq, bind_assoc, pure_bind] <;> rfl

set_option maxRecDepth 8192 in
/-- Every operation of the window touches TensorCore references only. -/
theorem ops1_sub : (ops1 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- Every operation of the window determines its results. -/
theorem ops1_fresh : ∀ op ∈ (ops1 : List (HloOp τ sig (Elt F))), op.fresh = ∅ := by
  intro _ h
  repeat (cases h with | head => rfl | tail _ h => ?_)
  exact nomatch h

set_option maxRecDepth 8192 in
/-- Each operation writes its own result buffer, which is in the window's list of written buffers. -/
theorem ops1_writes : (ops1 : List (HloOp τ sig (Elt F))).Forall fun op =>
    op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))

/-- A buffer the window does not write keeps its contents through it. -/
theorem keep1 (V : Valuation τ sig (Elt F)) (r : Ref sig .tc) (h : r ∉ ops1_W) :
    after ops1 V (Proc.devRef .tc r) = V (Proc.devRef .tc r) :=
  after_of_writes_sub ops1 V ops1_writes h

end

/-- A layer of width 64 up to its second product: the aggregate added, the first dense stage with its bias and
    rectifier, times the second stage's weights — what the second window ends on, the bias and the rest of the
    layer being the third window's. -/
def refPre64 (h : FVec Ideal S50000x64 .f32) (ei : IVec S2x800000 32) (w1 : FVec Ideal S64x64 .f32)
    (b1 : FVec Ideal S64 .f32) (w2 : FVec Ideal S64x64 .f32) : FVec Ideal S50000x64 .f32 :=
  Host.dotGeneral dot_S50000x64_S64x64_S50000x64_1_0_0_1_n_n none
    (refRelu (addf (Host.dotGeneral dot_S50000x64_S64x64_S50000x64_1_0_0_1_n_n none (addf h (refAgg64 h ei)) w1)
      (rowOf b1))) w2

/-- The layer is that product with its bias, rectified and normalised. -/
theorem refLayer64_eq (h : FVec Ideal S50000x64 .f32) (ei : IVec S2x800000 32) (w1 : FVec Ideal S64x64 .f32)
    (b1 : FVec Ideal S64 .f32) (w2 : FVec Ideal S64x64 .f32) (b2 γ β : FVec Ideal S64 .f32) :
    refNorm (refRelu (addf (refPre64 h ei w1 b1 w2) (rowOf b2))) γ β = refLayer64 h ei w1 b1 w2 b2 γ β := rfl

set_option maxRecDepth 8192 in
set_option maxHeartbeats 4000000 in
/-- The window's result from contents holding the edge list's rows and the wrapped source column of an edge list
    `ei`: the second layer of what the contents hold at the first layer's result buffer, then the third layer up to
    its second product. -/
theorem w1_v102 (V : Valuation τ sig (Elt Ideal)) (ei : IVec S2x800000 32)
    (h1 : V (Proc.devRef .tc main_v1) = srcIdx ei) (h3 : V (Proc.devRef .tc main_v3) = dstIdx ei)
    (h50 : V (Proc.devRef .tc main_v50) = srcFix ei) :
    after ops1 V (Proc.devRef .tc main_v102)
      = refPre64 (refLayer64 (V (Proc.devRef .tc main_v44)) ei (V (Proc.devRef .tc main_arg9)) (V (Proc.devRef .tc main_arg10)) (V (Proc.devRef .tc main_arg11))
            (V (Proc.devRef .tc main_arg12)) (V (Proc.devRef .tc main_arg13)) (V (Proc.devRef .tc main_arg14)))
          ei (V (Proc.devRef .tc main_arg15)) (V (Proc.devRef .tc main_arg16)) (V (Proc.devRef .tc main_arg17)) := by
  after_results_simp
  simp only [h1, h3, h50]
  rfl

end Cert.ReferenceIdeal.RefValue

end
-- ==== Proof.RefRunC.lean ====
/-
  The third printed window of the reference's @main (statements 121 … 157) run as a straight line of operations:
  the window equals the line, the line touches TensorCore buffers only and writes only its own results, and from ANY
  contents of the buffers its result buffer ends at the third layer's tail — the second dense stage's bias and
  rectifier, the normalisation by the column statistics, the pool by graph and the linear head — of what the
  contents hold at the buffers the window reads.
-/
import proofs.«173864_j70188355551324_1_alg».proof.Proof.RefOps
import proofs.«173864_j70188355551324_1_alg».proof.Proof.RefTerm

noncomputable section

namespace Cert.ReferenceIdeal.RefValue

open Cert.ReferenceIdeal Cert.ReferenceIdeal.Gen Cert.ReferenceIdeal.RefTerm Idealize.ShloMosaic Idealize.ShloMosaic.TcCoe Idealize.SL.Sem Idealize.ShloMosaic.StableHlo

section
variable {F : FTy → Type} [FloatOps F]

set_option maxRecDepth 8192 in
set_option maxHeartbeats 4000000 in
/-- The printed window is that straight line: the outlined functions' bodies unfolded at their calls and the binds
    re-associated, both sides are one chain of operation steps. -/
theorem main_part2_eq (c : Dev nD) : main_part2 (F := F) c = seq ops2 := by
  simp only [main_part2, fn_relu.body, fn_var.body, fn_where.body, seq, bind_assoc, pure_bind] <;> rfl

set_option maxRecDepth 8192 in
/-- Every operation of the window touches TensorCore references only. -/
theorem ops2_sub : (ops2 : List (HloOp τ sig (Elt F))).Forall fun op => op.bufs ⊆ tcRefs τ sig := by
  simp only [List.Forall, nullary_bufs_sub, unary_bufs_sub, binary_bufs_sub, ternary_bufs_sub, reshape_bufs_sub, and_self]

set_option maxRecDepth 8192 in
/-- Every operation of the window determines its results. -/
theorem ops2_fresh : ∀ op ∈ (ops2 : List (HloOp τ sig (Elt F))), op.fresh = ∅ := by
  intro _ h
  repeat (cases h with | head => rfl | tail _ h => ?_)
  exact nomatch h

set_option maxRecDepth 8192 in
/-- Each operation writes its own result buffer, which is in the window's list of written buffers. -/
theorem ops2_writes : (ops2 : List (HloOp τ sig (Elt F))).Forall fun op =>
    op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, reshape_writes, Finset.singleton_subset_iff,
      List.mem_toFinset]; exact List.mem_map_of_mem (by decide))

/-- A buffer the window does not write keeps its contents through it. -/
theorem keep2 (V : Valuation τ sig (Elt F)) (r : Ref sig .tc) (h : r ∉ ops2_W) :
    after ops2 V (Proc.devRef .tc r) = V (Proc.devRef .tc r) :=
  after_of_writes_sub ops2 V ops2_writes h

end

set_option maxRecDepth 8192 in
set_option maxHeartbeats 4000000 in
/-- The window's result from any contents: the third layer's second dense stage finished (bias, rectifier), normalised
    by its own column statistics, pooled by graph and sent through the head. -/
theorem w2_v133 (V : Valuation τ sig (Elt Ideal)) :
    after ops2 V (Proc.devRef .tc main_v133)
      = refTail (refNorm (refRelu (addf (V (Proc.devRef .tc main_v102)) (rowOf (V (Proc.devRef .tc main_arg18)))))
          (V (Proc.devRef .tc main_arg19)) (V (Proc.devRef .tc main_arg20)))
        (V (Proc.devRef .tc main_arg2)) (V (Proc.devRef .tc main_arg21)) (V (Proc.devRef .tc main_arg22)) := by
  after_results_simp
  rfl

end Cert.ReferenceIdeal.RefValue

end
-- ==== Proof.RefRun.lean ====
/-
  The reference's run. @main is its three printed windows in order, each a straight line of operations, so @main is
  the concatenated line; run from the launch memory every weakly fair execution terminates with each TensorCore
  buffer at the fold of the operations' results over its launch contents. The fold is read window by window: the
  first window leaves the edge list's rows, the wrapped source column and the first layer's result; the second, from
  those, the second layer's result carried to the third layer's second product; the third finishes the third layer,
  pools by graph and applies the head. No window writes an argument buffer.
-/
import proofs.«173864_j70188355551324_1_alg».proof.Proof.RefRunA
import proofs.«173864_j70188355551324_1_alg».proof.Proof.RefRunB
import proofs.«173864_j70188355551324_1_alg».proof.Proof.RefRunC
import Idealize.ShloMosaic.Lib.Pipeline.Frame

noncomputable section

namespace Cert.ReferenceIdeal.RefValue

open Cert.ReferenceIdeal Cert.ReferenceIdeal.Gen Cert.ReferenceIdeal.RefTerm Idealize.ShloMosaic Idealize.ShloMosaic.TcCoe Idealize.SL.Sem Idealize.ShloMosaic.StableHlo

section
variable {F : FTy → Type} [FloatOps F]

/-- @main's operations, in order: the three windows' lists joined. -/
abbrev ops : List (HloOp τ sig (Elt F)) := ops0 ++ (ops1 ++ ops2)

/-- @main is that straight line: each window is its own line, and lines run one after the other are their
    concatenation run as one. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only: it is one of a window's. -/
theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h,
      List.forall_iff_forall_mem.mp ops2_sub op h]

/-- Every operation determines its results: it is one of a window's. -/
theorem ops_fresh : ∀ op ∈ (ops : List (HloOp τ sig (Elt F))), op.fresh = ∅ := fun op h => by
  simp only [ops, List.mem_append] at h
  rcases h with h | h | h
  exacts [ops0_fresh op h, ops1_fresh op h, ops2_fresh op h]

/-- The fold over the whole line is the windows' folds in turn. -/
theorem after_ops (V0 : Valuation τ sig (Elt F)) : after ops V0 = after ops2 (after ops1 (after ops0 V0)) := by
  simp only [ops, after_append]

/-- A buffer no window writes keeps its contents through the whole line. -/
theorem keep (V0 : Valuation τ sig (Elt F)) (r : Ref sig .tc) (h0 : r ∉ ops0_W) (h1 : r ∉ ops1_W) (h2 : r ∉ ops2_W) :
    after ops V0 (Proc.devRef .tc r) = V0 (Proc.devRef .tc r) := by
  rw [after_ops, keep2 _ r h2, keep1 _ r h1, keep0 _ r h0]

end

/-- The result buffer after the whole line, from any contents: the stage functions' composed term of what the
    contents hold at the 23 argument buffers. The third window's value reads the second's result and six arguments;
    the second's reads the first's four results — which are the rows and the wrapped column of the contents' edge
    list, as it asks — and nine arguments; the first's reads eight arguments; an argument read through earlier
    windows is what the contents hold, no window writing it. -/
theorem out_eq (V0 : Valuation τ sig (Elt Ideal)) :
    after ops V0 (Proc.devRef .tc main_v133)
      = refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) (V0 (Proc.devRef .tc main_arg14)) (V0 (Proc.devRef .tc main_arg15)) (V0 (Proc.devRef .tc main_arg16)) (V0 (Proc.devRef .tc main_arg17)) (V0 (Proc.devRef .tc main_arg18)) (V0 (Proc.devRef .tc main_arg19)) (V0 (Proc.devRef .tc main_arg20)) (V0 (Proc.devRef .tc main_arg21)) (V0 (Proc.devRef .tc main_arg22)) := by
  rw [after_ops, w2_v133,
    w1_v102 (after ops0 V0) (V0 (Proc.devRef .tc main_arg1)) (w0_v1 V0) (w0_v3 V0) (w0_v50 V0),
    w0_v44,
    keep1 _ main_arg18 (by decide), keep1 _ main_arg19 (by decide), keep1 _ main_arg20 (by decide),
    keep1 _ main_arg2 (by decide), keep1 _ main_arg21 (by decide), keep1 _ main_arg22 (by decide),
    keep0 _ main_arg18 (by decide), keep0 _ main_arg19 (by decide), keep0 _ main_arg20 (by decide),
    keep0 _ main_arg2 (by decide), keep0 _ main_arg21 (by decide), keep0 _ main_arg22 (by decide),
    keep0 _ main_arg9 (by decide), keep0 _ main_arg10 (by decide), keep0 _ main_arg11 (by decide),
    keep0 _ main_arg12 (by decide), keep0 _ main_arg13 (by decide), keep0 _ main_arg14 (by decide),
    keep0 _ main_arg15 (by decide), keep0 _ main_arg16 (by decide), keep0 _ main_arg17 (by decide),
    refLayer64_eq]
  rfl

/-- On every device, at the extended reals, from any memory with zero counters: every weakly fair execution of
    @main terminates with the result buffer at the stage functions' composed term of the argument arrays and the
    23 arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v133) = RefTerm.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v133).trans (out_eq (launchContents m c)),
      (h c main_arg0).trans (keep (launchContents m c) main_arg0 (by decide) (by decide) (by decide)),
      (h c main_arg1).trans (keep (launchContents m c) main_arg1 (by decide) (by decide) (by decide)),
      (h c main_arg2).trans (keep (launchContents m c) main_arg2 (by decide) (by decide) (by decide)),
      (h c main_arg3).trans (keep (launchContents m c) main_arg3 (by decide) (by decide) (by decide)),
      (h c main_arg4).trans (keep (launchContents m c) main_arg4 (by decide) (by decide) (by decide)),
      (h c main_arg5).trans (keep (launchContents m c) main_arg5 (by decide) (by decide) (by decide)),
      (h c main_arg6).trans (keep (launchContents m c) main_arg6 (by decide) (by decide) (by decide)),
      (h c main_arg7).trans (keep (launchContents m c) main_arg7 (by decide) (by decide) (by decide)),
      (h c main_arg8).trans (keep (launchContents m c) main_arg8 (by decide) (by decide) (by decide)),
      (h c main_arg9).trans (keep (launchContents m c) main_arg9 (by decide) (by decide) (by decide)),
      (h c main_arg10).trans (keep (launchContents m c) main_arg10 (by decide) (by decide) (by decide)),
      (h c main_arg11).trans (keep (launchContents m c) main_arg11 (by decide) (by decide) (by decide)),
      (h c main_arg12).trans (keep (launchContents m c) main_arg12 (by decide) (by decide) (by decide)),
      (h c main_arg13).trans (keep (launchContents m c) main_arg13 (by decide) (by decide) (by decide)),
      (h c main_arg14).trans (keep (launchContents m c) main_arg14 (by decide) (by decide) (by decide)),
      (h c main_arg15).trans (keep (launchContents m c) main_arg15 (by decide) (by decide) (by decide)),
      (h c main_arg16).trans (keep (launchContents m c) main_arg16 (by decide) (by decide) (by decide)),
      (h c main_arg17).trans (keep (launchContents m c) main_arg17 (by decide) (by decide) (by decide)),
      (h c main_arg18).trans (keep (launchContents m c) main_arg18 (by decide) (by decide) (by decide)),
      (h c main_arg19).trans (keep (launchContents m c) main_arg19 (by decide) (by decide) (by decide)),
      (h c main_arg20).trans (keep (launchContents m c) main_arg20 (by decide) (by decide) (by decide)),
      (h c main_arg21).trans (keep (launchContents m c) main_arg21 (by decide) (by decide) (by decide)),
      (h c main_arg22).trans (keep (launchContents m c) main_arg22 (by decide) (by decide) (by decide))⟩)
    (run_seq scopedRefs_eq scopedSems_eq defs main (fun _ => ops) main_eq (fun _ => ops_sub) m ρ
      (fun _ => ops_fresh))

end Cert.ReferenceIdeal.RefValue

end
-- ==== Proof.LibRealClosed.lean ====
/-
  Arrays of extended reals whose every entry is a real number, and the host operations that keep them so.

  On the extended reals the field laws fail at the infinities (a product distributes over a sum only off them), so a
  proof that rearranges sums of products first shows that every number in sight is real. The facts here do that
  without reading any array at an index: an entry of a matrix product is a finite sum of products of entries; an entry
  of a transposed, sliced, reshaped, broadcast or concatenated array is an entry of an operand; sums, differences,
  products and negatives of reals are real; and a quotient of reals is real when the divisor is not zero.
-/
import Idealize.ShloMosaic.PureOps.Ideal
import Idealize.ShloMosaic.PureOps.Ideal.Laws
import Idealize.ShloMosaic.Lib.ValueIdx

noncomputable section

open scoped BigOperators

namespace Cert.LibRealClosed

open Idealize.ShloMosaic

/-- An extended real that is a real number (neither infinity). -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.neg {x : EReal} (hx : IsReal x) : IsReal (-x) := by
  obtain ⟨a, rfl⟩ := hx; exact ⟨-a, (EReal.coe_neg a).symm⟩

/-- A finite sum of reals is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h _ (Finset.mem_insert_self _ _)).add (ih fun i hi => h i (Finset.mem_insert_of_mem hi))

/-- The quotient of a real by a real other than zero is real: it is the product with the reciprocal. -/
theorem IsReal.div {x y : EReal} (hx : IsReal x) (hy : IsReal y) (h0 : y ≠ 0) : IsReal (Ideal.div x y) := by
  obtain ⟨a, rfl⟩ := hx; obtain ⟨b, rfl⟩ := hy
  have hb : b ≠ 0 := fun h => h0 (by rw [h]; rfl)
  rw [Ideal.div_coe hb, ← EReal.coe_mul]
  exact ⟨_, rfl⟩

/-- A real is neither infinity; conversely an extended real strictly between the infinities is real. -/
theorem isReal_of_abs_lt_top {x : EReal} (h : max x (-x) < ⊤) : IsReal x := by
  induction x using EReal.rec with
  | bot => exact absurd h (by simp)
  | coe r => exact ⟨r, rfl⟩
  | top => exact absurd h (by simp)

/-- Every entry of the array is a real number. -/
def AllReal {S : Shape} {φ : FTy} (v : FVec Ideal S φ) : Prop := ∀ i, IsReal (v i)

variable {s t : Shape} {φ : FTy}

/-- An entry of a matrix product (any dimension numbers) is a finite sum of products of entries of the operands. -/
theorem AllReal.dotGeneral {sl sr so : Shape} {φ₁ φ₂ : FTy} (d : DotDims sl sr so) (p : Option ContractPrecision)
    {l : FVec Ideal sl φ₁} {r : FVec Ideal sr φ₂} (hl : AllReal l) (hr : AllReal r) :
    AllReal (Host.dotGeneral d p l r) := by
  intro j
  show IsReal (FloatOps.dotGeneral d p _ l r j)
  rw [Ideal.dotGeneral_apply]
  exact IsReal.sum _ _ fun k _ => (hl _).mul (hr _)

theorem AllReal.transpose (perm : List (Fin s.rank)) {x : FVec Ideal s φ} (h : s.Transposes perm t) (hx : AllReal x) :
    AllReal (φ := φ) (transpose t perm x h) := fun _ => hx _

theorem AllReal.slice (off : Fin s.rank → Nat) {x : FVec Ideal s φ} (h : s.Slices off t) (hx : AllReal x) :
    AllReal (φ := φ) (extractStridedSlice t off x h) := fun _ => hx _

theorem AllReal.shapeCast {x : FVec Ideal s φ} (h : s.ShapeCasts t) (hx : AllReal x) :
    AllReal (φ := φ) (shapeCast t x h) := fun _ => hx _

theorem AllReal.broadcastInDim (dims : Fin s.rank → Fin t.rank) (h : s.BroadcastsInDim t dims) {x : FVec Ideal s φ}
    (hx : AllReal x) : AllReal (φ := φ) (broadcastInDim t dims h x) := fun _ => hx _

/-- An entry of arrays joined along an axis is an entry of one of them. -/
theorem AllReal.concatenate (a : Fin t.rank) (xs : List ((s : Shape) × (s.Idx → Ideal φ)))
    (h : Shape.Concatenates (xs.map (·.1)) t a) (hx : ∀ p ∈ xs, ∀ i, IsReal (p.2 i)) :
    AllReal (φ := φ) (concatenate t a xs h) := by
  intro j
  unfold Idealize.ShloMosaic.concatenate
  exact hx _ (List.getElem_mem _) _

theorem AllReal.addf {x y : FVec Ideal s φ} (hx : AllReal x) (hy : AllReal y) : AllReal (addf x y) :=
  fun i => (hx i).add (hy i)

theorem AllReal.subf {x y : FVec Ideal s φ} (hx : AllReal x) (hy : AllReal y) : AllReal (subf x y) :=
  fun i => (hx i).sub (hy i)

theorem AllReal.mulf {x y : FVec Ideal s φ} (hx : AllReal x) (hy : AllReal y) : AllReal (mulf x y) :=
  fun i => (hx i).mul (hy i)

theorem AllReal.hostNegf {x : FVec Ideal s φ} (hx : AllReal x) : AllReal (Host.negf x) :=
  fun i => (hx i).neg

/-- The quotient of two arrays of reals is an array of reals when no divisor is zero. -/
theorem AllReal.hostDivf {x y : FVec Ideal s φ} (hx : AllReal x) (hy : AllReal y) (h0 : ∀ i, y i ≠ 0) :
    AllReal (Host.divf x y) :=
  fun i => (hx i).div (hy i) (h0 i)

end Cert.LibRealClosed

end
-- ==== Proof.LibRealHost.lean ====
/-
  More host operations on arrays of extended reals: the ones that keep every entry a real number, and the ones that make
  every entry a POSITIVE real number.

  A softmax row and a Gaussian overlap are built from exponentials, logarithms of positive numbers, sums along an axis, a
  maximum along an axis, and quotients by a sum of exponentials.  Each keeps the entries real: the exponential of a real
  is a positive real; the logarithm of a positive real is real; a sum along an axis of reals (from a real initial value) is
  real, and of positive reals from zero over a non-empty axis is positive; the maximum along a non-empty axis of reals, taken
  from minus infinity, is one of them; a finite float literal is a dyadic rational; a gather copies entries of its operand;
  a change of float format is the identity.  None of these facts reads an array at a particular index.
-/
import proofs.«173864_j70188355551324_1_alg».proof.Proof.LibRealClosed
import Idealize.ShloMosaic.PureOps.Reduce
import Idealize.ShloMosaic.PureOps.Ideal.Laws

noncomputable section

open scoped BigOperators

namespace Cert.LibRealHost

open Idealize.ShloMosaic Cert.LibRealClosed

/-- An extended real that is a positive real number. -/
def IsPos (x : EReal) : Prop := ∃ r : ℝ, 0 < r ∧ x = (r : EReal)

theorem IsPos.isReal {x : EReal} (h : IsPos x) : IsReal x := by
  obtain ⟨r, _, e⟩ := h; exact ⟨r, e⟩

theorem IsPos.ne_zero {x : EReal} (h : IsPos x) : x ≠ 0 := by
  obtain ⟨r, hr, rfl⟩ := h
  intro e
  exact (ne_of_gt hr) (EReal.coe_eq_zero.mp e)

/-- A real number above zero, as extended reals compare, is a positive real. -/
theorem isPos_of_isReal_of_pos {x : EReal} (h : IsReal x) (hp : 0 < x) : IsPos x := by
  obtain ⟨r, rfl⟩ := h
  exact ⟨r, EReal.coe_pos.mp hp, rfl⟩

theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩

/-- A sum of positive reals over a non-empty finite set is a positive real. -/
theorem IsPos.sum {ι : Type*} (s : Finset ι) (hs : s.Nonempty) (f : ι → EReal) (h : ∀ i ∈ s, IsPos (f i)) :
    IsPos (∑ i ∈ s, f i) := by
  classical
  induction hs using Finset.Nonempty.cons_induction with
  | singleton a => rw [Finset.sum_singleton]; exact h a (Finset.mem_singleton_self a)
  | cons a s ha _ ih =>
    rw [Finset.sum_cons]
    exact (h a (Finset.mem_cons_self a s)).add (ih fun i hi => h i (Finset.mem_cons.mpr (Or.inr hi)))

/-- The larger of two reals is real. -/
theorem isReal_max {x y : EReal} (hx : IsReal x) (hy : IsReal y) : IsReal (max x y) := by
  rcases le_total x y with h | h
  · rw [max_eq_right h]; exact hy
  · rw [max_eq_left h]; exact hx

/-- The exponential of a real is a positive real. -/
theorem IsPos.exp {x : EReal} (hx : IsReal x) : IsPos (Ideal.exp x) := by
  obtain ⟨r, rfl⟩ := hx
  exact ⟨Real.exp r, Real.exp_pos r, rfl⟩

/-- The logarithm of a positive real is real. -/
theorem isReal_log {x : EReal} (hx : IsPos x) : IsReal (Ideal.log x) := by
  obtain ⟨r, hr, rfl⟩ := hx
  rw [Ideal.log_coe, if_neg (not_le.mpr hr)]
  exact ⟨_, rfl⟩

/-- A maximum from minus infinity over a finite set of reals is minus infinity on the empty set and real otherwise. -/
theorem fold_max_bot {ι : Type*} (s : Finset ι) (f : ι → EReal) (h : ∀ i ∈ s, IsReal (f i)) :
    (s = ∅ ∧ s.fold max ⊥ f = ⊥) ∨ IsReal (s.fold max ⊥ f) := by
  classical
  induction s using Finset.induction_on with
  | empty => exact Or.inl ⟨rfl, Finset.fold_empty⟩
  | insert a s ha ih =>
    right
    rw [Finset.fold_insert ha]
    rcases ih (fun i hi => h i (Finset.mem_insert_of_mem hi)) with ⟨_, e⟩ | hr
    · rw [e, max_eq_left bot_le]; exact h a (Finset.mem_insert_self a s)
    · exact isReal_max (h a (Finset.mem_insert_self a s)) hr

/-- A float32 pattern whose exponent field is not all ones denotes a real number (a dyadic rational). -/
theorem isReal_ofBits_f32 (b : BitVec 32) (h : (b.extractLsb' 23 8).toNat ≠ 2 ^ 8 - 1) : IsReal (Ideal.ofBits .f32 b) := by
  show IsReal (Ideal.ieee 8 23 b)
  unfold Ideal.ieee
  simp only []
  rw [if_neg h]
  split_ifs <;> exact ⟨_, rfl⟩

/-- Every entry of the array is a positive real number. -/
def AllPos {S : Shape} {φ : FTy} (v : FVec Ideal S φ) : Prop := ∀ i, IsPos (v i)

variable {s t : Shape} {φ : FTy}

theorem AllPos.allReal {x : FVec Ideal s φ} (h : AllPos x) : AllReal x := fun i => (h i).isReal

/-- An array of reals each above zero is an array of positive reals. -/
theorem AllPos.of_pos {x : FVec Ideal s φ} (h : AllReal x) (hp : ∀ i, (0 : EReal) < x i) : AllPos x :=
  fun i => isPos_of_isReal_of_pos (h i) (hp i)

theorem AllPos.hostExp {x : FVec Ideal s φ} (hx : AllReal x) : AllPos (Host.exp x) := fun i => IsPos.exp (hx i)

theorem AllReal.hostLog {x : FVec Ideal s φ} (hx : AllPos x) : AllReal (Host.log x) := fun i => isReal_log (hx i)

theorem AllReal.maximumf {x y : FVec Ideal s φ} (hx : AllReal x) (hy : AllReal y) : AllReal (maximumf x y) :=
  fun i => isReal_max (hx i) (hy i)

/-- A change to a narrower float format is the identity on the extended reals. -/
theorem AllReal.truncf {ψ : FTy} {x : FVec Ideal s φ} (h : ψ.bits < φ.bits) (hx : AllReal x) :
    AllReal (φ := ψ) (truncf ψ x h) := fun i => hx i

/-- A gathered entry is an entry of the operand, whatever the indices. -/
theorem AllReal.gather {si : Shape} {w : Nat} (d : GatherDims s si t) {x : FVec Ideal s φ} (idx : IVec si w)
    (hx : AllReal x) : AllReal (φ := φ) (Host.gather d x idx) := fun _ => hx _

/-- A finite float32 literal splatted over a shape. -/
theorem AllReal.constant_f32 (b : BitVec 32) (h : (b.extractLsb' 23 8).toNat ≠ 2 ^ 8 - 1) :
    AllReal (constant (F := Ideal) s .f32 b) := fun _ => isReal_ofBits_f32 b h

/-- The host's sum along any axes of an array of reals, from a real initial value, is an array of reals. -/
theorem AllReal.hostReduceAdd {axes : List (Fin s.rank)} {u : Shape} {x : FVec Ideal s φ} {init : u.Idx → Ideal φ}
    (h : s.ReducesTo axes t) (hu : 0 < u.numel) (hx : AllReal x) (hi : ∀ i, IsReal (init i)) :
    AllReal (Host.reduceAdd x init h hu) := by
  intro j
  show IsReal (Ideal.hostReduceAdd h x (init (Shape.Idx.first hu)) j)
  unfold Ideal.hostReduceAdd
  exact (hi _).add (IsReal.sum _ _ fun i _ => hx i)

/-- The host's sum along ONE non-empty axis of an array of positive reals, from zero, is an array of positive reals. -/
theorem AllPos.hostReduceAdd_single {a : Fin s.rank} {u : Shape} {x : FVec Ideal s φ} {init : u.Idx → Ideal φ}
    (h' : s.ReducesTo [a] t) (h : s.Reduces [a] t) (hu : 0 < u.numel) (hn : 0 < s.size a) (hx : AllPos x)
    (hi : ∀ i, init i = 0) : AllPos (Host.reduceAdd x init h' hu) := by
  intro j
  show IsPos (Ideal.hostReduceAdd h' x (init (Shape.Idx.first hu)) j)
  rw [Ideal.hostReduceAdd_single h' h, hi, zero_add]
  haveI : Nonempty (Fin (s.size a)) := ⟨⟨0, hn⟩⟩
  exact IsPos.sum _ Finset.univ_nonempty _ fun k _ => hx _

/-- The host's maximum along ONE non-empty axis of an array of reals, taken from minus infinity, is an array of reals. -/
theorem AllReal.hostReduceMax_single {a : Fin s.rank} {u : Shape} {x : FVec Ideal s φ} {init : u.Idx → Ideal φ}
    (h' : s.ReducesTo [a] t) (h : s.Reduces [a] t) (hu : 0 < u.numel) (hn : 0 < s.size a) (hx : AllReal x)
    (hi : ∀ i, init i = ⊥) : AllReal (Host.reduce FloatOps.maximumf x init h' hu) := by
  intro j
  rw [Host.reduce_eq_fold_single FloatOps.maximumf x init h' h hu j, hi]
  haveI : Nonempty (Fin (s.size a)) := ⟨⟨0, hn⟩⟩
  rcases fold_max_bot (Finset.univ : Finset (Fin (s.size a))) (x ∘ h.lift j) (fun k _ => hx _) with ⟨e, _⟩ | hr
  · exact absurd e Finset.univ_nonempty.ne_empty
  · exact hr

end Cert.LibRealHost

end
-- ==== Proof.Spec.lean ====
/-
  Batch statistics of the columns of a matrix, at the extended reals.

  For a matrix u with 50000 rows the tiled program keeps two column sums, s(q) = Σ_r u(r,q) and ss(q) = Σ_r u(r,q)²,
  and forms mean = s / n and var = ss / n − mean², where n is the float 50000. The reference forms the same mean and
  var = Σ_r (u(r,q) − mean)² / n. When every entry of the column is a real number the two variances are one number:
  Σ (x − μ)² = Σ x² − 2 μ Σ x + n μ² with μ = Σ x / n and n the number of rows. (At an infinite entry the two forms
  part: the law is used on real columns only.) In its second form the variance is a sum of squares over n, hence not
  negative; so var + ε is a positive real for the positive ε both programs add, its reciprocal square root is a real
  number, and the normalised, scaled, shifted and rectified entry max ((x − mean) · rsqrt (var + ε) · γ + β) 0 is a
  real number again: real-ness passes from one layer to the next.
-/
import Idealize.ShloMosaic.PureOps.Ideal
import Idealize.ShloMosaic.PureOps.Ideal.Laws
import Idealize.ShloMosaic.Lib.ValueIdx
import proofs.«173864_j70188355551324_1_alg».proof.Proof.LibRealClosed
import proofs.«173864_j70188355551324_1_alg».proof.Proof.LibRealHost

noncomputable section

open scoped BigOperators

namespace Cert.Gin

open Idealize.ShloMosaic Idealize.ShloMosaic.ValueIdx Cert.LibRealClosed Cert.LibRealHost

/-! ## The two float words -/

/-- The number of rows as the float word both programs divide by. -/
def cN : EReal := Ideal.ofBits .f32 0x47435000#32

/-- The word both programs add to the variance. -/
def cEps : EReal := Ideal.ofBits .f32 0x3727C5AC#32

/-- The divisor's word denotes the real 50000. -/
theorem cN_eq : cN = ((50000 : ℝ) : EReal) := by
  unfold cN
  simp [Ideal.ofBits, Ideal.ieee, -EReal.coe_mul]; norm_num

/-- The added word denotes a positive real (10995116 · 2⁻⁴⁰). -/
theorem cEps_pos : ∃ e : ℝ, 0 < e ∧ cEps = (e : EReal) := by
  refine ⟨(10995116 : ℝ) * (2 : ℝ) ^ (-40 : ℤ), by positivity, ?_⟩
  unfold cEps
  simp [Ideal.ofBits, Ideal.ieee, -EReal.coe_mul]

/-! ## The statistics -/

variable {M N : ℕ}

/-- The sum down column q. -/
def colSum (u : FVec Ideal ⟨2, ![M, N]⟩ .f32) (q : Fin N) : EReal := ∑ r : Fin M, (u (ix2 r q) : EReal)

/-- The sum of the squares down column q. -/
def colSumSq (u : FVec Ideal ⟨2, ![M, N]⟩ .f32) (q : Fin N) : EReal :=
  ∑ r : Fin M, (u (ix2 r q) : EReal) * (u (ix2 r q) : EReal)

/-- The mean from the column sum. -/
def meanK (s : EReal) : EReal := Ideal.div s cN

/-- The variance from the two column sums: the mean of the squares less the square of the mean. -/
def varK (s ss : EReal) : EReal := Ideal.div ss cN - meanK s * meanK s

/-- The variance as the mean of the squared deviations from the mean. -/
def varR {ι : Type*} [Fintype ι] (x : ι → EReal) : EReal :=
  Ideal.div (∑ r, (x r - meanK (∑ r, x r)) * (x r - meanK (∑ r, x r))) cN

/-- One entry normalised, scaled, shifted and rectified. -/
def bnRelu (x mean var g b : EReal) : EReal := max ((x - mean) * Ideal.rsqrt (var + cEps) * g + b) 0

/-! ## The variance law -/

/-- The extended-real image of a finite real sum. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real number over the divisor. -/
theorem div_cN_coe (x : ℝ) : Ideal.div (x : EReal) cN = ((x / 50000 : ℝ) : EReal) := by
  rw [cN_eq, Ideal.div_coe (by norm_num), ← EReal.coe_mul]
  congr 1; ring

/-- Over the reals, with n = 50000 the number of terms: Σ (x − S/n)² / n = Σ x² / n − (S/n)². -/
theorem var_real (x : Fin 50000 → ℝ) :
    (∑ r, (x r - (∑ r, x r) / 50000) * (x r - (∑ r, x r) / 50000)) / 50000
      = (∑ r, x r * x r) / 50000 - ((∑ r, x r) / 50000) * ((∑ r, x r) / 50000) := by
  generalize hS : ∑ r, x r = S
  have h : ∑ r, (x r - S / 50000) * (x r - S / 50000)
      = (∑ r, x r * x r) - 2 * (S / 50000) * S + 50000 * ((S / 50000) * (S / 50000)) := by
    have e : ∀ r, (x r - S / 50000) * (x r - S / 50000)
        = x r * x r - 2 * (S / 50000) * x r + (S / 50000) * (S / 50000) := fun r => by ring
    simp only [e, Finset.sum_add_distrib, Finset.sum_sub_distrib, ← Finset.mul_sum, hS, Finset.sum_const,
      Finset.card_univ, Fintype.card_fin, nsmul_eq_mul]
    push_cast; ring
  rw [h]; field_simp; ring

/-- On a column of real numbers the two variances agree. -/
theorem varR_eq_varK (x : Fin 50000 → EReal) (hx : ∀ r, IsReal (x r)) :
    varR x = varK (∑ r, x r) (∑ r, x r * x r) := by
  choose y hy using hx
  obtain rfl : x = fun r => ((y r : ℝ) : EReal) := funext hy
  unfold varR varK meanK
  simp only [← coe_sum, ← EReal.coe_mul, div_cN_coe, ← EReal.coe_sub]
  rw [var_real]

/-- On a column of real numbers the variance is a real number that is not negative. -/
theorem varR_nonneg (x : Fin 50000 → EReal) (hx : ∀ r, IsReal (x r)) : ∃ v : ℝ, 0 ≤ v ∧ varR x = (v : EReal) := by
  choose y hy using hx
  obtain rfl : x = fun r => ((y r : ℝ) : EReal) := funext hy
  refine ⟨(∑ r, (y r - (∑ r, y r) / 50000) * (y r - (∑ r, y r) / 50000)) / 50000, ?_, ?_⟩
  · exact div_nonneg (Finset.sum_nonneg fun r _ => mul_self_nonneg _) (by norm_num)
  · unfold varR meanK
    simp only [← coe_sum, ← EReal.coe_mul, div_cN_coe, ← EReal.coe_sub]

/-! ## Real-ness of the statistics and of a normalised entry -/

theorem isReal_meanK {s : EReal} (h : IsReal s) : IsReal (meanK s) := by
  obtain ⟨r, rfl⟩ := h
  exact ⟨_, div_cN_coe r⟩

/-- The reciprocal square root of a positive real is a real number. -/
theorem isReal_rsqrt_pos {r : ℝ} (h : 0 < r) : IsReal (Ideal.rsqrt (r : EReal)) := by
  refine ⟨(Real.sqrt r)⁻¹, ?_⟩
  show (if r < 0 then (⊥ : EReal) else if r = 0 then ⊤ else (((Real.sqrt r)⁻¹ : ℝ) : EReal)) = _
  rw [if_neg (not_lt.mpr h.le), if_neg h.ne']

/-- A normalised entry is a real number when its ingredients are and the variance is not negative. -/
theorem isReal_bnRelu {x mean var g b : EReal} (hx : IsReal x) (hm : IsReal mean)
    (hv : ∃ v : ℝ, 0 ≤ v ∧ var = (v : EReal)) (hg : IsReal g) (hb : IsReal b) : IsReal (bnRelu x mean var g b) := by
  obtain ⟨v, hv0, rfl⟩ := hv
  obtain ⟨e, he, hE⟩ := cEps_pos
  unfold bnRelu
  rw [hE, ← EReal.coe_add]
  exact isReal_max (((hx.sub hm).mul (isReal_rsqrt_pos (by positivity))).mul hg |>.add hb) IsReal.zero

end Cert.Gin

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibBiasRows.lean ====
/-
  The bias stages of a graph convolution layer, as functions of whole arrays on the extended reals.

    biasRelu X B = max (X + B) 0     (entry (r,q): max (X(r,q) + B(0,q)) 0)
    biasOnly X B = X + B             (entry (r,q): X(r,q) + B(0,q))

  with the bias held as one row B of shape [1,N]. Each treats the rows of X independently, so a tiled program that
  runs it on a block of rows gets that block of rows of the result (`biasRelu_rows`, `biasOnly_rows`). The host
  spells the same functions with broadcasts (`hostBiasRelu`, `hostBiasOnly`), and makes the row from a bias vector
  either by a reshape or by a broadcast along the columns, the same row (`castRow_eq`). Nothing of real arithmetic
  is used, so every statement holds at the infinities too.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws

noncomputable section

namespace Cert.LibBiasRows

open Idealize.ShloMosaic Idealize.ShloMosaic.ValueIdx

variable {M m N : Nat}

/-- The float zero the rectifier compares with. -/
abbrev zero32 : Ideal .f32 := Ideal.ofBits .f32 0x00000000#32

/-- A bias row added to every row, then the maximum with zero. -/
def biasRelu (X : FVec Ideal ⟨2, ![M, N]⟩ .f32) (B : FVec Ideal ⟨2, ![1, N]⟩ .f32) : FVec Ideal ⟨2, ![M, N]⟩ .f32 :=
  fun i => max (X i + B (ix2 (0 : Fin 1) ⟨(i 1).val, (i 1).isLt⟩)) zero32

/-- A bias row added to every row. -/
def biasOnly (X : FVec Ideal ⟨2, ![M, N]⟩ .f32) (B : FVec Ideal ⟨2, ![1, N]⟩ .f32) : FVec Ideal ⟨2, ![M, N]⟩ .f32 :=
  fun i => X i + B (ix2 (0 : Fin 1) ⟨(i 1).val, (i 1).isLt⟩)

theorem biasRelu_ix2 (X : FVec Ideal ⟨2, ![M, N]⟩ .f32) (B : FVec Ideal ⟨2, ![1, N]⟩ .f32) (r : Fin M) (q : Fin N) :
    biasRelu X B (ix2 r q) = max (X (ix2 r q) + B (ix2 (0 : Fin 1) q)) zero32 := rfl

theorem biasOnly_ix2 (X : FVec Ideal ⟨2, ![M, N]⟩ .f32) (B : FVec Ideal ⟨2, ![1, N]⟩ .f32) (r : Fin M) (q : Fin N) :
    biasOnly X B (ix2 r q) = X (ix2 r q) + B (ix2 (0 : Fin 1) q) := rfl

/-! ## A block of rows -/

/-- Bias and rectifier on a block of rows, through the identity casts and the row broadcast a tiled program prints,
    is that block of rows of `biasRelu`. -/
theorem biasRelu_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    maximumf (addf (shapeCast ⟨2, ![m, N]⟩ A hs) (broadcastTo ⟨2, ![m, N]⟩ (shapeCast ⟨2, ![1, N]⟩ B hs') hbc))
        (broadcast ⟨2, ![m, N]⟩ (Scalar.ofBits (F := Ideal) .f32 0x00000000#32)) j
      = biasRelu X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasRelu_ix2, maximumf_apply, addf_apply, broadcast_apply, shapeCast_self, broadcastTo_1b_ab_apply, shapeCast_self, hA, hB]
  rfl

/-- A bias on a block of rows, through the same casts and broadcast, is that block of rows of `biasOnly`. -/
theorem biasOnly_rows (row : Fin m → Fin M) (X : FVec Ideal ⟨2, ![M, N]⟩ .f32) (Bw : FVec Ideal ⟨2, ![1, N]⟩ .f32)
    (A : FVec Ideal ⟨2, ![m, N]⟩ .f32) (B : FVec Ideal ⟨2, ![1, N]⟩ .f32)
    (hA : ∀ r q, A (ix2 r q) = X (ix2 (row r) q)) (hB : ∀ q, B (ix2 (0 : Fin 1) q) = Bw (ix2 (0 : Fin 1) q))
    (hs : (⟨2, ![m, N]⟩ : Shape).ShapeCasts ⟨2, ![m, N]⟩) (hs' : (⟨2, ![1, N]⟩ : Shape).ShapeCasts ⟨2, ![1, N]⟩)
    (hbc : (⟨2, ![1, N]⟩ : Shape).Broadcasts ⟨2, ![m, N]⟩)
    (j : (⟨2, ![m, N]⟩ : Shape).Idx) (i : (⟨2, ![M, N]⟩ : Shape).Idx)
    (h0 : (i 0).val = (row (j 0)).val) (h1 : (i 1).val = (j 1).val) :
    addf (shapeCast ⟨2, ![m, N]⟩ A hs) (broadcastTo ⟨2, ![m, N]⟩ (shapeCast ⟨2, ![1, N]⟩ B hs') hbc) j
      = biasOnly X Bw i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  rw [biasOnly_ix2, addf_apply, shapeCast_self, broadcastTo_1b_ab_apply, shapeCast_self, hA, hB]

/-! ## The host's spelling -/

/-- A row [1,N] broadcast over the rows of [M,N] reads, at (r,q), the row at q. -/
theorem rowBcast_apply (B : FVec Ideal ⟨2, ![1, N]⟩ .f32)
    (h : (⟨2, ![1, N]⟩ : Shape).BroadcastsInDim ⟨2, ![M, N]⟩ (![0, 1] : Fin 2 → Fin 2)) (r : Fin M) (q : Fin N) :
    broadcastInDim ⟨2, ![M, N]⟩ ![0, 1] h B (ix2 r q) = B (ix2 (0 : Fin 1) q) := by
  refine broadcastInDim_apply (![0, 1] : Fin 2 → Fin 2) h B (ix2 r q) (ix2 (0 : Fin 1) q) fun ax => ?_
  match ax with
  | ⟨0, _⟩ => rfl
  | ⟨1, _⟩ =>
    show q.val = if N = 1 then 0 else q.val
    split
    · have := q.isLt; omega
    · rfl

/-- The float zero splat to any shape reads zero everywhere. -/
theorem zeroSplat_apply {s : Shape} (h : (⟨0, ![]⟩ : Shape).BroadcastsInDim s (![] : Fin 0 → Fin s.rank)) (i : s.Idx) :
    broadcastInDim s ![] h (constant (F := Ideal) ⟨0, ![]⟩ .f32 0x00000000#32) i = zero32 := by
  rw [broadcastInDim_apply (![] : Fin 0 → Fin s.rank) h _ i ix0 (fun a => a.elim0)]
  rfl

/-- The host's `max (X + broadcast B) (splat 0)` is `biasRelu`. -/
theorem hostBiasRelu (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) :
    maximumf (addf X (broadcastInDim ⟨2, ![M, N]⟩ ![0, 1] h B))
        (broadcastInDim ⟨2, ![M, N]⟩ ![] h0 (constant (F := Ideal) ⟨0, ![]⟩ .f32 0x00000000#32))
      = biasRelu X B := by
  funext i
  obtain ⟨r, q, rfl⟩ : ∃ (r : Fin M) (q : Fin N), i = ix2 r q := ⟨i 0, i 1, eq_ix2 i⟩
  rw [biasRelu_ix2, maximumf_apply, addf_apply, rowBcast_apply, zeroSplat_apply]

/-- The host's `X + broadcast B` is `biasOnly`. -/
theorem hostBiasOnly (X : FVec Ideal ⟨2, ![M, N]⟩ .f32) (B : FVec Ideal ⟨2, ![1, N]⟩ .f32)
    (h : (⟨2, ![1, N]⟩ : Shape).BroadcastsInDim ⟨2, ![M, N]⟩ (![0, 1] : Fin 2 → Fin 2)) :
    addf X (broadcastInDim ⟨2, ![M, N]⟩ ![0, 1] h B) = biasOnly X B := by
  funext i
  obtain ⟨r, q, rfl⟩ : ∃ (r : Fin M) (q : Fin N), i = ix2 r q := ⟨i 0, i 1, eq_ix2 i⟩
  rw [biasOnly_ix2, addf_apply, rowBcast_apply]

/-- A vector reshaped to one row and the same vector broadcast along the columns of a one-row matrix are the same
    row. -/
theorem castRow_eq (b : FVec Ideal ⟨1, ![N]⟩ .f32) (hc : (⟨1, ![N]⟩ : Shape).ShapeCasts ⟨2, ![1, N]⟩)
    (hb : (⟨1, ![N]⟩ : Shape).BroadcastsInDim ⟨2, ![1, N]⟩ (![1] : Fin 1 → Fin 2)) :
    shapeCast ⟨2, ![1, N]⟩ b hc = broadcastInDim ⟨2, ![1, N]⟩ ![1] hb b := by
  funext j
  obtain ⟨u, q, rfl⟩ : ∃ (u : Fin 1) (q : Fin N), j = ix2 u q := ⟨j 0, j 1, eq_ix2 j⟩
  rw [shapeCast_a_1a_apply]
  refine (broadcastInDim_apply (![1] : Fin 1 → Fin 2) hb b (ix2 u q) (ix1 q) fun ax => ?_).symm
  match ax with
  | ⟨0, _⟩ =>
    show q.val = if N = 1 then 0 else q.val
    split
    · have := q.isLt; omega
    · rfl

end Cert.LibBiasRows

end
-- ==== Proof.LibMlpRows.lean ====
/-
  A perceptron stage on a block of rows, at the extended reals.

    dense stage with rectifier:   max (U·W + B) 0
    dense stage without:          U·W + B
    two stages with a residual:   mlp A X W₁ B₁ W₂ B₂ = max ((max ((A + X)·W₁ + B₁) 0)·W₂ + B₂) 0
    output projection:            proj X W B = X·W + B

  with each bias held as one row [1,N] that is added to every row. Row r of any of these depends on row r of the
  left factor alone. So a tiled program that runs the stage on a block of rows (any choice of rows, given by a map
  `row` from the block's row numbers to the matrix's), through the identity casts, the row broadcast, the narrowing
  of the left factor's format and the product accumulated into a zero block that such a program prints, gets that
  block of rows of the whole-array function (`denseRelu_rows`, `denseBias_rows`, `mlp_rows`, `proj_rows`). The
  host spells the same functions with `dot_general` and `broadcast_in_dim`, making the bias row from a bias vector
  by a broadcast where the tiled program's caller reshapes it (`hostDenseRelu`, `hostDenseBias`), and a right factor
  narrowed to another float format is the same factor (`dot_truncf_rhs`). Nothing of real arithmetic is used beyond
  0 + x = x, so every statement holds at the infinities too. Generic in all extents and in the factors' formats.
-/
import proofs.«173864_j70188355551324_1_alg».proof.Proof.LibRowBlockDot
import proofs.«173864_j70188355551324_1_alg».proof.Proof.LibBiasRows

noncomputable section

namespace Cert.LibMlpRows

open Idealize.ShloMosaic Idealize.ShloMosaic.ValueIdx Cert.LibRowBlockDot Cert.LibBiasRows

variable {M m K H N : Nat} {φ φ₁ φ₂ ψ ψ₁ ψ₂ : FTy}

/-! ## The whole-array functions -/

/-- Two dense stages with bias rows and rectifiers, on the sum of an aggregate and the features. -/
def mlp (A X : FVec Ideal ⟨2, ![M, K]⟩ .f32) (W1 : FVec Ideal ⟨2, ![K, H]⟩ φ₁) (B1 : FVec Ideal ⟨2, ![1, H]⟩ .f32)
    (W2 : FVec Ideal ⟨2, ![H, N]⟩ φ₂) (B2 : FVec Ideal ⟨2, ![1, N]⟩ .f32) : FVec Ideal ⟨2, ![M, N]⟩ .f32 :=
  biasRelu (Host.dotGeneral (DotDims.plain M H N) none
    (biasRelu (Host.dotGeneral (DotDims.plain M K H) none (addf A X) W1) B1) W2) B2

/-- One dense stage with a bias row and no rectifier. -/
def proj (X : FVec Ideal ⟨2, ![M, K]⟩ φ₁) (W : FVec Ideal ⟨2, ![K, N]⟩ φ₂) (B : FVec Ideal ⟨2, ![1, N]⟩ .f32) :
    FVec Ideal ⟨2, ![M, N]⟩ .f32 :=
  biasOnly (Host.dotGeneral (DotDims.plain M K N) none X W) B

/-! ## One stage on a block of rows -/

/-- A dense stage with rectifier on a block of rows `u` of `U` is that block of rows of the whole stage. -/
theorem denseRelu_rows (row : Fin m → Fin M) (U : FVec Ideal ⟨2, ![M, K]⟩ φ₁) (W : FVec Ideal ⟨2, ![K, N]⟩ φ₂)
    (B : FVec Ideal ⟨2, ![1, N]⟩ .f32) (u : FVec Ideal ⟨2, ![m, K]⟩ ψ₁) (w : FVec Ideal ⟨2, ![K, N]⟩ ψ₂)
    (b : FVec Ideal ⟨2, ![1, N]⟩ .f32)
    (hu : ∀ r c, u (ix2 r c) = U (ix2 (row r) c)) (hw : ∀ c q, w (ix2 c q) = W (ix2 c q))
    (hb : ∀ q, b (ix2 (0 : Fin 1) q) = B (ix2 (0 : Fin 1) q))
    (hsw : (⟨2, ![K, N]⟩ : Shape).ShapeCasts ⟨2, ![K, N]⟩) (hsb : (⟨2, ![1, N]⟩ : Shape).ShapeCasts ⟨2, ![1, N]⟩)
    (hbc : (⟨2, ![1, N]⟩ : Shape).Broadcasts ⟨2, ![m, N]⟩) (r : Fin m) (q : Fin N) :
    maximumf (addf (matmul (DotDims.plain m K N) none u (shapeCast ⟨2, ![K, N]⟩ w hsw)
          (constant (F := Ideal) ⟨2, ![m, N]⟩ .f32 0x00000000#32))
        (broadcastTo ⟨2, ![m, N]⟩ (shapeCast ⟨2, ![1, N]⟩ b hsb) hbc))
      (broadcast ⟨2, ![m, N]⟩ (Scalar.ofBits (F := Ideal) .f32 0x00000000#32)) (ix2 r q)
      = biasRelu (Host.dotGeneral (DotDims.plain M K N) none U W) B (ix2 (row r) q) := by
  rw [biasRelu_ix2, maximumf_apply, addf_apply, broadcast_apply, broadcastTo_1b_ab_apply, shapeCast_self b hsb, hb,
    matmul_rowBlock_apply none none U W u (shapeCast ⟨2, ![K, N]⟩ w hsw) row hu
      (fun c q => by rw [shapeCast_self, hw]) r q]
  rfl

/-- A dense stage without rectifier on a block of rows `u` of `U` is that block of rows of the whole stage. -/
theorem denseBias_rows (row : Fin m → Fin M) (U : FVec Ideal ⟨2, ![M, K]⟩ φ₁) (W : FVec Ideal ⟨2, ![K, N]⟩ φ₂)
    (B : FVec Ideal ⟨2, ![1, N]⟩ .f32) (u : FVec Ideal ⟨2, ![m, K]⟩ ψ₁) (w : FVec Ideal ⟨2, ![K, N]⟩ ψ₂)
    (b : FVec Ideal ⟨2, ![1, N]⟩ .f32)
    (hu : ∀ r c, u (ix2 r c) = U (ix2 (row r) c)) (hw : ∀ c q, w (ix2 c q) = W (ix2 c q))
    (hb : ∀ q, b (ix2 (0 : Fin 1) q) = B (ix2 (0 : Fin 1) q))
    (hsw : (⟨2, ![K, N]⟩ : Shape).ShapeCasts ⟨2, ![K, N]⟩) (hsb : (⟨2, ![1, N]⟩ : Shape).ShapeCasts ⟨2, ![1, N]⟩)
    (hbc : (⟨2, ![1, N]⟩ : Shape).Broadcasts ⟨2, ![m, N]⟩) (r : Fin m) (q : Fin N) :
    addf (matmul (DotDims.plain m K N) none u (shapeCast ⟨2, ![K, N]⟩ w hsw)
          (constant (F := Ideal) ⟨2, ![m, N]⟩ .f32 0x00000000#32))
        (broadcastTo ⟨2, ![m, N]⟩ (shapeCast ⟨2, ![1, N]⟩ b hsb) hbc) (ix2 r q)
      = biasOnly (Host.dotGeneral (DotDims.plain M K N) none U W) B (ix2 (row r) q) := by
  rw [biasOnly_ix2, addf_apply, broadcastTo_1b_ab_apply, shapeCast_self b hsb, hb,
    matmul_rowBlock_apply none none U W u (shapeCast ⟨2, ![K, N]⟩ w hsw) row hu
      (fun c q => by rw [shapeCast_self, hw]) r q]

/-! ## The two-stage block and the projection block -/

/-- The two dense stages and their rectifiers on a block of rows, the left factor of each product narrowed to bf16
    first, applied to a block `s` whose entries are those rows of the residual sum `A + X`, is that block of rows of
    `mlp`. -/
theorem mlp_rows (row : Fin m → Fin M)
    (A X : FVec Ideal ⟨2, ![M, K]⟩ .f32) (W1 : FVec Ideal ⟨2, ![K, H]⟩ φ₁) (B1 : FVec Ideal ⟨2, ![1, H]⟩ .f32)
    (W2 : FVec Ideal ⟨2, ![H, N]⟩ φ₂) (B2 : FVec Ideal ⟨2, ![1, N]⟩ .f32)
    (s : FVec Ideal ⟨2, ![m, K]⟩ .f32) (w1 : FVec Ideal ⟨2, ![K, H]⟩ ψ₁) (b1 : FVec Ideal ⟨2, ![1, H]⟩ .f32)
    (w2 : FVec Ideal ⟨2, ![H, N]⟩ ψ₂) (b2 : FVec Ideal ⟨2, ![1, N]⟩ .f32)
    (hs : ∀ r c, s (ix2 r c) = addf A X (ix2 (row r) c))
    (hw1 : ∀ c q, w1 (ix2 c q) = W1 (ix2 c q)) (hb1 : ∀ q, b1 (ix2 (0 : Fin 1) q) = B1 (ix2 (0 : Fin 1) q))
    (hw2 : ∀ c q, w2 (ix2 c q) = W2 (ix2 c q)) (hb2 : ∀ q, b2 (ix2 (0 : Fin 1) q) = B2 (ix2 (0 : Fin 1) q))
    (hsw1 : (⟨2, ![K, H]⟩ : Shape).ShapeCasts ⟨2, ![K, H]⟩) (hsb1 : (⟨2, ![1, H]⟩ : Shape).ShapeCasts ⟨2, ![1, H]⟩)
    (hbc1 : (⟨2, ![1, H]⟩ : Shape).Broadcasts ⟨2, ![m, H]⟩)
    (hsw2 : (⟨2, ![H, N]⟩ : Shape).ShapeCasts ⟨2, ![H, N]⟩) (hsb2 : (⟨2, ![1, N]⟩ : Shape).ShapeCasts ⟨2, ![1, N]⟩)
    (hbc2 : (⟨2, ![1, N]⟩ : Shape).Broadcasts ⟨2, ![m, N]⟩)
    (hlt : FTy.bf16.bits < FTy.f32.bits)
    (j : (⟨2, ![m, N]⟩ : Shape).Idx) (i : (⟨2, ![M, N]⟩ : Shape).Idx)
    (h0 : (i 0).val = (row (j 0)).val) (h1 : (i 1).val = (j 1).val) :
    maximumf (addf (matmul (DotDims.plain m H N) none
          (truncf .bf16 (maximumf (addf (matmul (DotDims.plain m K H) none
                (truncf .bf16 s hlt) (shapeCast ⟨2, ![K, H]⟩ w1 hsw1)
                (constant (F := Ideal) ⟨2, ![m, H]⟩ .f32 0x00000000#32))
              (broadcastTo ⟨2, ![m, H]⟩ (shapeCast ⟨2, ![1, H]⟩ b1 hsb1) hbc1))
            (broadcast ⟨2, ![m, H]⟩ (Scalar.ofBits (F := Ideal) .f32 0x00000000#32))) hlt)
          (shapeCast ⟨2, ![H, N]⟩ w2 hsw2) (constant (F := Ideal) ⟨2, ![m, N]⟩ .f32 0x00000000#32))
        (broadcastTo ⟨2, ![m, N]⟩ (shapeCast ⟨2, ![1, N]⟩ b2 hsb2) hbc2))
      (broadcast ⟨2, ![m, N]⟩ (Scalar.ofBits (F := Ideal) .f32 0x00000000#32)) j
      = mlp A X W1 B1 W2 B2 i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  exact denseRelu_rows row _ W2 B2 _ w2 b2
    (fun r c => (truncf_apply _ hlt (ix2 r c)).trans
      (denseRelu_rows row (addf A X) W1 B1 _ w1 b1
        (fun r c => (truncf_apply s hlt (ix2 r c)).trans (hs r c))
        hw1 hb1 hsw1 hsb1 hbc1 r c))
    hw2 hb2 hsw2 hsb2 hbc2 p q

/-- The output projection on a block of rows, its left factor narrowed to bf16 first, is that block of rows of
    `proj`. -/
theorem proj_rows (row : Fin m → Fin M)
    (X : FVec Ideal ⟨2, ![M, K]⟩ .f32) (W : FVec Ideal ⟨2, ![K, N]⟩ φ₂) (B : FVec Ideal ⟨2, ![1, N]⟩ .f32)
    (x : FVec Ideal ⟨2, ![m, K]⟩ .f32) (w : FVec Ideal ⟨2, ![K, N]⟩ ψ₂) (b : FVec Ideal ⟨2, ![1, N]⟩ .f32)
    (hx : ∀ r c, x (ix2 r c) = X (ix2 (row r) c))
    (hw : ∀ c q, w (ix2 c q) = W (ix2 c q)) (hb : ∀ q, b (ix2 (0 : Fin 1) q) = B (ix2 (0 : Fin 1) q))
    (hsx : (⟨2, ![m, K]⟩ : Shape).ShapeCasts ⟨2, ![m, K]⟩)
    (hsw : (⟨2, ![K, N]⟩ : Shape).ShapeCasts ⟨2, ![K, N]⟩) (hsb : (⟨2, ![1, N]⟩ : Shape).ShapeCasts ⟨2, ![1, N]⟩)
    (hbc : (⟨2, ![1, N]⟩ : Shape).Broadcasts ⟨2, ![m, N]⟩)
    (hlt : FTy.bf16.bits < FTy.f32.bits)
    (j : (⟨2, ![m, N]⟩ : Shape).Idx) (i : (⟨2, ![M, N]⟩ : Shape).Idx)
    (h0 : (i 0).val = (row (j 0)).val) (h1 : (i 1).val = (j 1).val) :
    addf (matmul (DotDims.plain m K N) none (truncf .bf16 (shapeCast ⟨2, ![m, K]⟩ x hsx) hlt)
          (shapeCast ⟨2, ![K, N]⟩ w hsw) (constant (F := Ideal) ⟨2, ![m, N]⟩ .f32 0x00000000#32))
        (broadcastTo ⟨2, ![m, N]⟩ (shapeCast ⟨2, ![1, N]⟩ b hsb) hbc) j
      = proj X W B i := by
  obtain ⟨p, q, rfl⟩ : ∃ (p : Fin m) (q : Fin N), j = ix2 p q := ⟨j 0, j 1, eq_ix2 j⟩
  obtain rfl : i = ix2 (row p) q := by
    rw [eq_ix2 i]; exact congrArg₂ ix2 (Fin.ext h0) (Fin.ext h1)
  exact denseBias_rows row X W B _ w b
    (fun r c => by rw [truncf_apply, shapeCast_self, hx]) hw hb hsw hsb hbc p q

/-! ## The host's spelling -/

/-- A right factor narrowed to bf16 is the same factor. -/
theorem dot_truncf_rhs (prec prec' : Option ContractPrecision) (U : FVec Ideal ⟨2, ![M, K]⟩ φ₁)
    (W : FVec Ideal ⟨2, ![K, N]⟩ .f32) (hlt : FTy.bf16.bits < FTy.f32.bits) :
    Host.dotGeneral (DotDims.plain M K N) prec U (truncf .bf16 W hlt) = Host.dotGeneral (DotDims.plain M K N) prec' U W := by
  funext i
  obtain ⟨r, q, rfl⟩ : ∃ (r : Fin M) (q : Fin N), i = ix2 r q := ⟨i 0, i 1, eq_ix2 i⟩
  rw [StackMember.dotGeneral_plain_apply, StackMember.dotGeneral_plain_apply]
  rfl

/-- The host's dense stage with rectifier, its bias a vector broadcast to a row and then over the rows, is the
    stage with the bias vector reshaped to a row. -/
theorem hostDenseRelu (Y : FVec Ideal ⟨2, ![M, N]⟩ .f32) (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hz : (⟨0, ![]⟩ : Shape).BroadcastsInDim ⟨2, ![M, N]⟩ (![] : Fin 0 → Fin 2))
    (hc : (⟨1, ![N]⟩ : Shape).ShapeCasts ⟨2, ![1, N]⟩) :
    maximumf (addf Y (broadcastInDim ⟨2, ![M, N]⟩ ![0, 1] h2 (broadcastInDim ⟨2, ![1, N]⟩ ![1] h1 bv)))
        (broadcastInDim ⟨2, ![M, N]⟩ ![] hz (constant (F := Ideal) ⟨0, ![]⟩ .f32 0x00000000#32))
      = biasRelu Y (shapeCast ⟨2, ![1, N]⟩ bv hc) := by
  rw [hostBiasRelu, castRow_eq bv hc h1]

/-- The host's dense stage without rectifier, its bias a vector broadcast to a row and then over the rows. -/
theorem hostDenseBias (Y : FVec Ideal ⟨2, ![M, N]⟩ .f32) (bv : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (hc : (⟨1, ![N]⟩ : Shape).ShapeCasts ⟨2, ![1, N]⟩) :
    addf Y (broadcastInDim ⟨2, ![M, N]⟩ ![0, 1] h2 (broadcastInDim ⟨2, ![1, N]⟩ ![1] h1 bv))
      = biasOnly Y (shapeCast ⟨2, ![1, N]⟩ bv hc) := by
  rw [hostBiasOnly, castRow_eq bv hc h1]

end Cert.LibMlpRows

end
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibRowForms.lean ====
/-
  Three reads at an index beside the library's layout lemmas, at any extents.

  A sum DOWN the columns of an `[a, b]` array (a reduction along its first axis) at column `c` runs over `k ↦ (k, c)`.
  A unit-stride slice of a matrix with an offset on BOTH axes (a diagonal block), or of a vector, reads its operand at
  the index moved by the offsets. A matrix `[a, b]` flattened to a row `[1, n]` reads, at position `k = p·b + q`, the
  matrix at `(p, q)`. The indices are written by coordinates, so each lemma applies to a printed operation by
  unification.
-/
import Idealize.ShloMosaic.Lib.ValueLayout
import Idealize.ShloMosaic.PureOps.Ideal.Laws

namespace Idealize.ShloMosaic.ValueIdx

open Idealize.ShloMosaic

variable {α : Type}

/-- Over a reduction of `[a, b]` along its FIRST axis, the source index above column `c` with `k` on the dropped axis is `(k, c)`. -/
theorem lift_col {a b : ℕ} (h : (⟨2, ![a, b]⟩ : Shape).Reduces [(0 : Fin 2)] ⟨1, ![b]⟩) (c : Fin b) (k : Fin a) :
    h.lift (ix1 c) k = ix2 k c :=
  funext fun d => Fin.ext (by match d with | ⟨0, _⟩ => rfl | ⟨1, _⟩ => rfl)

variable {φ : FTy}

/-- A sum down the columns of an `[a, b]` array at column `c`, at the exact values: the sum over the column. -/
theorem multiReduction_add_col {a b : ℕ} (src : FVec Ideal ⟨2, ![a, b]⟩ φ) (acc : BitVec φ.bits)
    (h : (⟨2, ![a, b]⟩ : Shape).Reduces [(0 : Fin 2)] ⟨1, ![b]⟩) (hφ : FKind.Formats φ) (hacc : acc = FKind.add.neutral φ hφ) (c : Fin b) :
    multiReduction .add [(0 : Fin 2)] ⟨1, ![b]⟩ src acc h hφ hacc (ix1 c) = ∑ k : Fin a, src (ix2 k c) := by
  refine (Ideal.multiReduction_add_single src acc h hφ hacc (ix1 c)).trans ?_
  exact Finset.sum_congr rfl fun k _ => congrArg src (lift_col h c k)

/-- A unit-stride slice of a matrix reads the matrix at the index moved by the offsets. -/
theorem slice2_apply {A B a b : ℕ} (o0 o1 : ℕ) (x : (⟨2, ![A, B]⟩ : Shape).Idx → α)
    (h : (⟨2, ![A, B]⟩ : Shape).Slices ![o0, o1] ⟨2, ![a, b]⟩) (p : Fin a) (q : Fin b) (P : Fin A) (Q : Fin B)
    (hP : P.val = o0 + p.val) (hQ : Q.val = o1 + q.val) :
    extractStridedSlice ⟨2, ![a, b]⟩ ![o0, o1] x h (ix2 p q) = x (ix2 P Q) :=
  extractStridedSlice_apply ![o0, o1] x h (ix2 p q) (ix2 P Q) fun ax => by
    match ax with
    | ⟨0, _⟩ => exact hP
    | ⟨1, _⟩ => exact hQ

/-- A unit-stride slice of a vector reads the vector at the index moved by the offset. -/
theorem slice1_apply {A a : ℕ} (o : ℕ) (x : (⟨1, ![A]⟩ : Shape).Idx → α)
    (h : (⟨1, ![A]⟩ : Shape).Slices ![o] ⟨1, ![a]⟩) (p : Fin a) (P : Fin A) (hP : P.val = o + p.val) :
    extractStridedSlice ⟨1, ![a]⟩ ![o] x h (ix1 p) = x (ix1 P) :=
  extractStridedSlice_apply ![o] x h (ix1 p) (ix1 P) fun ax => by
    match ax with
    | ⟨0, _⟩ => exact hP

/-- A matrix `[a, b]` flattened to the row `[1, a·b]` reads, at `(u, k)`, the matrix at `(k / b, k % b)`. -/
theorem shapeCast_ab_1n_apply {a b n : ℕ} (v : (⟨2, ![a, b]⟩ : Shape).Idx → α) (h : (⟨2, ![a, b]⟩ : Shape).ShapeCasts ⟨2, ![1, n]⟩)
    (u : Fin 1) (k : Fin n) (p : Fin a) (q : Fin b) (hk : k.val = p.val * b + q.val) :
    shapeCast ⟨2, ![1, n]⟩ v h (ix2 u k) = v (ix2 p q) :=
  shapeCast_apply v h _ _ (by
    have hu : u.val = 0 := by omega
    rw [Shape.rowMajor_val_two, Shape.rowMajor_val_two]
    show p.val * b + q.val = u.val * n + k.val
    rw [hu, hk, Nat.zero_mul, Nat.zero_add])

end Idealize.ShloMosaic.ValueIdx
-- ==== Proof.RefRead.lean ====
/-
  The reference's stages read in the shared mathematical form.

  The two dense stages of a layer are the two-stage perceptron with the bias vectors reshaped to rows. At column q the
  reference's mean is the column sum over the row count; its variance is the sum of the squared deviations from that
  mean over the row count (the guard on the divisor holds, the degrees-of-freedom correction being zero); and its
  normalised, scaled, shifted and rectified entry at (r, q) is the scalar formula on the entry and the column's four
  numbers.
-/
import proofs.«173864_j70188355551324_1_alg».proof.Proof.RefTerm
import proofs.«173864_j70188355551324_1_alg».proof.Proof.Spec
import proofs.«173864_j70188355551324_1_alg».proof.Proof.LibMlpRows
import proofs.«173864_j70188355551324_1_alg».proof.Proof.LibHostReads
import proofs.«173864_j70188355551324_1_alg».proof.Proof.LibRowForms
import Idealize.ShloMosaic.Lib.IdealHost
import Idealize.ShloMosaic.PureOps.Ideal.Laws
import Idealize.ShloMosaic.Lib.ValueIdx

noncomputable section

open scoped BigOperators

namespace Cert.ReferenceIdeal.RefRead

open Idealize.ShloMosaic Idealize.ShloMosaic.ValueIdx Cert.ReferenceIdeal.RefTerm

variable [Facts]
open Facts₀ Facts

/-! ## Reads of the small pieces -/

/-- A vector [64] made a row [1,64] reads, at (0, q), the vector at q. -/
theorem rowVec_apply (b : FVec Ideal S64 .f32) (q : Fin 64) :
    broadcastInDim S1x64 ![1] bcast_S64_S1x64_1 b (ix2 (0 : Fin 1) q) = b (ix1 q) :=
  broadcastInDim_apply _ bcast_S64_S1x64_1 b (ix2 (0 : Fin 1) q) (ix1 q) (fun a => match a with
    | ⟨0, _⟩ => by show q.val = if (64 : Nat) = 1 then 0 else q.val; rw [if_neg (by decide)])

/-- A vector repeated down the rows reads, at (r, q), the vector at q. -/
theorem rowOf_apply (b : FVec Ideal S64 .f32) (r : Fin 50000) (q : Fin 64) : rowOf b (ix2 r q) = b (ix1 q) :=
  Cert.LibHostReads.rowBias_apply (by decide) bcast_S64_S1x64_1 bcast_S1x64_S50000x64_0_1 b r q

/-- The rectifier at an index. -/
theorem refRelu_apply (x : FVec Ideal S50000x64 .f32) (i : S50000x64.Idx) : refRelu x i = max (x i) 0 := by
  unfold refRelu
  rw [maximumf_apply, Cert.LibHostReads.splat_apply, constant_apply, Ideal.ofBits_zero_f32]

/-- The host's reciprocal square root at an index. -/
theorem hostRsqrt_apply {s : Shape} (x : FVec Ideal s .f32) (i : s.Idx) : Host.rsqrt x i = Ideal.rsqrt (x i) := rfl

/-- The host's sum down the rows from a zero word, at column q: the sum over the column. -/
theorem hostColSum_apply (x : FVec Ideal S50000x64 .f32) (q : Fin 64) :
    Host.reduceAdd x (constant (F := Ideal) S_ .f32 0x00000000#32) reducesTo_S50000x64_S64_d0 h_S_ (ix1 q)
      = ∑ r : Fin 50000, x (ix2 r q) := by
  have hR : S50000x64.Reduces [(0 : Fin 2)] S64 := by decide
  rw [hostReduceAdd_apply, Ideal.hostReduceAdd_single reducesTo_S50000x64_S64_d0 hR, constant_apply,
    Ideal.ofBits_zero_f32, zero_add]
  exact Finset.sum_congr rfl fun k _ => congrArg x (lift_col hR q k)

/-! ## The dense stages -/

/-- Width 128: the reference's dense stages are the two-stage perceptron, each bias vector reshaped to a row. -/
theorem refU128_eq (h agg : FVec Ideal S50000x128 .f32) (w1 : FVec Ideal S128x64 .f32) (b1 : FVec Ideal S64 .f32)
    (w2 : FVec Ideal S64x64 .f32) (b2 : FVec Ideal S64 .f32) (hc : S64.ShapeCasts S1x64) :
    refU128 h agg w1 b1 w2 b2
      = Cert.LibMlpRows.mlp h agg w1 (shapeCast S1x64 b1 hc) w2 (shapeCast S1x64 b2 hc) := by
  unfold refU128 refRelu rowOf
  rw [Cert.LibMlpRows.hostDenseRelu _ b1 bcast_S64_S1x64_1 bcast_S1x64_S50000x64_0_1 bcast_S_S50000x64 hc,
    Cert.LibMlpRows.hostDenseRelu _ b2 bcast_S64_S1x64_1 bcast_S1x64_S50000x64_0_1 bcast_S_S50000x64 hc]
  rfl

/-- Width 64: the same. -/
theorem refU64_eq (h agg : FVec Ideal S50000x64 .f32) (w1 : FVec Ideal S64x64 .f32) (b1 : FVec Ideal S64 .f32)
    (w2 : FVec Ideal S64x64 .f32) (b2 : FVec Ideal S64 .f32) (hc : S64.ShapeCasts S1x64) :
    refU64 h agg w1 b1 w2 b2
      = Cert.LibMlpRows.mlp h agg w1 (shapeCast S1x64 b1 hc) w2 (shapeCast S1x64 b2 hc) := by
  unfold refU64 refRelu rowOf
  rw [Cert.LibMlpRows.hostDenseRelu _ b1 bcast_S64_S1x64_1 bcast_S1x64_S50000x64_0_1 bcast_S_S50000x64 hc,
    Cert.LibMlpRows.hostDenseRelu _ b2 bcast_S64_S1x64_1 bcast_S1x64_S50000x64_0_1 bcast_S_S50000x64 hc]
  rfl

/-! ## The column statistics -/

/-- The mean at column q: the column sum over the row count. -/
theorem refMean_apply (u : FVec Ideal S50000x64 .f32) (q : Fin 64) :
    refMean u (ix1 q) = Ideal.div (Cert.Gin.colSum u q) Cert.Gin.cN := by
  unfold refMean
  rw [hostDivf_apply, hostColSum_apply, Cert.LibHostReads.splat_apply, constant_apply]
  rfl

/-- A centred entry at (r, q): the entry less the column sum over the row count. -/
theorem refCentered_apply (u : FVec Ideal S50000x64 .f32) (r : Fin 50000) (q : Fin 64) :
    refCentered u (ix2 r q) = u (ix2 r q) - Ideal.div (Cert.Gin.colSum u q) Cert.Gin.cN := by
  unfold refCentered
  rw [subf_apply, Cert.LibBiasRows.rowBcast_apply, hostDivf_apply, rowVec_apply, hostColSum_apply,
    Cert.LibHostReads.splat_apply, constant_apply]
  rfl

/-- The variance's divisor is the row count: the correction is the integer 0. -/
theorem refVarDen_ix0 : refVarDen ix0 = Cert.Gin.cN := by
  unfold refVarDen
  rw [subf_apply, constant_apply, sitofp_apply]
  show Ideal.ofBits .f32 0x47435000#32 - (((0#32 : BitVec 32).toInt : ℝ) : EReal) = Cert.Gin.cN
  rw [BitVec.toInt_zero, Int.cast_zero, EReal.coe_zero, sub_zero]
  rfl

/-- The row count is positive. -/
theorem cN_pos : (0 : EReal) < Cert.Gin.cN := by
  rw [Cert.Gin.cN_eq]; exact EReal.coe_pos.mpr (by norm_num)

/-- The variance at column q: the squared deviations from the mean, summed, over the row count. -/
theorem refVar_apply (u : FVec Ideal S50000x64 .f32) (q : Fin 64) :
    refVar u (ix1 q)
      = Ideal.div (∑ r : Fin 50000, (u (ix2 r q) - Ideal.div (Cert.Gin.colSum u q) Cert.Gin.cN)
          * (u (ix2 r q) - Ideal.div (Cert.Gin.colSum u q) Cert.Gin.cN)) Cert.Gin.cN := by
  have hg : Ideal.cmp .ogt Cert.Gin.cN 0 = 1#1 := by
    unfold Ideal.cmp
    simp [cN_pos]
  unfold refVar
  rw [select_apply, Cert.LibHostReads.splat_apply, cmpf_apply, refVarDen_ix0, constant_apply, Ideal.ofBits_zero_f32,
    Ideal.cmpf_def, hg, select_one, hostDivf_apply, hostColSum_apply, Cert.LibHostReads.splat_apply, refVarDen_ix0]
  refine congrArg (fun s => Ideal.div s Cert.Gin.cN) ?_
  exact Finset.sum_congr rfl fun r _ => by rw [mulf_apply, refCentered_apply]

/-- The same, named: the variance of the column as the mean squared deviation. -/
theorem refVar_apply_varR (u : FVec Ideal S50000x64 .f32) (q : Fin 64) :
    refVar u (ix1 q) = Cert.Gin.varR (fun r : Fin 50000 => u (ix2 r q)) :=
  refVar_apply u q

/-! ## Normalisation -/

/-- The normalised entry at (r, q) is the scalar formula on the entry and the column's mean, variance, scale and
    shift. -/
theorem refBn_apply (u : FVec Ideal S50000x64 .f32) (mean var γ β : FVec Ideal S64 .f32) (r : Fin 50000) (q : Fin 64) :
    refBn u mean var γ β (ix2 r q)
      = Cert.Gin.bnRelu (u (ix2 r q)) (mean (ix1 q)) (var (ix1 q)) (γ (ix1 q)) (β (ix1 q)) := by
  unfold refBn
  rw [refRelu_apply, addf_apply, mulf_apply, mulf_apply, subf_apply, rowOf_apply, rowOf_apply, rowOf_apply, rowOf_apply,
    hostRsqrt_apply, addf_apply, Cert.LibHostReads.splat_apply, constant_apply]
  rfl

end Cert.ReferenceIdeal.RefRead

end
-- ==== Proof.LibRealScatter.lean ====
/-
  The host's accumulating scatter keeps an array real.

  On the extended reals the accumulating scatter is exact: an entry of its result is the operand's entry there plus the
  sum of the update entries whose scattered position is that entry, an update that lands outside the operand adding
  nothing. So whatever the indices are, an entry of the result is a real number plus a finite sum of real numbers, hence
  real, as soon as every entry of the operand and of the updates is real. Generic in the shapes, the dimension numbers,
  the index width and the float format; no array is read at a particular index.
-/
import proofs.«173864_j70188355551324_1_alg».proof.Proof.LibRealClosed

noncomputable section

open scoped BigOperators

namespace Cert.LibRealScatter

open Idealize.ShloMosaic Cert.LibRealClosed

/-- An accumulating scatter of real updates into a real operand is real at every entry, whatever the indices. -/
theorem allReal_scatterAdd {s si su : Shape} {φ : FTy} {w : Nat} (d : ScatterDims s si su) {x : FVec Ideal s φ}
    (idx : IVec si w) {upd : FVec Ideal su φ} (hx : AllReal x) (hu : AllReal upd) :
    AllReal (Host.scatterAdd d x idx upd) := by
  intro i
  show IsReal (Ideal.hostScatterAdd d x idx upd i)
  unfold Ideal.hostScatterAdd
  exact (hx i).add (IsReal.sum _ _ fun j _ => hu j)

end Cert.LibRealScatter

end
-- ==== Proof.Layer.lean ====
/-
  One layer's two readings joined, on real data.

  Both programs normalise the same matrix u column by column: entry (r, q) becomes
  max ((u(r,q) − mean_q) · rsqrt (var_q + ε) · γ_q + β_q) 0 with mean_q the column sum over n. They differ in var_q: the mean
  of the squares less the square of the mean, or the mean of the squared deviations. On a matrix of real numbers the two
  are one number (the variance law), so the two normalised matrices are equal entry by entry, and every entry is a real
  number again because the variance in its second form is not negative. Also here: two dense stages with rectifiers
  applied to real matrices give a real matrix, as does a gather followed by an accumulating scatter into zeros.
-/
import proofs.«173864_j70188355551324_1_alg».proof.Proof.Spec
import proofs.«173864_j70188355551324_1_alg».proof.Proof.LibMlpRows
import proofs.«173864_j70188355551324_1_alg».proof.Proof.LibRealScatter
import Idealize.ShloMosaic.Lib.IdealHost
import Idealize.ShloMosaic.Lib.ValueLayout

noncomputable section

open scoped BigOperators

namespace Cert.Gin

open Idealize.ShloMosaic Idealize.ShloMosaic.ValueIdx Cert.LibRealClosed Cert.LibRealHost Cert.LibBiasRows Cert.LibMlpRows

/-! ## Real-ness through the dense stages -/

theorem isReal_zero32 : IsReal (zero32 : EReal) := by
  show IsReal (Ideal.ofBits .f32 0x00000000#32)
  rw [Ideal.ofBits_zero_f32]; exact IsReal.zero

/-- A bias row added to every row of a real matrix, then the maximum with zero, is a real matrix. -/
theorem allReal_biasRelu {M N : ℕ} {X : FVec Ideal ⟨2, ![M, N]⟩ .f32} {B : FVec Ideal ⟨2, ![1, N]⟩ .f32}
    (hX : AllReal X) (hB : AllReal B) : AllReal (biasRelu X B) := by
  intro i
  obtain ⟨r, q, rfl⟩ : ∃ (r : Fin M) (q : Fin N), i = ix2 r q := ⟨i 0, i 1, eq_ix2 i⟩
  rw [biasRelu_ix2]
  exact isReal_max ((hX _).add (hB _)) isReal_zero32

/-- Two dense stages with rectifiers on the sum of two real matrices, with real weights and biases, give a real matrix. -/
theorem allReal_mlp {M K H N : ℕ} {φ₁ φ₂ : FTy} {A X : FVec Ideal ⟨2, ![M, K]⟩ .f32} {W1 : FVec Ideal ⟨2, ![K, H]⟩ φ₁}
    {B1 : FVec Ideal ⟨2, ![1, H]⟩ .f32} {W2 : FVec Ideal ⟨2, ![H, N]⟩ φ₂} {B2 : FVec Ideal ⟨2, ![1, N]⟩ .f32}
    (hA : AllReal A) (hX : AllReal X) (hW1 : AllReal W1) (hB1 : AllReal B1) (hW2 : AllReal W2) (hB2 : AllReal B2) :
    AllReal (mlp A X W1 B1 W2 B2) :=
  allReal_biasRelu (AllReal.dotGeneral _ _ (allReal_biasRelu (AllReal.dotGeneral _ _ (AllReal.addf hA hX) hW1) hB1) hW2) hB2

/-! ## The two normalisations of one real matrix -/

/-- The column of a real matrix is a column of reals, and so are its two sums. -/
theorem isReal_colSum {M N : ℕ} {u : FVec Ideal ⟨2, ![M, N]⟩ .f32} (hu : AllReal u) (q : Fin N) : IsReal (colSum u q) :=
  IsReal.sum _ _ fun r _ => hu (ix2 r q)

/-- With the variance taken either way, the normalised matrices of one real matrix agree, and are real. -/
theorem layer_agree {N : ℕ} (u : FVec Ideal ⟨2, ![50000, N]⟩ .f32) (hu : AllReal u)
    (g b : FVec Ideal ⟨1, ![N]⟩ .f32) (hg : AllReal g) (hb : AllReal b)
    (K R : FVec Ideal ⟨2, ![50000, N]⟩ .f32)
    (hK : ∀ (r : Fin 50000) (q : Fin N), K (ix2 r q)
      = bnRelu (u (ix2 r q)) (meanK (colSum u q)) (varK (colSum u q) (colSumSq u q)) (g (ix1 q)) (b (ix1 q)))
    (hR : ∀ (r : Fin 50000) (q : Fin N), R (ix2 r q)
      = bnRelu (u (ix2 r q)) (meanK (colSum u q)) (varR fun r : Fin 50000 => (u (ix2 r q) : EReal)) (g (ix1 q)) (b (ix1 q))) :
    K = R ∧ AllReal R := by
  have hcol : ∀ q : Fin N, ∀ r : Fin 50000, IsReal ((fun r : Fin 50000 => (u (ix2 r q) : EReal)) r) := fun q r => hu _
  have hvar : ∀ q : Fin N, varR (fun r : Fin 50000 => (u (ix2 r q) : EReal)) = varK (colSum u q) (colSumSq u q) :=
    fun q => varR_eq_varK _ (hcol q)
  refine ⟨?_, ?_⟩
  · funext i
    obtain ⟨r, q, rfl⟩ : ∃ (r : Fin 50000) (q : Fin N), i = ix2 r q := ⟨i 0, i 1, eq_ix2 i⟩
    rw [hK, hR, hvar]
  · intro i
    obtain ⟨r, q, rfl⟩ : ∃ (r : Fin 50000) (q : Fin N), i = ix2 r q := ⟨i 0, i 1, eq_ix2 i⟩
    rw [hR]
    exact isReal_bnRelu (hu _) (isReal_meanK (isReal_colSum hu q)) (varR_nonneg _ (hcol q)) (hg _) (hb _)

/-! ## The tiled program's statistics, read at a column -/

/-- A row of column sums over the broadcast divisor is the row of means. -/
theorem meanRow_apply {N : ℕ} (S : FVec Ideal ⟨2, ![1, N]⟩ .f32)
    (hb : (⟨0, ![]⟩ : Shape).BroadcastsInDim ⟨2, ![1, N]⟩ ![]) (q : Fin N) :
    Host.divf S (broadcastInDim ⟨2, ![1, N]⟩ ![] hb (constant (F := Ideal) ⟨0, ![]⟩ .f32 0x47435000#32)) (ix2 (0 : Fin 1) q)
      = meanK (S (ix2 (0 : Fin 1) q)) := by
  rw [hostDivf_apply, broadcastInDim_scalar_apply, constant_apply]
  rfl

/-- The mean of the squares less the square of the mean, from the two rows of column sums. -/
theorem varRow_apply {N : ℕ} (S SS : FVec Ideal ⟨2, ![1, N]⟩ .f32)
    (hb hb' : (⟨0, ![]⟩ : Shape).BroadcastsInDim ⟨2, ![1, N]⟩ ![]) (q : Fin N) :
    subf (Host.divf SS (broadcastInDim ⟨2, ![1, N]⟩ ![] hb' (constant (F := Ideal) ⟨0, ![]⟩ .f32 0x47435000#32)))
        (mulf (Host.divf S (broadcastInDim ⟨2, ![1, N]⟩ ![] hb (constant (F := Ideal) ⟨0, ![]⟩ .f32 0x47435000#32)))
          (Host.divf S (broadcastInDim ⟨2, ![1, N]⟩ ![] hb (constant (F := Ideal) ⟨0, ![]⟩ .f32 0x47435000#32))))
        (ix2 (0 : Fin 1) q)
      = varK (S (ix2 (0 : Fin 1) q)) (SS (ix2 (0 : Fin 1) q)) := by
  rw [subf_apply, mulf_apply, meanRow_apply, hostDivf_apply, broadcastInDim_scalar_apply, constant_apply]
  rfl

/-! ## One layer, from what each program's pieces hold -/

/-- The tiled program's normalised matrix K, given entry by entry through the block of dense outputs U, the two rows of
    column sums, the rows of means and variances made from them and the scale and shift rows, equals the reference's
    normalised matrix R of the same real matrix u, and R is real. -/
theorem layer_step {N : ℕ} (u : FVec Ideal ⟨2, ![50000, N]⟩ .f32) (hu : AllReal u)
    (g b : FVec Ideal ⟨1, ![N]⟩ .f32) (hg : AllReal g) (hb : AllReal b)
    (U K R : FVec Ideal ⟨2, ![50000, N]⟩ .f32) (S SS Mn Vr G Bt : FVec Ideal ⟨2, ![1, N]⟩ .f32)
    (hU : ∀ (r : Fin 50000) (q : Fin N), U (ix2 r q) = u (ix2 r q))
    (hS : ∀ q : Fin N, S (ix2 (0 : Fin 1) q) = colSum u q)
    (hSS : ∀ q : Fin N, SS (ix2 (0 : Fin 1) q) = colSumSq u q)
    (hMn : ∀ q : Fin N, Mn (ix2 (0 : Fin 1) q) = meanK (S (ix2 (0 : Fin 1) q)))
    (hVr : ∀ q : Fin N, Vr (ix2 (0 : Fin 1) q) = varK (S (ix2 (0 : Fin 1) q)) (SS (ix2 (0 : Fin 1) q)))
    (hG : ∀ q : Fin N, G (ix2 (0 : Fin 1) q) = g (ix1 q)) (hBt : ∀ q : Fin N, Bt (ix2 (0 : Fin 1) q) = b (ix1 q))
    (hK : ∀ (r : Fin 50000) (q : Fin N), K (ix2 r q)
      = bnRelu (U (ix2 r q)) (Mn (ix2 (0 : Fin 1) q)) (Vr (ix2 (0 : Fin 1) q)) (G (ix2 (0 : Fin 1) q)) (Bt (ix2 (0 : Fin 1) q)))
    (hR : ∀ (r : Fin 50000) (q : Fin N), R (ix2 r q)
      = bnRelu (u (ix2 r q)) (meanK (colSum u q)) (varR fun r : Fin 50000 => (u (ix2 r q) : EReal)) (g (ix1 q)) (b (ix1 q))) :
    K = R ∧ AllReal R :=
  layer_agree u hu g b hg hb K R (fun r q => by rw [hK, hU, hMn, hVr, hS, hSS, hG, hBt]) hR

end Cert.Gin

end
-- ==== Proof.BridgeRef.lean ====
/-
  The reference's layer, entry by entry, and real-ness through it.

  A layer of the reference is: the aggregate agg = Σ over incoming edges of the source rows (a gather and an accumulating
  scatter into zeros), two dense stages with rectifiers on h + agg, and the normalisation of the result column by column
  with the variance as the mean squared deviation. Read at entry (r, q) it is the scalar normalisation formula on the
  dense output u: bnRelu u(r,q) (mean of column q) (variance of column q) γ_q β_q. On real inputs every stage gives real
  numbers: a gathered entry is an entry of the operand, a scattered sum of reals into zeros is real, products and sums of
  reals are real, and the normalised entry is real because the variance is not negative.
-/
import proofs.«173864_j70188355551324_1_alg».proof.Proof.RefRead
import proofs.«173864_j70188355551324_1_alg».proof.Proof.Layer

noncomputable section

open scoped BigOperators

namespace Cert.Bridge

open Idealize.ShloMosaic Idealize.ShloMosaic.ValueIdx Cert.LibRealClosed Cert.LibRealHost Cert.Gin
open Cert.ReferenceIdeal Cert.ReferenceIdeal.RefTerm Cert.ReferenceIdeal.RefRead

variable [Cert.ReferenceIdeal.Facts]

open Cert.ReferenceIdeal.Facts₀ Cert.ReferenceIdeal.Facts

/-! ## Real-ness of the aggregate and of the dense stages -/

theorem allReal_zeros (s : Shape) (hb : (⟨0, ![]⟩ : Shape).BroadcastsInDim s ![]) :
    AllReal (broadcastInDim s ![] hb (constant (F := Ideal) ⟨0, ![]⟩ .f32 0x00000000#32)) :=
  AllReal.broadcastInDim _ _ (AllReal.constant_f32 _ (by decide))

theorem allReal_refAgg128 {h : FVec Ideal S50000x128 .f32} (ei : IVec S2x800000 32) (hh : AllReal h) :
    AllReal (refAgg128 h ei) :=
  Cert.LibRealScatter.allReal_scatterAdd _ _ (allReal_zeros _ _) (AllReal.gather _ _ hh)

theorem allReal_refAgg64 {h : FVec Ideal S50000x64 .f32} (ei : IVec S2x800000 32) (hh : AllReal h) :
    AllReal (refAgg64 h ei) :=
  Cert.LibRealScatter.allReal_scatterAdd _ _ (allReal_zeros _ _) (AllReal.gather _ _ hh)

/-- The dense output of the first layer, with the biases as rows. -/
abbrev u128 (x : FVec Ideal S50000x128 .f32) (ei : IVec S2x800000 32) (w1 : FVec Ideal S128x64 .f32) (b1 : FVec Ideal S64 .f32)
    (w2 : FVec Ideal S64x64 .f32) (b2 : FVec Ideal S64 .f32) (hc : S64.ShapeCasts S1x64) : FVec Ideal S50000x64 .f32 :=
  Cert.LibMlpRows.mlp x (refAgg128 x ei) w1 (shapeCast S1x64 b1 hc) w2 (shapeCast S1x64 b2 hc)

/-- The dense output of a later layer. -/
abbrev u64 (x : FVec Ideal S50000x64 .f32) (ei : IVec S2x800000 32) (w1 : FVec Ideal S64x64 .f32) (b1 : FVec Ideal S64 .f32)
    (w2 : FVec Ideal S64x64 .f32) (b2 : FVec Ideal S64 .f32) (hc : S64.ShapeCasts S1x64) : FVec Ideal S50000x64 .f32 :=
  Cert.LibMlpRows.mlp x (refAgg64 x ei) w1 (shapeCast S1x64 b1 hc) w2 (shapeCast S1x64 b2 hc)

theorem allReal_u128 {x : FVec Ideal S50000x128 .f32} (ei : IVec S2x800000 32) {w1 : FVec Ideal S128x64 .f32}
    {b1 : FVec Ideal S64 .f32} {w2 : FVec Ideal S64x64 .f32} {b2 : FVec Ideal S64 .f32} (hc : S64.ShapeCasts S1x64)
    (hx : AllReal x) (hw1 : AllReal w1) (hb1 : AllReal b1) (hw2 : AllReal w2) (hb2 : AllReal b2) :
    AllReal (u128 x ei w1 b1 w2 b2 hc) :=
  allReal_mlp hx (allReal_refAgg128 ei hx) hw1 (AllReal.shapeCast hc hb1) hw2 (AllReal.shapeCast hc hb2)

theorem allReal_u64 {x : FVec Ideal S50000x64 .f32} (ei : IVec S2x800000 32) {w1 : FVec Ideal S64x64 .f32}
    {b1 : FVec Ideal S64 .f32} {w2 : FVec Ideal S64x64 .f32} {b2 : FVec Ideal S64 .f32} (hc : S64.ShapeCasts S1x64)
    (hx : AllReal x) (hw1 : AllReal w1) (hb1 : AllReal b1) (hw2 : AllReal w2) (hb2 : AllReal b2) :
    AllReal (u64 x ei w1 b1 w2 b2 hc) :=
  allReal_mlp hx (allReal_refAgg64 ei hx) hw1 (AllReal.shapeCast hc hb1) hw2 (AllReal.shapeCast hc hb2)

/-! ## A reference layer at an entry -/

theorem refNorm_apply (u : FVec Ideal S50000x64 .f32) (g b : FVec Ideal S64 .f32) (r : Fin 50000) (q : Fin 64) :
    refNorm u g b (ix2 r q)
      = bnRelu (u (ix2 r q)) (meanK (colSum u q)) (varR fun r : Fin 50000 => (u (ix2 r q) : EReal)) (g (ix1 q)) (b (ix1 q)) := by
  unfold refNorm
  rw [refBn_apply, refMean_apply, refVar_apply_varR]
  rfl

theorem refLayer128_eq (x : FVec Ideal S50000x128 .f32) (ei : IVec S2x800000 32) (w1 : FVec Ideal S128x64 .f32)
    (b1 : FVec Ideal S64 .f32) (w2 : FVec Ideal S64x64 .f32) (b2 g b : FVec Ideal S64 .f32) (hc : S64.ShapeCasts S1x64) :
    refLayer128 x ei w1 b1 w2 b2 g b = refNorm (u128 x ei w1 b1 w2 b2 hc) g b := by
  unfold refLayer128; rw [refU128_eq _ _ _ _ _ _ hc]

theorem refLayer64_eq (x : FVec Ideal S50000x64 .f32) (ei : IVec S2x800000 32) (w1 : FVec Ideal S64x64 .f32)
    (b1 : FVec Ideal S64 .f32) (w2 : FVec Ideal S64x64 .f32) (b2 g b : FVec Ideal S64 .f32) (hc : S64.ShapeCasts S1x64) :
    refLayer64 x ei w1 b1 w2 b2 g b = refNorm (u64 x ei w1 b1 w2 b2 hc) g b := by
  unfold refLayer64; rw [refU64_eq _ _ _ _ _ _ hc]

end Cert.Bridge

end
-- ==== Proof.KernelChainDefs.lean ====
import proofs.«173864_j70188355551324_1_alg».proof.Proof.Gen.KernelIdeal.Frame
import Idealize.ShloMosaic.PureOps.Ideal

/-! # The kernel program's result read back through its 13 segments

@main of the tiled program is 7 stretches of host operations with 6 regions between them. The contents of core `c`'s
buffers at the 14 boundaries are a fold from the launch memory `m` (`Gen.W0 … Gen.W13`): a stretch applies its
operations in order, a region replaces its windows' arrays by what its write-backs leave and keeps every other buffer.
This module reads that fold at the buffers that matter, at the extended reals:

* each region's entry contents at each of its input windows — an argument array as launched, a host term over earlier
  buffers (the neighbour sum `aggK128` / `aggK64` of the features along the edges, a bias or scale vector as one row
  `rowK`, the column mean `meanOfK` and variance `varOfK` of the sums a region accumulated), or the array an earlier
  region left;
* the result buffer: the pool over the graphs and the linear head `tailK` of what the last region left.

No arithmetic is opened here: every host term is carried as a named function of its inputs. -/

set_option maxRecDepth 16384

noncomputable section

namespace Cert.KernelIdeal.Chain

open Idealize.ShloMosaic Idealize.ShloMosaic.TcCoe Idealize.ShloMosaic.Tactic
open Idealize.SL.Sem
open Cert.KernelIdeal.Gen

/-! ## The host terms, by name -/

/-- A vector of 64 as one row [1, 64]. -/
def rowK (b : Vec Ideal S64 .f32) : Vec Ideal S1x64 .f32 := shapeCast S1x64 b shapeCasts_S64_S1x64

/-- The edges' source nodes: row 0 of the edge array, as a vector. -/
def srcK (e : Vec Ideal S2x800000 .i32) : Vec Ideal S800000 .i32 :=
  shapeCast S800000 (extractStridedSlice S1x800000 ![0, 0] e slices_S2x800000_S1x800000_0_0) shapeCasts_S1x800000_S800000

/-- The edges' destination nodes: row 1 of the edge array, as a vector. -/
def dstK (e : Vec Ideal S2x800000 .i32) : Vec Ideal S800000 .i32 :=
  shapeCast S800000 (extractStridedSlice S1x800000 ![1, 0] e slices_S2x800000_S1x800000_1_0) shapeCasts_S1x800000_S800000

/-- Node numbers as gather indices: a negative number counts from the end (50000 is added), then one column [800000, 1]. -/
def wrapK (s : Vec Ideal S800000 .i32) : Vec Ideal S800000x1 .i32 :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- The sum over the edges into each destination node of the source node's 128 features: the rows of `h` gathered at the
    sources, scatter-added from zero at the destinations. -/
def gsK128 (h : Vec Ideal S50000x128 .f32) (s d : Vec Ideal S800000 .i32) : Vec Ideal S50000x128 .f32 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 h (wrapK s))

/-- The same neighbour sum over 64 features. -/
def gsK64 (h : Vec Ideal S50000x64 .f32) (s d : Vec Ideal S800000 .i32) : Vec Ideal S50000x64 .f32 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (Host.gather gather_S50000x64_S800000x1_S800000x64_1_0_n_n_0_1_164 h (wrapK s))

/-- The neighbour sum of the 128 input features `h` along the edge array `e`. -/
def aggK128 (h : Vec Ideal S50000x128 .f32) (e : Vec Ideal S2x800000 .i32) : Vec Ideal S50000x128 .f32 :=
  gsK128 h (srcK e) (dstK e)

/-- The neighbour sum of 64 features `h` along the edge array `e`. -/
def aggK64 (h : Vec Ideal S50000x64 .f32) (e : Vec Ideal S2x800000 .i32) : Vec Ideal S50000x64 .f32 :=
  gsK64 h (srcK e) (dstK e)

/-- The row of column means: the column sums `s` divided by the number of rows, 50000. -/
def meanOfK (s : Vec Ideal S1x64 .f32) : Vec Ideal S1x64 .f32 :=
  Host.divf s (broadcastInDim S1x64 ![] bcast_S_S1x64 (constant (F := Ideal) S_ .f32 0x47435000#32))

/-- The row of column variances: the mean of the squares minus the square of the mean, from the column sums `s` and the
    column sums of squares `ss`. -/
def varOfK (s ss : Vec Ideal S1x64 .f32) : Vec Ideal S1x64 .f32 :=
  subf (Host.divf ss (broadcastInDim S1x64 ![] bcast_S_S1x64 (constant (F := Ideal) S_ .f32 0x47435000#32)))
    (mulf (meanOfK s) (meanOfK s))

/-- The pool and the head: the rows of `h` scatter-added from zero into their graphs `g` (256 of them), the product with
    the head's column `w`, plus the head's bias `b`. -/
def tailK (h : Vec Ideal S50000x64 .f32) (g : Vec Ideal S50000 .i32) (w : Vec Ideal S64x1 .f32) (b : Vec Ideal S1 .f32) :
    Vec Ideal S256x1 .f32 :=
  addf
    (Host.dotGeneral (φ₁ := .f32) (φ₂ := .f32) dot_S256x64_S64x1_S256x1_1_0_0_1_n_n none
      (Host.scatterAdd scatter_S256x64_S50000x1_S50000x64_1_0_0_1
        (broadcastInDim S256x64 ![] bcast_S_S256x64 (constant (F := Ideal) S_ .f32 0x00000000#32))
        (broadcastInDim S50000x1 ![0] bcast_S50000_S50000x1_0 g) h) w)
    (broadcastInDim S256x1 ![0, 1] bcast_S1x1_S256x1_0_1 (broadcastInDim S1x1 ![1] bcast_S1_S1x1_1 b))

/-! ## What each stretch of host operations writes, and what it therefore keeps -/

/-- The buffers stretch 0's operations write. -/
abbrev wr0 : List (Ref sig .tc) := [main_v0, main_v1, main_v2, main_v3, main_c, main_v4, main_v5, main_c_0, main_v6, main_v7, main_v8, main_v9, main_v10, main_cst, main_v11, main_v12, main_v13, main_v14, main_v15, main_v16, main_v17]
/-- The buffers stretch 1's operations write. -/
abbrev wr1 : List (Ref sig .tc) := [main_cst_1, main_v19, main_v20, main_cst_2, main_v21, main_v22, main_v23, main_v24]
/-- The buffers stretch 2's operations write. -/
abbrev wr2 : List (Ref sig .tc) := [main_c_3, main_v26, main_v27, main_c_4, main_v28, main_v29, main_v30, main_v31, main_v32, main_cst_5, main_v33, main_v34, main_v35, main_v36, main_v37, main_v38, main_v39]
/-- The buffers stretch 3's operations write. -/
abbrev wr3 : List (Ref sig .tc) := [main_cst_6, main_v41, main_v42, main_cst_7, main_v43, main_v44, main_v45, main_v46]
/-- The buffers stretch 4's operations write. -/
abbrev wr4 : List (Ref sig .tc) := [main_c_8, main_v48, main_v49, main_c_9, main_v50, main_v51, main_v52, main_v53, main_v54, main_cst_10, main_v55, main_v56, main_v57, main_v58, main_v59, main_v60, main_v61]
/-- The buffers stretch 5's operations write. -/
abbrev wr5 : List (Ref sig .tc) := [main_cst_11, main_v63, main_v64, main_cst_12, main_v65, main_v66, main_v67, main_v68]
/-- The buffers stretch 6's operations write. -/
abbrev wr6 : List (Ref sig .tc) := [main_cst_13, main_v70, main_v71, main_v72, main_v73, main_v74, main_v75, main_v76]

/-! Each operation writes exactly its result buffer, one of the stretch's list. -/
/-- Every operation of stretch 0 writes one buffer of `wr0`. -/
theorem hostOps0_writes : (hostOps0 : List (HloOp τ sig (Elt Ideal))).Forall fun op => op.writes ⊆ (wr0.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every operation of stretch 1 writes one buffer of `wr1`. -/
theorem hostOps1_writes : (hostOps1 : List (HloOp τ sig (Elt Ideal))).Forall fun op => op.writes ⊆ (wr1.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every operation of stretch 2 writes one buffer of `wr2`. -/
theorem hostOps2_writes : (hostOps2 : List (HloOp τ sig (Elt Ideal))).Forall fun op => op.writes ⊆ (wr2.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every operation of stretch 3 writes one buffer of `wr3`. -/
theorem hostOps3_writes : (hostOps3 : List (HloOp τ sig (Elt Ideal))).Forall fun op => op.writes ⊆ (wr3.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every operation of stretch 4 writes one buffer of `wr4`. -/
theorem hostOps4_writes : (hostOps4 : List (HloOp τ sig (Elt Ideal))).Forall fun op => op.writes ⊆ (wr4.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every operation of stretch 5 writes one buffer of `wr5`. -/
theorem hostOps5_writes : (hostOps5 : List (HloOp τ sig (Elt Ideal))).Forall fun op => op.writes ⊆ (wr5.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))
/-- Every operation of stretch 6 writes one buffer of `wr6`. -/
theorem hostOps6_writes : (hostOps6 : List (HloOp τ sig (Elt Ideal))).Forall fun op => op.writes ⊆ (wr6.map (Proc.devRef (τ := τ) .tc)).toFinset := by
  simp only [List.Forall]
  repeat' apply And.intro
  all_goals (simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]; exact List.mem_map_of_mem (by decide))

/-! ## What each stretch computes, at any entry contents `W`

Read off the stretch's operations in order: the result buffer of each at its function of its operands' contents, every
other buffer as it was. -/

section Stretch

variable (W : Valuation τ sig (Elt Ideal))

/-- Stretch 0 leaves the edges' sources at `%1`. -/
theorem ops0_v1 : StableHlo.after (hostOps0 (F := Ideal)) W (Proc.devRef .tc main_v1) = srcK (W (Proc.devRef .tc main_arg1)) := by
  after_results; rfl
/-- Stretch 0 leaves the edges' destinations at `%3`. -/
theorem ops0_v3 : StableHlo.after (hostOps0 (F := Ideal)) W (Proc.devRef .tc main_v3) = dstK (W (Proc.devRef .tc main_arg1)) := by
  after_results; rfl
/-- Stretch 0 leaves the neighbour sum of the input features at `%13`. -/
theorem ops0_v13 : StableHlo.after (hostOps0 (F := Ideal)) W (Proc.devRef .tc main_v13) = aggK128 (W (Proc.devRef .tc main_arg0)) (W (Proc.devRef .tc main_arg1)) := by
  after_results_simp; rfl
/-- Stretch 0 leaves `%arg4` as a row at `%14`. -/
theorem ops0_v14 : StableHlo.after (hostOps0 (F := Ideal)) W (Proc.devRef .tc main_v14) = rowK (W (Proc.devRef .tc main_arg4)) := by
  after_results; rfl
/-- Stretch 0 leaves `%arg6` as a row at `%15`. -/
theorem ops0_v15 : StableHlo.after (hostOps0 (F := Ideal)) W (Proc.devRef .tc main_v15) = rowK (W (Proc.devRef .tc main_arg6)) := by
  after_results; rfl
/-- Stretch 0 leaves `%arg7` as a row at `%16`. -/
theorem ops0_v16 : StableHlo.after (hostOps0 (F := Ideal)) W (Proc.devRef .tc main_v16) = rowK (W (Proc.devRef .tc main_arg7)) := by
  after_results; rfl
/-- Stretch 0 leaves `%arg8` as a row at `%17`. -/
theorem ops0_v17 : StableHlo.after (hostOps0 (F := Ideal)) W (Proc.devRef .tc main_v17) = rowK (W (Proc.devRef .tc main_arg8)) := by
  after_results; rfl
/-- Stretch 1 leaves the column means at `%20`. -/
theorem ops1_v20 : StableHlo.after (hostOps1 (F := Ideal)) W (Proc.devRef .tc main_v20) = meanOfK (W (Proc.devRef .tc main_v18_1)) := by
  after_results; rfl
/-- Stretch 1 leaves the column variances at `%24`. -/
theorem ops1_v24 : StableHlo.after (hostOps1 (F := Ideal)) W (Proc.devRef .tc main_v24) = varOfK (W (Proc.devRef .tc main_v18_1)) (W (Proc.devRef .tc main_v18_2)) := by
  after_results; rfl
/-- Stretch 2 leaves the neighbour sum of `%25` at `%35`. -/
theorem ops2_v35 : StableHlo.after (hostOps2 (F := Ideal)) W (Proc.devRef .tc main_v35) = gsK64 (W (Proc.devRef .tc main_v25)) (W (Proc.devRef .tc main_v1)) (W (Proc.devRef .tc main_v3)) := by
  after_results_simp; rfl
/-- Stretch 2 leaves `%arg10` as a row at `%36`. -/
theorem ops2_v36 : StableHlo.after (hostOps2 (F := Ideal)) W (Proc.devRef .tc main_v36) = rowK (W (Proc.devRef .tc main_arg10)) := by
  after_results; rfl
/-- Stretch 2 leaves `%arg12` as a row at `%37`. -/
theorem ops2_v37 : StableHlo.after (hostOps2 (F := Ideal)) W (Proc.devRef .tc main_v37) = rowK (W (Proc.devRef .tc main_arg12)) := by
  after_results; rfl
/-- Stretch 2 leaves `%arg13` as a row at `%38`. -/
theorem ops2_v38 : StableHlo.after (hostOps2 (F := Ideal)) W (Proc.devRef .tc main_v38) = rowK (W (Proc.devRef .tc main_arg13)) := by
  after_results; rfl
/-- Stretch 2 leaves `%arg14` as a row at `%39`. -/
theorem ops2_v39 : StableHlo.after (hostOps2 (F := Ideal)) W (Proc.devRef .tc main_v39) = rowK (W (Proc.devRef .tc main_arg14)) := by
  after_results; rfl
/-- Stretch 3 leaves the column means at `%42`. -/
theorem ops3_v42 : StableHlo.after (hostOps3 (F := Ideal)) W (Proc.devRef .tc main_v42) = meanOfK (W (Proc.devRef .tc main_v40_1)) := by
  after_results; rfl
/-- Stretch 3 leaves the column variances at `%46`. -/
theorem ops3_v46 : StableHlo.after (hostOps3 (F := Ideal)) W (Proc.devRef .tc main_v46) = varOfK (W (Proc.devRef .tc main_v40_1)) (W (Proc.devRef .tc main_v40_2)) := by
  after_results; rfl
/-- Stretch 4 leaves the neighbour sum of `%47` at `%57`. -/
theorem ops4_v57 : StableHlo.after (hostOps4 (F := Ideal)) W (Proc.devRef .tc main_v57) = gsK64 (W (Proc.devRef .tc main_v47)) (W (Proc.devRef .tc main_v1)) (W (Proc.devRef .tc main_v3)) := by
  after_results_simp; rfl
/-- Stretch 4 leaves `%arg16` as a row at `%58`. -/
theorem ops4_v58 : StableHlo.after (hostOps4 (F := Ideal)) W (Proc.devRef .tc main_v58) = rowK (W (Proc.devRef .tc main_arg16)) := by
  after_results; rfl
/-- Stretch 4 leaves `%arg18` as a row at `%59`. -/
theorem ops4_v59 : StableHlo.after (hostOps4 (F := Ideal)) W (Proc.devRef .tc main_v59) = rowK (W (Proc.devRef .tc main_arg18)) := by
  after_results; rfl
/-- Stretch 4 leaves `%arg19` as a row at `%60`. -/
theorem ops4_v60 : StableHlo.after (hostOps4 (F := Ideal)) W (Proc.devRef .tc main_v60) = rowK (W (Proc.devRef .tc main_arg19)) := by
  after_results; rfl
/-- Stretch 4 leaves `%arg20` as a row at `%61`. -/
theorem ops4_v61 : StableHlo.after (hostOps4 (F := Ideal)) W (Proc.devRef .tc main_v61) = rowK (W (Proc.devRef .tc main_arg20)) := by
  after_results; rfl
/-- Stretch 5 leaves the column means at `%64`. -/
theorem ops5_v64 : StableHlo.after (hostOps5 (F := Ideal)) W (Proc.devRef .tc main_v64) = meanOfK (W (Proc.devRef .tc main_v62_1)) := by
  after_results; rfl
/-- Stretch 5 leaves the column variances at `%68`. -/
theorem ops5_v68 : StableHlo.after (hostOps5 (F := Ideal)) W (Proc.devRef .tc main_v68) = varOfK (W (Proc.devRef .tc main_v62_1)) (W (Proc.devRef .tc main_v62_2)) := by
  after_results; rfl
/-- Stretch 6 leaves the pool and the head of `%69` at `%76`. -/
theorem ops6_v76 : StableHlo.after (hostOps6 (F := Ideal)) W (Proc.devRef .tc main_v76) = tailK (W (Proc.devRef .tc main_v69)) (W (Proc.devRef .tc main_arg2)) (W (Proc.devRef .tc main_arg21)) (W (Proc.devRef .tc main_arg22)) := by
  after_results; rfl

end Stretch

/-! ## Congruences of the named terms -/

theorem gsK64_congr {h h' : Vec Ideal S50000x64 .f32} {s s' d d' : Vec Ideal S800000 .i32} (eh : h = h') (es : s = s') (ed : d = d') :
    gsK64 h s d = gsK64 h' s' d' := by subst eh es ed; rfl

theorem tailK_congr {h h' : Vec Ideal S50000x64 .f32} {g g' : Vec Ideal S50000 .i32} {w w' : Vec Ideal S64x1 .f32} {b b' : Vec Ideal S1 .f32}
    (eh : h = h') (eg : g = g') (ew : w = w') (eb : b = b') : tailK h g w b = tailK h' g' w' b' := by subst eh eg ew eb; rfl

/-! ## The boundaries' contents, from the launch memory

`Gen.W(2k+1)` is stretch `k` run from `Gen.W(2k)`; `Gen.W(2k+2)` is `Gen.W(2k+1)` with region `k`'s arrays replaced
(`Gen.W(2k+2)_arr`, `Gen.W(2k+2)_of_ne`). -/

section Boundaries

variable (m : (ℓ : Loc nD τ sig) → Buf (Elt Ideal) ℓ) (ρ : Dev nD → PrngReg)

/-- Stretch 0 keeps every buffer it does not write. -/
theorem keep0 (c : Dev nD) (r : Ref sig .tc) (h : r ∉ wr0) : W1 m ρ c (Proc.devRef .tc r) = W0 m ρ c (Proc.devRef .tc r) :=
  StableHlo.after_of_writes_sub hostOps0 _ hostOps0_writes h
/-- Stretch 1 keeps every buffer it does not write. -/
theorem keep1 (c : Dev nD) (r : Ref sig .tc) (h : r ∉ wr1) : W3 m ρ c (Proc.devRef .tc r) = W2 m ρ c (Proc.devRef .tc r) :=
  StableHlo.after_of_writes_sub hostOps1 _ hostOps1_writes h
/-- Stretch 2 keeps every buffer it does not write. -/
theorem keep2 (c : Dev nD) (r : Ref sig .tc) (h : r ∉ wr2) : W5 m ρ c (Proc.devRef .tc r) = W4 m ρ c (Proc.devRef .tc r) :=
  StableHlo.after_of_writes_sub hostOps2 _ hostOps2_writes h
/-- Stretch 3 keeps every buffer it does not write. -/
theorem keep3 (c : Dev nD) (r : Ref sig .tc) (h : r ∉ wr3) : W7 m ρ c (Proc.devRef .tc r) = W6 m ρ c (Proc.devRef .tc r) :=
  StableHlo.after_of_writes_sub hostOps3 _ hostOps3_writes h
/-- Stretch 4 keeps every buffer it does not write. -/
theorem keep4 (c : Dev nD) (r : Ref sig .tc) (h : r ∉ wr4) : W9 m ρ c (Proc.devRef .tc r) = W8 m ρ c (Proc.devRef .tc r) :=
  StableHlo.after_of_writes_sub hostOps4 _ hostOps4_writes h
/-- Stretch 5 keeps every buffer it does not write. -/
theorem keep5 (c : Dev nD) (r : Ref sig .tc) (h : r ∉ wr5) : W11 m ρ c (Proc.devRef .tc r) = W10 m ρ c (Proc.devRef .tc r) :=
  StableHlo.after_of_writes_sub hostOps5 _ hostOps5_writes h
/-- Stretch 6 keeps every buffer it does not write. -/
theorem keep6 (c : Dev nD) (r : Ref sig .tc) (h : r ∉ wr6) : W13 m ρ c (Proc.devRef .tc r) = W12 m ρ c (Proc.devRef .tc r) :=
  StableHlo.after_of_writes_sub hostOps6 _ hostOps6_writes h

/-! ### Buffers carried unchanged across several segments -/
/-- Nothing before boundary 1 writes `%arg0`: it holds its launch contents there. -/
theorem W1_arg0 (c : Dev nD) : W1 m ρ c (Proc.devRef .tc main_arg0) = m ((c : Thread nD τ).loc main_arg0) :=
  keep0 m ρ c main_arg0 (by decide)
/-- Nothing before boundary 1 writes `%arg3`: it holds its launch contents there. -/
theorem W1_arg3 (c : Dev nD) : W1 m ρ c (Proc.devRef .tc main_arg3) = m ((c : Thread nD τ).loc main_arg3) :=
  keep0 m ρ c main_arg3 (by decide)
/-- Nothing before boundary 1 writes `%arg5`: it holds its launch contents there. -/
theorem W1_arg5 (c : Dev nD) : W1 m ρ c (Proc.devRef .tc main_arg5) = m ((c : Thread nD τ).loc main_arg5) :=
  keep0 m ρ c main_arg5 (by decide)
/-- Nothing before boundary 4 writes `%arg10`: it holds its launch contents there. -/
theorem W4_arg10 (c : Dev nD) : W4 m ρ c (Proc.devRef .tc main_arg10) = m ((c : Thread nD τ).loc main_arg10) :=
  (W4_of_ne m ρ c main_arg10 (by decide)).trans ((keep1 m ρ c main_arg10 (by decide)).trans ((W2_of_ne m ρ c main_arg10 (by decide)).trans (keep0 m ρ c main_arg10 (by decide))))
/-- Nothing before boundary 4 writes `%arg12`: it holds its launch contents there. -/
theorem W4_arg12 (c : Dev nD) : W4 m ρ c (Proc.devRef .tc main_arg12) = m ((c : Thread nD τ).loc main_arg12) :=
  (W4_of_ne m ρ c main_arg12 (by decide)).trans ((keep1 m ρ c main_arg12 (by decide)).trans ((W2_of_ne m ρ c main_arg12 (by decide)).trans (keep0 m ρ c main_arg12 (by decide))))
/-- Nothing before boundary 4 writes `%arg13`: it holds its launch contents there. -/
theorem W4_arg13 (c : Dev nD) : W4 m ρ c (Proc.devRef .tc main_arg13) = m ((c : Thread nD τ).loc main_arg13) :=
  (W4_of_ne m ρ c main_arg13 (by decide)).trans ((keep1 m ρ c main_arg13 (by decide)).trans ((W2_of_ne m ρ c main_arg13 (by decide)).trans (keep0 m ρ c main_arg13 (by decide))))
/-- Nothing before boundary 4 writes `%arg14`: it holds its launch contents there. -/
theorem W4_arg14 (c : Dev nD) : W4 m ρ c (Proc.devRef .tc main_arg14) = m ((c : Thread nD τ).loc main_arg14) :=
  (W4_of_ne m ρ c main_arg14 (by decide)).trans ((keep1 m ρ c main_arg14 (by decide)).trans ((W2_of_ne m ρ c main_arg14 (by decide)).trans (keep0 m ρ c main_arg14 (by decide))))
/-- Nothing before boundary 5 writes `%arg9`: it holds its launch contents there. -/
theorem W5_arg9 (c : Dev nD) : W5 m ρ c (Proc.devRef .tc main_arg9) = m ((c : Thread nD τ).loc main_arg9) :=
  (keep2 m ρ c main_arg9 (by decide)).trans ((W4_of_ne m ρ c main_arg9 (by decide)).trans ((keep1 m ρ c main_arg9 (by decide)).trans ((W2_of_ne m ρ c main_arg9 (by decide)).trans (keep0 m ρ c main_arg9 (by decide)))))
/-- Nothing before boundary 5 writes `%arg11`: it holds its launch contents there. -/
theorem W5_arg11 (c : Dev nD) : W5 m ρ c (Proc.devRef .tc main_arg11) = m ((c : Thread nD τ).loc main_arg11) :=
  (keep2 m ρ c main_arg11 (by decide)).trans ((W4_of_ne m ρ c main_arg11 (by decide)).trans ((keep1 m ρ c main_arg11 (by decide)).trans ((W2_of_ne m ρ c main_arg11 (by decide)).trans (keep0 m ρ c main_arg11 (by decide)))))
/-- Nothing before boundary 8 writes `%arg16`: it holds its launch contents there. -/
theorem W8_arg16 (c : Dev nD) : W8 m ρ c (Proc.devRef .tc main_arg16) = m ((c : Thread nD τ).loc main_arg16) :=
  (W8_of_ne m ρ c main_arg16 (by decide)).trans ((keep3 m ρ c main_arg16 (by decide)).trans ((W6_of_ne m ρ c main_arg16 (by decide)).trans ((keep2 m ρ c main_arg16 (by decide)).trans ((W4_of_ne m ρ c main_arg16 (by decide)).trans ((keep1 m ρ c main_arg16 (by decide)).trans ((W2_of_ne m ρ c main_arg16 (by decide)).trans (keep0 m ρ c main_arg16 (by decide))))))))
/-- Nothing before boundary 8 writes `%arg18`: it holds its launch contents there. -/
theorem W8_arg18 (c : Dev nD) : W8 m ρ c (Proc.devRef .tc main_arg18) = m ((c : Thread nD τ).loc main_arg18) :=
  (W8_of_ne m ρ c main_arg18 (by decide)).trans ((keep3 m ρ c main_arg18 (by decide)).trans ((W6_of_ne m ρ c main_arg18 (by decide)).trans ((keep2 m ρ c main_arg18 (by decide)).trans ((W4_of_ne m ρ c main_arg18 (by decide)).trans ((keep1 m ρ c main_arg18 (by decide)).trans ((W2_of_ne m ρ c main_arg18 (by decide)).trans (keep0 m ρ c main_arg18 (by decide))))))))
/-- Nothing before boundary 8 writes `%arg19`: it holds its launch contents there. -/
theorem W8_arg19 (c : Dev nD) : W8 m ρ c (Proc.devRef .tc main_arg19) = m ((c : Thread nD τ).loc main_arg19) :=
  (W8_of_ne m ρ c main_arg19 (by decide)).trans ((keep3 m ρ c main_arg19 (by decide)).trans ((W6_of_ne m ρ c main_arg19 (by decide)).trans ((keep2 m ρ c main_arg19 (by decide)).trans ((W4_of_ne m ρ c main_arg19 (by decide)).trans ((keep1 m ρ c main_arg19 (by decide)).trans ((W2_of_ne m ρ c main_arg19 (by decide)).trans (keep0 m ρ c main_arg19 (by decide))))))))
/-- Nothing before boundary 8 writes `%arg20`: it holds its launch contents there. -/
theorem W8_arg20 (c : Dev nD) : W8 m ρ c (Proc.devRef .tc main_arg20) = m ((c : Thread nD τ).loc main_arg20) :=
  (W8_of_ne m ρ c main_arg20 (by decide)).trans ((keep3 m ρ c main_arg20 (by decide)).trans ((W6_of_ne m ρ c main_arg20 (by decide)).trans ((keep2 m ρ c main_arg20 (by decide)).trans ((W4_of_ne m ρ c main_arg20 (by decide)).trans ((keep1 m ρ c main_arg20 (by decide)).trans ((W2_of_ne m ρ c main_arg20 (by decide)).trans (keep0 m ρ c main_arg20 (by decide))))))))
/-- Nothing before boundary 9 writes `%arg15`: it holds its launch contents there. -/
theorem W9_arg15 (c : Dev nD) : W9 m ρ c (Proc.devRef .tc main_arg15) = m ((c : Thread nD τ).loc main_arg15) :=
  (keep4 m ρ c main_arg15 (by decide)).trans ((W8_of_ne m ρ c main_arg15 (by decide)).trans ((keep3 m ρ c main_arg15 (by decide)).trans ((W6_of_ne m ρ c main_arg15 (by decide)).trans ((keep2 m ρ c main_arg15 (by decide)).trans ((W4_of_ne m ρ c main_arg15 (by decide)).trans ((keep1 m ρ c main_arg15 (by decide)).trans ((W2_of_ne m ρ c main_arg15 (by decide)).trans (keep0 m ρ c main_arg15 (by decide)))))))))
/-- Nothing before boundary 9 writes `%arg17`: it holds its launch contents there. -/
theorem W9_arg17 (c : Dev nD) : W9 m ρ c (Proc.devRef .tc main_arg17) = m ((c : Thread nD τ).loc main_arg17) :=
  (keep4 m ρ c main_arg17 (by decide)).trans ((W8_of_ne m ρ c main_arg17 (by decide)).trans ((keep3 m ρ c main_arg17 (by decide)).trans ((W6_of_ne m ρ c main_arg17 (by decide)).trans ((keep2 m ρ c main_arg17 (by decide)).trans ((W4_of_ne m ρ c main_arg17 (by decide)).trans ((keep1 m ρ c main_arg17 (by decide)).trans ((W2_of_ne m ρ c main_arg17 (by decide)).trans (keep0 m ρ c main_arg17 (by decide)))))))))
/-- Nothing before boundary 12 writes `%arg2`: it holds its launch contents there. -/
theorem W12_arg2 (c : Dev nD) : W12 m ρ c (Proc.devRef .tc main_arg2) = m ((c : Thread nD τ).loc main_arg2) :=
  (W12_of_ne m ρ c main_arg2 (by decide)).trans ((keep5 m ρ c main_arg2 (by decide)).trans ((W10_of_ne m ρ c main_arg2 (by decide)).trans ((keep4 m ρ c main_arg2 (by decide)).trans ((W8_of_ne m ρ c main_arg2 (by decide)).trans ((keep3 m ρ c main_arg2 (by decide)).trans ((W6_of_ne m ρ c main_arg2 (by decide)).trans ((keep2 m ρ c main_arg2 (by decide)).trans ((W4_of_ne m ρ c main_arg2 (by decide)).trans ((keep1 m ρ c main_arg2 (by decide)).trans ((W2_of_ne m ρ c main_arg2 (by decide)).trans (keep0 m ρ c main_arg2 (by decide))))))))))))
/-- Nothing before boundary 12 writes `%arg21`: it holds its launch contents there. -/
theorem W12_arg21 (c : Dev nD) : W12 m ρ c (Proc.devRef .tc main_arg21) = m ((c : Thread nD τ).loc main_arg21) :=
  (W12_of_ne m ρ c main_arg21 (by decide)).trans ((keep5 m ρ c main_arg21 (by decide)).trans ((W10_of_ne m ρ c main_arg21 (by decide)).trans ((keep4 m ρ c main_arg21 (by decide)).trans ((W8_of_ne m ρ c main_arg21 (by decide)).trans ((keep3 m ρ c main_arg21 (by decide)).trans ((W6_of_ne m ρ c main_arg21 (by decide)).trans ((keep2 m ρ c main_arg21 (by decide)).trans ((W4_of_ne m ρ c main_arg21 (by decide)).trans ((keep1 m ρ c main_arg21 (by decide)).trans ((W2_of_ne m ρ c main_arg21 (by decide)).trans (keep0 m ρ c main_arg21 (by decide))))))))))))
/-- Nothing before boundary 12 writes `%arg22`: it holds its launch contents there. -/
theorem W12_arg22 (c : Dev nD) : W12 m ρ c (Proc.devRef .tc main_arg22) = m ((c : Thread nD τ).loc main_arg22) :=
  (W12_of_ne m ρ c main_arg22 (by decide)).trans ((keep5 m ρ c main_arg22 (by decide)).trans ((W10_of_ne m ρ c main_arg22 (by decide)).trans ((keep4 m ρ c main_arg22 (by decide)).trans ((W8_of_ne m ρ c main_arg22 (by decide)).trans ((keep3 m ρ c main_arg22 (by decide)).trans ((W6_of_ne m ρ c main_arg22 (by decide)).trans ((keep2 m ρ c main_arg22 (by decide)).trans ((W4_of_ne m ρ c main_arg22 (by decide)).trans ((keep1 m ρ c main_arg22 (by decide)).trans ((W2_of_ne m ρ c main_arg22 (by decide)).trans (keep0 m ρ c main_arg22 (by decide))))))))))))
/-- Boundary 1 holds the edges' sources at `%1`. -/
theorem W1_v1 (c : Dev nD) : W1 m ρ c (Proc.devRef .tc main_v1) = srcK (m ((c : Thread nD τ).loc main_arg1)) :=
  ops0_v1 (W0 m ρ c)
/-- Boundary 1 holds the edges' destinations at `%3`. -/
theorem W1_v3 (c : Dev nD) : W1 m ρ c (Proc.devRef .tc main_v3) = dstK (m ((c : Thread nD τ).loc main_arg1)) :=
  ops0_v3 (W0 m ρ c)
/-- Boundary 4 still holds the edges' sources at `%1`. -/
theorem W4_v1 (c : Dev nD) : W4 m ρ c (Proc.devRef .tc main_v1) = srcK (m ((c : Thread nD τ).loc main_arg1)) :=
  (W4_of_ne m ρ c main_v1 (by decide)).trans ((keep1 m ρ c main_v1 (by decide)).trans ((W2_of_ne m ρ c main_v1 (by decide)).trans (W1_v1 m ρ c)))
/-- Boundary 4 still holds the edges' destinations at `%3`. -/
theorem W4_v3 (c : Dev nD) : W4 m ρ c (Proc.devRef .tc main_v3) = dstK (m ((c : Thread nD τ).loc main_arg1)) :=
  (W4_of_ne m ρ c main_v3 (by decide)).trans ((keep1 m ρ c main_v3 (by decide)).trans ((W2_of_ne m ρ c main_v3 (by decide)).trans (W1_v3 m ρ c)))
/-- Boundary 8 still holds the edges' sources at `%1`. -/
theorem W8_v1 (c : Dev nD) : W8 m ρ c (Proc.devRef .tc main_v1) = srcK (m ((c : Thread nD τ).loc main_arg1)) :=
  (W8_of_ne m ρ c main_v1 (by decide)).trans ((keep3 m ρ c main_v1 (by decide)).trans ((W6_of_ne m ρ c main_v1 (by decide)).trans ((keep2 m ρ c main_v1 (by decide)).trans ((W4_of_ne m ρ c main_v1 (by decide)).trans ((keep1 m ρ c main_v1 (by decide)).trans ((W2_of_ne m ρ c main_v1 (by decide)).trans (W1_v1 m ρ c)))))))
/-- Boundary 8 still holds the edges' destinations at `%3`. -/
theorem W8_v3 (c : Dev nD) : W8 m ρ c (Proc.devRef .tc main_v3) = dstK (m ((c : Thread nD τ).loc main_arg1)) :=
  (W8_of_ne m ρ c main_v3 (by decide)).trans ((keep3 m ρ c main_v3 (by decide)).trans ((W6_of_ne m ρ c main_v3 (by decide)).trans ((keep2 m ρ c main_v3 (by decide)).trans ((W4_of_ne m ρ c main_v3 (by decide)).trans ((keep1 m ρ c main_v3 (by decide)).trans ((W2_of_ne m ρ c main_v3 (by decide)).trans (W1_v3 m ρ c)))))))

end Boundaries

end Cert.KernelIdeal.Chain

end
-- ==== Proof.BridgeX.lean ====
/-
  The host terms of the two programs are the same terms.

  Between its regions the tiled program computes on the host: the neighbour sum of the node features along the edges
  (a gather of the source rows, scatter-added from zero at the destination rows), a bias or scale vector laid out as
  one row, the row of column means and the row of column variances from two rows of column sums, and at the end the
  pool over the graphs with the linear head. The reference computes the same neighbour sums and the same pool and head
  with the same operations in the same order; the two programs' records of shapes and dimension numbers carry the
  same data, so these terms are equal as they stand. The rows of means and variances, read at a column, are the
  mean and the variance of that column's two sums.
-/
import proofs.«173864_j70188355551324_1_alg».proof.Proof.KernelChainDefs
import proofs.«173864_j70188355551324_1_alg».proof.Proof.Gen.KernelIdeal
import proofs.«173864_j70188355551324_1_alg».proof.Proof.Gen.ReferenceIdeal
import proofs.«173864_j70188355551324_1_alg».proof.Proof.RefTerm
import proofs.«173864_j70188355551324_1_alg».proof.Proof.Spec
import proofs.«173864_j70188355551324_1_alg».proof.Proof.Layer
import Idealize.ShloMosaic.Lib.ValueIdx
import Idealize.ShloMosaic.Lib.ValueLayout

noncomputable section

namespace Cert.BridgeX

open Idealize.ShloMosaic Idealize.ShloMosaic.ValueIdx

/-! ## The neighbour sums and the tail -/

/-- The neighbour sum over 128 features is the same term in both programs. -/
theorem agg128_eq (h : FVec Ideal ⟨2, ![50000, 128]⟩ .f32) (e : IVec ⟨2, ![2, 800000]⟩ 32) :
    Cert.KernelIdeal.Chain.aggK128 h e = Cert.ReferenceIdeal.RefTerm.refAgg128 h e := rfl

/-- The neighbour sum over 64 features is the same term in both programs. -/
theorem agg64_eq (h : FVec Ideal ⟨2, ![50000, 64]⟩ .f32) (e : IVec ⟨2, ![2, 800000]⟩ 32) :
    Cert.KernelIdeal.Chain.aggK64 h e = Cert.ReferenceIdeal.RefTerm.refAgg64 h e := rfl

/-- The pool over the graphs and the linear head are the same term in both programs. -/
theorem tail_eq (h : FVec Ideal ⟨2, ![50000, 64]⟩ .f32) (g : IVec ⟨1, ![50000]⟩ 32) (w : FVec Ideal ⟨2, ![64, 1]⟩ .f32)
    (b : FVec Ideal ⟨1, ![1]⟩ .f32) :
    Cert.KernelIdeal.Chain.tailK h g w b = Cert.ReferenceIdeal.RefTerm.refTail h g w b := rfl

/-! ## A vector as one row -/

/-- The row made of a vector reads the vector at the column. -/
theorem rowK_apply (b : FVec Ideal ⟨1, ![64]⟩ .f32) (q : Fin 64) :
    Cert.KernelIdeal.Chain.rowK b (ix2 (0 : Fin 1) q) = b (ix1 q) := by
  unfold Cert.KernelIdeal.Chain.rowK
  exact shapeCast_a_1a_apply b _ (0 : Fin 1) q

/-- The row made of a vector is the vector reshaped, whatever witness the reshape carries. -/
theorem rowK_eq (b : FVec Ideal ⟨1, ![64]⟩ .f32) (hc : (⟨1, ![64]⟩ : Shape).ShapeCasts ⟨2, ![1, 64]⟩) :
    Cert.KernelIdeal.Chain.rowK b = shapeCast ⟨2, ![1, 64]⟩ b hc := rfl

/-! ## The rows of means and variances at a column -/

/-- The row of means at column q is the mean of the row of sums at q. -/
theorem meanOfK_apply (S : FVec Ideal ⟨2, ![1, 64]⟩ .f32) (q : Fin 64) :
    Cert.KernelIdeal.Chain.meanOfK S (ix2 (0 : Fin 1) q) = Cert.Gin.meanK (S (ix2 (0 : Fin 1) q)) := by
  unfold Cert.KernelIdeal.Chain.meanOfK
  exact Cert.Gin.meanRow_apply S _ q

/-- The row of variances at column q is the variance of the two rows of sums at q. -/
theorem varOfK_apply (S SS : FVec Ideal ⟨2, ![1, 64]⟩ .f32) (q : Fin 64) :
    Cert.KernelIdeal.Chain.varOfK S SS (ix2 (0 : Fin 1) q)
      = Cert.Gin.varK (S (ix2 (0 : Fin 1) q)) (SS (ix2 (0 : Fin 1) q)) := by
  unfold Cert.KernelIdeal.Chain.varOfK Cert.KernelIdeal.Chain.meanOfK
  exact Cert.Gin.varRow_apply S SS _ _ q

end Cert.BridgeX

end
-- ==== Proof.KernelChain.lean ====
import proofs.«173864_j70188355551324_1_alg».proof.Proof.KernelChainDefs

/-! # The first three regions' entry contents

Each input window of regions 0, 1 and 2 of the tiled program, at the contents the region is entered with: an argument
array as launched, a named host term over the launch memory, or the array the region before left. -/

set_option maxRecDepth 16384

noncomputable section

namespace Cert.KernelIdeal.Chain

open Idealize.ShloMosaic Idealize.ShloMosaic.TcCoe Idealize.ShloMosaic.Tactic
open Idealize.SL.Sem
open Cert.KernelIdeal.Gen

variable (m : (ℓ : Loc nD τ sig) → Buf (Elt Ideal) ℓ) (ρ : Dev nD → PrngReg)

/-- Region 0 finds at window 0 the input features `%arg0` as launched. -/
theorem V1_w0 (c : Dev nD) : V1 m ρ c (Pipeline.arrRef spec0 0) = m ((c : Thread nD τ).loc main_arg0) :=
  W1_arg0 m ρ c
/-- Region 0 finds at window 1 the neighbour sum of the input features along the edges. -/
theorem V1_w1 (c : Dev nD) : V1 m ρ c (Pipeline.arrRef spec0 1) = aggK128 (m ((c : Thread nD τ).loc main_arg0)) (m ((c : Thread nD τ).loc main_arg1)) :=
  ops0_v13 (W0 m ρ c)
/-- Region 0 finds at window 2 the first weights `%arg3` as launched. -/
theorem V1_w2 (c : Dev nD) : V1 m ρ c (Pipeline.arrRef spec0 2) = m ((c : Thread nD τ).loc main_arg3) :=
  W1_arg3 m ρ c
/-- Region 0 finds at window 3 the first bias `%arg4` as a row. -/
theorem V1_w3 (c : Dev nD) : V1 m ρ c (Pipeline.arrRef spec0 3) = rowK (m ((c : Thread nD τ).loc main_arg4)) :=
  ops0_v14 (W0 m ρ c)
/-- Region 0 finds at window 4 the second weights `%arg5` as launched. -/
theorem V1_w4 (c : Dev nD) : V1 m ρ c (Pipeline.arrRef spec0 4) = m ((c : Thread nD τ).loc main_arg5) :=
  W1_arg5 m ρ c
/-- Region 0 finds at window 5 the second bias `%arg6` as a row. -/
theorem V1_w5 (c : Dev nD) : V1 m ρ c (Pipeline.arrRef spec0 5) = rowK (m ((c : Thread nD τ).loc main_arg6)) :=
  ops0_v15 (W0 m ρ c)
/-- Region 1 finds at window 0 what region 0 left in its output 6. -/
theorem V3_w0 (c : Dev nD) : V3 m ρ c (Pipeline.arrRef spec1 0) = (dat0 (V1 m ρ) c).arrAt 6 cfg0.N :=
  (keep1 m ρ c main_v18_0 (by decide)).trans (W2_arr m ρ c 6)
/-- Region 1 finds at window 1 the column means of region 0's column sums (its output 7). -/
theorem V3_w1 (c : Dev nD) : V3 m ρ c (Pipeline.arrRef spec1 1) = meanOfK ((dat0 (V1 m ρ) c).arrAt 7 cfg0.N) :=
  (ops1_v20 (W2 m ρ c)).trans (congrArg meanOfK (W2_arr m ρ c 7))
/-- Region 1 finds at window 2 the column variances from region 0's column sums and sums of squares (its outputs 7 and 8). -/
theorem V3_w2 (c : Dev nD) : V3 m ρ c (Pipeline.arrRef spec1 2) = varOfK ((dat0 (V1 m ρ) c).arrAt 7 cfg0.N) ((dat0 (V1 m ρ) c).arrAt 8 cfg0.N) :=
  (ops1_v24 (W2 m ρ c)).trans (congrArg₂ varOfK (W2_arr m ρ c 7) (W2_arr m ρ c 8))
/-- Region 1 finds at window 3 the scale `%arg7` as a row. -/
theorem V3_w3 (c : Dev nD) : V3 m ρ c (Pipeline.arrRef spec1 3) = rowK (m ((c : Thread nD τ).loc main_arg7)) :=
  (keep1 m ρ c main_v16 (by decide)).trans ((W2_of_ne m ρ c main_v16 (by decide)).trans (ops0_v16 (W0 m ρ c)))
/-- Region 1 finds at window 4 the shift `%arg8` as a row. -/
theorem V3_w4 (c : Dev nD) : V3 m ρ c (Pipeline.arrRef spec1 4) = rowK (m ((c : Thread nD τ).loc main_arg8)) :=
  (keep1 m ρ c main_v17 (by decide)).trans ((W2_of_ne m ρ c main_v17 (by decide)).trans (ops0_v17 (W0 m ρ c)))
/-- Region 2 finds at window 0 what region 1 left in its output 5. -/
theorem V5_w0 (c : Dev nD) : V5 m ρ c (Pipeline.arrRef spec2 0) = (dat1 (V3 m ρ) c).arrAt 5 cfg1.N :=
  (keep2 m ρ c main_v25 (by decide)).trans (W4_arr m ρ c 5)
/-- Region 2 finds at window 1 the neighbour sum of region 1's output 5 along the edges. -/
theorem V5_w1 (c : Dev nD) : V5 m ρ c (Pipeline.arrRef spec2 1) = aggK64 ((dat1 (V3 m ρ) c).arrAt 5 cfg1.N) (m ((c : Thread nD τ).loc main_arg1)) :=
  (ops2_v35 (W4 m ρ c)).trans (gsK64_congr (W4_arr m ρ c 5) (W4_v1 m ρ c) (W4_v3 m ρ c))
/-- Region 2 finds at window 2 the first weights `%arg9` as launched. -/
theorem V5_w2 (c : Dev nD) : V5 m ρ c (Pipeline.arrRef spec2 2) = m ((c : Thread nD τ).loc main_arg9) :=
  W5_arg9 m ρ c
/-- Region 2 finds at window 3 the first bias `%arg10` as a row. -/
theorem V5_w3 (c : Dev nD) : V5 m ρ c (Pipeline.arrRef spec2 3) = rowK (m ((c : Thread nD τ).loc main_arg10)) :=
  (ops2_v36 (W4 m ρ c)).trans (congrArg rowK (W4_arg10 m ρ c))
/-- Region 2 finds at window 4 the second weights `%arg11` as launched. -/
theorem V5_w4 (c : Dev nD) : V5 m ρ c (Pipeline.arrRef spec2 4) = m ((c : Thread nD τ).loc main_arg11) :=
  W5_arg11 m ρ c
/-- Region 2 finds at window 5 the second bias `%arg12` as a row. -/
theorem V5_w5 (c : Dev nD) : V5 m ρ c (Pipeline.arrRef spec2 5) = rowK (m ((c : Thread nD τ).loc main_arg12)) :=
  (ops2_v37 (W4 m ρ c)).trans (congrArg rowK (W4_arg12 m ρ c))

end Cert.KernelIdeal.Chain

end
-- ==== Proof.KernelChainB.lean ====
/-
  The kernel program's result read back through its segments: regions 3, 4 and 5 and the tail.

  What each of the last three regions finds at its input windows when it is entered, and what the result buffer holds
  at the last boundary: an argument array as launched, a host term over earlier buffers (a bias or scale vector as one
  row, the column mean and variance of the sums the region before accumulated, the neighbour sum along the edges), or
  the array an earlier region left. Each is read by walking the fold of the boundaries' contents back: a stretch of
  host operations keeps what it does not write and computes the named term where it does, a region keeps every buffer
  that is not one of its arrays and leaves its write-backs in those.
-/
import proofs.«173864_j70188355551324_1_alg».proof.Proof.KernelChainDefs

set_option maxRecDepth 16384

noncomputable section

namespace Cert.KernelIdeal.Chain

open Idealize.ShloMosaic Idealize.ShloMosaic.TcCoe Idealize.ShloMosaic.Tactic
open Idealize.SL.Sem
open Cert.KernelIdeal.Gen

variable (m : (ℓ : Loc nD τ sig) → Buf (Elt Ideal) ℓ) (ρ : Dev nD → PrngReg)

/-- Region 3 finds at window 0 what region 2 left in its output 6. -/
theorem V7_w0 (c : Dev nD) : V7 m ρ c (Pipeline.arrRef spec3 0) = (dat2 (V5 m ρ) c).arrAt 6 cfg2.N :=
  (keep3 m ρ c main_v40_0 (by decide)).trans (W6_arr m ρ c 6)
/-- Region 3 finds at window 1 the column means of region 2's column sums (its output 7). -/
theorem V7_w1 (c : Dev nD) : V7 m ρ c (Pipeline.arrRef spec3 1) = meanOfK ((dat2 (V5 m ρ) c).arrAt 7 cfg2.N) :=
  (ops3_v42 (W6 m ρ c)).trans (congrArg meanOfK (W6_arr m ρ c 7))
/-- Region 3 finds at window 2 the column variances from region 2's column sums and sums of squares (its outputs 7 and 8). -/
theorem V7_w2 (c : Dev nD) : V7 m ρ c (Pipeline.arrRef spec3 2) = varOfK ((dat2 (V5 m ρ) c).arrAt 7 cfg2.N) ((dat2 (V5 m ρ) c).arrAt 8 cfg2.N) :=
  (ops3_v46 (W6 m ρ c)).trans (congrArg₂ varOfK (W6_arr m ρ c 7) (W6_arr m ρ c 8))
/-- Region 3 finds at window 3 the scale `%arg13` as a row. -/
theorem V7_w3 (c : Dev nD) : V7 m ρ c (Pipeline.arrRef spec3 3) = rowK (m ((c : Thread nD τ).loc main_arg13)) :=
  (keep3 m ρ c main_v38 (by decide)).trans ((W6_of_ne m ρ c main_v38 (by decide)).trans
    ((ops2_v38 (W4 m ρ c)).trans (congrArg rowK (W4_arg13 m ρ c))))
/-- Region 3 finds at window 4 the shift `%arg14` as a row. -/
theorem V7_w4 (c : Dev nD) : V7 m ρ c (Pipeline.arrRef spec3 4) = rowK (m ((c : Thread nD τ).loc main_arg14)) :=
  (keep3 m ρ c main_v39 (by decide)).trans ((W6_of_ne m ρ c main_v39 (by decide)).trans
    ((ops2_v39 (W4 m ρ c)).trans (congrArg rowK (W4_arg14 m ρ c))))
/-- Region 4 finds at window 0 what region 3 left in its output 5. -/
theorem V9_w0 (c : Dev nD) : V9 m ρ c (Pipeline.arrRef spec4 0) = (dat3 (V7 m ρ) c).arrAt 5 cfg3.N :=
  (keep4 m ρ c main_v47 (by decide)).trans (W8_arr m ρ c 5)
/-- Region 4 finds at window 1 the neighbour sum of region 3's output 5 along the edges. -/
theorem V9_w1 (c : Dev nD) : V9 m ρ c (Pipeline.arrRef spec4 1) = aggK64 ((dat3 (V7 m ρ) c).arrAt 5 cfg3.N) (m ((c : Thread nD τ).loc main_arg1)) :=
  (ops4_v57 (W8 m ρ c)).trans (gsK64_congr (W8_arr m ρ c 5) (W8_v1 m ρ c) (W8_v3 m ρ c))
/-- Region 4 finds at window 2 the first weights `%arg15` as launched. -/
theorem V9_w2 (c : Dev nD) : V9 m ρ c (Pipeline.arrRef spec4 2) = m ((c : Thread nD τ).loc main_arg15) :=
  W9_arg15 m ρ c
/-- Region 4 finds at window 3 the first bias `%arg16` as a row. -/
theorem V9_w3 (c : Dev nD) : V9 m ρ c (Pipeline.arrRef spec4 3) = rowK (m ((c : Thread nD τ).loc main_arg16)) :=
  (ops4_v58 (W8 m ρ c)).trans (congrArg rowK (W8_arg16 m ρ c))
/-- Region 4 finds at window 4 the second weights `%arg17` as launched. -/
theorem V9_w4 (c : Dev nD) : V9 m ρ c (Pipeline.arrRef spec4 4) = m ((c : Thread nD τ).loc main_arg17) :=
  W9_arg17 m ρ c
/-- Region 4 finds at window 5 the second bias `%arg18` as a row. -/
theorem V9_w5 (c : Dev nD) : V9 m ρ c (Pipeline.arrRef spec4 5) = rowK (m ((c : Thread nD τ).loc main_arg18)) :=
  (ops4_v59 (W8 m ρ c)).trans (congrArg rowK (W8_arg18 m ρ c))
/-- Region 5 finds at window 0 what region 4 left in its output 6. -/
theorem V11_w0 (c : Dev nD) : V11 m ρ c (Pipeline.arrRef spec5 0) = (dat4 (V9 m ρ) c).arrAt 6 cfg4.N :=
  (keep5 m ρ c main_v62_0 (by decide)).trans (W10_arr m ρ c 6)
/-- Region 5 finds at window 1 the column means of region 4's column sums (its output 7). -/
theorem V11_w1 (c : Dev nD) : V11 m ρ c (Pipeline.arrRef spec5 1) = meanOfK ((dat4 (V9 m ρ) c).arrAt 7 cfg4.N) :=
  (ops5_v64 (W10 m ρ c)).trans (congrArg meanOfK (W10_arr m ρ c 7))
/-- Region 5 finds at window 2 the column variances from region 4's column sums and sums of squares (its outputs 7 and 8). -/
theorem V11_w2 (c : Dev nD) : V11 m ρ c (Pipeline.arrRef spec5 2) = varOfK ((dat4 (V9 m ρ) c).arrAt 7 cfg4.N) ((dat4 (V9 m ρ) c).arrAt 8 cfg4.N) :=
  (ops5_v68 (W10 m ρ c)).trans (congrArg₂ varOfK (W10_arr m ρ c 7) (W10_arr m ρ c 8))
/-- Region 5 finds at window 3 the scale `%arg19` as a row. -/
theorem V11_w3 (c : Dev nD) : V11 m ρ c (Pipeline.arrRef spec5 3) = rowK (m ((c : Thread nD τ).loc main_arg19)) :=
  (keep5 m ρ c main_v60 (by decide)).trans ((W10_of_ne m ρ c main_v60 (by decide)).trans
    ((ops4_v60 (W8 m ρ c)).trans (congrArg rowK (W8_arg19 m ρ c))))
/-- Region 5 finds at window 4 the shift `%arg20` as a row. -/
theorem V11_w4 (c : Dev nD) : V11 m ρ c (Pipeline.arrRef spec5 4) = rowK (m ((c : Thread nD τ).loc main_arg20)) :=
  (keep5 m ρ c main_v61 (by decide)).trans ((W10_of_ne m ρ c main_v61 (by decide)).trans
    ((ops4_v61 (W8 m ρ c)).trans (congrArg rowK (W8_arg20 m ρ c))))
/-- The result buffer `%76` at the last boundary: the pool over the graphs `%arg2` and the head `%arg21`, `%arg22` of what
    region 5 left in its output 5. -/
theorem W13_v76 (c : Dev nD) : W13 m ρ c (Proc.devRef .tc main_v76) = tailK ((dat5 (V11 m ρ) c).arrAt 5 cfg5.N) (m ((c : Thread nD τ).loc main_arg2)) (m ((c : Thread nD τ).loc main_arg21)) (m ((c : Thread nD τ).loc main_arg22)) :=
  (ops6_v76 (W12 m ρ c)).trans (tailK_congr (W12_arr m ρ c 5) (W12_arg2 m ρ c) (W12_arg21 m ρ c) (W12_arg22 m ρ c))

end Cert.KernelIdeal.Chain

end
-- ==== Proof.LibBlockSums.lean ====
/-
  Two re-indexing facts for sums cut into consecutive blocks of equal length, in any additive commutative monoid.

  A sum over the first a * b natural numbers is the sum, over the a blocks, of the sums over the b positions inside a
  block, the position k of block c being the number c * b + k. The same for a sum over Fin n with a * b = n, where
  the summand at block k, position r is read at the index k * b + r (which is below n, so the guard on the index is
  always satisfied).
-/
import Mathlib.Algebra.BigOperators.Fin
import Mathlib.Algebra.BigOperators.Intervals

open scoped BigOperators

namespace Cert.LibBlockSums

/-- A sum over the first a * b natural numbers, cut into a consecutive blocks of length b: the block c holds the numbers
    c * b + k for k below b. By induction on the number of blocks, splitting the last block off the range. -/
theorem sum_range_mul {M : Type*} [AddCommMonoid M] (a b : ℕ) (g : ℕ → M) :
    ∑ c ∈ Finset.range a, ∑ k ∈ Finset.range b, g (c * b + k) = ∑ t ∈ Finset.range (a * b), g t := by
  induction a with
  | zero => simp
  | succ a ih => rw [Finset.sum_range_succ, ih, add_one_mul, Finset.sum_range_add]

/-- A sum over Fin n with a * b = n, cut into a consecutive blocks of length b: block k, position r reads the index
    k * b + r. The guard k * b + r < n holds for every k below a, so the guarded summand is the function's value; the
    guarded function on the natural numbers (the value below n, zero from n on) turns both sides into sums over ranges,
    where the cut is `sum_range_mul`. -/
theorem sum_blocks {M : Type*} [AddCommMonoid M] (a b n : ℕ) (hn : a * b = n) (f : Fin n → M) :
    ∑ k ∈ Finset.range a, ∑ r : Fin b, (if h : k * b + r.val < n then f ⟨k * b + r.val, h⟩ else 0) = ∑ i : Fin n, f i := by
  have hg : ∀ k : ℕ, (∑ r : Fin b, (if h : k * b + r.val < n then f ⟨k * b + r.val, h⟩ else 0))
      = ∑ r ∈ Finset.range b, (fun t : ℕ => if h : t < n then f ⟨t, h⟩ else 0) (k * b + r) := fun k =>
    (Finset.sum_range fun r : ℕ => (fun t : ℕ => if h : t < n then f ⟨t, h⟩ else 0) (k * b + r)).symm
  rw [Finset.sum_congr rfl fun k _ => hg k, sum_range_mul a b fun t : ℕ => if h : t < n then f ⟨t, h⟩ else 0, hn,
    Finset.sum_range]
  exact Finset.sum_congr rfl fun i _ => dif_pos i.2

end Cert.LibBlockSums
-- ==== Proof.RegionR0Pay.lean ====
/-
  One grid point of the dense region that also keeps column statistics, at the extended reals.

  The region works on an array of 50000 rows in 10 blocks of 5000 rows. At the block n its body forms, from the block's
  rows of the features h and of the aggregate g, the block's rows of

      U = max ((max ((h + g)·W₁ + B₁) 0)·W₂ + B₂) 0

  (each left factor and each weight narrowed to a shorter float format first, which changes nothing at the extended
  reals), and adds to two running rows the block's column sums Σₐ U(a, q) and Σₐ U(a, q)². The rows start from the
  zero word at the first block. Row a of block n is row n·5000 + a of the array, so after all ten blocks the two rows
  hold the column sums over all 50000 rows: a sum over 50000 consecutive numbers cut into ten runs of 5000.
-/
import proofs.«173864_j70188355551324_1_alg».proof.Proof.Gen.KernelIdeal.Skeleton
import proofs.«173864_j70188355551324_1_alg».proof.Proof.LibMlpRows
import proofs.«173864_j70188355551324_1_alg».proof.Proof.LibRowForms
import proofs.«173864_j70188355551324_1_alg».proof.Proof.LibBlockSums
import Idealize.ShloMosaic.Lib.ValueLayout

noncomputable section

open scoped BigOperators

namespace Cert.KernelIdeal.RegionR0

open Idealize.ShloMosaic Idealize.ShloMosaic.ValueIdx Cert.KernelIdeal Cert.KernelIdeal.Gen
open Cert.LibMlpRows Cert.LibBiasRows Cert.LibRowBlockDot

/-! ## Rows of a block, and a sum over all rows cut into blocks -/

/-- Row a of the block at point n is row n·5000 + a of the array. -/
def row (n : ℕ) (hn : n < 10) (a : Fin 5000) : Fin 50000 := ⟨n * 5000 + a.val, by omega⟩

theorem row_val (n : ℕ) (hn : n < 10) (a : Fin 5000) : (row n hn a).val = n * 5000 + a.val := rfl

/-- The sum of f over the rows of the first n blocks (rows past the array count as zero: there are none when n ≤ 10). -/
def psum (f : Fin 50000 → EReal) (n : ℕ) : EReal :=
  ∑ k ∈ Finset.range n, ∑ a : Fin 5000, (if h : k * 5000 + a.val < 50000 then f ⟨k * 5000 + a.val, h⟩ else 0)

theorem psum_zero (f : Fin 50000 → EReal) : psum f 0 = 0 := by
  unfold psum; rw [Finset.range_zero, Finset.sum_empty]

/-- One more block adds that block's rows. -/
theorem psum_succ (f : Fin 50000 → EReal) (n : ℕ) (hn : n < 10) :
    psum f (n + 1) = psum f n + ∑ a : Fin 5000, f (row n hn a) := by
  unfold psum
  rw [Finset.sum_range_succ]
  refine congrArg (_ + ·) (Finset.sum_congr rfl fun a _ => ?_)
  have h : n * 5000 + a.val < 50000 := by have := a.isLt; omega
  rw [dif_pos h]; rfl

/-- Ten blocks are all the rows. -/
theorem psum_ten (f : Fin 50000 → EReal) : psum f 10 = ∑ r : Fin 50000, f r :=
  Cert.LibBlockSums.sum_blocks 10 5000 50000 rfl f

/-! ## A dense stage whose two factors are both narrowed -/

variable {M m K N : Nat} {φ₁ φ₂ ψ₁ ψ₂ : FTy}

/-- A dense stage with rectifier on a block of rows u of U, the right factor w given entry by entry, is that block of
    rows of the whole stage. -/
theorem denseRelu_rows' (rw_ : Fin m → Fin M) (U : FVec Ideal ⟨2, ![M, K]⟩ φ₁) (W : FVec Ideal ⟨2, ![K, N]⟩ φ₂)
    (B : FVec Ideal ⟨2, ![1, N]⟩ .f32) (u : FVec Ideal ⟨2, ![m, K]⟩ ψ₁) (w : FVec Ideal ⟨2, ![K, N]⟩ ψ₂)
    (b : FVec Ideal ⟨2, ![1, N]⟩ .f32)
    (hu : ∀ r c, u (ix2 r c) = U (ix2 (rw_ r) c)) (hw : ∀ c q, w (ix2 c q) = W (ix2 c q))
    (hb : ∀ q, b (ix2 (0 : Fin 1) q) = B (ix2 (0 : Fin 1) q))
    (hsb : (⟨2, ![1, N]⟩ : Shape).ShapeCasts ⟨2, ![1, N]⟩)
    (hbc : (⟨2, ![1, N]⟩ : Shape).Broadcasts ⟨2, ![m, N]⟩) (r : Fin m) (q : Fin N) :
    maximumf (addf (matmul (DotDims.plain m K N) none u w
          (constant (F := Ideal) ⟨2, ![m, N]⟩ .f32 0x00000000#32))
        (broadcastTo ⟨2, ![m, N]⟩ (shapeCast ⟨2, ![1, N]⟩ b hsb) hbc))
      (broadcast ⟨2, ![m, N]⟩ (Scalar.ofBits (F := Ideal) .f32 0x00000000#32)) (ix2 r q)
      = biasRelu (Host.dotGeneral (DotDims.plain M K N) none U W) B (ix2 (rw_ r) q) := by
  have e := denseRelu_rows rw_ U W B u w b hu hw hb rfl hsb hbc r q
  rwa [shapeCast_self w rfl] at e

/-- The two dense stages and their rectifiers on a block of rows, every factor of each product narrowed to bf16 first,
    applied to a block s whose entries are those rows of the residual sum A + X, is that block of rows of the two-stage
    function of the whole arrays. -/
theorem mlp_rows' {H : Nat} (rw_ : Fin m → Fin M)
    (A X : FVec Ideal ⟨2, ![M, K]⟩ .f32) (W1 : FVec Ideal ⟨2, ![K, H]⟩ .f32) (B1 : FVec Ideal ⟨2, ![1, H]⟩ .f32)
    (W2 : FVec Ideal ⟨2, ![H, N]⟩ .f32) (B2 : FVec Ideal ⟨2, ![1, N]⟩ .f32)
    (s : FVec Ideal ⟨2, ![m, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (hs : ∀ r c, s (ix2 r c) = addf A X (ix2 (rw_ r) c))
    (hw1 : ∀ c q, w1 (ix2 c q) = W1 (ix2 c q)) (hb1 : ∀ q, b1 (ix2 (0 : Fin 1) q) = B1 (ix2 (0 : Fin 1) q))
    (hw2 : ∀ c q, w2 (ix2 c q) = W2 (ix2 c q)) (hb2 : ∀ q, b2 (ix2 (0 : Fin 1) q) = B2 (ix2 (0 : Fin 1) q))
    (hsb1 : (⟨2, ![1, H]⟩ : Shape).ShapeCasts ⟨2, ![1, H]⟩) (hbc1 : (⟨2, ![1, H]⟩ : Shape).Broadcasts ⟨2, ![m, H]⟩)
    (hsb2 : (⟨2, ![1, N]⟩ : Shape).ShapeCasts ⟨2, ![1, N]⟩) (hbc2 : (⟨2, ![1, N]⟩ : Shape).Broadcasts ⟨2, ![m, N]⟩)
    (hlt : FTy.bf16.bits < FTy.f32.bits) (r : Fin m) (q : Fin N) :
    maximumf (addf (matmul (DotDims.plain m H N) none
          (truncf .bf16 (maximumf (addf (matmul (DotDims.plain m K H) none
                (truncf .bf16 s hlt) (truncf .bf16 w1 hlt)
                (constant (F := Ideal) ⟨2, ![m, H]⟩ .f32 0x00000000#32))
              (broadcastTo ⟨2, ![m, H]⟩ (shapeCast ⟨2, ![1, H]⟩ b1 hsb1) hbc1))
            (broadcast ⟨2, ![m, H]⟩ (Scalar.ofBits (F := Ideal) .f32 0x00000000#32))) hlt)
          (truncf .bf16 w2 hlt) (constant (F := Ideal) ⟨2, ![m, N]⟩ .f32 0x00000000#32))
        (broadcastTo ⟨2, ![m, N]⟩ (shapeCast ⟨2, ![1, N]⟩ b2 hsb2) hbc2))
      (broadcast ⟨2, ![m, N]⟩ (Scalar.ofBits (F := Ideal) .f32 0x00000000#32)) (ix2 r q)
      = mlp A X W1 B1 W2 B2 (ix2 (rw_ r) q) :=
  denseRelu_rows' rw_ _ W2 B2 _ (truncf .bf16 w2 hlt) b2
    (fun r c => (truncf_apply _ hlt (ix2 r c)).trans
      (denseRelu_rows' rw_ (addf A X) W1 B1 _ (truncf .bf16 w1 hlt) b1
        (fun r c => (truncf_apply s hlt (ix2 r c)).trans (hs r c))
        (fun c q => (truncf_apply w1 hlt (ix2 c q)).trans (hw1 c q)) hb1 hsb1 hbc1 r c))
    (fun c q => (truncf_apply w2 hlt (ix2 c q)).trans (hw2 c q)) hb2 hsb2 hbc2 r q

/-! ## The body's values at an entry -/

/-- The dense block: entry (a, q) of what the body stores to the block of the first output is entry (n·5000 + a, q) of
    the two-stage function of the whole arrays, when the body's operands are the block's rows of the features and of
    the aggregate and the whole weights and bias rows. -/
theorem pay4_rows (n : ℕ) (hn : n < 10)
    (H AG : FVec Ideal ⟨2, ![50000, 128]⟩ .f32) (W1 : FVec Ideal ⟨2, ![128, 64]⟩ .f32) (B1 : FVec Ideal ⟨2, ![1, 64]⟩ .f32)
    (W2 : FVec Ideal ⟨2, ![64, 64]⟩ .f32) (B2 : FVec Ideal ⟨2, ![1, 64]⟩ .f32)
    (x0 x1 : Vec Ideal S5000x128 .f32) (x2 : Vec Ideal S128x64 .f32) (x3 : Vec Ideal S1x64 .f32)
    (x4 : Vec Ideal S64x64 .f32) (x5 : Vec Ideal S1x64 .f32)
    (h0 : ∀ (a : Fin 5000) (k : Fin 128), x0 (ix2 a k) = H (ix2 (row n hn a) k))
    (h1 : ∀ (a : Fin 5000) (k : Fin 128), x1 (ix2 a k) = AG (ix2 (row n hn a) k))
    (h2 : ∀ (k : Fin 128) (q : Fin 64), x2 (ix2 k q) = W1 (ix2 k q))
    (h3 : ∀ q : Fin 64, x3 (ix2 (0 : Fin 1) q) = B1 (ix2 (0 : Fin 1) q))
    (h4 : ∀ (k : Fin 64) (q : Fin 64), x4 (ix2 k q) = W2 (ix2 k q))
    (h5 : ∀ q : Fin 64, x5 (ix2 (0 : Fin 1) q) = B2 (ix2 (0 : Fin 1) q))
    (a : Fin 5000) (q : Fin 64) :
    k0_pay4 x0 x1 x2 x3 x4 x5 (ix2 a q) = mlp H AG W1 B1 W2 B2 (ix2 (row n hn a) q) := by
  have hs : ∀ (r : Fin 5000) (c : Fin 128),
      (addf x0 (shapeCast S5000x128 x1 shapeCasts_S5000x128_S5000x128) : FVec Ideal ⟨2, ![5000, 128]⟩ .f32) (ix2 r c)
        = addf H AG (ix2 (row n hn r) c) := fun r c => by
    rw [addf_apply, addf_apply, shapeCast_self, h0, h1]
  unfold k0_pay4
  exact mlp_rows' (row n hn) H AG W1 B1 W2 B2
    (addf x0 (shapeCast S5000x128 x1 shapeCasts_S5000x128_S5000x128)) x2 x3 x4 x5 hs h2 h3 h4 h5
    shapeCasts_S1x64_S1x64 broadcasts_S1x64_S5000x64 shapeCasts_S1x64_S1x64 broadcasts_S1x64_S5000x64
    bitsLt_bf16_f32 a q

/-- The first running row after the body: what it held, plus the block's column sum. -/
theorem pay5_apply (x0 x1 : Vec Ideal S5000x128 .f32) (x2 : Vec Ideal S128x64 .f32) (x3 : Vec Ideal S1x64 .f32)
    (x4 : Vec Ideal S64x64 .f32) (x5 : Vec Ideal S1x64 .f32) (v : Vec Ideal S1x64 .f32) (u : Fin 1) (q : Fin 64) :
    k0_pay5 x0 x1 x2 x3 x4 x5 v (ix2 u q)
      = v (ix2 u q) + ∑ a : Fin 5000, k0_pay4 x0 x1 x2 x3 x4 x5 (ix2 a q) := by
  unfold k0_pay5
  exact congrArg₂ (· + ·) (congrFun (shapeCast_self v _) (ix2 u q))
    ((shapeCast_a_1a_apply _ _ u q).trans (multiReduction_add_col _ _ _ _ _ q))

/-- The second running row after the body: what it held, plus the block's column sum of squares. -/
theorem pay1_apply (y : FVec Ideal S5000x64 .f32) (v : Vec Ideal S1x64 .f32) (u : Fin 1) (q : Fin 64) :
    k0_pay1 y v (ix2 u q) = v (ix2 u q) + ∑ a : Fin 5000, y (ix2 a q) * y (ix2 a q) := by
  unfold k0_pay1
  exact congrArg₂ (· + ·) (congrFun (shapeCast_self v _) (ix2 u q))
    ((shapeCast_a_1a_apply _ _ u q).trans (multiReduction_add_col _ _ _ _ _ q))

/-- The two rows the first point stores before anything else are zero rows. -/
theorem pay2_apply (j : S1x64.Idx) : k0_pay2 (F := Ideal) j = 0 := by
  unfold k0_pay2; exact Ideal.ofBits_zero_f32
theorem pay3_apply (j : S1x64.Idx) : k0_pay3 (F := Ideal) j = 0 := by
  unfold k0_pay3; exact Ideal.ofBits_zero_f32

/-! ## One point's step of the two running rows -/

/-- If the body's dense block is the block n of rows of U and the first running row held the column sums of U over the
    blocks before n, it holds them over the blocks up to n afterwards. -/
theorem step_s (n : ℕ) (hn : n < 10) (U : FVec Ideal ⟨2, ![50000, 64]⟩ .f32)
    (x0 x1 : Vec Ideal S5000x128 .f32) (x2 : Vec Ideal S128x64 .f32) (x3 : Vec Ideal S1x64 .f32)
    (x4 : Vec Ideal S64x64 .f32) (x5 : Vec Ideal S1x64 .f32) (v : Vec Ideal S1x64 .f32) (q : Fin 64)
    (hp : ∀ a : Fin 5000, k0_pay4 x0 x1 x2 x3 x4 x5 (ix2 a q) = U (ix2 (row n hn a) q))
    (hv : v (ix2 (0 : Fin 1) q) = psum (fun r => U (ix2 r q)) n) :
    k0_pay5 x0 x1 x2 x3 x4 x5 v (ix2 (0 : Fin 1) q) = psum (fun r => U (ix2 r q)) (n + 1) := by
  rw [pay5_apply, hv, psum_succ _ n hn]
  exact congrArg (_ + ·) (Finset.sum_congr rfl fun a _ => hp a)

/-- The same for the second running row and the column sums of squares. -/
theorem step_ss (n : ℕ) (hn : n < 10) (U : FVec Ideal ⟨2, ![50000, 64]⟩ .f32)
    (y : FVec Ideal S5000x64 .f32) (v : Vec Ideal S1x64 .f32) (q : Fin 64)
    (hp : ∀ a : Fin 5000, y (ix2 a q) = U (ix2 (row n hn a) q))
    (hv : v (ix2 (0 : Fin 1) q) = psum (fun r => U (ix2 r q) * U (ix2 r q)) n) :
    k0_pay1 y v (ix2 (0 : Fin 1) q) = psum (fun r => U (ix2 r q) * U (ix2 r q)) (n + 1) := by
  rw [pay1_apply, hv, psum_succ _ n hn]
  exact congrArg (_ + ·) (Finset.sum_congr rfl fun a _ => by rw [hp a])

/-- An entry of a block of rows, read at the array's coordinates. -/
theorem rows_at (n : ℕ) (hn : n < 10) (U : FVec Ideal ⟨2, ![50000, 64]⟩ .f32) (Y : FVec Ideal S5000x64 .f32)
    (hY : ∀ (a : Fin 5000) (q : Fin 64), Y (ix2 a q) = U (ix2 (row n hn a) q))
    (j : S5000x64.Idx) (i : (⟨2, ![50000, 64]⟩ : Shape).Idx)
    (h0 : (i 0).val = n * 5000 + (j 0).val) (h1 : (i 1).val = (j 1).val) : Y j = U i := by
  obtain ⟨a, q, rfl⟩ : ∃ (a : Fin 5000) (q : Fin 64), j = ix2 a q := ⟨j 0, j 1, eq_ix2 j⟩
  obtain rfl : i = ix2 (row n hn a) q := by
    rw [eq_ix2 i]; exact congrArg₂ ix2 (Fin.ext h0) (Fin.ext h1)
  exact hY a q

end Cert.KernelIdeal.RegionR0

end
-- ==== Proof.RegionR0.lean ====
/-
  The value of the dense region that also keeps column statistics, for any contents of its arrays at its entry.

  The region runs its body at 10 points over blocks of 5000 rows. With h, g, W₁, B₁, W₂, B₂ the contents of its six input
  arrays, and U = max ((max ((h + g)·W₁ + B₁) 0)·W₂ + B₂) 0 the two-stage function of the whole arrays:

    the first output array ends holding U, each point writing back its block of rows;
    the second ends holding, in its one row, the column sums Σ_r U(r, q) over all 50000 rows;
    the third the column sums of squares Σ_r U(r, q)².

  The two rows live in one block whose index never moves: the body zeroes them at the first point, adds the block's
  column sums at every point, and the block is written back after the last point only. So after the point n they hold
  the sums over the rows of the blocks 0 … n (by induction on the point), and after the point 9 over all the rows.
-/
import proofs.«173864_j70188355551324_1_alg».proof.Proof.Gen.KernelIdeal.Frame
import proofs.«173864_j70188355551324_1_alg».proof.Proof.Spec
import proofs.«173864_j70188355551324_1_alg».proof.Proof.RegionR0Pay
import Idealize.ShloMosaic.Lib.Pipeline.Value
import Idealize.ShloMosaic.Lib.Tactic

noncomputable section

open scoped BigOperators

namespace Cert.KernelIdeal.RegionR0

open Idealize.ShloMosaic Idealize.ShloMosaic.TcCoe Idealize.ShloMosaic.ValueIdx Idealize.SL.Sem
open Idealize.ShloMosaic.Pipeline (Dat)
open Cert.KernelIdeal Cert.KernelIdeal.Gen Cert.LibMlpRows

/-! ## What each case of the body leaves in the three outputs' buffers -/

section Pieces

variable {F : FTy → Type} [FloatOps F]

theorem hz : (![0, 0] : Fin 2 → Nat) = fun _ => 0 := funext fun a => by fin_cases a <;> rfl

/-- At the first point the dense block is the one covering store's payload. -/
theorem out_A_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : cond0_0 i)
    (x0 x1 : Vec F S5000x128 .f32) (x2 : Vec F S128x64 .f32) (x3 : Vec F S1x64 .f32) (x4 : Vec F S64x64 .f32) (x5 : Vec F S1x64 .f32) :
    out0_A_6 c i a1 h1 a2 h2 a3 h3 a4 h4 a5 h5 a6 h6 a7 h7 a8 h8 a9 h9 hc x0 x1 x2 x3 x4 x5 = k0_pay4 x0 x1 x2 x3 x4 x5 := by
  unfold out0_A_6
  rw [View.read_writes_eq_canon _ _ _ (cover0_A_6 c i a1 h1 a2 h2 a3 h3 a4 h4 a5 h5 a6 h6 a7 h7 a8 h8 a9 h9 hc x0 x1 x2 x3 x4 x5)]
  unfold kernelRun0_A
  dsimp only
  rw [View.canon_unit_zero hz]
  simp only [View.readAt_eq_ld, h1.read_unread, h2.read_unread, h3.read_unread, h4.read_unread, h5.read_unread,
    h6.read_unread, h8.read_unread, h9.read_unread, View.ld_unit_zero (S := S5000x128) hz, View.ld_unit_zero (S := S128x64) hz,
    View.ld_unit_zero (S := S64x64) hz, View.ld_unit_zero (S := S1x64) hz, View.ld_unit_zero (S := S5000x64) hz]

/-- At the first point the first running row is stored as zeros, read back, and left with the block's column sums added. -/
theorem out_A_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : cond0_0 i)
    (x0 x1 : Vec F S5000x128 .f32) (x2 : Vec F S128x64 .f32) (x3 : Vec F S1x64 .f32) (x4 : Vec F S64x64 .f32) (x5 : Vec F S1x64 .f32) :
    out0_A_7 c i a1 h1 a2 h2 a3 h3 a4 h4 a5 h5 a6 h6 a7 h7 a8 h8 a9 h9 hc x0 x1 x2 x3 x4 x5 = k0_pay5 x0 x1 x2 x3 x4 x5 k0_pay2 := by
  unfold out0_A_7
  rw [View.read_writes_eq_canon _ _ _ (cover0_A_7 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    h6.read_unread, h8.read_unread, h9.read_unread, View.ld_unit_zero (S := S5000x128) hz, View.ld_unit_zero (S := S128x64) hz,
    View.ld_unit_zero (S := S64x64) hz, View.ld_unit_zero (S := S1x64) hz, View.ld_unit_zero (S := S5000x64) hz]

/-- At the first point the second running row likewise, with the column sums of squares. -/
theorem out_A_8 (c : Dev nD) (i : grid0.Coords) (a1 : Memref sig .tc .vmem S5000x128 .f32) (h1 : a1.IsWhole) (a2 : Memref sig .tc .vmem S5000x128 .f32) (h2 : a2.IsWhole) (a3 : Memref sig .tc .vmem S128x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : cond0_0 i)
    (x0 x1 : Vec F S5000x128 .f32) (x2 : Vec F S128x64 .f32) (x3 : Vec F S1x64 .f32) (x4 : Vec F S64x64 .f32) (x5 : Vec F S1x64 .f32) :
    out0_A_8 c i a1 h1 a2 h2 a3 h3 a4 h4 a5 h5 a6 h6 a7 h7 a8 h8 a9 h9 hc x0 x1 x2 x3 x4 x5 = k0_pay1 (k0_pay4 x0 x1 x2 x3 x4 x5) k0_pay3 := by
  unfold out0_A_8
  rw [View.read_writes_eq_canon _ _ _ (cover0_A_8 c i a1 h1 a2 h2 a3 h3 a4 h4 a5 h5 a6 h6 a7 h7 a8 h8 a9 h9 hc x0 x1 x2 x3 x4 x5)]
  unfold kernelRun0_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    h6.read_unread, h8.read_unread, h9.read_unread, View.ld_unit_zero (S := S5000x128) hz, View.ld_unit_zero (S := S128x64) hz,
    View.ld_unit_zero (S := S64x64) hz, View.ld_unit_zero (S := S1x64) hz, View.ld_unit_zero (S := S5000x64) hz]

/-- At a later point the dense block is again the one covering store's payload. -/
theorem out_B_6 (c : Dev nD) (i : grid0.Coords) (a1 : Memref sig .tc .vmem S5000x128 .f32) (h1 : a1.IsWhole) (a2 : Memref sig .tc .vmem S5000x128 .f32) (h2 : a2.IsWhole) (a3 : Memref sig .tc .vmem S128x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : ¬cond0_0 i)
    (x0 x1 : Vec F S5000x128 .f32) (x2 : Vec F S128x64 .f32) (x3 : Vec F S1x64 .f32) (x4 : Vec F S64x64 .f32) (x5 : Vec F S1x64 .f32) (xo7 xo8 : Vec F S1x64 .f32) :
    out0_B_6 c i a1 h1 a2 h2 a3 h3 a4 h4 a5 h5 a6 h6 a7 h7 a8 h8 a9 h9 hc x0 x1 x2 x3 x4 x5 xo7 xo8 = k0_pay4 x0 x1 x2 x3 x4 x5 := by
  unfold out0_B_6
  rw [View.read_writes_eq_canon _ _ _ (cover0_B_6 c i a1 h1 a2 h2 a3 h3 a4 h4 a5 h5 a6 h6 a7 h7 a8 h8 a9 h9 hc x0 x1 x2 x3 x4 x5 xo7 xo8)]
  unfold kernelRun0_B
  dsimp only
  rw [View.canon_unit_zero hz]
  simp only [View.readAt_eq_ld, h1.read_unread, h2.read_unread, h3.read_unread, h4.read_unread, h5.read_unread,
    h6.read_unread, h8.read_unread, h9.read_unread, View.ld_unit_zero (S := S5000x128) hz, View.ld_unit_zero (S := S128x64) hz,
    View.ld_unit_zero (S := S64x64) hz, View.ld_unit_zero (S := S1x64) hz, View.ld_unit_zero (S := S5000x64) hz]

/-- At a later point the first running row is what it held with the block's column sums added. -/
theorem out_B_7 (c : Dev nD) (i : grid0.Coords) (a1 : Memref sig .tc .vmem S5000x128 .f32) (h1 : a1.IsWhole) (a2 : Memref sig .tc .vmem S5000x128 .f32) (h2 : a2.IsWhole) (a3 : Memref sig .tc .vmem S128x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : ¬cond0_0 i)
    (x0 x1 : Vec F S5000x128 .f32) (x2 : Vec F S128x64 .f32) (x3 : Vec F S1x64 .f32) (x4 : Vec F S64x64 .f32) (x5 : Vec F S1x64 .f32) (xo7 xo8 : Vec F S1x64 .f32) :
    out0_B_7 c i a1 h1 a2 h2 a3 h3 a4 h4 a5 h5 a6 h6 a7 h7 a8 h8 a9 h9 hc x0 x1 x2 x3 x4 x5 xo7 xo8 = k0_pay5 x0 x1 x2 x3 x4 x5 xo7 := by
  unfold out0_B_7
  rw [View.read_writes_eq_canon _ _ _ (cover0_B_7 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x128) hz, View.ld_unit_zero (S := S128x64) hz,
    View.ld_unit_zero (S := S64x64) hz, View.ld_unit_zero (S := S1x64) hz, View.ld_unit_zero (S := S5000x64) hz]

/-- At a later point the second running row is what it held with the block's column sums of squares added. -/
theorem out_B_8 (c : Dev nD) (i : grid0.Coords) (a1 : Memref sig .tc .vmem S5000x128 .f32) (h1 : a1.IsWhole) (a2 : Memref sig .tc .vmem S5000x128 .f32) (h2 : a2.IsWhole) (a3 : Memref sig .tc .vmem S128x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : ¬cond0_0 i)
    (x0 x1 : Vec F S5000x128 .f32) (x2 : Vec F S128x64 .f32) (x3 : Vec F S1x64 .f32) (x4 : Vec F S64x64 .f32) (x5 : Vec F S1x64 .f32) (xo7 xo8 : Vec F S1x64 .f32) :
    out0_B_8 c i a1 h1 a2 h2 a3 h3 a4 h4 a5 h5 a6 h6 a7 h7 a8 h8 a9 h9 hc x0 x1 x2 x3 x4 x5 xo7 xo8 = k0_pay1 (k0_pay4 x0 x1 x2 x3 x4 x5) xo8 := by
  unfold out0_B_8
  rw [View.read_writes_eq_canon _ _ _ (cover0_B_8 c i a1 h1 a2 h2 a3 h3 a4 h4 a5 h5 a6 h6 a7 h7 a8 h8 a9 h9 hc x0 x1 x2 x3 x4 x5 xo7 xo8)]
  unfold kernelRun0_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x128) hz, View.ld_unit_zero (S := S128x64) hz,
    View.ld_unit_zero (S := S64x64) hz, View.ld_unit_zero (S := S1x64) hz, View.ld_unit_zero (S := S5000x64) hz]

end Pieces

/-! ## The windows' blocks, read at coordinates -/

/-- The printed index maps, decided over the grid: the two row-blocked inputs and the first output move down the rows
    with the point; every other window stays at block (0, 0). -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

theorem lt_ten (t : Fin cfg0.N) : t.val < 10 := lt_of_lt_of_eq t.isLt (show cfg0.N = 10 from N_0)

variable (V : (c : Dev nD) → (b : Ref sig .tc) → Buf (Elt Ideal) ((c : Thread nD τ).loc b)) (c : Dev nD)

/-- The features' block at point t holds the rows t·5000 + a. -/
theorem iblk_0 (H : FVec Ideal ⟨2, ![50000, 128]⟩ .f32) (hH : V c (Pipeline.arrRef spec0 0) = H) (t : Fin cfg0.N)
    (a : Fin 5000) (k : Fin 128) :
    (iblk0 V c 0 t : Vec Ideal S5000x128 .f32) (ix2 a k) = H (ix2 (row t.val (lt_ten t) a) k) := by
  subst hH
  unfold iblk0
  rw [View.read_apply]
  refine congrArg (V c (Pipeline.arrRef spec0 0)) (funext fun d => Fin.ext ?_)
  obtain ⟨⟨e0, e1⟩, -⟩ := idx_facts t
  match d with
  | ⟨0, _⟩ => show win0_0.index t (0 : Fin 2) * 5000 + 1 * a.val = t.val * 5000 + a.val; rw [e0]; omega
  | ⟨1, _⟩ => show win0_0.index t (1 : Fin 2) * 128 + 1 * k.val = k.val; rw [e1]; omega

/-- The aggregate's block at point t holds the rows t·5000 + a. -/
theorem iblk_1 (AG : FVec Ideal ⟨2, ![50000, 128]⟩ .f32) (hAG : V c (Pipeline.arrRef spec0 1) = AG) (t : Fin cfg0.N)
    (a : Fin 5000) (k : Fin 128) :
    (iblk0 V c 1 t : Vec Ideal S5000x128 .f32) (ix2 a k) = AG (ix2 (row t.val (lt_ten t) a) k) := by
  subst hAG
  unfold iblk0
  rw [View.read_apply]
  refine congrArg (V c (Pipeline.arrRef spec0 1)) (funext fun d => Fin.ext ?_)
  obtain ⟨-, ⟨e0, e1⟩, -⟩ := idx_facts t
  match d with
  | ⟨0, _⟩ => show win0_1.index t (0 : Fin 2) * 5000 + 1 * a.val = t.val * 5000 + a.val; rw [e0]; omega
  | ⟨1, _⟩ => show win0_1.index t (1 : Fin 2) * 128 + 1 * k.val = k.val; rw [e1]; omega

/-- The first weights' block is the whole array at every point. -/
theorem iblk_2 (W1 : FVec Ideal ⟨2, ![128, 64]⟩ .f32) (hW1 : V c (Pipeline.arrRef spec0 2) = W1) (t : Fin cfg0.N)
    (k : Fin 128) (q : Fin 64) :
    (iblk0 V c 2 t : Vec Ideal S128x64 .f32) (ix2 k q) = W1 (ix2 k q) := by
  subst hW1
  unfold iblk0
  rw [View.read_apply]
  refine congrArg (V c (Pipeline.arrRef spec0 2)) (funext fun d => Fin.ext ?_)
  obtain ⟨-, -, ⟨e0, e1⟩, -⟩ := idx_facts t
  match d with
  | ⟨0, _⟩ => show win0_2.index t (0 : Fin 2) * 128 + 1 * k.val = k.val; rw [e0]; omega
  | ⟨1, _⟩ => show win0_2.index t (1 : Fin 2) * 64 + 1 * q.val = q.val; rw [e1]; omega

/-- The first bias row's block is the whole row at every point. -/
theorem iblk_3 (B1 : FVec Ideal ⟨2, ![1, 64]⟩ .f32) (hB1 : V c (Pipeline.arrRef spec0 3) = B1) (t : Fin cfg0.N)
    (q : Fin 64) :
    (iblk0 V c 3 t : Vec Ideal S1x64 .f32) (ix2 (0 : Fin 1) q) = B1 (ix2 (0 : Fin 1) q) := by
  subst hB1
  unfold iblk0
  rw [View.read_apply]
  refine congrArg (V c (Pipeline.arrRef spec0 3)) (funext fun d => Fin.ext ?_)
  obtain ⟨-, -, -, ⟨e0, e1⟩, -⟩ := idx_facts t
  match d with
  | ⟨0, _⟩ => show win0_3.index t (0 : Fin 2) * 1 + 1 * 0 = 0; rw [e0]
  | ⟨1, _⟩ => show win0_3.index t (1 : Fin 2) * 64 + 1 * q.val = q.val; rw [e1]; omega

/-- The second weights' block is the whole array at every point. -/
theorem iblk_4 (W2 : FVec Ideal ⟨2, ![64, 64]⟩ .f32) (hW2 : V c (Pipeline.arrRef spec0 4) = W2) (t : Fin cfg0.N)
    (k : Fin 64) (q : Fin 64) :
    (iblk0 V c 4 t : Vec Ideal S64x64 .f32) (ix2 k q) = W2 (ix2 k q) := by
  subst hW2
  unfold iblk0
  rw [View.read_apply]
  refine congrArg (V c (Pipeline.arrRef spec0 4)) (funext fun d => Fin.ext ?_)
  obtain ⟨-, -, -, -, ⟨e0, e1⟩, -⟩ := idx_facts t
  match d with
  | ⟨0, _⟩ => show win0_4.index t (0 : Fin 2) * 64 + 1 * k.val = k.val; rw [e0]; omega
  | ⟨1, _⟩ => show win0_4.index t (1 : Fin 2) * 64 + 1 * q.val = q.val; rw [e1]; omega

/-- The second bias row's block is the whole row at every point. -/
theorem iblk_5 (B2 : FVec Ideal ⟨2, ![1, 64]⟩ .f32) (hB2 : V c (Pipeline.arrRef spec0 5) = B2) (t : Fin cfg0.N)
    (q : Fin 64) :
    (iblk0 V c 5 t : Vec Ideal S1x64 .f32) (ix2 (0 : Fin 1) q) = B2 (ix2 (0 : Fin 1) q) := by
  subst hB2
  unfold iblk0
  rw [View.read_apply]
  refine congrArg (V c (Pipeline.arrRef spec0 5)) (funext fun d => Fin.ext ?_)
  obtain ⟨-, -, -, -, -, ⟨e0, e1⟩, -⟩ := idx_facts t
  match d with
  | ⟨0, _⟩ => show win0_5.index t (0 : Fin 2) * 1 + 1 * 0 = 0; rw [e0]
  | ⟨1, _⟩ => show win0_5.index t (1 : Fin 2) * 64 + 1 * q.val = q.val; rw [e1]; omega

/-! ## The dense block at a point -/

/-- At every point the body's dense block is that point's block of rows of the two-stage function. -/
theorem pay4_at (H AG : FVec Ideal ⟨2, ![50000, 128]⟩ .f32) (W1 : FVec Ideal ⟨2, ![128, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec0 0) = H) (hAG : V c (Pipeline.arrRef spec0 1) = AG)
    (hW1 : V c (Pipeline.arrRef spec0 2) = W1) (hB1 : V c (Pipeline.arrRef spec0 3) = B1)
    (hW2 : V c (Pipeline.arrRef spec0 4) = W2) (hB2 : V c (Pipeline.arrRef spec0 5) = B2) (t : Fin cfg0.N) (a : Fin 5000) (q : Fin 64) :
    k0_pay4 (iblk0 V c 0 t) (iblk0 V c 1 t) (iblk0 V c 2 t) (iblk0 V c 3 t) (iblk0 V c 4 t) (iblk0 V c 5 t) (ix2 a q)
      = mlp H AG W1 B1 W2 B2 (ix2 (row t.val (lt_ten t) a) q) :=
  pay4_rows t.val (lt_ten t) H AG W1 B1 W2 B2 (iblk0 V c 0 t) (iblk0 V c 1 t) (iblk0 V c 2 t) (iblk0 V c 3 t) (iblk0 V c 4 t) (iblk0 V c 5 t)
    (iblk_0 V c H hH t) (iblk_1 V c AG hAG t) (iblk_2 V c W1 hW1 t) (iblk_3 V c B1 hB1 t) (iblk_4 V c W2 hW2 t)
    (iblk_5 V c B2 hB2 t) a q

/-! ## What the outputs' buffers hold after each point -/

/-- After the point n the first output's buffer holds the block n of rows of U, and the two running rows hold the
    column sums of U, and of its squares, over the rows of the blocks 0 … n. By induction on the point. -/
theorem outsAt_inv (H AG : FVec Ideal ⟨2, ![50000, 128]⟩ .f32) (W1 : FVec Ideal ⟨2, ![128, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec0 0) = H) (hAG : V c (Pipeline.arrRef spec0 1) = AG)
    (hW1 : V c (Pipeline.arrRef spec0 2) = W1) (hB1 : V c (Pipeline.arrRef spec0 3) = B1)
    (hW2 : V c (Pipeline.arrRef spec0 4) = W2) (hB2 : V c (Pipeline.arrRef spec0 5) = B2) :
    ∀ (n : ℕ) (h : n < cfg0.N) (hn : n < 10),
      (∀ (a : Fin 5000) (q : Fin 64), (outsAt0 V c n h).1 (ix2 a q) = mlp H AG W1 B1 W2 B2 (ix2 (row n hn a) q))
      ∧ (∀ q : Fin 64, (outsAt0 V c n h).2.1 (ix2 (0 : Fin 1) q) = psum (fun r => mlp H AG W1 B1 W2 B2 (ix2 r q)) (n + 1))
      ∧ (∀ q : Fin 64, (outsAt0 V c n h).2.2 (ix2 (0 : Fin 1) q)
          = psum (fun r => mlp H AG W1 B1 W2 B2 (ix2 r q) * mlp H AG W1 B1 W2 B2 (ix2 r q)) (n + 1))
  | 0, h, hn => by
    have hp := pay4_at V c H AG W1 B1 W2 B2 hH hAG hW1 hB1 hW2 hB2 ⟨0, h⟩
    rw [outsAt0_A V c ⟨0, h⟩ rfl]
    dsimp only
    rw [out_A_6, out_A_7, out_A_8]
    refine ⟨hp, fun q => ?_, fun q => ?_⟩
    · exact step_s 0 hn _ _ _ _ _ _ _ _ q (fun a => hp a q) ((pay2_apply _).trans (psum_zero _).symm)
    · exact step_ss 0 hn _ _ _ q (fun a => hp a q) ((pay3_apply _).trans (psum_zero _).symm)
  | n + 1, h, hn => by
    have hB : ¬(⟨n + 1, h⟩ : Fin cfg0.N).val % 10 = 0 := by dsimp only; omega
    have hp := pay4_at V c H AG W1 B1 W2 B2 hH hAG hW1 hB1 hW2 hB2 ⟨n + 1, h⟩
    obtain ⟨-, ih7, ih8⟩ := outsAt_inv H AG W1 B1 W2 B2 hH hAG hW1 hB1 hW2 hB2 n (Nat.lt_of_succ_lt h) (Nat.lt_of_succ_lt hn)
    rw [outsAt0_B V c ⟨n + 1, h⟩ hB]
    dsimp only
    rw [out_B_6, out_B_7, out_B_8]
    refine ⟨hp, fun q => ?_, fun q => ?_⟩
    · exact step_s (n + 1) hn _ _ _ _ _ _ _ _ q (fun a => hp a q) (ih7 q)
    · exact step_ss (n + 1) hn _ _ _ q (fun a => hp a q) (ih8 q)

/-! ## The first output: every point writes back its block of rows -/

/-- What the point t writes back to the first output is the block t of rows of U. -/
theorem flushed6_eq (H AG : FVec Ideal ⟨2, ![50000, 128]⟩ .f32) (W1 : FVec Ideal ⟨2, ![128, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec0 0) = H) (hAG : V c (Pipeline.arrRef spec0 1) = AG)
    (hW1 : V c (Pipeline.arrRef spec0 2) = W1) (hB1 : V c (Pipeline.arrRef spec0 3) = B1)
    (hW2 : V c (Pipeline.arrRef spec0 4) = W2) (hB2 : V c (Pipeline.arrRef spec0 5) = B2) (t : Fin cfg0.N) :
    (dat0 V c).flushed 6 t = ((cfg0.win 6).blk t).view.read (Elt Ideal) (mlp H AG W1 B1 W2 B2) := by
  show (cfg0.win 6).cut (grid0.coords t) ((dat0 V c).after 6 t) = _
  rw [after0_6]
  funext j
  rw [View.read_apply]
  obtain ⟨-, -, -, -, -, -, ⟨e0, e1⟩, -⟩ := idx_facts t
  exact rows_at t.val (lt_ten t) _ _ (outsAt_inv V c H AG W1 B1 W2 B2 hH hAG hW1 hB1 hW2 hB2 t.val t.isLt (lt_ten t)).1 _ _
    (show win0_6.index t (0 : Fin 2) * 5000 + 1 * (j 0).val = t.val * 5000 + (j 0).val by rw [e0]; omega)
    (show win0_6.index t (1 : Fin 2) * 64 + 1 * (j 1).val = (j 1).val by rw [e1]; omega)

/-- An index of the first output's array is in the point t's block iff each coordinate is in the block's range. -/
theorem mem_blk6 (t : Fin cfg0.N) (i : (⟨2, ![50000, 64]⟩ : Shape).Idx) :
    i ∈ ((cfg0.win 6).blk t).view.set ↔ ∀ a : Fin 2, win0_6.index t a * S5000x64.size a ≤ (i a).val
      ∧ (i a).val < win0_6.index t a * S5000x64.size a + S5000x64.size a := by
  show i ∈ ((View.whole main_v18_0).slice (win0_6.rect t)).set ↔ _
  rw [View.set_slice_whole, Rect.mem_set_unit]
  exact Iff.rfl

/-- The first output's array ends holding U: row r is written back by the point r / 5000. -/
theorem final6 (H AG : FVec Ideal ⟨2, ![50000, 128]⟩ .f32) (W1 : FVec Ideal ⟨2, ![128, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec0 0) = H) (hAG : V c (Pipeline.arrRef spec0 1) = AG)
    (hW1 : V c (Pipeline.arrRef spec0 2) = W1) (hB1 : V c (Pipeline.arrRef spec0 3) = B1)
    (hW2 : V c (Pipeline.arrRef spec0 4) = W2) (hB2 : V c (Pipeline.arrRef spec0 5) = B2) : (dat0 V c).arrAt 6 cfg0.N = mlp H AG W1 B1 W2 B2 :=
  (dat0 V c).arrAt_eq_of_cover 6 (mlp H AG W1 B1 W2 B2) (fun t _ => flushed6_eq V c H AG W1 B1 W2 B2 hH hAG hW1 hB1 hW2 hB2 t) fun i => by
    have hi0 : (i 0).val < 50000 := (i 0).isLt
    have hi1 : (i 1).val < 64 := (i 1).isLt
    have hN : cfg0.N = 10 := N_0
    refine ⟨⟨(i 0).val / 5000, by rw [hN]; omega⟩, flush0_6 _, ?_⟩
    rw [mem_blk6]
    obtain ⟨-, -, -, -, -, -, ⟨e0, e1⟩, -⟩ := idx_facts (⟨(i 0).val / 5000, by rw [hN]; omega⟩ : Fin cfg0.N)
    intro a
    match a with
    | ⟨0, _⟩ =>
      show win0_6.index _ (0 : Fin 2) * 5000 ≤ (i 0).val ∧ (i 0).val < win0_6.index _ (0 : Fin 2) * 5000 + 5000
      rw [e0]; dsimp only; omega
    | ⟨1, _⟩ =>
      show win0_6.index _ (1 : Fin 2) * 64 ≤ (i 1).val ∧ (i 1).val < win0_6.index _ (1 : Fin 2) * 64 + 64
      rw [e1]; omega

/-! ## The two running rows: written back after the last point -/

/-- A row read at the array's coordinates. -/
theorem row_at (Y G : FVec Ideal ⟨2, ![1, 64]⟩ .f32) (hY : ∀ q : Fin 64, Y (ix2 (0 : Fin 1) q) = G (ix2 (0 : Fin 1) q))
    (j i : (⟨2, ![1, 64]⟩ : Shape).Idx) (h1 : (i 1).val = (j 1).val) : Y j = G i := by
  obtain ⟨u, q, rfl⟩ : ∃ (u : Fin 1) (q : Fin 64), j = ix2 u q := ⟨j 0, j 1, eq_ix2 j⟩
  obtain rfl : i = ix2 u q := by
    have hi0 : (i 0).val < 1 := (i 0).isLt
    rw [eq_ix2 i]; exact congrArg₂ ix2 (Fin.ext (by have := u.isLt; omega)) (Fin.ext h1)
  obtain rfl : u = 0 := Fin.ext (by have := u.isLt; omega)
  exact hY q

/-- The column sums of U as a row. -/
def sumRow (U : FVec Ideal ⟨2, ![50000, 64]⟩ .f32) : FVec Ideal ⟨2, ![1, 64]⟩ .f32 := fun j => Cert.Gin.colSum U (j 1)

/-- The column sums of squares of U as a row. -/
def sumSqRow (U : FVec Ideal ⟨2, ![50000, 64]⟩ .f32) : FVec Ideal ⟨2, ![1, 64]⟩ .f32 := fun j => Cert.Gin.colSumSq U (j 1)

/-- After the last point the first running row holds the column sums over all rows, -/
theorem last7 (H AG : FVec Ideal ⟨2, ![50000, 128]⟩ .f32) (W1 : FVec Ideal ⟨2, ![128, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec0 0) = H) (hAG : V c (Pipeline.arrRef spec0 1) = AG)
    (hW1 : V c (Pipeline.arrRef spec0 2) = W1) (hB1 : V c (Pipeline.arrRef spec0 3) = B1)
    (hW2 : V c (Pipeline.arrRef spec0 4) = W2) (hB2 : V c (Pipeline.arrRef spec0 5) = B2) (t : Fin cfg0.N) (h9 : t.val = 9) (q : Fin 64) :
    (outsAt0 V c t.val t.isLt).2.1 (ix2 (0 : Fin 1) q) = sumRow (mlp H AG W1 B1 W2 B2) (ix2 (0 : Fin 1) q) :=
  ((outsAt_inv V c H AG W1 B1 W2 B2 hH hAG hW1 hB1 hW2 hB2 t.val t.isLt (lt_ten t)).2.1 q).trans
    (by rw [show t.val + 1 = 10 by omega]; exact psum_ten _)

/-- and the second the column sums of squares. -/
theorem last8 (H AG : FVec Ideal ⟨2, ![50000, 128]⟩ .f32) (W1 : FVec Ideal ⟨2, ![128, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec0 0) = H) (hAG : V c (Pipeline.arrRef spec0 1) = AG)
    (hW1 : V c (Pipeline.arrRef spec0 2) = W1) (hB1 : V c (Pipeline.arrRef spec0 3) = B1)
    (hW2 : V c (Pipeline.arrRef spec0 4) = W2) (hB2 : V c (Pipeline.arrRef spec0 5) = B2) (t : Fin cfg0.N) (h9 : t.val = 9) (q : Fin 64) :
    (outsAt0 V c t.val t.isLt).2.2 (ix2 (0 : Fin 1) q) = sumSqRow (mlp H AG W1 B1 W2 B2) (ix2 (0 : Fin 1) q) :=
  ((outsAt_inv V c H AG W1 B1 W2 B2 hH hAG hW1 hB1 hW2 hB2 t.val t.isLt (lt_ten t)).2.2 q).trans
    (by rw [show t.val + 1 = 10 by omega]; exact psum_ten _)

/-- What a point writes back to the second output is its block of any row G that the first running row agrees with
    after that point (the block is the whole row). -/
theorem flushed7_gen (G : FVec Ideal ⟨2, ![1, 64]⟩ .f32) (t : Fin cfg0.N)
    (hG : ∀ q : Fin 64, (outsAt0 V c t.val t.isLt).2.1 (ix2 (0 : Fin 1) q) = G (ix2 (0 : Fin 1) q)) :
    (dat0 V c).flushed 7 t = ((cfg0.win 7).blk t).view.read (Elt Ideal) G := by
  show (cfg0.win 7).cut (grid0.coords t) ((dat0 V c).after 7 t) = _
  rw [after0_7]
  funext j
  rw [View.read_apply]
  obtain ⟨-, -, -, -, -, -, -, ⟨e0, e1⟩, -⟩ := idx_facts t
  exact row_at (outsAt0 V c t.val t.isLt).2.1 G hG _ _
    (show win0_7.index t (1 : Fin 2) * 64 + 1 * (j 1).val = (j 1).val by rw [e1]; omega)

/-- What a point writes back to the third output is its block of any row G that the second running row agrees with
    after that point (the block is the whole row). -/
theorem flushed8_gen (G : FVec Ideal ⟨2, ![1, 64]⟩ .f32) (t : Fin cfg0.N)
    (hG : ∀ q : Fin 64, (outsAt0 V c t.val t.isLt).2.2 (ix2 (0 : Fin 1) q) = G (ix2 (0 : Fin 1) q)) :
    (dat0 V c).flushed 8 t = ((cfg0.win 8).blk t).view.read (Elt Ideal) G := by
  show (cfg0.win 8).cut (grid0.coords t) ((dat0 V c).after 8 t) = _
  rw [after0_8]
  funext j
  rw [View.read_apply]
  obtain ⟨-, -, -, -, -, -, -, -, ⟨e0, e1⟩⟩ := idx_facts t
  exact row_at (outsAt0 V c t.val t.isLt).2.2 G hG _ _
    (show win0_8.index t (1 : Fin 2) * 64 + 1 * (j 1).val = (j 1).val by rw [e1]; omega)

/-- The second and third outputs are written back after the point 9 only. -/
theorem flush7_nine (t : Fin cfg0.N) (hf : (cfg0.win 7).flush t = true) : t.val = 9 := by
  have := (flush0_7 t).mp hf; have := lt_ten t; omega
theorem flush8_nine (t : Fin cfg0.N) (hf : (cfg0.win 8).flush t = true) : t.val = 9 := by
  have := (flush0_8 t).mp hf; have := lt_ten t; omega

/-- The point 9's block of a one-row output is the whole row. -/
theorem mem_blk7 (t : Fin cfg0.N) (i : (⟨2, ![1, 64]⟩ : Shape).Idx) : i ∈ ((cfg0.win 7).blk t).view.set := by
  show i ∈ ((View.whole main_v18_1).slice (win0_7.rect t)).set
  rw [View.set_slice_whole, Rect.mem_set_unit]
  have hi0 : (i 0).val < 1 := (i 0).isLt
  have hi1 : (i 1).val < 64 := (i 1).isLt
  obtain ⟨-, -, -, -, -, -, -, ⟨e0, e1⟩, -⟩ := idx_facts t
  intro a
  match a with
  | ⟨0, _⟩ =>
    show win0_7.index t (0 : Fin 2) * 1 ≤ (i 0).val ∧ (i 0).val < win0_7.index t (0 : Fin 2) * 1 + 1
    rw [e0]; omega
  | ⟨1, _⟩ =>
    show win0_7.index t (1 : Fin 2) * 64 ≤ (i 1).val ∧ (i 1).val < win0_7.index t (1 : Fin 2) * 64 + 64
    rw [e1]; omega

theorem mem_blk8 (t : Fin cfg0.N) (i : (⟨2, ![1, 64]⟩ : Shape).Idx) : i ∈ ((cfg0.win 8).blk t).view.set := by
  show i ∈ ((View.whole main_v18_2).slice (win0_8.rect t)).set
  rw [View.set_slice_whole, Rect.mem_set_unit]
  have hi0 : (i 0).val < 1 := (i 0).isLt
  have hi1 : (i 1).val < 64 := (i 1).isLt
  obtain ⟨-, -, -, -, -, -, -, -, ⟨e0, e1⟩⟩ := idx_facts t
  intro a
  match a with
  | ⟨0, _⟩ =>
    show win0_8.index t (0 : Fin 2) * 1 ≤ (i 0).val ∧ (i 0).val < win0_8.index t (0 : Fin 2) * 1 + 1
    rw [e0]; omega
  | ⟨1, _⟩ =>
    show win0_8.index t (1 : Fin 2) * 64 ≤ (i 1).val ∧ (i 1).val < win0_8.index t (1 : Fin 2) * 64 + 64
    rw [e1]; omega

/-- The second output's array ends holding the row of column sums. -/
theorem final7 (H AG : FVec Ideal ⟨2, ![50000, 128]⟩ .f32) (W1 : FVec Ideal ⟨2, ![128, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec0 0) = H) (hAG : V c (Pipeline.arrRef spec0 1) = AG)
    (hW1 : V c (Pipeline.arrRef spec0 2) = W1) (hB1 : V c (Pipeline.arrRef spec0 3) = B1)
    (hW2 : V c (Pipeline.arrRef spec0 4) = W2) (hB2 : V c (Pipeline.arrRef spec0 5) = B2) : (dat0 V c).arrAt 7 cfg0.N = sumRow (mlp H AG W1 B1 W2 B2) :=
  (dat0 V c).arrAt_eq_of_cover 7 (sumRow (mlp H AG W1 B1 W2 B2)) (fun t hf => flushed7_gen V c _ t (last7 V c H AG W1 B1 W2 B2 hH hAG hW1 hB1 hW2 hB2 t (flush7_nine t hf))) fun i =>
    ⟨t0_9, (flush0_7 t0_9).mpr rfl, mem_blk7 t0_9 i⟩

/-- The third output's array ends holding the row of column sums of squares. -/
theorem final8 (H AG : FVec Ideal ⟨2, ![50000, 128]⟩ .f32) (W1 : FVec Ideal ⟨2, ![128, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec0 0) = H) (hAG : V c (Pipeline.arrRef spec0 1) = AG)
    (hW1 : V c (Pipeline.arrRef spec0 2) = W1) (hB1 : V c (Pipeline.arrRef spec0 3) = B1)
    (hW2 : V c (Pipeline.arrRef spec0 4) = W2) (hB2 : V c (Pipeline.arrRef spec0 5) = B2) : (dat0 V c).arrAt 8 cfg0.N = sumSqRow (mlp H AG W1 B1 W2 B2) :=
  (dat0 V c).arrAt_eq_of_cover 8 (sumSqRow (mlp H AG W1 B1 W2 B2)) (fun t hf => flushed8_gen V c _ t (last8 V c H AG W1 B1 W2 B2 hH hAG hW1 hB1 hW2 hB2 t (flush8_nine t hf))) fun i =>
    ⟨t0_9, (flush0_8 t0_9).mpr rfl, mem_blk8 t0_9 i⟩

/-! ## The region's value -/

/-- The first output is the two-stage function of the input arrays, entry by entry. -/
theorem r0_u (H AG : FVec Ideal ⟨2, ![50000, 128]⟩ .f32) (W1 : FVec Ideal ⟨2, ![128, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec0 0) = H) (hAG : V c (Pipeline.arrRef spec0 1) = AG)
    (hW1 : V c (Pipeline.arrRef spec0 2) = W1) (hB1 : V c (Pipeline.arrRef spec0 3) = B1)
    (hW2 : V c (Pipeline.arrRef spec0 4) = W2) (hB2 : V c (Pipeline.arrRef spec0 5) = B2)
    (r : Fin 50000) (q : Fin 64) :
    (Gen.dat0 V c).arrAt 6 cfg0.N (ix2 r q) = mlp H AG W1 B1 W2 B2 (ix2 r q) :=
  congrFun (final6 V c H AG W1 B1 W2 B2 hH hAG hW1 hB1 hW2 hB2) (ix2 r q)

/-- The second output is its column sums. -/
theorem r0_s (H AG : FVec Ideal ⟨2, ![50000, 128]⟩ .f32) (W1 : FVec Ideal ⟨2, ![128, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec0 0) = H) (hAG : V c (Pipeline.arrRef spec0 1) = AG)
    (hW1 : V c (Pipeline.arrRef spec0 2) = W1) (hB1 : V c (Pipeline.arrRef spec0 3) = B1)
    (hW2 : V c (Pipeline.arrRef spec0 4) = W2) (hB2 : V c (Pipeline.arrRef spec0 5) = B2)
    (q : Fin 64) :
    (Gen.dat0 V c).arrAt 7 cfg0.N (ix2 (0 : Fin 1) q) = Cert.Gin.colSum (mlp H AG W1 B1 W2 B2) q :=
  congrFun (final7 V c H AG W1 B1 W2 B2 hH hAG hW1 hB1 hW2 hB2) (ix2 (0 : Fin 1) q)

/-- The third output is its column sums of squares. -/
theorem r0_ss (H AG : FVec Ideal ⟨2, ![50000, 128]⟩ .f32) (W1 : FVec Ideal ⟨2, ![128, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec0 0) = H) (hAG : V c (Pipeline.arrRef spec0 1) = AG)
    (hW1 : V c (Pipeline.arrRef spec0 2) = W1) (hB1 : V c (Pipeline.arrRef spec0 3) = B1)
    (hW2 : V c (Pipeline.arrRef spec0 4) = W2) (hB2 : V c (Pipeline.arrRef spec0 5) = B2)
    (q : Fin 64) :
    (Gen.dat0 V c).arrAt 8 cfg0.N (ix2 (0 : Fin 1) q) = Cert.Gin.colSumSq (mlp H AG W1 B1 W2 B2) q :=
  congrFun (final8 V c H AG W1 B1 W2 B2 hH hAG hW1 hB1 hW2 hB2) (ix2 (0 : Fin 1) q)

end Cert.KernelIdeal.RegionR0

end
-- ==== Proof.RegionR2Pay.lean ====
/-
  One grid point of the dense region that also keeps column statistics, at the extended reals.

  The region works on an array of 50000 rows in 10 blocks of 5000 rows. At the block n its body forms, from the block's
  rows of the features h and of the aggregate g, the block's rows of

      U = max ((max ((h + g)·W₁ + B₁) 0)·W₂ + B₂) 0

  (each left factor and each weight narrowed to a shorter float format first, which changes nothing at the extended
  reals), and adds to two running rows the block's column sums Σₐ U(a, q) and Σₐ U(a, q)². The rows start from the
  zero word at the first block. Row a of block n is row n·5000 + a of the array, so after all ten blocks the two rows
  hold the column sums over all 50000 rows: a sum over 50000 consecutive numbers cut into ten runs of 5000.
-/
import proofs.«173864_j70188355551324_1_alg».proof.Proof.Gen.KernelIdeal.Skeleton
import proofs.«173864_j70188355551324_1_alg».proof.Proof.LibMlpRows
import proofs.«173864_j70188355551324_1_alg».proof.Proof.LibRowForms
import proofs.«173864_j70188355551324_1_alg».proof.Proof.LibBlockSums
import Idealize.ShloMosaic.Lib.ValueLayout

noncomputable section

open scoped BigOperators

namespace Cert.KernelIdeal.RegionR2

open Idealize.ShloMosaic Idealize.ShloMosaic.ValueIdx Cert.KernelIdeal Cert.KernelIdeal.Gen
open Cert.LibMlpRows Cert.LibBiasRows Cert.LibRowBlockDot

/-! ## Rows of a block, and a sum over all rows cut into blocks -/

/-- Row a of the block at point n is row n·5000 + a of the array. -/
def row (n : ℕ) (hn : n < 10) (a : Fin 5000) : Fin 50000 := ⟨n * 5000 + a.val, by omega⟩

theorem row_val (n : ℕ) (hn : n < 10) (a : Fin 5000) : (row n hn a).val = n * 5000 + a.val := rfl

/-- The sum of f over the rows of the first n blocks (rows past the array count as zero: there are none when n ≤ 10). -/
def psum (f : Fin 50000 → EReal) (n : ℕ) : EReal :=
  ∑ k ∈ Finset.range n, ∑ a : Fin 5000, (if h : k * 5000 + a.val < 50000 then f ⟨k * 5000 + a.val, h⟩ else 0)

theorem psum_zero (f : Fin 50000 → EReal) : psum f 0 = 0 := by
  unfold psum; rw [Finset.range_zero, Finset.sum_empty]

/-- One more block adds that block's rows. -/
theorem psum_succ (f : Fin 50000 → EReal) (n : ℕ) (hn : n < 10) :
    psum f (n + 1) = psum f n + ∑ a : Fin 5000, f (row n hn a) := by
  unfold psum
  rw [Finset.sum_range_succ]
  refine congrArg (_ + ·) (Finset.sum_congr rfl fun a _ => ?_)
  have h : n * 5000 + a.val < 50000 := by have := a.isLt; omega
  rw [dif_pos h]; rfl

/-- Ten blocks are all the rows. -/
theorem psum_ten (f : Fin 50000 → EReal) : psum f 10 = ∑ r : Fin 50000, f r :=
  Cert.LibBlockSums.sum_blocks 10 5000 50000 rfl f

/-! ## A dense stage whose two factors are both narrowed -/

variable {M m K N : Nat} {φ₁ φ₂ ψ₁ ψ₂ : FTy}

/-- A dense stage with rectifier on a block of rows u of U, the right factor w given entry by entry, is that block of
    rows of the whole stage. -/
theorem denseRelu_rows' (rw_ : Fin m → Fin M) (U : FVec Ideal ⟨2, ![M, K]⟩ φ₁) (W : FVec Ideal ⟨2, ![K, N]⟩ φ₂)
    (B : FVec Ideal ⟨2, ![1, N]⟩ .f32) (u : FVec Ideal ⟨2, ![m, K]⟩ ψ₁) (w : FVec Ideal ⟨2, ![K, N]⟩ ψ₂)
    (b : FVec Ideal ⟨2, ![1, N]⟩ .f32)
    (hu : ∀ r c, u (ix2 r c) = U (ix2 (rw_ r) c)) (hw : ∀ c q, w (ix2 c q) = W (ix2 c q))
    (hb : ∀ q, b (ix2 (0 : Fin 1) q) = B (ix2 (0 : Fin 1) q))
    (hsb : (⟨2, ![1, N]⟩ : Shape).ShapeCasts ⟨2, ![1, N]⟩)
    (hbc : (⟨2, ![1, N]⟩ : Shape).Broadcasts ⟨2, ![m, N]⟩) (r : Fin m) (q : Fin N) :
    maximumf (addf (matmul (DotDims.plain m K N) none u w
          (constant (F := Ideal) ⟨2, ![m, N]⟩ .f32 0x00000000#32))
        (broadcastTo ⟨2, ![m, N]⟩ (shapeCast ⟨2, ![1, N]⟩ b hsb) hbc))
      (broadcast ⟨2, ![m, N]⟩ (Scalar.ofBits (F := Ideal) .f32 0x00000000#32)) (ix2 r q)
      = biasRelu (Host.dotGeneral (DotDims.plain M K N) none U W) B (ix2 (rw_ r) q) := by
  have e := denseRelu_rows rw_ U W B u w b hu hw hb rfl hsb hbc r q
  rwa [shapeCast_self w rfl] at e

/-- The two dense stages and their rectifiers on a block of rows, every factor of each product narrowed to bf16 first,
    applied to a block s whose entries are those rows of the residual sum A + X, is that block of rows of the two-stage
    function of the whole arrays. -/
theorem mlp_rows' {H : Nat} (rw_ : Fin m → Fin M)
    (A X : FVec Ideal ⟨2, ![M, K]⟩ .f32) (W1 : FVec Ideal ⟨2, ![K, H]⟩ .f32) (B1 : FVec Ideal ⟨2, ![1, H]⟩ .f32)
    (W2 : FVec Ideal ⟨2, ![H, N]⟩ .f32) (B2 : FVec Ideal ⟨2, ![1, N]⟩ .f32)
    (s : FVec Ideal ⟨2, ![m, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (hs : ∀ r c, s (ix2 r c) = addf A X (ix2 (rw_ r) c))
    (hw1 : ∀ c q, w1 (ix2 c q) = W1 (ix2 c q)) (hb1 : ∀ q, b1 (ix2 (0 : Fin 1) q) = B1 (ix2 (0 : Fin 1) q))
    (hw2 : ∀ c q, w2 (ix2 c q) = W2 (ix2 c q)) (hb2 : ∀ q, b2 (ix2 (0 : Fin 1) q) = B2 (ix2 (0 : Fin 1) q))
    (hsb1 : (⟨2, ![1, H]⟩ : Shape).ShapeCasts ⟨2, ![1, H]⟩) (hbc1 : (⟨2, ![1, H]⟩ : Shape).Broadcasts ⟨2, ![m, H]⟩)
    (hsb2 : (⟨2, ![1, N]⟩ : Shape).ShapeCasts ⟨2, ![1, N]⟩) (hbc2 : (⟨2, ![1, N]⟩ : Shape).Broadcasts ⟨2, ![m, N]⟩)
    (hlt : FTy.bf16.bits < FTy.f32.bits) (r : Fin m) (q : Fin N) :
    maximumf (addf (matmul (DotDims.plain m H N) none
          (truncf .bf16 (maximumf (addf (matmul (DotDims.plain m K H) none
                (truncf .bf16 s hlt) (truncf .bf16 w1 hlt)
                (constant (F := Ideal) ⟨2, ![m, H]⟩ .f32 0x00000000#32))
              (broadcastTo ⟨2, ![m, H]⟩ (shapeCast ⟨2, ![1, H]⟩ b1 hsb1) hbc1))
            (broadcast ⟨2, ![m, H]⟩ (Scalar.ofBits (F := Ideal) .f32 0x00000000#32))) hlt)
          (truncf .bf16 w2 hlt) (constant (F := Ideal) ⟨2, ![m, N]⟩ .f32 0x00000000#32))
        (broadcastTo ⟨2, ![m, N]⟩ (shapeCast ⟨2, ![1, N]⟩ b2 hsb2) hbc2))
      (broadcast ⟨2, ![m, N]⟩ (Scalar.ofBits (F := Ideal) .f32 0x00000000#32)) (ix2 r q)
      = mlp A X W1 B1 W2 B2 (ix2 (rw_ r) q) :=
  denseRelu_rows' rw_ _ W2 B2 _ (truncf .bf16 w2 hlt) b2
    (fun r c => (truncf_apply _ hlt (ix2 r c)).trans
      (denseRelu_rows' rw_ (addf A X) W1 B1 _ (truncf .bf16 w1 hlt) b1
        (fun r c => (truncf_apply s hlt (ix2 r c)).trans (hs r c))
        (fun c q => (truncf_apply w1 hlt (ix2 c q)).trans (hw1 c q)) hb1 hsb1 hbc1 r c))
    (fun c q => (truncf_apply w2 hlt (ix2 c q)).trans (hw2 c q)) hb2 hsb2 hbc2 r q

/-! ## The body's values at an entry -/

/-- The dense block: entry (a, q) of what the body stores to the block of the first output is entry (n·5000 + a, q) of
    the two-stage function of the whole arrays, when the body's operands are the block's rows of the features and of
    the aggregate and the whole weights and bias rows. -/
theorem pay4_rows (n : ℕ) (hn : n < 10)
    (H AG : FVec Ideal ⟨2, ![50000, 64]⟩ .f32) (W1 : FVec Ideal ⟨2, ![64, 64]⟩ .f32) (B1 : FVec Ideal ⟨2, ![1, 64]⟩ .f32)
    (W2 : FVec Ideal ⟨2, ![64, 64]⟩ .f32) (B2 : FVec Ideal ⟨2, ![1, 64]⟩ .f32)
    (x0 x1 : Vec Ideal S5000x64 .f32) (x2 : Vec Ideal S64x64 .f32) (x3 : Vec Ideal S1x64 .f32)
    (x4 : Vec Ideal S64x64 .f32) (x5 : Vec Ideal S1x64 .f32)
    (h0 : ∀ (a : Fin 5000) (k : Fin 64), x0 (ix2 a k) = H (ix2 (row n hn a) k))
    (h1 : ∀ (a : Fin 5000) (k : Fin 64), x1 (ix2 a k) = AG (ix2 (row n hn a) k))
    (h2 : ∀ (k : Fin 64) (q : Fin 64), x2 (ix2 k q) = W1 (ix2 k q))
    (h3 : ∀ q : Fin 64, x3 (ix2 (0 : Fin 1) q) = B1 (ix2 (0 : Fin 1) q))
    (h4 : ∀ (k : Fin 64) (q : Fin 64), x4 (ix2 k q) = W2 (ix2 k q))
    (h5 : ∀ q : Fin 64, x5 (ix2 (0 : Fin 1) q) = B2 (ix2 (0 : Fin 1) q))
    (a : Fin 5000) (q : Fin 64) :
    k2_pay4 x0 x1 x2 x3 x4 x5 (ix2 a q) = mlp H AG W1 B1 W2 B2 (ix2 (row n hn a) q) := by
  have hs : ∀ (r : Fin 5000) (c : Fin 64),
      (addf (shapeCast S5000x64 x0 shapeCasts_S5000x64_S5000x64) (shapeCast S5000x64 x1 shapeCasts_S5000x64_S5000x64) : FVec Ideal ⟨2, ![5000, 64]⟩ .f32) (ix2 r c)
        = addf H AG (ix2 (row n hn r) c) := fun r c => by
    rw [addf_apply, addf_apply, shapeCast_self, shapeCast_self, h0, h1]
  unfold k2_pay4
  exact mlp_rows' (row n hn) H AG W1 B1 W2 B2
    (addf (shapeCast S5000x64 x0 shapeCasts_S5000x64_S5000x64) (shapeCast S5000x64 x1 shapeCasts_S5000x64_S5000x64)) x2 x3 x4 x5 hs h2 h3 h4 h5
    shapeCasts_S1x64_S1x64 broadcasts_S1x64_S5000x64 shapeCasts_S1x64_S1x64 broadcasts_S1x64_S5000x64
    bitsLt_bf16_f32 a q

/-- The first running row after the body: what it held, plus the block's column sum. -/
theorem pay5_apply (x0 x1 : Vec Ideal S5000x64 .f32) (x2 : Vec Ideal S64x64 .f32) (x3 : Vec Ideal S1x64 .f32)
    (x4 : Vec Ideal S64x64 .f32) (x5 : Vec Ideal S1x64 .f32) (v : Vec Ideal S1x64 .f32) (u : Fin 1) (q : Fin 64) :
    k2_pay5 x0 x1 x2 x3 x4 x5 v (ix2 u q)
      = v (ix2 u q) + ∑ a : Fin 5000, k2_pay4 x0 x1 x2 x3 x4 x5 (ix2 a q) := by
  unfold k2_pay5
  exact congrArg₂ (· + ·) (congrFun (shapeCast_self v _) (ix2 u q))
    ((shapeCast_a_1a_apply _ _ u q).trans (multiReduction_add_col _ _ _ _ _ q))

/-- The second running row after the body: what it held, plus the block's column sum of squares. -/
theorem pay1_apply (y : FVec Ideal S5000x64 .f32) (v : Vec Ideal S1x64 .f32) (u : Fin 1) (q : Fin 64) :
    k2_pay1 y v (ix2 u q) = v (ix2 u q) + ∑ a : Fin 5000, y (ix2 a q) * y (ix2 a q) := by
  unfold k2_pay1
  exact congrArg₂ (· + ·) (congrFun (shapeCast_self v _) (ix2 u q))
    ((shapeCast_a_1a_apply _ _ u q).trans (multiReduction_add_col _ _ _ _ _ q))

/-- The two rows the first point stores before anything else are zero rows. -/
theorem pay2_apply (j : S1x64.Idx) : k2_pay2 (F := Ideal) j = 0 := by
  unfold k2_pay2; exact Ideal.ofBits_zero_f32
theorem pay3_apply (j : S1x64.Idx) : k2_pay3 (F := Ideal) j = 0 := by
  unfold k2_pay3; exact Ideal.ofBits_zero_f32

/-! ## One point's step of the two running rows -/

/-- If the body's dense block is the block n of rows of U and the first running row held the column sums of U over the
    blocks before n, it holds them over the blocks up to n afterwards. -/
theorem step_s (n : ℕ) (hn : n < 10) (U : FVec Ideal ⟨2, ![50000, 64]⟩ .f32)
    (x0 x1 : Vec Ideal S5000x64 .f32) (x2 : Vec Ideal S64x64 .f32) (x3 : Vec Ideal S1x64 .f32)
    (x4 : Vec Ideal S64x64 .f32) (x5 : Vec Ideal S1x64 .f32) (v : Vec Ideal S1x64 .f32) (q : Fin 64)
    (hp : ∀ a : Fin 5000, k2_pay4 x0 x1 x2 x3 x4 x5 (ix2 a q) = U (ix2 (row n hn a) q))
    (hv : v (ix2 (0 : Fin 1) q) = psum (fun r => U (ix2 r q)) n) :
    k2_pay5 x0 x1 x2 x3 x4 x5 v (ix2 (0 : Fin 1) q) = psum (fun r => U (ix2 r q)) (n + 1) := by
  rw [pay5_apply, hv, psum_succ _ n hn]
  exact congrArg (_ + ·) (Finset.sum_congr rfl fun a _ => hp a)

/-- The same for the second running row and the column sums of squares. -/
theorem step_ss (n : ℕ) (hn : n < 10) (U : FVec Ideal ⟨2, ![50000, 64]⟩ .f32)
    (y : FVec Ideal S5000x64 .f32) (v : Vec Ideal S1x64 .f32) (q : Fin 64)
    (hp : ∀ a : Fin 5000, y (ix2 a q) = U (ix2 (row n hn a) q))
    (hv : v (ix2 (0 : Fin 1) q) = psum (fun r => U (ix2 r q) * U (ix2 r q)) n) :
    k2_pay1 y v (ix2 (0 : Fin 1) q) = psum (fun r => U (ix2 r q) * U (ix2 r q)) (n + 1) := by
  rw [pay1_apply, hv, psum_succ _ n hn]
  exact congrArg (_ + ·) (Finset.sum_congr rfl fun a _ => by rw [hp a])

/-- An entry of a block of rows, read at the array's coordinates. -/
theorem rows_at (n : ℕ) (hn : n < 10) (U : FVec Ideal ⟨2, ![50000, 64]⟩ .f32) (Y : FVec Ideal S5000x64 .f32)
    (hY : ∀ (a : Fin 5000) (q : Fin 64), Y (ix2 a q) = U (ix2 (row n hn a) q))
    (j : S5000x64.Idx) (i : (⟨2, ![50000, 64]⟩ : Shape).Idx)
    (h0 : (i 0).val = n * 5000 + (j 0).val) (h1 : (i 1).val = (j 1).val) : Y j = U i := by
  obtain ⟨a, q, rfl⟩ : ∃ (a : Fin 5000) (q : Fin 64), j = ix2 a q := ⟨j 0, j 1, eq_ix2 j⟩
  obtain rfl : i = ix2 (row n hn a) q := by
    rw [eq_ix2 i]; exact congrArg₂ ix2 (Fin.ext h0) (Fin.ext h1)
  exact hY a q

end Cert.KernelIdeal.RegionR2

end
-- ==== Proof.RegionR2.lean ====
/-
  The value of the dense region that also keeps column statistics, for any contents of its arrays at its entry.

  The region runs its body at 10 points over blocks of 5000 rows. With h, g, W₁, B₁, W₂, B₂ the contents of its six input
  arrays, and U = max ((max ((h + g)·W₁ + B₁) 0)·W₂ + B₂) 0 the two-stage function of the whole arrays:

    the first output array ends holding U, each point writing back its block of rows;
    the second ends holding, in its one row, the column sums Σ_r U(r, q) over all 50000 rows;
    the third the column sums of squares Σ_r U(r, q)².

  The two rows live in one block whose index never moves: the body zeroes them at the first point, adds the block's
  column sums at every point, and the block is written back after the last point only. So after the point n they hold
  the sums over the rows of the blocks 0 … n (by induction on the point), and after the point 9 over all the rows.
-/
import proofs.«173864_j70188355551324_1_alg».proof.Proof.Gen.KernelIdeal.Frame
import proofs.«173864_j70188355551324_1_alg».proof.Proof.Spec
import proofs.«173864_j70188355551324_1_alg».proof.Proof.RegionR2Pay
import Idealize.ShloMosaic.Lib.Pipeline.Value
import Idealize.ShloMosaic.Lib.Tactic

noncomputable section

open scoped BigOperators

namespace Cert.KernelIdeal.RegionR2

open Idealize.ShloMosaic Idealize.ShloMosaic.TcCoe Idealize.ShloMosaic.ValueIdx Idealize.SL.Sem
open Idealize.ShloMosaic.Pipeline (Dat)
open Cert.KernelIdeal Cert.KernelIdeal.Gen Cert.LibMlpRows

/-! ## What each case of the body leaves in the three outputs' buffers -/

section Pieces

variable {F : FTy → Type} [FloatOps F]

theorem hz : (![0, 0] : Fin 2 → Nat) = fun _ => 0 := funext fun a => by fin_cases a <;> rfl

/-- At the first point the dense block is the one covering store's payload. -/
theorem out_A_6 (c : Dev nD) (i : grid2.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : cond2_0 i)
    (x0 x1 : Vec F S5000x64 .f32) (x2 : Vec F S64x64 .f32) (x3 : Vec F S1x64 .f32) (x4 : Vec F S64x64 .f32) (x5 : Vec F S1x64 .f32) :
    out2_A_6 c i a1 h1 a2 h2 a3 h3 a4 h4 a5 h5 a6 h6 a7 h7 a8 h8 a9 h9 hc x0 x1 x2 x3 x4 x5 = k2_pay4 x0 x1 x2 x3 x4 x5 := by
  unfold out2_A_6
  rw [View.read_writes_eq_canon _ _ _ (cover2_A_6 c i a1 h1 a2 h2 a3 h3 a4 h4 a5 h5 a6 h6 a7 h7 a8 h8 a9 h9 hc x0 x1 x2 x3 x4 x5)]
  unfold kernelRun2_A
  dsimp only
  rw [View.canon_unit_zero hz]
  simp only [View.readAt_eq_ld, h1.read_unread, h2.read_unread, h3.read_unread, h4.read_unread, h5.read_unread,
    h6.read_unread, h8.read_unread, h9.read_unread, View.ld_unit_zero (S := S5000x64) hz, View.ld_unit_zero (S := S64x64) hz,
    View.ld_unit_zero (S := S64x64) hz, View.ld_unit_zero (S := S1x64) hz, View.ld_unit_zero (S := S5000x64) hz]

/-- At the first point the first running row is stored as zeros, read back, and left with the block's column sums added. -/
theorem out_A_7 (c : Dev nD) (i : grid2.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : cond2_0 i)
    (x0 x1 : Vec F S5000x64 .f32) (x2 : Vec F S64x64 .f32) (x3 : Vec F S1x64 .f32) (x4 : Vec F S64x64 .f32) (x5 : Vec F S1x64 .f32) :
    out2_A_7 c i a1 h1 a2 h2 a3 h3 a4 h4 a5 h5 a6 h6 a7 h7 a8 h8 a9 h9 hc x0 x1 x2 x3 x4 x5 = k2_pay5 x0 x1 x2 x3 x4 x5 k2_pay2 := by
  unfold out2_A_7
  rw [View.read_writes_eq_canon _ _ _ (cover2_A_7 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    h6.read_unread, h8.read_unread, h9.read_unread, View.ld_unit_zero (S := S5000x64) hz, View.ld_unit_zero (S := S64x64) hz,
    View.ld_unit_zero (S := S64x64) hz, View.ld_unit_zero (S := S1x64) hz, View.ld_unit_zero (S := S5000x64) hz]

/-- At the first point the second running row likewise, with the column sums of squares. -/
theorem out_A_8 (c : Dev nD) (i : grid2.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : cond2_0 i)
    (x0 x1 : Vec F S5000x64 .f32) (x2 : Vec F S64x64 .f32) (x3 : Vec F S1x64 .f32) (x4 : Vec F S64x64 .f32) (x5 : Vec F S1x64 .f32) :
    out2_A_8 c i a1 h1 a2 h2 a3 h3 a4 h4 a5 h5 a6 h6 a7 h7 a8 h8 a9 h9 hc x0 x1 x2 x3 x4 x5 = k2_pay1 (k2_pay4 x0 x1 x2 x3 x4 x5) k2_pay3 := by
  unfold out2_A_8
  rw [View.read_writes_eq_canon _ _ _ (cover2_A_8 c i a1 h1 a2 h2 a3 h3 a4 h4 a5 h5 a6 h6 a7 h7 a8 h8 a9 h9 hc x0 x1 x2 x3 x4 x5)]
  unfold kernelRun2_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    h6.read_unread, h8.read_unread, h9.read_unread, View.ld_unit_zero (S := S5000x64) hz, View.ld_unit_zero (S := S64x64) hz,
    View.ld_unit_zero (S := S64x64) hz, View.ld_unit_zero (S := S1x64) hz, View.ld_unit_zero (S := S5000x64) hz]

/-- At a later point the dense block is again the one covering store's payload. -/
theorem out_B_6 (c : Dev nD) (i : grid2.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : ¬cond2_0 i)
    (x0 x1 : Vec F S5000x64 .f32) (x2 : Vec F S64x64 .f32) (x3 : Vec F S1x64 .f32) (x4 : Vec F S64x64 .f32) (x5 : Vec F S1x64 .f32) (xo7 xo8 : Vec F S1x64 .f32) :
    out2_B_6 c i a1 h1 a2 h2 a3 h3 a4 h4 a5 h5 a6 h6 a7 h7 a8 h8 a9 h9 hc x0 x1 x2 x3 x4 x5 xo7 xo8 = k2_pay4 x0 x1 x2 x3 x4 x5 := by
  unfold out2_B_6
  rw [View.read_writes_eq_canon _ _ _ (cover2_B_6 c i a1 h1 a2 h2 a3 h3 a4 h4 a5 h5 a6 h6 a7 h7 a8 h8 a9 h9 hc x0 x1 x2 x3 x4 x5 xo7 xo8)]
  unfold kernelRun2_B
  dsimp only
  rw [View.canon_unit_zero hz]
  simp only [View.readAt_eq_ld, h1.read_unread, h2.read_unread, h3.read_unread, h4.read_unread, h5.read_unread,
    h6.read_unread, h8.read_unread, h9.read_unread, View.ld_unit_zero (S := S5000x64) hz, View.ld_unit_zero (S := S64x64) hz,
    View.ld_unit_zero (S := S64x64) hz, View.ld_unit_zero (S := S1x64) hz, View.ld_unit_zero (S := S5000x64) hz]

/-- At a later point the first running row is what it held with the block's column sums added. -/
theorem out_B_7 (c : Dev nD) (i : grid2.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : ¬cond2_0 i)
    (x0 x1 : Vec F S5000x64 .f32) (x2 : Vec F S64x64 .f32) (x3 : Vec F S1x64 .f32) (x4 : Vec F S64x64 .f32) (x5 : Vec F S1x64 .f32) (xo7 xo8 : Vec F S1x64 .f32) :
    out2_B_7 c i a1 h1 a2 h2 a3 h3 a4 h4 a5 h5 a6 h6 a7 h7 a8 h8 a9 h9 hc x0 x1 x2 x3 x4 x5 xo7 xo8 = k2_pay5 x0 x1 x2 x3 x4 x5 xo7 := by
  unfold out2_B_7
  rw [View.read_writes_eq_canon _ _ _ (cover2_B_7 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x64) hz, View.ld_unit_zero (S := S64x64) hz,
    View.ld_unit_zero (S := S64x64) hz, View.ld_unit_zero (S := S1x64) hz, View.ld_unit_zero (S := S5000x64) hz]

/-- At a later point the second running row is what it held with the block's column sums of squares added. -/
theorem out_B_8 (c : Dev nD) (i : grid2.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : ¬cond2_0 i)
    (x0 x1 : Vec F S5000x64 .f32) (x2 : Vec F S64x64 .f32) (x3 : Vec F S1x64 .f32) (x4 : Vec F S64x64 .f32) (x5 : Vec F S1x64 .f32) (xo7 xo8 : Vec F S1x64 .f32) :
    out2_B_8 c i a1 h1 a2 h2 a3 h3 a4 h4 a5 h5 a6 h6 a7 h7 a8 h8 a9 h9 hc x0 x1 x2 x3 x4 x5 xo7 xo8 = k2_pay1 (k2_pay4 x0 x1 x2 x3 x4 x5) xo8 := by
  unfold out2_B_8
  rw [View.read_writes_eq_canon _ _ _ (cover2_B_8 c i a1 h1 a2 h2 a3 h3 a4 h4 a5 h5 a6 h6 a7 h7 a8 h8 a9 h9 hc x0 x1 x2 x3 x4 x5 xo7 xo8)]
  unfold kernelRun2_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x64) hz, View.ld_unit_zero (S := S64x64) hz,
    View.ld_unit_zero (S := S64x64) hz, View.ld_unit_zero (S := S1x64) hz, View.ld_unit_zero (S := S5000x64) hz]

end Pieces

/-! ## The windows' blocks, read at coordinates -/

/-- The printed index maps, decided over the grid: the two row-blocked inputs and the first output move down the rows
    with the point; every other window stays at block (0, 0). -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = 0 ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = t.val ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0) :=
  (by decide +kernel : ∀ t : Fin grid2.N, _)

theorem lt_ten (t : Fin cfg2.N) : t.val < 10 := lt_of_lt_of_eq t.isLt (show cfg2.N = 10 from N_2)

variable (V : (c : Dev nD) → (b : Ref sig .tc) → Buf (Elt Ideal) ((c : Thread nD τ).loc b)) (c : Dev nD)

/-- The features' block at point t holds the rows t·5000 + a. -/
theorem iblk_0 (H : FVec Ideal ⟨2, ![50000, 64]⟩ .f32) (hH : V c (Pipeline.arrRef spec2 0) = H) (t : Fin cfg2.N)
    (a : Fin 5000) (k : Fin 64) :
    (iblk2 V c 0 t : Vec Ideal S5000x64 .f32) (ix2 a k) = H (ix2 (row t.val (lt_ten t) a) k) := by
  subst hH
  unfold iblk2
  rw [View.read_apply]
  refine congrArg (V c (Pipeline.arrRef spec2 0)) (funext fun d => Fin.ext ?_)
  obtain ⟨⟨e0, e1⟩, -⟩ := idx_facts t
  match d with
  | ⟨0, _⟩ => show win2_0.index t (0 : Fin 2) * 5000 + 1 * a.val = t.val * 5000 + a.val; rw [e0]; omega
  | ⟨1, _⟩ => show win2_0.index t (1 : Fin 2) * 64 + 1 * k.val = k.val; rw [e1]; omega

/-- The aggregate's block at point t holds the rows t·5000 + a. -/
theorem iblk_1 (AG : FVec Ideal ⟨2, ![50000, 64]⟩ .f32) (hAG : V c (Pipeline.arrRef spec2 1) = AG) (t : Fin cfg2.N)
    (a : Fin 5000) (k : Fin 64) :
    (iblk2 V c 1 t : Vec Ideal S5000x64 .f32) (ix2 a k) = AG (ix2 (row t.val (lt_ten t) a) k) := by
  subst hAG
  unfold iblk2
  rw [View.read_apply]
  refine congrArg (V c (Pipeline.arrRef spec2 1)) (funext fun d => Fin.ext ?_)
  obtain ⟨-, ⟨e0, e1⟩, -⟩ := idx_facts t
  match d with
  | ⟨0, _⟩ => show win2_1.index t (0 : Fin 2) * 5000 + 1 * a.val = t.val * 5000 + a.val; rw [e0]; omega
  | ⟨1, _⟩ => show win2_1.index t (1 : Fin 2) * 64 + 1 * k.val = k.val; rw [e1]; omega

/-- The first weights' block is the whole array at every point. -/
theorem iblk_2 (W1 : FVec Ideal ⟨2, ![64, 64]⟩ .f32) (hW1 : V c (Pipeline.arrRef spec2 2) = W1) (t : Fin cfg2.N)
    (k : Fin 64) (q : Fin 64) :
    (iblk2 V c 2 t : Vec Ideal S64x64 .f32) (ix2 k q) = W1 (ix2 k q) := by
  subst hW1
  unfold iblk2
  rw [View.read_apply]
  refine congrArg (V c (Pipeline.arrRef spec2 2)) (funext fun d => Fin.ext ?_)
  obtain ⟨-, -, ⟨e0, e1⟩, -⟩ := idx_facts t
  match d with
  | ⟨0, _⟩ => show win2_2.index t (0 : Fin 2) * 64 + 1 * k.val = k.val; rw [e0]; omega
  | ⟨1, _⟩ => show win2_2.index t (1 : Fin 2) * 64 + 1 * q.val = q.val; rw [e1]; omega

/-- The first bias row's block is the whole row at every point. -/
theorem iblk_3 (B1 : FVec Ideal ⟨2, ![1, 64]⟩ .f32) (hB1 : V c (Pipeline.arrRef spec2 3) = B1) (t : Fin cfg2.N)
    (q : Fin 64) :
    (iblk2 V c 3 t : Vec Ideal S1x64 .f32) (ix2 (0 : Fin 1) q) = B1 (ix2 (0 : Fin 1) q) := by
  subst hB1
  unfold iblk2
  rw [View.read_apply]
  refine congrArg (V c (Pipeline.arrRef spec2 3)) (funext fun d => Fin.ext ?_)
  obtain ⟨-, -, -, ⟨e0, e1⟩, -⟩ := idx_facts t
  match d with
  | ⟨0, _⟩ => show win2_3.index t (0 : Fin 2) * 1 + 1 * 0 = 0; rw [e0]
  | ⟨1, _⟩ => show win2_3.index t (1 : Fin 2) * 64 + 1 * q.val = q.val; rw [e1]; omega

/-- The second weights' block is the whole array at every point. -/
theorem iblk_4 (W2 : FVec Ideal ⟨2, ![64, 64]⟩ .f32) (hW2 : V c (Pipeline.arrRef spec2 4) = W2) (t : Fin cfg2.N)
    (k : Fin 64) (q : Fin 64) :
    (iblk2 V c 4 t : Vec Ideal S64x64 .f32) (ix2 k q) = W2 (ix2 k q) := by
  subst hW2
  unfold iblk2
  rw [View.read_apply]
  refine congrArg (V c (Pipeline.arrRef spec2 4)) (funext fun d => Fin.ext ?_)
  obtain ⟨-, -, -, -, ⟨e0, e1⟩, -⟩ := idx_facts t
  match d with
  | ⟨0, _⟩ => show win2_4.index t (0 : Fin 2) * 64 + 1 * k.val = k.val; rw [e0]; omega
  | ⟨1, _⟩ => show win2_4.index t (1 : Fin 2) * 64 + 1 * q.val = q.val; rw [e1]; omega

/-- The second bias row's block is the whole row at every point. -/
theorem iblk_5 (B2 : FVec Ideal ⟨2, ![1, 64]⟩ .f32) (hB2 : V c (Pipeline.arrRef spec2 5) = B2) (t : Fin cfg2.N)
    (q : Fin 64) :
    (iblk2 V c 5 t : Vec Ideal S1x64 .f32) (ix2 (0 : Fin 1) q) = B2 (ix2 (0 : Fin 1) q) := by
  subst hB2
  unfold iblk2
  rw [View.read_apply]
  refine congrArg (V c (Pipeline.arrRef spec2 5)) (funext fun d => Fin.ext ?_)
  obtain ⟨-, -, -, -, -, ⟨e0, e1⟩, -⟩ := idx_facts t
  match d with
  | ⟨0, _⟩ => show win2_5.index t (0 : Fin 2) * 1 + 1 * 0 = 0; rw [e0]
  | ⟨1, _⟩ => show win2_5.index t (1 : Fin 2) * 64 + 1 * q.val = q.val; rw [e1]; omega

/-! ## The dense block at a point -/

/-- At every point the body's dense block is that point's block of rows of the two-stage function. -/
theorem pay4_at (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec2 0) = H) (hAG : V c (Pipeline.arrRef spec2 1) = AG)
    (hW1 : V c (Pipeline.arrRef spec2 2) = W1) (hB1 : V c (Pipeline.arrRef spec2 3) = B1)
    (hW2 : V c (Pipeline.arrRef spec2 4) = W2) (hB2 : V c (Pipeline.arrRef spec2 5) = B2) (t : Fin cfg2.N) (a : Fin 5000) (q : Fin 64) :
    k2_pay4 (iblk2 V c 0 t) (iblk2 V c 1 t) (iblk2 V c 2 t) (iblk2 V c 3 t) (iblk2 V c 4 t) (iblk2 V c 5 t) (ix2 a q)
      = mlp H AG W1 B1 W2 B2 (ix2 (row t.val (lt_ten t) a) q) :=
  pay4_rows t.val (lt_ten t) H AG W1 B1 W2 B2 (iblk2 V c 0 t) (iblk2 V c 1 t) (iblk2 V c 2 t) (iblk2 V c 3 t) (iblk2 V c 4 t) (iblk2 V c 5 t)
    (iblk_0 V c H hH t) (iblk_1 V c AG hAG t) (iblk_2 V c W1 hW1 t) (iblk_3 V c B1 hB1 t) (iblk_4 V c W2 hW2 t)
    (iblk_5 V c B2 hB2 t) a q

/-! ## What the outputs' buffers hold after each point -/

/-- After the point n the first output's buffer holds the block n of rows of U, and the two running rows hold the
    column sums of U, and of its squares, over the rows of the blocks 0 … n. By induction on the point. -/
theorem outsAt_inv (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec2 0) = H) (hAG : V c (Pipeline.arrRef spec2 1) = AG)
    (hW1 : V c (Pipeline.arrRef spec2 2) = W1) (hB1 : V c (Pipeline.arrRef spec2 3) = B1)
    (hW2 : V c (Pipeline.arrRef spec2 4) = W2) (hB2 : V c (Pipeline.arrRef spec2 5) = B2) :
    ∀ (n : ℕ) (h : n < cfg2.N) (hn : n < 10),
      (∀ (a : Fin 5000) (q : Fin 64), (outsAt2 V c n h).1 (ix2 a q) = mlp H AG W1 B1 W2 B2 (ix2 (row n hn a) q))
      ∧ (∀ q : Fin 64, (outsAt2 V c n h).2.1 (ix2 (0 : Fin 1) q) = psum (fun r => mlp H AG W1 B1 W2 B2 (ix2 r q)) (n + 1))
      ∧ (∀ q : Fin 64, (outsAt2 V c n h).2.2 (ix2 (0 : Fin 1) q)
          = psum (fun r => mlp H AG W1 B1 W2 B2 (ix2 r q) * mlp H AG W1 B1 W2 B2 (ix2 r q)) (n + 1))
  | 0, h, hn => by
    have hp := pay4_at V c H AG W1 B1 W2 B2 hH hAG hW1 hB1 hW2 hB2 ⟨0, h⟩
    rw [outsAt2_A V c ⟨0, h⟩ rfl]
    dsimp only
    rw [out_A_6, out_A_7, out_A_8]
    refine ⟨hp, fun q => ?_, fun q => ?_⟩
    · exact step_s 0 hn _ _ _ _ _ _ _ _ q (fun a => hp a q) ((pay2_apply _).trans (psum_zero _).symm)
    · exact step_ss 0 hn _ _ _ q (fun a => hp a q) ((pay3_apply _).trans (psum_zero _).symm)
  | n + 1, h, hn => by
    have hB : ¬(⟨n + 1, h⟩ : Fin cfg2.N).val % 10 = 0 := by dsimp only; omega
    have hp := pay4_at V c H AG W1 B1 W2 B2 hH hAG hW1 hB1 hW2 hB2 ⟨n + 1, h⟩
    obtain ⟨-, ih7, ih8⟩ := outsAt_inv H AG W1 B1 W2 B2 hH hAG hW1 hB1 hW2 hB2 n (Nat.lt_of_succ_lt h) (Nat.lt_of_succ_lt hn)
    rw [outsAt2_B V c ⟨n + 1, h⟩ hB]
    dsimp only
    rw [out_B_6, out_B_7, out_B_8]
    refine ⟨hp, fun q => ?_, fun q => ?_⟩
    · exact step_s (n + 1) hn _ _ _ _ _ _ _ _ q (fun a => hp a q) (ih7 q)
    · exact step_ss (n + 1) hn _ _ _ q (fun a => hp a q) (ih8 q)

/-! ## The first output: every point writes back its block of rows -/

/-- What the point t writes back to the first output is the block t of rows of U. -/
theorem flushed6_eq (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec2 0) = H) (hAG : V c (Pipeline.arrRef spec2 1) = AG)
    (hW1 : V c (Pipeline.arrRef spec2 2) = W1) (hB1 : V c (Pipeline.arrRef spec2 3) = B1)
    (hW2 : V c (Pipeline.arrRef spec2 4) = W2) (hB2 : V c (Pipeline.arrRef spec2 5) = B2) (t : Fin cfg2.N) :
    (dat2 V c).flushed 6 t = ((cfg2.win 6).blk t).view.read (Elt Ideal) (mlp H AG W1 B1 W2 B2) := by
  show (cfg2.win 6).cut (grid2.coords t) ((dat2 V c).after 6 t) = _
  rw [after2_6]
  funext j
  rw [View.read_apply]
  obtain ⟨-, -, -, -, -, -, ⟨e0, e1⟩, -⟩ := idx_facts t
  exact rows_at t.val (lt_ten t) _ _ (outsAt_inv V c H AG W1 B1 W2 B2 hH hAG hW1 hB1 hW2 hB2 t.val t.isLt (lt_ten t)).1 _ _
    (show win2_6.index t (0 : Fin 2) * 5000 + 1 * (j 0).val = t.val * 5000 + (j 0).val by rw [e0]; omega)
    (show win2_6.index t (1 : Fin 2) * 64 + 1 * (j 1).val = (j 1).val by rw [e1]; omega)

/-- An index of the first output's array is in the point t's block iff each coordinate is in the block's range. -/
theorem mem_blk6 (t : Fin cfg2.N) (i : (⟨2, ![50000, 64]⟩ : Shape).Idx) :
    i ∈ ((cfg2.win 6).blk t).view.set ↔ ∀ a : Fin 2, win2_6.index t a * S5000x64.size a ≤ (i a).val
      ∧ (i a).val < win2_6.index t a * S5000x64.size a + S5000x64.size a := by
  show i ∈ ((View.whole main_v40_0).slice (win2_6.rect t)).set ↔ _
  rw [View.set_slice_whole, Rect.mem_set_unit]
  exact Iff.rfl

/-- The first output's array ends holding U: row r is written back by the point r / 5000. -/
theorem final6 (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec2 0) = H) (hAG : V c (Pipeline.arrRef spec2 1) = AG)
    (hW1 : V c (Pipeline.arrRef spec2 2) = W1) (hB1 : V c (Pipeline.arrRef spec2 3) = B1)
    (hW2 : V c (Pipeline.arrRef spec2 4) = W2) (hB2 : V c (Pipeline.arrRef spec2 5) = B2) : (dat2 V c).arrAt 6 cfg2.N = mlp H AG W1 B1 W2 B2 :=
  (dat2 V c).arrAt_eq_of_cover 6 (mlp H AG W1 B1 W2 B2) (fun t _ => flushed6_eq V c H AG W1 B1 W2 B2 hH hAG hW1 hB1 hW2 hB2 t) fun i => by
    have hi0 : (i 0).val < 50000 := (i 0).isLt
    have hi1 : (i 1).val < 64 := (i 1).isLt
    have hN : cfg2.N = 10 := N_2
    refine ⟨⟨(i 0).val / 5000, by rw [hN]; omega⟩, flush2_6 _, ?_⟩
    rw [mem_blk6]
    obtain ⟨-, -, -, -, -, -, ⟨e0, e1⟩, -⟩ := idx_facts (⟨(i 0).val / 5000, by rw [hN]; omega⟩ : Fin cfg2.N)
    intro a
    match a with
    | ⟨0, _⟩ =>
      show win2_6.index _ (0 : Fin 2) * 5000 ≤ (i 0).val ∧ (i 0).val < win2_6.index _ (0 : Fin 2) * 5000 + 5000
      rw [e0]; dsimp only; omega
    | ⟨1, _⟩ =>
      show win2_6.index _ (1 : Fin 2) * 64 ≤ (i 1).val ∧ (i 1).val < win2_6.index _ (1 : Fin 2) * 64 + 64
      rw [e1]; omega

/-! ## The two running rows: written back after the last point -/

/-- A row read at the array's coordinates. -/
theorem row_at (Y G : FVec Ideal ⟨2, ![1, 64]⟩ .f32) (hY : ∀ q : Fin 64, Y (ix2 (0 : Fin 1) q) = G (ix2 (0 : Fin 1) q))
    (j i : (⟨2, ![1, 64]⟩ : Shape).Idx) (h1 : (i 1).val = (j 1).val) : Y j = G i := by
  obtain ⟨u, q, rfl⟩ : ∃ (u : Fin 1) (q : Fin 64), j = ix2 u q := ⟨j 0, j 1, eq_ix2 j⟩
  obtain rfl : i = ix2 u q := by
    have hi0 : (i 0).val < 1 := (i 0).isLt
    rw [eq_ix2 i]; exact congrArg₂ ix2 (Fin.ext (by have := u.isLt; omega)) (Fin.ext h1)
  obtain rfl : u = 0 := Fin.ext (by have := u.isLt; omega)
  exact hY q

/-- The column sums of U as a row. -/
def sumRow (U : FVec Ideal ⟨2, ![50000, 64]⟩ .f32) : FVec Ideal ⟨2, ![1, 64]⟩ .f32 := fun j => Cert.Gin.colSum U (j 1)

/-- The column sums of squares of U as a row. -/
def sumSqRow (U : FVec Ideal ⟨2, ![50000, 64]⟩ .f32) : FVec Ideal ⟨2, ![1, 64]⟩ .f32 := fun j => Cert.Gin.colSumSq U (j 1)

/-- After the last point the first running row holds the column sums over all rows, -/
theorem last7 (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec2 0) = H) (hAG : V c (Pipeline.arrRef spec2 1) = AG)
    (hW1 : V c (Pipeline.arrRef spec2 2) = W1) (hB1 : V c (Pipeline.arrRef spec2 3) = B1)
    (hW2 : V c (Pipeline.arrRef spec2 4) = W2) (hB2 : V c (Pipeline.arrRef spec2 5) = B2) (t : Fin cfg2.N) (h9 : t.val = 9) (q : Fin 64) :
    (outsAt2 V c t.val t.isLt).2.1 (ix2 (0 : Fin 1) q) = sumRow (mlp H AG W1 B1 W2 B2) (ix2 (0 : Fin 1) q) :=
  ((outsAt_inv V c H AG W1 B1 W2 B2 hH hAG hW1 hB1 hW2 hB2 t.val t.isLt (lt_ten t)).2.1 q).trans
    (by rw [show t.val + 1 = 10 by omega]; exact psum_ten _)

/-- and the second the column sums of squares. -/
theorem last8 (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec2 0) = H) (hAG : V c (Pipeline.arrRef spec2 1) = AG)
    (hW1 : V c (Pipeline.arrRef spec2 2) = W1) (hB1 : V c (Pipeline.arrRef spec2 3) = B1)
    (hW2 : V c (Pipeline.arrRef spec2 4) = W2) (hB2 : V c (Pipeline.arrRef spec2 5) = B2) (t : Fin cfg2.N) (h9 : t.val = 9) (q : Fin 64) :
    (outsAt2 V c t.val t.isLt).2.2 (ix2 (0 : Fin 1) q) = sumSqRow (mlp H AG W1 B1 W2 B2) (ix2 (0 : Fin 1) q) :=
  ((outsAt_inv V c H AG W1 B1 W2 B2 hH hAG hW1 hB1 hW2 hB2 t.val t.isLt (lt_ten t)).2.2 q).trans
    (by rw [show t.val + 1 = 10 by omega]; exact psum_ten _)

/-- What a point writes back to the second output is its block of any row G that the first running row agrees with
    after that point (the block is the whole row). -/
theorem flushed7_gen (G : FVec Ideal ⟨2, ![1, 64]⟩ .f32) (t : Fin cfg2.N)
    (hG : ∀ q : Fin 64, (outsAt2 V c t.val t.isLt).2.1 (ix2 (0 : Fin 1) q) = G (ix2 (0 : Fin 1) q)) :
    (dat2 V c).flushed 7 t = ((cfg2.win 7).blk t).view.read (Elt Ideal) G := by
  show (cfg2.win 7).cut (grid2.coords t) ((dat2 V c).after 7 t) = _
  rw [after2_7]
  funext j
  rw [View.read_apply]
  obtain ⟨-, -, -, -, -, -, -, ⟨e0, e1⟩, -⟩ := idx_facts t
  exact row_at (outsAt2 V c t.val t.isLt).2.1 G hG _ _
    (show win2_7.index t (1 : Fin 2) * 64 + 1 * (j 1).val = (j 1).val by rw [e1]; omega)

/-- What a point writes back to the third output is its block of any row G that the second running row agrees with
    after that point (the block is the whole row). -/
theorem flushed8_gen (G : FVec Ideal ⟨2, ![1, 64]⟩ .f32) (t : Fin cfg2.N)
    (hG : ∀ q : Fin 64, (outsAt2 V c t.val t.isLt).2.2 (ix2 (0 : Fin 1) q) = G (ix2 (0 : Fin 1) q)) :
    (dat2 V c).flushed 8 t = ((cfg2.win 8).blk t).view.read (Elt Ideal) G := by
  show (cfg2.win 8).cut (grid2.coords t) ((dat2 V c).after 8 t) = _
  rw [after2_8]
  funext j
  rw [View.read_apply]
  obtain ⟨-, -, -, -, -, -, -, -, ⟨e0, e1⟩⟩ := idx_facts t
  exact row_at (outsAt2 V c t.val t.isLt).2.2 G hG _ _
    (show win2_8.index t (1 : Fin 2) * 64 + 1 * (j 1).val = (j 1).val by rw [e1]; omega)

/-- The second and third outputs are written back after the point 9 only. -/
theorem flush7_nine (t : Fin cfg2.N) (hf : (cfg2.win 7).flush t = true) : t.val = 9 := by
  have := (flush2_7 t).mp hf; have := lt_ten t; omega
theorem flush8_nine (t : Fin cfg2.N) (hf : (cfg2.win 8).flush t = true) : t.val = 9 := by
  have := (flush2_8 t).mp hf; have := lt_ten t; omega

/-- The point 9's block of a one-row output is the whole row. -/
theorem mem_blk7 (t : Fin cfg2.N) (i : (⟨2, ![1, 64]⟩ : Shape).Idx) : i ∈ ((cfg2.win 7).blk t).view.set := by
  show i ∈ ((View.whole main_v40_1).slice (win2_7.rect t)).set
  rw [View.set_slice_whole, Rect.mem_set_unit]
  have hi0 : (i 0).val < 1 := (i 0).isLt
  have hi1 : (i 1).val < 64 := (i 1).isLt
  obtain ⟨-, -, -, -, -, -, -, ⟨e0, e1⟩, -⟩ := idx_facts t
  intro a
  match a with
  | ⟨0, _⟩ =>
    show win2_7.index t (0 : Fin 2) * 1 ≤ (i 0).val ∧ (i 0).val < win2_7.index t (0 : Fin 2) * 1 + 1
    rw [e0]; omega
  | ⟨1, _⟩ =>
    show win2_7.index t (1 : Fin 2) * 64 ≤ (i 1).val ∧ (i 1).val < win2_7.index t (1 : Fin 2) * 64 + 64
    rw [e1]; omega

theorem mem_blk8 (t : Fin cfg2.N) (i : (⟨2, ![1, 64]⟩ : Shape).Idx) : i ∈ ((cfg2.win 8).blk t).view.set := by
  show i ∈ ((View.whole main_v40_2).slice (win2_8.rect t)).set
  rw [View.set_slice_whole, Rect.mem_set_unit]
  have hi0 : (i 0).val < 1 := (i 0).isLt
  have hi1 : (i 1).val < 64 := (i 1).isLt
  obtain ⟨-, -, -, -, -, -, -, -, ⟨e0, e1⟩⟩ := idx_facts t
  intro a
  match a with
  | ⟨0, _⟩ =>
    show win2_8.index t (0 : Fin 2) * 1 ≤ (i 0).val ∧ (i 0).val < win2_8.index t (0 : Fin 2) * 1 + 1
    rw [e0]; omega
  | ⟨1, _⟩ =>
    show win2_8.index t (1 : Fin 2) * 64 ≤ (i 1).val ∧ (i 1).val < win2_8.index t (1 : Fin 2) * 64 + 64
    rw [e1]; omega

/-- The second output's array ends holding the row of column sums. -/
theorem final7 (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec2 0) = H) (hAG : V c (Pipeline.arrRef spec2 1) = AG)
    (hW1 : V c (Pipeline.arrRef spec2 2) = W1) (hB1 : V c (Pipeline.arrRef spec2 3) = B1)
    (hW2 : V c (Pipeline.arrRef spec2 4) = W2) (hB2 : V c (Pipeline.arrRef spec2 5) = B2) : (dat2 V c).arrAt 7 cfg2.N = sumRow (mlp H AG W1 B1 W2 B2) :=
  (dat2 V c).arrAt_eq_of_cover 7 (sumRow (mlp H AG W1 B1 W2 B2)) (fun t hf => flushed7_gen V c _ t (last7 V c H AG W1 B1 W2 B2 hH hAG hW1 hB1 hW2 hB2 t (flush7_nine t hf))) fun i =>
    ⟨t2_9, (flush2_7 t2_9).mpr rfl, mem_blk7 t2_9 i⟩

/-- The third output's array ends holding the row of column sums of squares. -/
theorem final8 (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec2 0) = H) (hAG : V c (Pipeline.arrRef spec2 1) = AG)
    (hW1 : V c (Pipeline.arrRef spec2 2) = W1) (hB1 : V c (Pipeline.arrRef spec2 3) = B1)
    (hW2 : V c (Pipeline.arrRef spec2 4) = W2) (hB2 : V c (Pipeline.arrRef spec2 5) = B2) : (dat2 V c).arrAt 8 cfg2.N = sumSqRow (mlp H AG W1 B1 W2 B2) :=
  (dat2 V c).arrAt_eq_of_cover 8 (sumSqRow (mlp H AG W1 B1 W2 B2)) (fun t hf => flushed8_gen V c _ t (last8 V c H AG W1 B1 W2 B2 hH hAG hW1 hB1 hW2 hB2 t (flush8_nine t hf))) fun i =>
    ⟨t2_9, (flush2_8 t2_9).mpr rfl, mem_blk8 t2_9 i⟩

/-! ## The region's value -/

/-- The first output is the two-stage function of the input arrays, entry by entry. -/
theorem r2_u (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec2 0) = H) (hAG : V c (Pipeline.arrRef spec2 1) = AG)
    (hW1 : V c (Pipeline.arrRef spec2 2) = W1) (hB1 : V c (Pipeline.arrRef spec2 3) = B1)
    (hW2 : V c (Pipeline.arrRef spec2 4) = W2) (hB2 : V c (Pipeline.arrRef spec2 5) = B2)
    (r : Fin 50000) (q : Fin 64) :
    (Gen.dat2 V c).arrAt 6 cfg2.N (ix2 r q) = mlp H AG W1 B1 W2 B2 (ix2 r q) :=
  congrFun (final6 V c H AG W1 B1 W2 B2 hH hAG hW1 hB1 hW2 hB2) (ix2 r q)

/-- The second output is its column sums. -/
theorem r2_s (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec2 0) = H) (hAG : V c (Pipeline.arrRef spec2 1) = AG)
    (hW1 : V c (Pipeline.arrRef spec2 2) = W1) (hB1 : V c (Pipeline.arrRef spec2 3) = B1)
    (hW2 : V c (Pipeline.arrRef spec2 4) = W2) (hB2 : V c (Pipeline.arrRef spec2 5) = B2)
    (q : Fin 64) :
    (Gen.dat2 V c).arrAt 7 cfg2.N (ix2 (0 : Fin 1) q) = Cert.Gin.colSum (mlp H AG W1 B1 W2 B2) q :=
  congrFun (final7 V c H AG W1 B1 W2 B2 hH hAG hW1 hB1 hW2 hB2) (ix2 (0 : Fin 1) q)

/-- The third output is its column sums of squares. -/
theorem r2_ss (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec2 0) = H) (hAG : V c (Pipeline.arrRef spec2 1) = AG)
    (hW1 : V c (Pipeline.arrRef spec2 2) = W1) (hB1 : V c (Pipeline.arrRef spec2 3) = B1)
    (hW2 : V c (Pipeline.arrRef spec2 4) = W2) (hB2 : V c (Pipeline.arrRef spec2 5) = B2)
    (q : Fin 64) :
    (Gen.dat2 V c).arrAt 8 cfg2.N (ix2 (0 : Fin 1) q) = Cert.Gin.colSumSq (mlp H AG W1 B1 W2 B2) q :=
  congrFun (final8 V c H AG W1 B1 W2 B2 hH hAG hW1 hB1 hW2 hB2) (ix2 (0 : Fin 1) q)

end Cert.KernelIdeal.RegionR2

end
-- ==== Proof.RegionR4Pay.lean ====
/-
  One grid point of the dense region that also keeps column statistics, at the extended reals.

  The region works on an array of 50000 rows in 10 blocks of 5000 rows. At the block n its body forms, from the block's
  rows of the features h and of the aggregate g, the block's rows of

      U = max ((max ((h + g)·W₁ + B₁) 0)·W₂ + B₂) 0

  (each left factor and each weight narrowed to a shorter float format first, which changes nothing at the extended
  reals), and adds to two running rows the block's column sums Σₐ U(a, q) and Σₐ U(a, q)². The rows start from the
  zero word at the first block. Row a of block n is row n·5000 + a of the array, so after all ten blocks the two rows
  hold the column sums over all 50000 rows: a sum over 50000 consecutive numbers cut into ten runs of 5000.
-/
import proofs.«173864_j70188355551324_1_alg».proof.Proof.Gen.KernelIdeal.Skeleton
import proofs.«173864_j70188355551324_1_alg».proof.Proof.LibMlpRows
import proofs.«173864_j70188355551324_1_alg».proof.Proof.LibRowForms
import proofs.«173864_j70188355551324_1_alg».proof.Proof.LibBlockSums
import Idealize.ShloMosaic.Lib.ValueLayout

noncomputable section

open scoped BigOperators

namespace Cert.KernelIdeal.RegionR4

open Idealize.ShloMosaic Idealize.ShloMosaic.ValueIdx Cert.KernelIdeal Cert.KernelIdeal.Gen
open Cert.LibMlpRows Cert.LibBiasRows Cert.LibRowBlockDot

/-! ## Rows of a block, and a sum over all rows cut into blocks -/

/-- Row a of the block at point n is row n·5000 + a of the array. -/
def row (n : ℕ) (hn : n < 10) (a : Fin 5000) : Fin 50000 := ⟨n * 5000 + a.val, by omega⟩

theorem row_val (n : ℕ) (hn : n < 10) (a : Fin 5000) : (row n hn a).val = n * 5000 + a.val := rfl

/-- The sum of f over the rows of the first n blocks (rows past the array count as zero: there are none when n ≤ 10). -/
def psum (f : Fin 50000 → EReal) (n : ℕ) : EReal :=
  ∑ k ∈ Finset.range n, ∑ a : Fin 5000, (if h : k * 5000 + a.val < 50000 then f ⟨k * 5000 + a.val, h⟩ else 0)

theorem psum_zero (f : Fin 50000 → EReal) : psum f 0 = 0 := by
  unfold psum; rw [Finset.range_zero, Finset.sum_empty]

/-- One more block adds that block's rows. -/
theorem psum_succ (f : Fin 50000 → EReal) (n : ℕ) (hn : n < 10) :
    psum f (n + 1) = psum f n + ∑ a : Fin 5000, f (row n hn a) := by
  unfold psum
  rw [Finset.sum_range_succ]
  refine congrArg (_ + ·) (Finset.sum_congr rfl fun a _ => ?_)
  have h : n * 5000 + a.val < 50000 := by have := a.isLt; omega
  rw [dif_pos h]; rfl

/-- Ten blocks are all the rows. -/
theorem psum_ten (f : Fin 50000 → EReal) : psum f 10 = ∑ r : Fin 50000, f r :=
  Cert.LibBlockSums.sum_blocks 10 5000 50000 rfl f

/-! ## A dense stage whose two factors are both narrowed -/

variable {M m K N : Nat} {φ₁ φ₂ ψ₁ ψ₂ : FTy}

/-- A dense stage with rectifier on a block of rows u of U, the right factor w given entry by entry, is that block of
    rows of the whole stage. -/
theorem denseRelu_rows' (rw_ : Fin m → Fin M) (U : FVec Ideal ⟨2, ![M, K]⟩ φ₁) (W : FVec Ideal ⟨2, ![K, N]⟩ φ₂)
    (B : FVec Ideal ⟨2, ![1, N]⟩ .f32) (u : FVec Ideal ⟨2, ![m, K]⟩ ψ₁) (w : FVec Ideal ⟨2, ![K, N]⟩ ψ₂)
    (b : FVec Ideal ⟨2, ![1, N]⟩ .f32)
    (hu : ∀ r c, u (ix2 r c) = U (ix2 (rw_ r) c)) (hw : ∀ c q, w (ix2 c q) = W (ix2 c q))
    (hb : ∀ q, b (ix2 (0 : Fin 1) q) = B (ix2 (0 : Fin 1) q))
    (hsb : (⟨2, ![1, N]⟩ : Shape).ShapeCasts ⟨2, ![1, N]⟩)
    (hbc : (⟨2, ![1, N]⟩ : Shape).Broadcasts ⟨2, ![m, N]⟩) (r : Fin m) (q : Fin N) :
    maximumf (addf (matmul (DotDims.plain m K N) none u w
          (constant (F := Ideal) ⟨2, ![m, N]⟩ .f32 0x00000000#32))
        (broadcastTo ⟨2, ![m, N]⟩ (shapeCast ⟨2, ![1, N]⟩ b hsb) hbc))
      (broadcast ⟨2, ![m, N]⟩ (Scalar.ofBits (F := Ideal) .f32 0x00000000#32)) (ix2 r q)
      = biasRelu (Host.dotGeneral (DotDims.plain M K N) none U W) B (ix2 (rw_ r) q) := by
  have e := denseRelu_rows rw_ U W B u w b hu hw hb rfl hsb hbc r q
  rwa [shapeCast_self w rfl] at e

/-- The two dense stages and their rectifiers on a block of rows, every factor of each product narrowed to bf16 first,
    applied to a block s whose entries are those rows of the residual sum A + X, is that block of rows of the two-stage
    function of the whole arrays. -/
theorem mlp_rows' {H : Nat} (rw_ : Fin m → Fin M)
    (A X : FVec Ideal ⟨2, ![M, K]⟩ .f32) (W1 : FVec Ideal ⟨2, ![K, H]⟩ .f32) (B1 : FVec Ideal ⟨2, ![1, H]⟩ .f32)
    (W2 : FVec Ideal ⟨2, ![H, N]⟩ .f32) (B2 : FVec Ideal ⟨2, ![1, N]⟩ .f32)
    (s : FVec Ideal ⟨2, ![m, K]⟩ .f32) (w1 : FVec Ideal ⟨2, ![K, H]⟩ .f32) (b1 : FVec Ideal ⟨2, ![1, H]⟩ .f32)
    (w2 : FVec Ideal ⟨2, ![H, N]⟩ .f32) (b2 : FVec Ideal ⟨2, ![1, N]⟩ .f32)
    (hs : ∀ r c, s (ix2 r c) = addf A X (ix2 (rw_ r) c))
    (hw1 : ∀ c q, w1 (ix2 c q) = W1 (ix2 c q)) (hb1 : ∀ q, b1 (ix2 (0 : Fin 1) q) = B1 (ix2 (0 : Fin 1) q))
    (hw2 : ∀ c q, w2 (ix2 c q) = W2 (ix2 c q)) (hb2 : ∀ q, b2 (ix2 (0 : Fin 1) q) = B2 (ix2 (0 : Fin 1) q))
    (hsb1 : (⟨2, ![1, H]⟩ : Shape).ShapeCasts ⟨2, ![1, H]⟩) (hbc1 : (⟨2, ![1, H]⟩ : Shape).Broadcasts ⟨2, ![m, H]⟩)
    (hsb2 : (⟨2, ![1, N]⟩ : Shape).ShapeCasts ⟨2, ![1, N]⟩) (hbc2 : (⟨2, ![1, N]⟩ : Shape).Broadcasts ⟨2, ![m, N]⟩)
    (hlt : FTy.bf16.bits < FTy.f32.bits) (r : Fin m) (q : Fin N) :
    maximumf (addf (matmul (DotDims.plain m H N) none
          (truncf .bf16 (maximumf (addf (matmul (DotDims.plain m K H) none
                (truncf .bf16 s hlt) (truncf .bf16 w1 hlt)
                (constant (F := Ideal) ⟨2, ![m, H]⟩ .f32 0x00000000#32))
              (broadcastTo ⟨2, ![m, H]⟩ (shapeCast ⟨2, ![1, H]⟩ b1 hsb1) hbc1))
            (broadcast ⟨2, ![m, H]⟩ (Scalar.ofBits (F := Ideal) .f32 0x00000000#32))) hlt)
          (truncf .bf16 w2 hlt) (constant (F := Ideal) ⟨2, ![m, N]⟩ .f32 0x00000000#32))
        (broadcastTo ⟨2, ![m, N]⟩ (shapeCast ⟨2, ![1, N]⟩ b2 hsb2) hbc2))
      (broadcast ⟨2, ![m, N]⟩ (Scalar.ofBits (F := Ideal) .f32 0x00000000#32)) (ix2 r q)
      = mlp A X W1 B1 W2 B2 (ix2 (rw_ r) q) :=
  denseRelu_rows' rw_ _ W2 B2 _ (truncf .bf16 w2 hlt) b2
    (fun r c => (truncf_apply _ hlt (ix2 r c)).trans
      (denseRelu_rows' rw_ (addf A X) W1 B1 _ (truncf .bf16 w1 hlt) b1
        (fun r c => (truncf_apply s hlt (ix2 r c)).trans (hs r c))
        (fun c q => (truncf_apply w1 hlt (ix2 c q)).trans (hw1 c q)) hb1 hsb1 hbc1 r c))
    (fun c q => (truncf_apply w2 hlt (ix2 c q)).trans (hw2 c q)) hb2 hsb2 hbc2 r q

/-! ## The body's values at an entry -/

/-- The dense block: entry (a, q) of what the body stores to the block of the first output is entry (n·5000 + a, q) of
    the two-stage function of the whole arrays, when the body's operands are the block's rows of the features and of
    the aggregate and the whole weights and bias rows. -/
theorem pay4_rows (n : ℕ) (hn : n < 10)
    (H AG : FVec Ideal ⟨2, ![50000, 64]⟩ .f32) (W1 : FVec Ideal ⟨2, ![64, 64]⟩ .f32) (B1 : FVec Ideal ⟨2, ![1, 64]⟩ .f32)
    (W2 : FVec Ideal ⟨2, ![64, 64]⟩ .f32) (B2 : FVec Ideal ⟨2, ![1, 64]⟩ .f32)
    (x0 x1 : Vec Ideal S5000x64 .f32) (x2 : Vec Ideal S64x64 .f32) (x3 : Vec Ideal S1x64 .f32)
    (x4 : Vec Ideal S64x64 .f32) (x5 : Vec Ideal S1x64 .f32)
    (h0 : ∀ (a : Fin 5000) (k : Fin 64), x0 (ix2 a k) = H (ix2 (row n hn a) k))
    (h1 : ∀ (a : Fin 5000) (k : Fin 64), x1 (ix2 a k) = AG (ix2 (row n hn a) k))
    (h2 : ∀ (k : Fin 64) (q : Fin 64), x2 (ix2 k q) = W1 (ix2 k q))
    (h3 : ∀ q : Fin 64, x3 (ix2 (0 : Fin 1) q) = B1 (ix2 (0 : Fin 1) q))
    (h4 : ∀ (k : Fin 64) (q : Fin 64), x4 (ix2 k q) = W2 (ix2 k q))
    (h5 : ∀ q : Fin 64, x5 (ix2 (0 : Fin 1) q) = B2 (ix2 (0 : Fin 1) q))
    (a : Fin 5000) (q : Fin 64) :
    k4_pay4 x0 x1 x2 x3 x4 x5 (ix2 a q) = mlp H AG W1 B1 W2 B2 (ix2 (row n hn a) q) := by
  have hs : ∀ (r : Fin 5000) (c : Fin 64),
      (addf (shapeCast S5000x64 x0 shapeCasts_S5000x64_S5000x64) (shapeCast S5000x64 x1 shapeCasts_S5000x64_S5000x64) : FVec Ideal ⟨2, ![5000, 64]⟩ .f32) (ix2 r c)
        = addf H AG (ix2 (row n hn r) c) := fun r c => by
    rw [addf_apply, addf_apply, shapeCast_self, shapeCast_self, h0, h1]
  unfold k4_pay4
  exact mlp_rows' (row n hn) H AG W1 B1 W2 B2
    (addf (shapeCast S5000x64 x0 shapeCasts_S5000x64_S5000x64) (shapeCast S5000x64 x1 shapeCasts_S5000x64_S5000x64)) x2 x3 x4 x5 hs h2 h3 h4 h5
    shapeCasts_S1x64_S1x64 broadcasts_S1x64_S5000x64 shapeCasts_S1x64_S1x64 broadcasts_S1x64_S5000x64
    bitsLt_bf16_f32 a q

/-- The first running row after the body: what it held, plus the block's column sum. -/
theorem pay5_apply (x0 x1 : Vec Ideal S5000x64 .f32) (x2 : Vec Ideal S64x64 .f32) (x3 : Vec Ideal S1x64 .f32)
    (x4 : Vec Ideal S64x64 .f32) (x5 : Vec Ideal S1x64 .f32) (v : Vec Ideal S1x64 .f32) (u : Fin 1) (q : Fin 64) :
    k4_pay5 x0 x1 x2 x3 x4 x5 v (ix2 u q)
      = v (ix2 u q) + ∑ a : Fin 5000, k4_pay4 x0 x1 x2 x3 x4 x5 (ix2 a q) := by
  unfold k4_pay5
  exact congrArg₂ (· + ·) (congrFun (shapeCast_self v _) (ix2 u q))
    ((shapeCast_a_1a_apply _ _ u q).trans (multiReduction_add_col _ _ _ _ _ q))

/-- The second running row after the body: what it held, plus the block's column sum of squares. -/
theorem pay1_apply (y : FVec Ideal S5000x64 .f32) (v : Vec Ideal S1x64 .f32) (u : Fin 1) (q : Fin 64) :
    k4_pay1 y v (ix2 u q) = v (ix2 u q) + ∑ a : Fin 5000, y (ix2 a q) * y (ix2 a q) := by
  unfold k4_pay1
  exact congrArg₂ (· + ·) (congrFun (shapeCast_self v _) (ix2 u q))
    ((shapeCast_a_1a_apply _ _ u q).trans (multiReduction_add_col _ _ _ _ _ q))

/-- The two rows the first point stores before anything else are zero rows. -/
theorem pay2_apply (j : S1x64.Idx) : k4_pay2 (F := Ideal) j = 0 := by
  unfold k4_pay2; exact Ideal.ofBits_zero_f32
theorem pay3_apply (j : S1x64.Idx) : k4_pay3 (F := Ideal) j = 0 := by
  unfold k4_pay3; exact Ideal.ofBits_zero_f32

/-! ## One point's step of the two running rows -/

/-- If the body's dense block is the block n of rows of U and the first running row held the column sums of U over the
    blocks before n, it holds them over the blocks up to n afterwards. -/
theorem step_s (n : ℕ) (hn : n < 10) (U : FVec Ideal ⟨2, ![50000, 64]⟩ .f32)
    (x0 x1 : Vec Ideal S5000x64 .f32) (x2 : Vec Ideal S64x64 .f32) (x3 : Vec Ideal S1x64 .f32)
    (x4 : Vec Ideal S64x64 .f32) (x5 : Vec Ideal S1x64 .f32) (v : Vec Ideal S1x64 .f32) (q : Fin 64)
    (hp : ∀ a : Fin 5000, k4_pay4 x0 x1 x2 x3 x4 x5 (ix2 a q) = U (ix2 (row n hn a) q))
    (hv : v (ix2 (0 : Fin 1) q) = psum (fun r => U (ix2 r q)) n) :
    k4_pay5 x0 x1 x2 x3 x4 x5 v (ix2 (0 : Fin 1) q) = psum (fun r => U (ix2 r q)) (n + 1) := by
  rw [pay5_apply, hv, psum_succ _ n hn]
  exact congrArg (_ + ·) (Finset.sum_congr rfl fun a _ => hp a)

/-- The same for the second running row and the column sums of squares. -/
theorem step_ss (n : ℕ) (hn : n < 10) (U : FVec Ideal ⟨2, ![50000, 64]⟩ .f32)
    (y : FVec Ideal S5000x64 .f32) (v : Vec Ideal S1x64 .f32) (q : Fin 64)
    (hp : ∀ a : Fin 5000, y (ix2 a q) = U (ix2 (row n hn a) q))
    (hv : v (ix2 (0 : Fin 1) q) = psum (fun r => U (ix2 r q) * U (ix2 r q)) n) :
    k4_pay1 y v (ix2 (0 : Fin 1) q) = psum (fun r => U (ix2 r q) * U (ix2 r q)) (n + 1) := by
  rw [pay1_apply, hv, psum_succ _ n hn]
  exact congrArg (_ + ·) (Finset.sum_congr rfl fun a _ => by rw [hp a])

/-- An entry of a block of rows, read at the array's coordinates. -/
theorem rows_at (n : ℕ) (hn : n < 10) (U : FVec Ideal ⟨2, ![50000, 64]⟩ .f32) (Y : FVec Ideal S5000x64 .f32)
    (hY : ∀ (a : Fin 5000) (q : Fin 64), Y (ix2 a q) = U (ix2 (row n hn a) q))
    (j : S5000x64.Idx) (i : (⟨2, ![50000, 64]⟩ : Shape).Idx)
    (h0 : (i 0).val = n * 5000 + (j 0).val) (h1 : (i 1).val = (j 1).val) : Y j = U i := by
  obtain ⟨a, q, rfl⟩ : ∃ (a : Fin 5000) (q : Fin 64), j = ix2 a q := ⟨j 0, j 1, eq_ix2 j⟩
  obtain rfl : i = ix2 (row n hn a) q := by
    rw [eq_ix2 i]; exact congrArg₂ ix2 (Fin.ext h0) (Fin.ext h1)
  exact hY a q

end Cert.KernelIdeal.RegionR4

end
-- ==== Proof.RegionR4.lean ====
/-
  The value of the dense region that also keeps column statistics, for any contents of its arrays at its entry.

  The region runs its body at 10 points over blocks of 5000 rows. With h, g, W₁, B₁, W₂, B₂ the contents of its six input
  arrays, and U = max ((max ((h + g)·W₁ + B₁) 0)·W₂ + B₂) 0 the two-stage function of the whole arrays:

    the first output array ends holding U, each point writing back its block of rows;
    the second ends holding, in its one row, the column sums Σ_r U(r, q) over all 50000 rows;
    the third the column sums of squares Σ_r U(r, q)².

  The two rows live in one block whose index never moves: the body zeroes them at the first point, adds the block's
  column sums at every point, and the block is written back after the last point only. So after the point n they hold
  the sums over the rows of the blocks 0 … n (by induction on the point), and after the point 9 over all the rows.
-/
import proofs.«173864_j70188355551324_1_alg».proof.Proof.Gen.KernelIdeal.Frame
import proofs.«173864_j70188355551324_1_alg».proof.Proof.Spec
import proofs.«173864_j70188355551324_1_alg».proof.Proof.RegionR4Pay
import Idealize.ShloMosaic.Lib.Pipeline.Value
import Idealize.ShloMosaic.Lib.Tactic

noncomputable section

open scoped BigOperators

namespace Cert.KernelIdeal.RegionR4

open Idealize.ShloMosaic Idealize.ShloMosaic.TcCoe Idealize.ShloMosaic.ValueIdx Idealize.SL.Sem
open Idealize.ShloMosaic.Pipeline (Dat)
open Cert.KernelIdeal Cert.KernelIdeal.Gen Cert.LibMlpRows

/-! ## What each case of the body leaves in the three outputs' buffers -/

section Pieces

variable {F : FTy → Type} [FloatOps F]

theorem hz : (![0, 0] : Fin 2 → Nat) = fun _ => 0 := funext fun a => by fin_cases a <;> rfl

/-- At the first point the dense block is the one covering store's payload. -/
theorem out_A_6 (c : Dev nD) (i : grid4.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : cond4_0 i)
    (x0 x1 : Vec F S5000x64 .f32) (x2 : Vec F S64x64 .f32) (x3 : Vec F S1x64 .f32) (x4 : Vec F S64x64 .f32) (x5 : Vec F S1x64 .f32) :
    out4_A_6 c i a1 h1 a2 h2 a3 h3 a4 h4 a5 h5 a6 h6 a7 h7 a8 h8 a9 h9 hc x0 x1 x2 x3 x4 x5 = k4_pay4 x0 x1 x2 x3 x4 x5 := by
  unfold out4_A_6
  rw [View.read_writes_eq_canon _ _ _ (cover4_A_6 c i a1 h1 a2 h2 a3 h3 a4 h4 a5 h5 a6 h6 a7 h7 a8 h8 a9 h9 hc x0 x1 x2 x3 x4 x5)]
  unfold kernelRun4_A
  dsimp only
  rw [View.canon_unit_zero hz]
  simp only [View.readAt_eq_ld, h1.read_unread, h2.read_unread, h3.read_unread, h4.read_unread, h5.read_unread,
    h6.read_unread, h8.read_unread, h9.read_unread, View.ld_unit_zero (S := S5000x64) hz, View.ld_unit_zero (S := S64x64) hz,
    View.ld_unit_zero (S := S64x64) hz, View.ld_unit_zero (S := S1x64) hz, View.ld_unit_zero (S := S5000x64) hz]

/-- At the first point the first running row is stored as zeros, read back, and left with the block's column sums added. -/
theorem out_A_7 (c : Dev nD) (i : grid4.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : cond4_0 i)
    (x0 x1 : Vec F S5000x64 .f32) (x2 : Vec F S64x64 .f32) (x3 : Vec F S1x64 .f32) (x4 : Vec F S64x64 .f32) (x5 : Vec F S1x64 .f32) :
    out4_A_7 c i a1 h1 a2 h2 a3 h3 a4 h4 a5 h5 a6 h6 a7 h7 a8 h8 a9 h9 hc x0 x1 x2 x3 x4 x5 = k4_pay5 x0 x1 x2 x3 x4 x5 k4_pay2 := by
  unfold out4_A_7
  rw [View.read_writes_eq_canon _ _ _ (cover4_A_7 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    h6.read_unread, h8.read_unread, h9.read_unread, View.ld_unit_zero (S := S5000x64) hz, View.ld_unit_zero (S := S64x64) hz,
    View.ld_unit_zero (S := S64x64) hz, View.ld_unit_zero (S := S1x64) hz, View.ld_unit_zero (S := S5000x64) hz]

/-- At the first point the second running row likewise, with the column sums of squares. -/
theorem out_A_8 (c : Dev nD) (i : grid4.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : cond4_0 i)
    (x0 x1 : Vec F S5000x64 .f32) (x2 : Vec F S64x64 .f32) (x3 : Vec F S1x64 .f32) (x4 : Vec F S64x64 .f32) (x5 : Vec F S1x64 .f32) :
    out4_A_8 c i a1 h1 a2 h2 a3 h3 a4 h4 a5 h5 a6 h6 a7 h7 a8 h8 a9 h9 hc x0 x1 x2 x3 x4 x5 = k4_pay1 (k4_pay4 x0 x1 x2 x3 x4 x5) k4_pay3 := by
  unfold out4_A_8
  rw [View.read_writes_eq_canon _ _ _ (cover4_A_8 c i a1 h1 a2 h2 a3 h3 a4 h4 a5 h5 a6 h6 a7 h7 a8 h8 a9 h9 hc x0 x1 x2 x3 x4 x5)]
  unfold kernelRun4_A
  dsimp only
  sl_unfold_words
  rw [View.canon_cons_unit_zero (S := S1x64) hz, View.readCov_unit_zero (S := S1x64) _ hz]
  simp only [View.readAt_eq_ld, h1.read_unread, h2.read_unread, h3.read_unread, h4.read_unread, h5.read_unread,
    h6.read_unread, h8.read_unread, h9.read_unread, View.ld_unit_zero (S := S5000x64) hz, View.ld_unit_zero (S := S64x64) hz,
    View.ld_unit_zero (S := S64x64) hz, View.ld_unit_zero (S := S1x64) hz, View.ld_unit_zero (S := S5000x64) hz]

/-- At a later point the dense block is again the one covering store's payload. -/
theorem out_B_6 (c : Dev nD) (i : grid4.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : ¬cond4_0 i)
    (x0 x1 : Vec F S5000x64 .f32) (x2 : Vec F S64x64 .f32) (x3 : Vec F S1x64 .f32) (x4 : Vec F S64x64 .f32) (x5 : Vec F S1x64 .f32) (xo7 xo8 : Vec F S1x64 .f32) :
    out4_B_6 c i a1 h1 a2 h2 a3 h3 a4 h4 a5 h5 a6 h6 a7 h7 a8 h8 a9 h9 hc x0 x1 x2 x3 x4 x5 xo7 xo8 = k4_pay4 x0 x1 x2 x3 x4 x5 := by
  unfold out4_B_6
  rw [View.read_writes_eq_canon _ _ _ (cover4_B_6 c i a1 h1 a2 h2 a3 h3 a4 h4 a5 h5 a6 h6 a7 h7 a8 h8 a9 h9 hc x0 x1 x2 x3 x4 x5 xo7 xo8)]
  unfold kernelRun4_B
  dsimp only
  rw [View.canon_unit_zero hz]
  simp only [View.readAt_eq_ld, h1.read_unread, h2.read_unread, h3.read_unread, h4.read_unread, h5.read_unread,
    h6.read_unread, h8.read_unread, h9.read_unread, View.ld_unit_zero (S := S5000x64) hz, View.ld_unit_zero (S := S64x64) hz,
    View.ld_unit_zero (S := S64x64) hz, View.ld_unit_zero (S := S1x64) hz, View.ld_unit_zero (S := S5000x64) hz]

/-- At a later point the first running row is what it held with the block's column sums added. -/
theorem out_B_7 (c : Dev nD) (i : grid4.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : ¬cond4_0 i)
    (x0 x1 : Vec F S5000x64 .f32) (x2 : Vec F S64x64 .f32) (x3 : Vec F S1x64 .f32) (x4 : Vec F S64x64 .f32) (x5 : Vec F S1x64 .f32) (xo7 xo8 : Vec F S1x64 .f32) :
    out4_B_7 c i a1 h1 a2 h2 a3 h3 a4 h4 a5 h5 a6 h6 a7 h7 a8 h8 a9 h9 hc x0 x1 x2 x3 x4 x5 xo7 xo8 = k4_pay5 x0 x1 x2 x3 x4 x5 xo7 := by
  unfold out4_B_7
  rw [View.read_writes_eq_canon _ _ _ (cover4_B_7 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x64) hz, View.ld_unit_zero (S := S64x64) hz,
    View.ld_unit_zero (S := S64x64) hz, View.ld_unit_zero (S := S1x64) hz, View.ld_unit_zero (S := S5000x64) hz]

/-- At a later point the second running row is what it held with the block's column sums of squares added. -/
theorem out_B_8 (c : Dev nD) (i : grid4.Coords) (a1 : Memref sig .tc .vmem S5000x64 .f32) (h1 : a1.IsWhole) (a2 : Memref sig .tc .vmem S5000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S1x64 .f32) (h6 : a6.IsWhole) (a7 : Memref sig .tc .vmem S5000x64 .f32) (h7 : a7.IsWhole) (a8 : Memref sig .tc .vmem S1x64 .f32) (h8 : a8.IsWhole) (a9 : Memref sig .tc .vmem S1x64 .f32) (h9 : a9.IsWhole) (hc : ¬cond4_0 i)
    (x0 x1 : Vec F S5000x64 .f32) (x2 : Vec F S64x64 .f32) (x3 : Vec F S1x64 .f32) (x4 : Vec F S64x64 .f32) (x5 : Vec F S1x64 .f32) (xo7 xo8 : Vec F S1x64 .f32) :
    out4_B_8 c i a1 h1 a2 h2 a3 h3 a4 h4 a5 h5 a6 h6 a7 h7 a8 h8 a9 h9 hc x0 x1 x2 x3 x4 x5 xo7 xo8 = k4_pay1 (k4_pay4 x0 x1 x2 x3 x4 x5) xo8 := by
  unfold out4_B_8
  rw [View.read_writes_eq_canon _ _ _ (cover4_B_8 c i a1 h1 a2 h2 a3 h3 a4 h4 a5 h5 a6 h6 a7 h7 a8 h8 a9 h9 hc x0 x1 x2 x3 x4 x5 xo7 xo8)]
  unfold kernelRun4_B
  dsimp only
  sl_unfold_words
  rw [View.canon_unit_zero hz]
  simp only [View.readAt_eq_ld, h1.read_unread, h2.read_unread, h3.read_unread, h4.read_unread, h5.read_unread,
    h6.read_unread, h8.read_unread, h9.read_unread, View.ld_unit_zero (S := S5000x64) hz, View.ld_unit_zero (S := S64x64) hz,
    View.ld_unit_zero (S := S64x64) hz, View.ld_unit_zero (S := S1x64) hz, View.ld_unit_zero (S := S5000x64) hz]

end Pieces

/-! ## The windows' blocks, read at coordinates -/

/-- The printed index maps, decided over the grid: the two row-blocked inputs and the first output move down the rows
    with the point; every other window stays at block (0, 0). -/
theorem idx_facts : ∀ t : Fin cfg4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = 0 ∧ win4_4.index t (1 : Fin 2) = 0)
    ∧ (win4_5.index t (0 : Fin 2) = 0 ∧ win4_5.index t (1 : Fin 2) = 0)
    ∧ (win4_6.index t (0 : Fin 2) = t.val ∧ win4_6.index t (1 : Fin 2) = 0)
    ∧ (win4_7.index t (0 : Fin 2) = 0 ∧ win4_7.index t (1 : Fin 2) = 0)
    ∧ (win4_8.index t (0 : Fin 2) = 0 ∧ win4_8.index t (1 : Fin 2) = 0) :=
  (by decide +kernel : ∀ t : Fin grid4.N, _)

theorem lt_ten (t : Fin cfg4.N) : t.val < 10 := lt_of_lt_of_eq t.isLt (show cfg4.N = 10 from N_4)

variable (V : (c : Dev nD) → (b : Ref sig .tc) → Buf (Elt Ideal) ((c : Thread nD τ).loc b)) (c : Dev nD)

/-- The features' block at point t holds the rows t·5000 + a. -/
theorem iblk_0 (H : FVec Ideal ⟨2, ![50000, 64]⟩ .f32) (hH : V c (Pipeline.arrRef spec4 0) = H) (t : Fin cfg4.N)
    (a : Fin 5000) (k : Fin 64) :
    (iblk4 V c 0 t : Vec Ideal S5000x64 .f32) (ix2 a k) = H (ix2 (row t.val (lt_ten t) a) k) := by
  subst hH
  unfold iblk4
  rw [View.read_apply]
  refine congrArg (V c (Pipeline.arrRef spec4 0)) (funext fun d => Fin.ext ?_)
  obtain ⟨⟨e0, e1⟩, -⟩ := idx_facts t
  match d with
  | ⟨0, _⟩ => show win4_0.index t (0 : Fin 2) * 5000 + 1 * a.val = t.val * 5000 + a.val; rw [e0]; omega
  | ⟨1, _⟩ => show win4_0.index t (1 : Fin 2) * 64 + 1 * k.val = k.val; rw [e1]; omega

/-- The aggregate's block at point t holds the rows t·5000 + a. -/
theorem iblk_1 (AG : FVec Ideal ⟨2, ![50000, 64]⟩ .f32) (hAG : V c (Pipeline.arrRef spec4 1) = AG) (t : Fin cfg4.N)
    (a : Fin 5000) (k : Fin 64) :
    (iblk4 V c 1 t : Vec Ideal S5000x64 .f32) (ix2 a k) = AG (ix2 (row t.val (lt_ten t) a) k) := by
  subst hAG
  unfold iblk4
  rw [View.read_apply]
  refine congrArg (V c (Pipeline.arrRef spec4 1)) (funext fun d => Fin.ext ?_)
  obtain ⟨-, ⟨e0, e1⟩, -⟩ := idx_facts t
  match d with
  | ⟨0, _⟩ => show win4_1.index t (0 : Fin 2) * 5000 + 1 * a.val = t.val * 5000 + a.val; rw [e0]; omega
  | ⟨1, _⟩ => show win4_1.index t (1 : Fin 2) * 64 + 1 * k.val = k.val; rw [e1]; omega

/-- The first weights' block is the whole array at every point. -/
theorem iblk_2 (W1 : FVec Ideal ⟨2, ![64, 64]⟩ .f32) (hW1 : V c (Pipeline.arrRef spec4 2) = W1) (t : Fin cfg4.N)
    (k : Fin 64) (q : Fin 64) :
    (iblk4 V c 2 t : Vec Ideal S64x64 .f32) (ix2 k q) = W1 (ix2 k q) := by
  subst hW1
  unfold iblk4
  rw [View.read_apply]
  refine congrArg (V c (Pipeline.arrRef spec4 2)) (funext fun d => Fin.ext ?_)
  obtain ⟨-, -, ⟨e0, e1⟩, -⟩ := idx_facts t
  match d with
  | ⟨0, _⟩ => show win4_2.index t (0 : Fin 2) * 64 + 1 * k.val = k.val; rw [e0]; omega
  | ⟨1, _⟩ => show win4_2.index t (1 : Fin 2) * 64 + 1 * q.val = q.val; rw [e1]; omega

/-- The first bias row's block is the whole row at every point. -/
theorem iblk_3 (B1 : FVec Ideal ⟨2, ![1, 64]⟩ .f32) (hB1 : V c (Pipeline.arrRef spec4 3) = B1) (t : Fin cfg4.N)
    (q : Fin 64) :
    (iblk4 V c 3 t : Vec Ideal S1x64 .f32) (ix2 (0 : Fin 1) q) = B1 (ix2 (0 : Fin 1) q) := by
  subst hB1
  unfold iblk4
  rw [View.read_apply]
  refine congrArg (V c (Pipeline.arrRef spec4 3)) (funext fun d => Fin.ext ?_)
  obtain ⟨-, -, -, ⟨e0, e1⟩, -⟩ := idx_facts t
  match d with
  | ⟨0, _⟩ => show win4_3.index t (0 : Fin 2) * 1 + 1 * 0 = 0; rw [e0]
  | ⟨1, _⟩ => show win4_3.index t (1 : Fin 2) * 64 + 1 * q.val = q.val; rw [e1]; omega

/-- The second weights' block is the whole array at every point. -/
theorem iblk_4 (W2 : FVec Ideal ⟨2, ![64, 64]⟩ .f32) (hW2 : V c (Pipeline.arrRef spec4 4) = W2) (t : Fin cfg4.N)
    (k : Fin 64) (q : Fin 64) :
    (iblk4 V c 4 t : Vec Ideal S64x64 .f32) (ix2 k q) = W2 (ix2 k q) := by
  subst hW2
  unfold iblk4
  rw [View.read_apply]
  refine congrArg (V c (Pipeline.arrRef spec4 4)) (funext fun d => Fin.ext ?_)
  obtain ⟨-, -, -, -, ⟨e0, e1⟩, -⟩ := idx_facts t
  match d with
  | ⟨0, _⟩ => show win4_4.index t (0 : Fin 2) * 64 + 1 * k.val = k.val; rw [e0]; omega
  | ⟨1, _⟩ => show win4_4.index t (1 : Fin 2) * 64 + 1 * q.val = q.val; rw [e1]; omega

/-- The second bias row's block is the whole row at every point. -/
theorem iblk_5 (B2 : FVec Ideal ⟨2, ![1, 64]⟩ .f32) (hB2 : V c (Pipeline.arrRef spec4 5) = B2) (t : Fin cfg4.N)
    (q : Fin 64) :
    (iblk4 V c 5 t : Vec Ideal S1x64 .f32) (ix2 (0 : Fin 1) q) = B2 (ix2 (0 : Fin 1) q) := by
  subst hB2
  unfold iblk4
  rw [View.read_apply]
  refine congrArg (V c (Pipeline.arrRef spec4 5)) (funext fun d => Fin.ext ?_)
  obtain ⟨-, -, -, -, -, ⟨e0, e1⟩, -⟩ := idx_facts t
  match d with
  | ⟨0, _⟩ => show win4_5.index t (0 : Fin 2) * 1 + 1 * 0 = 0; rw [e0]
  | ⟨1, _⟩ => show win4_5.index t (1 : Fin 2) * 64 + 1 * q.val = q.val; rw [e1]; omega

/-! ## The dense block at a point -/

/-- At every point the body's dense block is that point's block of rows of the two-stage function. -/
theorem pay4_at (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec4 0) = H) (hAG : V c (Pipeline.arrRef spec4 1) = AG)
    (hW1 : V c (Pipeline.arrRef spec4 2) = W1) (hB1 : V c (Pipeline.arrRef spec4 3) = B1)
    (hW2 : V c (Pipeline.arrRef spec4 4) = W2) (hB2 : V c (Pipeline.arrRef spec4 5) = B2) (t : Fin cfg4.N) (a : Fin 5000) (q : Fin 64) :
    k4_pay4 (iblk4 V c 0 t) (iblk4 V c 1 t) (iblk4 V c 2 t) (iblk4 V c 3 t) (iblk4 V c 4 t) (iblk4 V c 5 t) (ix2 a q)
      = mlp H AG W1 B1 W2 B2 (ix2 (row t.val (lt_ten t) a) q) :=
  pay4_rows t.val (lt_ten t) H AG W1 B1 W2 B2 (iblk4 V c 0 t) (iblk4 V c 1 t) (iblk4 V c 2 t) (iblk4 V c 3 t) (iblk4 V c 4 t) (iblk4 V c 5 t)
    (iblk_0 V c H hH t) (iblk_1 V c AG hAG t) (iblk_2 V c W1 hW1 t) (iblk_3 V c B1 hB1 t) (iblk_4 V c W2 hW2 t)
    (iblk_5 V c B2 hB2 t) a q

/-! ## What the outputs' buffers hold after each point -/

/-- After the point n the first output's buffer holds the block n of rows of U, and the two running rows hold the
    column sums of U, and of its squares, over the rows of the blocks 0 … n. By induction on the point. -/
theorem outsAt_inv (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec4 0) = H) (hAG : V c (Pipeline.arrRef spec4 1) = AG)
    (hW1 : V c (Pipeline.arrRef spec4 2) = W1) (hB1 : V c (Pipeline.arrRef spec4 3) = B1)
    (hW2 : V c (Pipeline.arrRef spec4 4) = W2) (hB2 : V c (Pipeline.arrRef spec4 5) = B2) :
    ∀ (n : ℕ) (h : n < cfg4.N) (hn : n < 10),
      (∀ (a : Fin 5000) (q : Fin 64), (outsAt4 V c n h).1 (ix2 a q) = mlp H AG W1 B1 W2 B2 (ix2 (row n hn a) q))
      ∧ (∀ q : Fin 64, (outsAt4 V c n h).2.1 (ix2 (0 : Fin 1) q) = psum (fun r => mlp H AG W1 B1 W2 B2 (ix2 r q)) (n + 1))
      ∧ (∀ q : Fin 64, (outsAt4 V c n h).2.2 (ix2 (0 : Fin 1) q)
          = psum (fun r => mlp H AG W1 B1 W2 B2 (ix2 r q) * mlp H AG W1 B1 W2 B2 (ix2 r q)) (n + 1))
  | 0, h, hn => by
    have hp := pay4_at V c H AG W1 B1 W2 B2 hH hAG hW1 hB1 hW2 hB2 ⟨0, h⟩
    rw [outsAt4_A V c ⟨0, h⟩ rfl]
    dsimp only
    rw [out_A_6, out_A_7, out_A_8]
    refine ⟨hp, fun q => ?_, fun q => ?_⟩
    · exact step_s 0 hn _ _ _ _ _ _ _ _ q (fun a => hp a q) ((pay2_apply _).trans (psum_zero _).symm)
    · exact step_ss 0 hn _ _ _ q (fun a => hp a q) ((pay3_apply _).trans (psum_zero _).symm)
  | n + 1, h, hn => by
    have hB : ¬(⟨n + 1, h⟩ : Fin cfg4.N).val % 10 = 0 := by dsimp only; omega
    have hp := pay4_at V c H AG W1 B1 W2 B2 hH hAG hW1 hB1 hW2 hB2 ⟨n + 1, h⟩
    obtain ⟨-, ih7, ih8⟩ := outsAt_inv H AG W1 B1 W2 B2 hH hAG hW1 hB1 hW2 hB2 n (Nat.lt_of_succ_lt h) (Nat.lt_of_succ_lt hn)
    rw [outsAt4_B V c ⟨n + 1, h⟩ hB]
    dsimp only
    rw [out_B_6, out_B_7, out_B_8]
    refine ⟨hp, fun q => ?_, fun q => ?_⟩
    · exact step_s (n + 1) hn _ _ _ _ _ _ _ _ q (fun a => hp a q) (ih7 q)
    · exact step_ss (n + 1) hn _ _ _ q (fun a => hp a q) (ih8 q)

/-! ## The first output: every point writes back its block of rows -/

/-- What the point t writes back to the first output is the block t of rows of U. -/
theorem flushed6_eq (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec4 0) = H) (hAG : V c (Pipeline.arrRef spec4 1) = AG)
    (hW1 : V c (Pipeline.arrRef spec4 2) = W1) (hB1 : V c (Pipeline.arrRef spec4 3) = B1)
    (hW2 : V c (Pipeline.arrRef spec4 4) = W2) (hB2 : V c (Pipeline.arrRef spec4 5) = B2) (t : Fin cfg4.N) :
    (dat4 V c).flushed 6 t = ((cfg4.win 6).blk t).view.read (Elt Ideal) (mlp H AG W1 B1 W2 B2) := by
  show (cfg4.win 6).cut (grid4.coords t) ((dat4 V c).after 6 t) = _
  rw [after4_6]
  funext j
  rw [View.read_apply]
  obtain ⟨-, -, -, -, -, -, ⟨e0, e1⟩, -⟩ := idx_facts t
  exact rows_at t.val (lt_ten t) _ _ (outsAt_inv V c H AG W1 B1 W2 B2 hH hAG hW1 hB1 hW2 hB2 t.val t.isLt (lt_ten t)).1 _ _
    (show win4_6.index t (0 : Fin 2) * 5000 + 1 * (j 0).val = t.val * 5000 + (j 0).val by rw [e0]; omega)
    (show win4_6.index t (1 : Fin 2) * 64 + 1 * (j 1).val = (j 1).val by rw [e1]; omega)

/-- An index of the first output's array is in the point t's block iff each coordinate is in the block's range. -/
theorem mem_blk6 (t : Fin cfg4.N) (i : (⟨2, ![50000, 64]⟩ : Shape).Idx) :
    i ∈ ((cfg4.win 6).blk t).view.set ↔ ∀ a : Fin 2, win4_6.index t a * S5000x64.size a ≤ (i a).val
      ∧ (i a).val < win4_6.index t a * S5000x64.size a + S5000x64.size a := by
  show i ∈ ((View.whole main_v62_0).slice (win4_6.rect t)).set ↔ _
  rw [View.set_slice_whole, Rect.mem_set_unit]
  exact Iff.rfl

/-- The first output's array ends holding U: row r is written back by the point r / 5000. -/
theorem final6 (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec4 0) = H) (hAG : V c (Pipeline.arrRef spec4 1) = AG)
    (hW1 : V c (Pipeline.arrRef spec4 2) = W1) (hB1 : V c (Pipeline.arrRef spec4 3) = B1)
    (hW2 : V c (Pipeline.arrRef spec4 4) = W2) (hB2 : V c (Pipeline.arrRef spec4 5) = B2) : (dat4 V c).arrAt 6 cfg4.N = mlp H AG W1 B1 W2 B2 :=
  (dat4 V c).arrAt_eq_of_cover 6 (mlp H AG W1 B1 W2 B2) (fun t _ => flushed6_eq V c H AG W1 B1 W2 B2 hH hAG hW1 hB1 hW2 hB2 t) fun i => by
    have hi0 : (i 0).val < 50000 := (i 0).isLt
    have hi1 : (i 1).val < 64 := (i 1).isLt
    have hN : cfg4.N = 10 := N_4
    refine ⟨⟨(i 0).val / 5000, by rw [hN]; omega⟩, flush4_6 _, ?_⟩
    rw [mem_blk6]
    obtain ⟨-, -, -, -, -, -, ⟨e0, e1⟩, -⟩ := idx_facts (⟨(i 0).val / 5000, by rw [hN]; omega⟩ : Fin cfg4.N)
    intro a
    match a with
    | ⟨0, _⟩ =>
      show win4_6.index _ (0 : Fin 2) * 5000 ≤ (i 0).val ∧ (i 0).val < win4_6.index _ (0 : Fin 2) * 5000 + 5000
      rw [e0]; dsimp only; omega
    | ⟨1, _⟩ =>
      show win4_6.index _ (1 : Fin 2) * 64 ≤ (i 1).val ∧ (i 1).val < win4_6.index _ (1 : Fin 2) * 64 + 64
      rw [e1]; omega

/-! ## The two running rows: written back after the last point -/

/-- A row read at the array's coordinates. -/
theorem row_at (Y G : FVec Ideal ⟨2, ![1, 64]⟩ .f32) (hY : ∀ q : Fin 64, Y (ix2 (0 : Fin 1) q) = G (ix2 (0 : Fin 1) q))
    (j i : (⟨2, ![1, 64]⟩ : Shape).Idx) (h1 : (i 1).val = (j 1).val) : Y j = G i := by
  obtain ⟨u, q, rfl⟩ : ∃ (u : Fin 1) (q : Fin 64), j = ix2 u q := ⟨j 0, j 1, eq_ix2 j⟩
  obtain rfl : i = ix2 u q := by
    have hi0 : (i 0).val < 1 := (i 0).isLt
    rw [eq_ix2 i]; exact congrArg₂ ix2 (Fin.ext (by have := u.isLt; omega)) (Fin.ext h1)
  obtain rfl : u = 0 := Fin.ext (by have := u.isLt; omega)
  exact hY q

/-- The column sums of U as a row. -/
def sumRow (U : FVec Ideal ⟨2, ![50000, 64]⟩ .f32) : FVec Ideal ⟨2, ![1, 64]⟩ .f32 := fun j => Cert.Gin.colSum U (j 1)

/-- The column sums of squares of U as a row. -/
def sumSqRow (U : FVec Ideal ⟨2, ![50000, 64]⟩ .f32) : FVec Ideal ⟨2, ![1, 64]⟩ .f32 := fun j => Cert.Gin.colSumSq U (j 1)

/-- After the last point the first running row holds the column sums over all rows, -/
theorem last7 (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec4 0) = H) (hAG : V c (Pipeline.arrRef spec4 1) = AG)
    (hW1 : V c (Pipeline.arrRef spec4 2) = W1) (hB1 : V c (Pipeline.arrRef spec4 3) = B1)
    (hW2 : V c (Pipeline.arrRef spec4 4) = W2) (hB2 : V c (Pipeline.arrRef spec4 5) = B2) (t : Fin cfg4.N) (h9 : t.val = 9) (q : Fin 64) :
    (outsAt4 V c t.val t.isLt).2.1 (ix2 (0 : Fin 1) q) = sumRow (mlp H AG W1 B1 W2 B2) (ix2 (0 : Fin 1) q) :=
  ((outsAt_inv V c H AG W1 B1 W2 B2 hH hAG hW1 hB1 hW2 hB2 t.val t.isLt (lt_ten t)).2.1 q).trans
    (by rw [show t.val + 1 = 10 by omega]; exact psum_ten _)

/-- and the second the column sums of squares. -/
theorem last8 (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec4 0) = H) (hAG : V c (Pipeline.arrRef spec4 1) = AG)
    (hW1 : V c (Pipeline.arrRef spec4 2) = W1) (hB1 : V c (Pipeline.arrRef spec4 3) = B1)
    (hW2 : V c (Pipeline.arrRef spec4 4) = W2) (hB2 : V c (Pipeline.arrRef spec4 5) = B2) (t : Fin cfg4.N) (h9 : t.val = 9) (q : Fin 64) :
    (outsAt4 V c t.val t.isLt).2.2 (ix2 (0 : Fin 1) q) = sumSqRow (mlp H AG W1 B1 W2 B2) (ix2 (0 : Fin 1) q) :=
  ((outsAt_inv V c H AG W1 B1 W2 B2 hH hAG hW1 hB1 hW2 hB2 t.val t.isLt (lt_ten t)).2.2 q).trans
    (by rw [show t.val + 1 = 10 by omega]; exact psum_ten _)

/-- What a point writes back to the second output is its block of any row G that the first running row agrees with
    after that point (the block is the whole row). -/
theorem flushed7_gen (G : FVec Ideal ⟨2, ![1, 64]⟩ .f32) (t : Fin cfg4.N)
    (hG : ∀ q : Fin 64, (outsAt4 V c t.val t.isLt).2.1 (ix2 (0 : Fin 1) q) = G (ix2 (0 : Fin 1) q)) :
    (dat4 V c).flushed 7 t = ((cfg4.win 7).blk t).view.read (Elt Ideal) G := by
  show (cfg4.win 7).cut (grid4.coords t) ((dat4 V c).after 7 t) = _
  rw [after4_7]
  funext j
  rw [View.read_apply]
  obtain ⟨-, -, -, -, -, -, -, ⟨e0, e1⟩, -⟩ := idx_facts t
  exact row_at (outsAt4 V c t.val t.isLt).2.1 G hG _ _
    (show win4_7.index t (1 : Fin 2) * 64 + 1 * (j 1).val = (j 1).val by rw [e1]; omega)

/-- What a point writes back to the third output is its block of any row G that the second running row agrees with
    after that point (the block is the whole row). -/
theorem flushed8_gen (G : FVec Ideal ⟨2, ![1, 64]⟩ .f32) (t : Fin cfg4.N)
    (hG : ∀ q : Fin 64, (outsAt4 V c t.val t.isLt).2.2 (ix2 (0 : Fin 1) q) = G (ix2 (0 : Fin 1) q)) :
    (dat4 V c).flushed 8 t = ((cfg4.win 8).blk t).view.read (Elt Ideal) G := by
  show (cfg4.win 8).cut (grid4.coords t) ((dat4 V c).after 8 t) = _
  rw [after4_8]
  funext j
  rw [View.read_apply]
  obtain ⟨-, -, -, -, -, -, -, -, ⟨e0, e1⟩⟩ := idx_facts t
  exact row_at (outsAt4 V c t.val t.isLt).2.2 G hG _ _
    (show win4_8.index t (1 : Fin 2) * 64 + 1 * (j 1).val = (j 1).val by rw [e1]; omega)

/-- The second and third outputs are written back after the point 9 only. -/
theorem flush7_nine (t : Fin cfg4.N) (hf : (cfg4.win 7).flush t = true) : t.val = 9 := by
  have := (flush4_7 t).mp hf; have := lt_ten t; omega
theorem flush8_nine (t : Fin cfg4.N) (hf : (cfg4.win 8).flush t = true) : t.val = 9 := by
  have := (flush4_8 t).mp hf; have := lt_ten t; omega

/-- The point 9's block of a one-row output is the whole row. -/
theorem mem_blk7 (t : Fin cfg4.N) (i : (⟨2, ![1, 64]⟩ : Shape).Idx) : i ∈ ((cfg4.win 7).blk t).view.set := by
  show i ∈ ((View.whole main_v62_1).slice (win4_7.rect t)).set
  rw [View.set_slice_whole, Rect.mem_set_unit]
  have hi0 : (i 0).val < 1 := (i 0).isLt
  have hi1 : (i 1).val < 64 := (i 1).isLt
  obtain ⟨-, -, -, -, -, -, -, ⟨e0, e1⟩, -⟩ := idx_facts t
  intro a
  match a with
  | ⟨0, _⟩ =>
    show win4_7.index t (0 : Fin 2) * 1 ≤ (i 0).val ∧ (i 0).val < win4_7.index t (0 : Fin 2) * 1 + 1
    rw [e0]; omega
  | ⟨1, _⟩ =>
    show win4_7.index t (1 : Fin 2) * 64 ≤ (i 1).val ∧ (i 1).val < win4_7.index t (1 : Fin 2) * 64 + 64
    rw [e1]; omega

theorem mem_blk8 (t : Fin cfg4.N) (i : (⟨2, ![1, 64]⟩ : Shape).Idx) : i ∈ ((cfg4.win 8).blk t).view.set := by
  show i ∈ ((View.whole main_v62_2).slice (win4_8.rect t)).set
  rw [View.set_slice_whole, Rect.mem_set_unit]
  have hi0 : (i 0).val < 1 := (i 0).isLt
  have hi1 : (i 1).val < 64 := (i 1).isLt
  obtain ⟨-, -, -, -, -, -, -, -, ⟨e0, e1⟩⟩ := idx_facts t
  intro a
  match a with
  | ⟨0, _⟩ =>
    show win4_8.index t (0 : Fin 2) * 1 ≤ (i 0).val ∧ (i 0).val < win4_8.index t (0 : Fin 2) * 1 + 1
    rw [e0]; omega
  | ⟨1, _⟩ =>
    show win4_8.index t (1 : Fin 2) * 64 ≤ (i 1).val ∧ (i 1).val < win4_8.index t (1 : Fin 2) * 64 + 64
    rw [e1]; omega

/-- The second output's array ends holding the row of column sums. -/
theorem final7 (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec4 0) = H) (hAG : V c (Pipeline.arrRef spec4 1) = AG)
    (hW1 : V c (Pipeline.arrRef spec4 2) = W1) (hB1 : V c (Pipeline.arrRef spec4 3) = B1)
    (hW2 : V c (Pipeline.arrRef spec4 4) = W2) (hB2 : V c (Pipeline.arrRef spec4 5) = B2) : (dat4 V c).arrAt 7 cfg4.N = sumRow (mlp H AG W1 B1 W2 B2) :=
  (dat4 V c).arrAt_eq_of_cover 7 (sumRow (mlp H AG W1 B1 W2 B2)) (fun t hf => flushed7_gen V c _ t (last7 V c H AG W1 B1 W2 B2 hH hAG hW1 hB1 hW2 hB2 t (flush7_nine t hf))) fun i =>
    ⟨t4_9, (flush4_7 t4_9).mpr rfl, mem_blk7 t4_9 i⟩

/-- The third output's array ends holding the row of column sums of squares. -/
theorem final8 (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec4 0) = H) (hAG : V c (Pipeline.arrRef spec4 1) = AG)
    (hW1 : V c (Pipeline.arrRef spec4 2) = W1) (hB1 : V c (Pipeline.arrRef spec4 3) = B1)
    (hW2 : V c (Pipeline.arrRef spec4 4) = W2) (hB2 : V c (Pipeline.arrRef spec4 5) = B2) : (dat4 V c).arrAt 8 cfg4.N = sumSqRow (mlp H AG W1 B1 W2 B2) :=
  (dat4 V c).arrAt_eq_of_cover 8 (sumSqRow (mlp H AG W1 B1 W2 B2)) (fun t hf => flushed8_gen V c _ t (last8 V c H AG W1 B1 W2 B2 hH hAG hW1 hB1 hW2 hB2 t (flush8_nine t hf))) fun i =>
    ⟨t4_9, (flush4_8 t4_9).mpr rfl, mem_blk8 t4_9 i⟩

/-! ## The region's value -/

/-- The first output is the two-stage function of the input arrays, entry by entry. -/
theorem r4_u (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec4 0) = H) (hAG : V c (Pipeline.arrRef spec4 1) = AG)
    (hW1 : V c (Pipeline.arrRef spec4 2) = W1) (hB1 : V c (Pipeline.arrRef spec4 3) = B1)
    (hW2 : V c (Pipeline.arrRef spec4 4) = W2) (hB2 : V c (Pipeline.arrRef spec4 5) = B2)
    (r : Fin 50000) (q : Fin 64) :
    (Gen.dat4 V c).arrAt 6 cfg4.N (ix2 r q) = mlp H AG W1 B1 W2 B2 (ix2 r q) :=
  congrFun (final6 V c H AG W1 B1 W2 B2 hH hAG hW1 hB1 hW2 hB2) (ix2 r q)

/-- The second output is its column sums. -/
theorem r4_s (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec4 0) = H) (hAG : V c (Pipeline.arrRef spec4 1) = AG)
    (hW1 : V c (Pipeline.arrRef spec4 2) = W1) (hB1 : V c (Pipeline.arrRef spec4 3) = B1)
    (hW2 : V c (Pipeline.arrRef spec4 4) = W2) (hB2 : V c (Pipeline.arrRef spec4 5) = B2)
    (q : Fin 64) :
    (Gen.dat4 V c).arrAt 7 cfg4.N (ix2 (0 : Fin 1) q) = Cert.Gin.colSum (mlp H AG W1 B1 W2 B2) q :=
  congrFun (final7 V c H AG W1 B1 W2 B2 hH hAG hW1 hB1 hW2 hB2) (ix2 (0 : Fin 1) q)

/-- The third output is its column sums of squares. -/
theorem r4_ss (H AG : FVec Ideal ⟨2, ![50000, 64]⟩ .f32) (W1 : FVec Ideal ⟨2, ![64, 64]⟩ .f32)
    (B1 : FVec Ideal ⟨2, ![1, 64]⟩ .f32) (W2 : FVec Ideal ⟨2, ![64, 64]⟩ .f32) (B2 : FVec Ideal ⟨2, ![1, 64]⟩ .f32)
    (hH : V c (Pipeline.arrRef spec4 0) = H) (hAG : V c (Pipeline.arrRef spec4 1) = AG)
    (hW1 : V c (Pipeline.arrRef spec4 2) = W1) (hB1 : V c (Pipeline.arrRef spec4 3) = B1)
    (hW2 : V c (Pipeline.arrRef spec4 4) = W2) (hB2 : V c (Pipeline.arrRef spec4 5) = B2)
    (q : Fin 64) :
    (Gen.dat4 V c).arrAt 8 cfg4.N (ix2 (0 : Fin 1) q) = Cert.Gin.colSumSq (mlp H AG W1 B1 W2 B2) q :=
  congrFun (final8 V c H AG W1 B1 W2 B2 hH hAG hW1 hB1 hW2 hB2) (ix2 (0 : Fin 1) q)

end Cert.KernelIdeal.RegionR4

end
-- ==== Proof.RegionA1.lean ====
/-
  The value of a normalising region of the tiled program, whatever its arrays hold when it is entered.

  The region runs over ten blocks of 5000 rows of a [50000,64] array u. At each block the body reads the block of u
  and four [1,64] rows (mean, variance, scale γ, shift β), the same four at every block, and stores

      max ((u − mean) · rsqrt (variance + ε) · γ + β) 0

  with each row broadcast down the block's 5000 rows. Every entry of the result depends on its own entry of u and on
  its column of the four rows only, so what a block writes back is that block of one function of the five arrays,
  and the ten blocks tile the array: after the region the output array holds that function at every index.
-/
import proofs.«173864_j70188355551324_1_alg».proof.Proof.Gen.KernelIdeal.Frame
import proofs.«173864_j70188355551324_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionA1

open Cert.KernelIdeal Cert.KernelIdeal.Gen

variable (V : (c : Dev nD) → (b : Ref sig .tc) → Buf (Elt Ideal) ((c : Thread nD τ).loc b))

/-! ## One entry of what the body stores -/

/-- The body's stored value at row a, column q of a block: the entry normalised by the rows' column q. -/
theorem pay_apply (vr : Vec Ideal S1x64 .f32) (u : Vec Ideal S5000x64 .f32) (mn g b : Vec Ideal S1x64 .f32)
    (a : Fin 5000) (q : Fin 64) :
    k1_pay1 (F := Ideal) vr u mn g b (ix2 a q)
      = Cert.Gin.bnRelu (u (ix2 a q)) (mn (ix2 (0 : Fin 1) q)) (vr (ix2 (0 : Fin 1) q)) (g (ix2 (0 : Fin 1) q)) (b (ix2 (0 : Fin 1) q)) := by
  unfold k1_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  simp only [Ideal.ofBits_def, Ideal.ofBits_zero_f32]
  rfl

/-! ## The whole array's function -/

/-- Every entry of the first array normalised by its column of the four rows. -/
abbrev normAll (U : S50000x64.Idx → Elt Ideal .f32) (Mn Vr Gm Bt : S1x64.Idx → Elt Ideal .f32) : S50000x64.Idx → Elt Ideal .f32 :=
  fun i => Cert.Gin.bnRelu (U i) (Mn (ix2 (0 : Fin 1) ⟨(i 1).val, (i 1).isLt⟩)) (Vr (ix2 (0 : Fin 1) ⟨(i 1).val, (i 1).isLt⟩))
    (Gm (ix2 (0 : Fin 1) ⟨(i 1).val, (i 1).isLt⟩)) (Bt (ix2 (0 : Fin 1) ⟨(i 1).val, (i 1).isLt⟩))

theorem normAll_ix2 (U : S50000x64.Idx → Elt Ideal .f32) (Mn Vr Gm Bt : S1x64.Idx → Elt Ideal .f32) (r : Fin 50000) (q : Fin 64) :
    normAll U Mn Vr Gm Bt (ix2 r q)
      = Cert.Gin.bnRelu (U (ix2 r q)) (Mn (ix2 (0 : Fin 1) q)) (Vr (ix2 (0 : Fin 1) q)) (Gm (ix2 (0 : Fin 1) q)) (Bt (ix2 (0 : Fin 1) q)) := rfl

/-- What the body stores from a block of rows of the first array (the rows from row `o` on) and the four rows is that
    block of rows of `normAll`. -/
theorem pay_rows (U : S50000x64.Idx → Elt Ideal .f32) (Mn Vr Gm Bt : S1x64.Idx → Elt Ideal .f32)
    (x0 : Vec Ideal S5000x64 .f32) (x1 x2 x3 x4 : Vec Ideal S1x64 .f32) (o : Nat)
    (h0 : ∀ (y : S5000x64.Idx) (k : S50000x64.Idx), (k 0).val = o + (y 0).val → (k 1).val = (y 1).val → x0 y = U k)
    (h1 : ∀ y : S1x64.Idx, x1 y = Mn y) (h2 : ∀ y : S1x64.Idx, x2 y = Vr y)
    (h3 : ∀ y : S1x64.Idx, x3 y = Gm y) (h4 : ∀ y : S1x64.Idx, x4 y = Bt y)
    (j : S5000x64.Idx) (i : S50000x64.Idx) (hi0 : (i 0).val = o + (j 0).val) (hi1 : (i 1).val = (j 1).val) :
    k1_pay1 (F := Ideal) x2 x0 x1 x3 x4 j = normAll U Mn Vr Gm Bt i := by
  obtain ⟨a, q, rfl⟩ : ∃ (a : Fin 5000) (q : Fin 64), j = ix2 a q := ⟨j 0, j 1, eq_ix2 j⟩
  obtain ⟨r, q', rfl⟩ : ∃ (r : Fin 50000) (q' : Fin 64), i = ix2 r q' := ⟨i 0, i 1, eq_ix2 i⟩
  obtain rfl : q' = q := Fin.ext hi1
  rw [pay_apply, normAll_ix2, h0 (ix2 a q') (ix2 r q') hi0 rfl, h1, h2, h3, h4]

/-! ## The windows' blocks as parts of their arrays -/

theorem hz : (![0, 0] : Fin 2 → Nat) = fun _ => 0 := funext fun a => by fin_cases a <;> rfl

/-- The printed index maps over the grid: the block of the first array and of the output at point t is block t down
    the rows; the four rows' block never moves. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The first window's block at point t is rows 5000·t … 5000·t + 4999 of its array. -/
theorem iblk0_apply (c : Dev nD) (t : Fin cfg1.N) (y : S5000x64.Idx) (k : S50000x64.Idx)
    (hk0 : (k 0).val = t.val * 5000 + (y 0).val) (hk1 : (k 1).val = (y 1).val) :
    (iblk1 V c 0 t : Vec Ideal S5000x64 .f32) y = (V c (Pipeline.arrRef spec1 0) : S50000x64.Idx → Elt Ideal .f32) k := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t 0 * 5000 + 1 * (y 0).val = (k 0).val; rw [e0, hk0]; omega
  | ⟨1, _⟩ => show win1_0.index t 1 * 64 + 1 * (y 1).val = (k 1).val; rw [e1, hk1]; omega

/-- Each of the four rows' blocks is the row's whole array, at every point. -/
theorem iblk1_apply (c : Dev nD) (t : Fin cfg1.N) (y : S1x64.Idx) :
    (iblk1 V c 1 t : Vec Ideal S1x64 .f32) y = (V c (Pipeline.arrRef spec1 1) : S1x64.Idx → Elt Ideal .f32) y := by
  have e := idx_facts t
  unfold iblk1
  rw [View.read_apply]
  show V c (Pipeline.arrRef spec1 1) _ = V c (Pipeline.arrRef spec1 1) _
  congr 1
  funext a
  apply Fin.ext
  match a with
  | ⟨0, _⟩ => show win1_1.index t 0 * 1 + 1 * (y 0).val = (y 0).val; rw [e.2.2.1]; omega
  | ⟨1, _⟩ => show win1_1.index t 1 * 64 + 1 * (y 1).val = (y 1).val; rw [e.2.2.2.1]; omega

theorem iblk2_apply (c : Dev nD) (t : Fin cfg1.N) (y : S1x64.Idx) :
    (iblk1 V c 2 t : Vec Ideal S1x64 .f32) y = (V c (Pipeline.arrRef spec1 2) : S1x64.Idx → Elt Ideal .f32) y := by
  have e := idx_facts t
  unfold iblk1
  rw [View.read_apply]
  show V c (Pipeline.arrRef spec1 2) _ = V c (Pipeline.arrRef spec1 2) _
  congr 1
  funext a
  apply Fin.ext
  match a with
  | ⟨0, _⟩ => show win1_2.index t 0 * 1 + 1 * (y 0).val = (y 0).val; rw [e.2.2.2.2.1]; omega
  | ⟨1, _⟩ => show win1_2.index t 1 * 64 + 1 * (y 1).val = (y 1).val; rw [e.2.2.2.2.2.1]; omega

theorem iblk3_apply (c : Dev nD) (t : Fin cfg1.N) (y : S1x64.Idx) :
    (iblk1 V c 3 t : Vec Ideal S1x64 .f32) y = (V c (Pipeline.arrRef spec1 3) : S1x64.Idx → Elt Ideal .f32) y := by
  have e := idx_facts t
  unfold iblk1
  rw [View.read_apply]
  show V c (Pipeline.arrRef spec1 3) _ = V c (Pipeline.arrRef spec1 3) _
  congr 1
  funext a
  apply Fin.ext
  match a with
  | ⟨0, _⟩ => show win1_3.index t 0 * 1 + 1 * (y 0).val = (y 0).val; rw [e.2.2.2.2.2.2.1]; omega
  | ⟨1, _⟩ => show win1_3.index t 1 * 64 + 1 * (y 1).val = (y 1).val; rw [e.2.2.2.2.2.2.2.1]; omega

theorem iblk4_apply (c : Dev nD) (t : Fin cfg1.N) (y : S1x64.Idx) :
    (iblk1 V c 4 t : Vec Ideal S1x64 .f32) y = (V c (Pipeline.arrRef spec1 4) : S1x64.Idx → Elt Ideal .f32) y := by
  have e := idx_facts t
  unfold iblk1
  rw [View.read_apply]
  show V c (Pipeline.arrRef spec1 4) _ = V c (Pipeline.arrRef spec1 4) _
  congr 1
  funext a
  apply Fin.ext
  match a with
  | ⟨0, _⟩ => show win1_4.index t 0 * 1 + 1 * (y 0).val = (y 0).val; rw [e.2.2.2.2.2.2.2.2.1]; omega
  | ⟨1, _⟩ => show win1_4.index t 1 * 64 + 1 * (y 1).val = (y 1).val; rw [e.2.2.2.2.2.2.2.2.2.1]; omega

/-! ## What a point writes back, the cover, the array after the region -/

/-- What the body leaves in the output's buffer at point t: its stored value, of the five blocks. -/
theorem after_eq (c : Dev nD) (t : Fin cfg1.N) :
    (dat1 V c).after 5 t
      = k1_pay1 (F := Ideal) (iblk1 V c 2 t) (iblk1 V c 0 t) (iblk1 V c 1 t) (iblk1 V c 3 t) (iblk1 V c 4 t) := by
  rw [after1_5]
  unfold out1_5
  rw [View.canon_unit_zero hz]
  simp only [View.ld_unit_zero (S := S5000x64) hz, View.ld_unit_zero (S := S1x64) hz]

/-- Where an entry of the output's block at point t sits in the array: 5000·t rows down, same column. -/
theorem emb_out (t : Fin cfg1.N) (j : ((cfg1.win 5).xblock (grid1.coords t)).Idx) :
    (((((cfg1.win 5).blk t).view.emb j : S50000x64.Idx) 0).val = t.val * 5000 + (j 0).val)
      ∧ (((((cfg1.win 5).blk t).view.emb j : S50000x64.Idx) 1).val = (j 1).val) := by
  obtain ⟨-, -, -, -, -, -, -, -, -, -, e0, e1⟩ := idx_facts t
  constructor
  · show win1_5.index t 0 * 5000 + 1 * (j 0).val = t.val * 5000 + (j 0).val; rw [e0]; omega
  · show win1_5.index t 1 * 64 + 1 * (j 1).val = (j 1).val; rw [e1]; omega

/-- What point t writes back is block t of `normAll` of the five arrays as the region finds them. -/
theorem flushed_eq (c : Dev nD) (t : Fin cfg1.N) :
    (dat1 V c).flushed 5 t = ((cfg1.win 5).blk t).view.read (Elt Ideal)
      (normAll (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after_eq]
  funext j
  rw [View.read_apply]
  exact pay_rows _ _ _ _ _ (iblk1 V c 0 t) (iblk1 V c 1 t) (iblk1 V c 2 t) (iblk1 V c 3 t) (iblk1 V c 4 t) (t.val * 5000)
    (iblk0_apply V c t) (iblk1_apply V c t) (iblk2_apply V c t) (iblk3_apply V c t) (iblk4_apply V c t) _ _
    (emb_out t j).1 (emb_out t j).2

/-- An index of the output array is in point t's block iff each coordinate is in the block's range on its axis. -/
theorem mem_blk (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v25).slice (win1_5.rect t)).set ↔ _
  rw [View.set_slice_whole, Rect.mem_set_unit]
  exact Iff.rfl

/-- The ten blocks tile the output array: row r is in block r / 5000. -/
theorem cover (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : cfg1.N = 10 := N_1
  let t : Fin cfg1.N := ⟨(i 0).val / 5000, by rw [hN]; omega⟩
  have ht : t.val = (i 0).val / 5000 := rfl
  obtain ⟨-, -, -, -, -, -, -, -, -, -, e0, e1⟩ := idx_facts t
  refine ⟨t, flush1_5 t, ?_⟩
  rw [mem_blk]
  intro a
  match a with
  | ⟨0, _⟩ => show win1_5.index t 0 * 5000 ≤ (i 0).val ∧ (i 0).val < win1_5.index t 0 * 5000 + 5000; rw [e0, ht]; omega
  | ⟨1, _⟩ => show win1_5.index t 1 * 64 ≤ (i 1).val ∧ (i 1).val < win1_5.index t 1 * 64 + 64; rw [e1]; omega

/-- The output array after the region is `normAll` of the five arrays as the region found them. -/
theorem final (c : Dev nD) :
    (dat1 V c).arrAt 5 cfg1.N
      = normAll (V c (Pipeline.arrRef spec1 0)) (V c (Pipeline.arrRef spec1 1)) (V c (Pipeline.arrRef spec1 2))
          (V c (Pipeline.arrRef spec1 3)) (V c (Pipeline.arrRef spec1 4)) :=
  (dat1 V c).arrAt_eq_of_cover 5 _ (fun t _ => flushed_eq V c t) cover

/-- After the region the output array holds, at row r and column q, the entry of the first array normalised by
    column q of the four rows, all five as the region found them. -/
theorem a1_out (c : Dev nD) (r : Fin 50000) (q : Fin 64) :
    (Gen.dat1 V c).arrAt 5 cfg1.N (ix2 r q)
      = Cert.Gin.bnRelu (V c (Pipeline.arrRef spec1 0) (ix2 r q)) (V c (Pipeline.arrRef spec1 1) (ix2 (0 : Fin 1) q))
          (V c (Pipeline.arrRef spec1 2) (ix2 (0 : Fin 1) q)) (V c (Pipeline.arrRef spec1 3) (ix2 (0 : Fin 1) q))
          (V c (Pipeline.arrRef spec1 4) (ix2 (0 : Fin 1) q)) := by
  rw [final]

end Cert.KernelIdeal.RegionA1

end
-- ==== Proof.RegionA3.lean ====
/-
  The value of a normalising region of the tiled program, whatever its arrays hold when it is entered.

  The region runs over ten blocks of 5000 rows of a [50000,64] array u. At each block the body reads the block of u
  and four [1,64] rows (mean, variance, scale γ, shift β), the same four at every block, and stores

      max ((u − mean) · rsqrt (variance + ε) · γ + β) 0

  with each row broadcast down the block's 5000 rows. Every entry of the result depends on its own entry of u and on
  its column of the four rows only, so what a block writes back is that block of one function of the five arrays,
  and the ten blocks tile the array: after the region the output array holds that function at every index.
-/
import proofs.«173864_j70188355551324_1_alg».proof.Proof.Gen.KernelIdeal.Frame
import proofs.«173864_j70188355551324_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionA3

open Cert.KernelIdeal Cert.KernelIdeal.Gen

variable (V : (c : Dev nD) → (b : Ref sig .tc) → Buf (Elt Ideal) ((c : Thread nD τ).loc b))

/-! ## One entry of what the body stores -/

/-- The body's stored value at row a, column q of a block: the entry normalised by the rows' column q. -/
theorem pay_apply (vr : Vec Ideal S1x64 .f32) (u : Vec Ideal S5000x64 .f32) (mn g b : Vec Ideal S1x64 .f32)
    (a : Fin 5000) (q : Fin 64) :
    k3_pay1 (F := Ideal) vr u mn g b (ix2 a q)
      = Cert.Gin.bnRelu (u (ix2 a q)) (mn (ix2 (0 : Fin 1) q)) (vr (ix2 (0 : Fin 1) q)) (g (ix2 (0 : Fin 1) q)) (b (ix2 (0 : Fin 1) q)) := by
  unfold k3_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  simp only [Ideal.ofBits_def, Ideal.ofBits_zero_f32]
  rfl

/-! ## The whole array's function -/

/-- Every entry of the first array normalised by its column of the four rows. -/
abbrev normAll (U : S50000x64.Idx → Elt Ideal .f32) (Mn Vr Gm Bt : S1x64.Idx → Elt Ideal .f32) : S50000x64.Idx → Elt Ideal .f32 :=
  fun i => Cert.Gin.bnRelu (U i) (Mn (ix2 (0 : Fin 1) ⟨(i 1).val, (i 1).isLt⟩)) (Vr (ix2 (0 : Fin 1) ⟨(i 1).val, (i 1).isLt⟩))
    (Gm (ix2 (0 : Fin 1) ⟨(i 1).val, (i 1).isLt⟩)) (Bt (ix2 (0 : Fin 1) ⟨(i 1).val, (i 1).isLt⟩))

theorem normAll_ix2 (U : S50000x64.Idx → Elt Ideal .f32) (Mn Vr Gm Bt : S1x64.Idx → Elt Ideal .f32) (r : Fin 50000) (q : Fin 64) :
    normAll U Mn Vr Gm Bt (ix2 r q)
      = Cert.Gin.bnRelu (U (ix2 r q)) (Mn (ix2 (0 : Fin 1) q)) (Vr (ix2 (0 : Fin 1) q)) (Gm (ix2 (0 : Fin 1) q)) (Bt (ix2 (0 : Fin 1) q)) := rfl

/-- What the body stores from a block of rows of the first array (the rows from row `o` on) and the four rows is that
    block of rows of `normAll`. -/
theorem pay_rows (U : S50000x64.Idx → Elt Ideal .f32) (Mn Vr Gm Bt : S1x64.Idx → Elt Ideal .f32)
    (x0 : Vec Ideal S5000x64 .f32) (x1 x2 x3 x4 : Vec Ideal S1x64 .f32) (o : Nat)
    (h0 : ∀ (y : S5000x64.Idx) (k : S50000x64.Idx), (k 0).val = o + (y 0).val → (k 1).val = (y 1).val → x0 y = U k)
    (h1 : ∀ y : S1x64.Idx, x1 y = Mn y) (h2 : ∀ y : S1x64.Idx, x2 y = Vr y)
    (h3 : ∀ y : S1x64.Idx, x3 y = Gm y) (h4 : ∀ y : S1x64.Idx, x4 y = Bt y)
    (j : S5000x64.Idx) (i : S50000x64.Idx) (hi0 : (i 0).val = o + (j 0).val) (hi1 : (i 1).val = (j 1).val) :
    k3_pay1 (F := Ideal) x2 x0 x1 x3 x4 j = normAll U Mn Vr Gm Bt i := by
  obtain ⟨a, q, rfl⟩ : ∃ (a : Fin 5000) (q : Fin 64), j = ix2 a q := ⟨j 0, j 1, eq_ix2 j⟩
  obtain ⟨r, q', rfl⟩ : ∃ (r : Fin 50000) (q' : Fin 64), i = ix2 r q' := ⟨i 0, i 1, eq_ix2 i⟩
  obtain rfl : q' = q := Fin.ext hi1
  rw [pay_apply, normAll_ix2, h0 (ix2 a q') (ix2 r q') hi0 rfl, h1, h2, h3, h4]

/-! ## The windows' blocks as parts of their arrays -/

theorem hz : (![0, 0] : Fin 2 → Nat) = fun _ => 0 := funext fun a => by fin_cases a <;> rfl

/-- The printed index maps over the grid: the block of the first array and of the output at point t is block t down
    the rows; the four rows' block never moves. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The first window's block at point t is rows 5000·t … 5000·t + 4999 of its array. -/
theorem iblk0_apply (c : Dev nD) (t : Fin cfg3.N) (y : S5000x64.Idx) (k : S50000x64.Idx)
    (hk0 : (k 0).val = t.val * 5000 + (y 0).val) (hk1 : (k 1).val = (y 1).val) :
    (iblk3 V c 0 t : Vec Ideal S5000x64 .f32) y = (V c (Pipeline.arrRef spec3 0) : S50000x64.Idx → Elt Ideal .f32) k := by
  obtain ⟨e0, e1, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t 0 * 5000 + 1 * (y 0).val = (k 0).val; rw [e0, hk0]; omega
  | ⟨1, _⟩ => show win3_0.index t 1 * 64 + 1 * (y 1).val = (k 1).val; rw [e1, hk1]; omega

/-- Each of the four rows' blocks is the row's whole array, at every point. -/
theorem iblk1_apply (c : Dev nD) (t : Fin cfg3.N) (y : S1x64.Idx) :
    (iblk3 V c 1 t : Vec Ideal S1x64 .f32) y = (V c (Pipeline.arrRef spec3 1) : S1x64.Idx → Elt Ideal .f32) y := by
  have e := idx_facts t
  unfold iblk3
  rw [View.read_apply]
  show V c (Pipeline.arrRef spec3 1) _ = V c (Pipeline.arrRef spec3 1) _
  congr 1
  funext a
  apply Fin.ext
  match a with
  | ⟨0, _⟩ => show win3_1.index t 0 * 1 + 1 * (y 0).val = (y 0).val; rw [e.2.2.1]; omega
  | ⟨1, _⟩ => show win3_1.index t 1 * 64 + 1 * (y 1).val = (y 1).val; rw [e.2.2.2.1]; omega

theorem iblk2_apply (c : Dev nD) (t : Fin cfg3.N) (y : S1x64.Idx) :
    (iblk3 V c 2 t : Vec Ideal S1x64 .f32) y = (V c (Pipeline.arrRef spec3 2) : S1x64.Idx → Elt Ideal .f32) y := by
  have e := idx_facts t
  unfold iblk3
  rw [View.read_apply]
  show V c (Pipeline.arrRef spec3 2) _ = V c (Pipeline.arrRef spec3 2) _
  congr 1
  funext a
  apply Fin.ext
  match a with
  | ⟨0, _⟩ => show win3_2.index t 0 * 1 + 1 * (y 0).val = (y 0).val; rw [e.2.2.2.2.1]; omega
  | ⟨1, _⟩ => show win3_2.index t 1 * 64 + 1 * (y 1).val = (y 1).val; rw [e.2.2.2.2.2.1]; omega

theorem iblk3_apply (c : Dev nD) (t : Fin cfg3.N) (y : S1x64.Idx) :
    (iblk3 V c 3 t : Vec Ideal S1x64 .f32) y = (V c (Pipeline.arrRef spec3 3) : S1x64.Idx → Elt Ideal .f32) y := by
  have e := idx_facts t
  unfold iblk3
  rw [View.read_apply]
  show V c (Pipeline.arrRef spec3 3) _ = V c (Pipeline.arrRef spec3 3) _
  congr 1
  funext a
  apply Fin.ext
  match a with
  | ⟨0, _⟩ => show win3_3.index t 0 * 1 + 1 * (y 0).val = (y 0).val; rw [e.2.2.2.2.2.2.1]; omega
  | ⟨1, _⟩ => show win3_3.index t 1 * 64 + 1 * (y 1).val = (y 1).val; rw [e.2.2.2.2.2.2.2.1]; omega

theorem iblk4_apply (c : Dev nD) (t : Fin cfg3.N) (y : S1x64.Idx) :
    (iblk3 V c 4 t : Vec Ideal S1x64 .f32) y = (V c (Pipeline.arrRef spec3 4) : S1x64.Idx → Elt Ideal .f32) y := by
  have e := idx_facts t
  unfold iblk3
  rw [View.read_apply]
  show V c (Pipeline.arrRef spec3 4) _ = V c (Pipeline.arrRef spec3 4) _
  congr 1
  funext a
  apply Fin.ext
  match a with
  | ⟨0, _⟩ => show win3_4.index t 0 * 1 + 1 * (y 0).val = (y 0).val; rw [e.2.2.2.2.2.2.2.2.1]; omega
  | ⟨1, _⟩ => show win3_4.index t 1 * 64 + 1 * (y 1).val = (y 1).val; rw [e.2.2.2.2.2.2.2.2.2.1]; omega

/-! ## What a point writes back, the cover, the array after the region -/

/-- What the body leaves in the output's buffer at point t: its stored value, of the five blocks. -/
theorem after_eq (c : Dev nD) (t : Fin cfg3.N) :
    (dat3 V c).after 5 t
      = k3_pay1 (F := Ideal) (iblk3 V c 2 t) (iblk3 V c 0 t) (iblk3 V c 1 t) (iblk3 V c 3 t) (iblk3 V c 4 t) := by
  rw [after3_5]
  unfold out3_5
  rw [View.canon_unit_zero hz]
  simp only [View.ld_unit_zero (S := S5000x64) hz, View.ld_unit_zero (S := S1x64) hz]

/-- Where an entry of the output's block at point t sits in the array: 5000·t rows down, same column. -/
theorem emb_out (t : Fin cfg3.N) (j : ((cfg3.win 5).xblock (grid3.coords t)).Idx) :
    (((((cfg3.win 5).blk t).view.emb j : S50000x64.Idx) 0).val = t.val * 5000 + (j 0).val)
      ∧ (((((cfg3.win 5).blk t).view.emb j : S50000x64.Idx) 1).val = (j 1).val) := by
  obtain ⟨-, -, -, -, -, -, -, -, -, -, e0, e1⟩ := idx_facts t
  constructor
  · show win3_5.index t 0 * 5000 + 1 * (j 0).val = t.val * 5000 + (j 0).val; rw [e0]; omega
  · show win3_5.index t 1 * 64 + 1 * (j 1).val = (j 1).val; rw [e1]; omega

/-- What point t writes back is block t of `normAll` of the five arrays as the region finds them. -/
theorem flushed_eq (c : Dev nD) (t : Fin cfg3.N) :
    (dat3 V c).flushed 5 t = ((cfg3.win 5).blk t).view.read (Elt Ideal)
      (normAll (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after_eq]
  funext j
  rw [View.read_apply]
  exact pay_rows _ _ _ _ _ (iblk3 V c 0 t) (iblk3 V c 1 t) (iblk3 V c 2 t) (iblk3 V c 3 t) (iblk3 V c 4 t) (t.val * 5000)
    (iblk0_apply V c t) (iblk1_apply V c t) (iblk2_apply V c t) (iblk3_apply V c t) (iblk4_apply V c t) _ _
    (emb_out t j).1 (emb_out t j).2

/-- An index of the output array is in point t's block iff each coordinate is in the block's range on its axis. -/
theorem mem_blk (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v47).slice (win3_5.rect t)).set ↔ _
  rw [View.set_slice_whole, Rect.mem_set_unit]
  exact Iff.rfl

/-- The ten blocks tile the output array: row r is in block r / 5000. -/
theorem cover (i : S50000x64.Idx) :
    ∃ t : Fin cfg3.N, (cfg3.win 5).flush t = true ∧ i ∈ ((cfg3.win 5).blk t).view.set := by
  have hi0 : (i 0).val < 50000 := (i 0).isLt
  have hi1 : (i 1).val < 64 := (i 1).isLt
  have hN : cfg3.N = 10 := N_3
  let t : Fin cfg3.N := ⟨(i 0).val / 5000, by rw [hN]; omega⟩
  have ht : t.val = (i 0).val / 5000 := rfl
  obtain ⟨-, -, -, -, -, -, -, -, -, -, e0, e1⟩ := idx_facts t
  refine ⟨t, flush3_5 t, ?_⟩
  rw [mem_blk]
  intro a
  match a with
  | ⟨0, _⟩ => show win3_5.index t 0 * 5000 ≤ (i 0).val ∧ (i 0).val < win3_5.index t 0 * 5000 + 5000; rw [e0, ht]; omega
  | ⟨1, _⟩ => show win3_5.index t 1 * 64 ≤ (i 1).val ∧ (i 1).val < win3_5.index t 1 * 64 + 64; rw [e1]; omega

/-- The output array after the region is `normAll` of the five arrays as the region found them. -/
theorem final (c : Dev nD) :
    (dat3 V c).arrAt 5 cfg3.N
      = normAll (V c (Pipeline.arrRef spec3 0)) (V c (Pipeline.arrRef spec3 1)) (V c (Pipeline.arrRef spec3 2))
          (V c (Pipeline.arrRef spec3 3)) (V c (Pipeline.arrRef spec3 4)) :=
  (dat3 V c).arrAt_eq_of_cover 5 _ (fun t _ => flushed_eq V c t) cover

/-- After the region the output array holds, at row r and column q, the entry of the first array normalised by
    column q of the four rows, all five as the region found them. -/
theorem a3_out (c : Dev nD) (r : Fin 50000) (q : Fin 64) :
    (Gen.dat3 V c).arrAt 5 cfg3.N (ix2 r q)
      = Cert.Gin.bnRelu (V c (Pipeline.arrRef spec3 0) (ix2 r q)) (V c (Pipeline.arrRef spec3 1) (ix2 (0 : Fin 1) q))
          (V c (Pipeline.arrRef spec3 2) (ix2 (0 : Fin 1) q)) (V c (Pipeline.arrRef spec3 3) (ix2 (0 : Fin 1) q))
          (V c (Pipeline.arrRef spec3 4) (ix2 (0 : Fin 1) q)) := by
  rw [final]

end Cert.KernelIdeal.RegionA3

end
-- ==== Proof.RegionA5.lean ====
/-
  The value of a normalising region of the tiled program, whatever its arrays hold when it is entered.

  The region runs over ten blocks of 5000 rows of a [50000,64] array u. At each block the body reads the block of u
  and four [1,64] rows (mean, variance, scale γ, shift β), the same four at every block, and stores

      max ((u − mean) · rsqrt (variance + ε) · γ + β) 0

  with each row broadcast down the block's 5000 rows. Every entry of the result depends on its own entry of u and on
  its column of the four rows only, so what a block writes back is that block of one function of the five arrays,
  and the ten blocks tile the array: after the region the output array holds that function at every index.
-/
import proofs.«173864_j70188355551324_1_alg».proof.Proof.Gen.KernelIdeal.Frame
import proofs.«173864_j70188355551324_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.RegionA5

open Cert.KernelIdeal Cert.KernelIdeal.Gen

variable (V : (c : Dev nD) → (b : Ref sig .tc) → Buf (Elt Ideal) ((c : Thread nD τ).loc b))

/-! ## One entry of what the body stores -/

/-- The body's stored value at row a, column q of a block: the entry normalised by the rows' column q. -/
theorem pay_apply (vr : Vec Ideal S1x64 .f32) (u : Vec Ideal S5000x64 .f32) (mn g b : Vec Ideal S1x64 .f32)
    (a : Fin 5000) (q : Fin 64) :
    k5_pay1 (F := Ideal) vr u mn g b (ix2 a q)
      = Cert.Gin.bnRelu (u (ix2 a q)) (mn (ix2 (0 : Fin 1) q)) (vr (ix2 (0 : Fin 1) q)) (g (ix2 (0 : Fin 1) q)) (b (ix2 (0 : Fin 1) q)) := by
  unfold k5_pay1
  simp only [shapeCast_self]
  rw [maximumf_apply, addf_apply, mulf_apply, mulf_apply, subf_apply, broadcast_apply,
    broadcastTo_1b_ab_apply, broadcastTo_1b_ab_apply, broadcastTo_1b_ab_apply, broadcastTo_1b_ab_apply]
  simp only [Ideal.ofBits_def, Ideal.ofBits_zero_f32]
  rfl

/-! ## The whole array's function -/

/-- Every entry of the first array normalised by its column of the four rows. -/
abbrev normAll (U : S50000x64.Idx → Elt Ideal .f32) (Mn Vr Gm Bt : S1x64.Idx → Elt Ideal .f32) : S50000x64.Idx → Elt Ideal .f32 :=
  fun i => Cert.Gin.bnRelu (U i) (Mn (ix2 (0 : Fin 1) ⟨(i 1).val, (i 1).isLt⟩)) (Vr (ix2 (0 : Fin 1) ⟨(i 1).val, (i 1).isLt⟩))
    (Gm (ix2 (0 : Fin 1) ⟨(i 1).val, (i 1).isLt⟩)) (Bt (ix2 (0 : Fin 1) ⟨(i 1).val, (i 1).isLt⟩))

theorem normAll_ix2 (U : S50000x64.Idx → Elt Ideal .f32) (Mn Vr Gm Bt : S1x64.Idx → Elt Ideal .f32) (r : Fin 50000) (q : Fin 64) :
    normAll U Mn Vr Gm Bt (ix2 r q)
      = Cert.Gin.bnRelu (U (ix2 r q)) (Mn (ix2 (0 : Fin 1) q)) (Vr (ix2 (0 : Fin 1) q)) (Gm (ix2 (0 : Fin 1) q)) (Bt (ix2 (0 : Fin 1) q)) := rfl

/-- What the body stores from a block of rows of the first array (the rows from row `o` on) and the four rows is that
    block of rows of `normAll`. -/
theorem pay_rows (U : S50000x64.Idx → Elt Ideal .f32) (Mn Vr Gm Bt : S1x64.Idx → Elt Ideal .f32)
    (x0 : Vec Ideal S5000x64 .f32) (x1 x2 x3 x4 : Vec Ideal S1x64 .f32) (o : Nat)
    (h0 : ∀ (y : S5000x64.Idx) (k : S50000x64.Idx), (k 0).val = o + (y 0).val → (k 1).val = (y 1).val → x0 y = U k)
    (h1 : ∀ y : S1x64.Idx, x1 y = Mn y) (h2 : ∀ y : S1x64.Idx, x2 y = Vr y)
    (h3 : ∀ y : S1x64.Idx, x3 y = Gm y) (h4 : ∀ y : S1x64.Idx, x4 y = Bt y)
    (j : S5000x64.Idx) (i : S50000x64.Idx) (hi0 : (i 0).val = o + (j 0).val) (hi1 : (i 1).val = (j 1).val) :
    k5_pay1 (F := Ideal) x2 x0 x1 x3 x4 j = normAll U Mn Vr Gm Bt i := by
  obtain ⟨a, q, rfl⟩ : ∃ (a : Fin 5000) (q : Fin 64), j = ix2 a q := ⟨j 0, j 1, eq_ix2 j⟩
  obtain ⟨r, q', rfl⟩ : ∃ (r : Fin 50000) (q' : Fin 64), i = ix2 r q' := ⟨i 0, i 1, eq_ix2 i⟩
  obtain rfl : q' = q := Fin.ext hi1
  rw [pay_apply, normAll_ix2, h0 (ix2 a q') (ix2 r q') hi0 rfl, h1, h2, h3, h4]

/-! ## The windows' blocks as parts of their arrays -/

theorem hz : (![0, 0] : Fin 2 → Nat) = fun _ => 0 := funext fun a => by fin_cases a <;> rfl

/-- The printed index maps over the grid: the block of the first array and of the output at point t is block t down
    the rows; the four rows' block never moves. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The first window's block at point t is rows 5000·t … 5000·t + 4999 of its array. -/
theorem iblk0_apply (c : Dev nD) (t : Fin cfg5.N) (y : S5000x64.Idx) (k : S50000x64.Idx)
    (hk0 : (k 0).val = t.val * 5000 + (y 0).val) (hk1 : (k 1).val = (y 1).val) :
    (iblk5 V c 0 t : Vec Ideal S5000x64 .f32) y = (V c (Pipeline.arrRef spec5 0) : S50000x64.Idx → Elt Ideal .f32) k := by
  obtain ⟨e0, e1, -⟩ := idx_facts t
  unfold iblk5
  rw [View.read_apply]
  show V c (Pipeline.arrRef spec5 0) _ = V c (Pipeline.arrRef spec5 0) _
  congr 1
  funext a
  apply Fin.ext
  match a with
  | ⟨0, _⟩ => show win5_0.index t 0 * 5000 + 1 * (y 0).val = (k 0).val; rw [e0, hk0]; omega
  | ⟨1, _⟩ => show win5_0.index t 1 * 64 + 1 * (y 1).val = (k 1).val; rw [e1, hk1]; omega

/-- Each of the four rows' blocks is the row's whole array, at every point. -/
theorem iblk1_apply (c : Dev nD) (t : Fin cfg5.N) (y : S1x64.Idx) :
    (iblk5 V c 1 t : Vec Ideal S1x64 .f32) y = (V c (Pipeline.arrRef spec5 1) : S1x64.Idx → Elt Ideal .f32) y := by
  have e := idx_facts t
  unfold iblk5
  rw [View.read_apply]
  show V c (Pipeline.arrRef spec5 1) _ = V c (Pipeline.arrRef spec5 1) _
  congr 1
  funext a
  apply Fin.ext
  match a with
  | ⟨0, _⟩ => show win5_1.index t 0 * 1 + 1 * (y 0).val = (y 0).val; rw [e.2.2.1]; omega
  | ⟨1, _⟩ => show win5_1.index t 1 * 64 + 1 * (y 1).val = (y 1).val; rw [e.2.2.2.1]; omega

theorem iblk2_apply (c : Dev nD) (t : Fin cfg5.N) (y : S1x64.Idx) :
    (iblk5 V c 2 t : Vec Ideal S1x64 .f32) y = (V c (Pipeline.arrRef spec5 2) : S1x64.Idx → Elt Ideal .f32) y := by
  have e := idx_facts t
  unfold iblk5
  rw [View.read_apply]
  show V c (Pipeline.arrRef spec5 2) _ = V c (Pipeline.arrRef spec5 2) _
  congr 1
  funext a
  apply Fin.ext
  match a with
  | ⟨0, _⟩ => show win5_2.index t 0 * 1 + 1 * (y 0).val = (y 0).val; rw [e.2.2.2.2.1]; omega
  | ⟨1, _⟩ => show win5_2.index t 1 * 64 + 1 * (y 1).val = (y 1).val; rw [e.2.2.2.2.2.1]; omega

theorem iblk3_apply (c : Dev nD) (t : Fin cfg5.N) (y : S1x64.Idx) :
    (iblk5 V c 3 t : Vec Ideal S1x64 .f32) y = (V c (Pipeline.arrRef spec5 3) : S1x64.Idx → Elt Ideal .f32) y := by
  have e := idx_facts t
  unfold iblk5
  rw [View.read_apply]
  show V c (Pipeline.arrRef spec5 3) _ = V c (Pipeline.arrRef spec5 3) _
  congr 1
  funext a
  apply Fin.ext
  match a with
  | ⟨0, _⟩ => show win5_3.index t 0 * 1 + 1 * (y 0).val = (y 0).val; rw [e.2.2.2.2.2.2.1]; omega
  | ⟨1, _⟩ => show win5_3.index t 1 * 64 + 1 * (y 1).val = (y 1).val; rw [e.2.2.2.2.2.2.2.1]; omega

theorem iblk4_apply (c : Dev nD) (t : Fin cfg5.N) (y : S1x64.Idx) :
    (iblk5 V c 4 t : Vec Ideal S1x64 .f32) y = (V c (Pipeline.arrRef spec5 4) : S1x64.Idx → Elt Ideal .f32) y := by
  have e := idx_facts t
  unfold iblk5
  rw [View.read_apply]
  show V c (Pipeline.arrRef spec5 4) _ = V c (Pipeline.arrRef spec5 4) _
  congr 1
  funext a
  apply Fin.ext
  match a with
  | ⟨0, _⟩ => show win5_4.index t 0 * 1 + 1 * (y 0).val = (y 0).val; rw [e.2.2.2.2.2.2.2.2.1]; omega
  | ⟨1, _⟩ => show win5_4.index t 1 * 64 + 1 * (y 1).val = (y 1).val; rw [e.2.2.2.2.2.2.2.2.2.1]; omega

/-! ## What a point writes back, the cover, the array after the region -/

/-- What the body leaves in the output's buffer at point t: its stored value, of the five blocks. -/
theorem after_eq (c : Dev nD) (t : Fin cfg5.N) :
    (dat5 V c).after 5 t
      = k5_pay1 (F := Ideal) (iblk5 V c 2 t) (iblk5 V c 0 t) (iblk5 V c 1 t) (iblk5 V c 3 t) (iblk5 V c 4 t) := by
  rw [after5_5]
  unfold out5_5
  rw [View.canon_unit_zero hz]
  simp only [View.ld_unit_zero (S := S5000x64) hz, View.ld_unit_zero (S := S1x64) hz]

/-- Where an entry of the output's block at point t sits in the array: 5000·t rows down, same column. -/
theorem emb_out (t : Fin cfg5.N) (j : ((cfg5.win 5).xblock (grid5.coords t)).Idx) :
    (((((cfg5.win 5).blk t).view.emb j : S50000x64.Idx) 0).val = t.val * 5000 + (j 0).val)
      ∧ (((((cfg5.win 5).blk t).view.emb j : S50000x64.Idx) 1).val = (j 1).val) := by
  obtain ⟨-, -, -, -, -, -, -, -, -, -, e0, e1⟩ := idx_facts t
  constructor
  · show win5_5.index t 0 * 5000 + 1 * (j 0).val = t.val * 5000 + (j 0).val; rw [e0]; omega
  · show win5_5.index t 1 * 64 + 1 * (j 1).val = (j 1).val; rw [e1]; omega

/-- What point t writes back is block t of `normAll` of the five arrays as the region finds them. -/
theorem flushed_eq (c : Dev nD) (t : Fin cfg5.N) :
    (dat5 V c).flushed 5 t = ((cfg5.win 5).blk t).view.read (Elt Ideal)
      (normAll (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after_eq]
  funext j
  rw [View.read_apply]
  exact pay_rows _ _ _ _ _ (iblk5 V c 0 t) (iblk5 V c 1 t) (iblk5 V c 2 t) (iblk5 V c 3 t) (iblk5 V c 4 t) (t.val * 5000)
    (iblk0_apply V c t) (iblk1_apply V c t) (iblk2_apply V c t) (iblk3_apply V c t) (iblk4_apply V c t) _ _
    (emb_out t j).1 (emb_out t j).2

/-- An index of the output array is in point t's block iff each coordinate is in the block's range on its axis. -/
theorem mem_blk (t : Fin cfg5.N) (i : S50000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v69).slice (win5_5.rect t)).set ↔ _
  rw [View.set_slice_whole, Rect.mem_set_unit]
  exact Iff.rfl

/-- The ten blocks tile the output array: row r is in block r / 5000. -/
theorem cover (i : S50000x64.Idx) :
    ∃ t : Fin cfg5.N, (cfg5.win 5).flush t = true ∧ i ∈ ((cfg5.win 5).blk t).view.set := by
  have hi0 : (i 0).val < 50000 := (i 0).isLt
  have hi1 : (i 1).val < 64 := (i 1).isLt
  have hN : cfg5.N = 10 := N_5
  let t : Fin cfg5.N := ⟨(i 0).val / 5000, by rw [hN]; omega⟩
  have ht : t.val = (i 0).val / 5000 := rfl
  obtain ⟨-, -, -, -, -, -, -, -, -, -, e0, e1⟩ := idx_facts t
  refine ⟨t, flush5_5 t, ?_⟩
  rw [mem_blk]
  intro a
  match a with
  | ⟨0, _⟩ => show win5_5.index t 0 * 5000 ≤ (i 0).val ∧ (i 0).val < win5_5.index t 0 * 5000 + 5000; rw [e0, ht]; omega
  | ⟨1, _⟩ => show win5_5.index t 1 * 64 ≤ (i 1).val ∧ (i 1).val < win5_5.index t 1 * 64 + 64; rw [e1]; omega

/-- The output array after the region is `normAll` of the five arrays as the region found them. -/
theorem final (c : Dev nD) :
    (dat5 V c).arrAt 5 cfg5.N
      = normAll (V c (Pipeline.arrRef spec5 0)) (V c (Pipeline.arrRef spec5 1)) (V c (Pipeline.arrRef spec5 2))
          (V c (Pipeline.arrRef spec5 3)) (V c (Pipeline.arrRef spec5 4)) :=
  (dat5 V c).arrAt_eq_of_cover 5 _ (fun t _ => flushed_eq V c t) cover

/-- After the region the output array holds, at row r and column q, the entry of the first array normalised by
    column q of the four rows, all five as the region found them. -/
theorem a5_out (c : Dev nD) (r : Fin 50000) (q : Fin 64) :
    (Gen.dat5 V c).arrAt 5 cfg5.N (ix2 r q)
      = Cert.Gin.bnRelu (V c (Pipeline.arrRef spec5 0) (ix2 r q)) (V c (Pipeline.arrRef spec5 1) (ix2 (0 : Fin 1) q))
          (V c (Pipeline.arrRef spec5 2) (ix2 (0 : Fin 1) q)) (V c (Pipeline.arrRef spec5 3) (ix2 (0 : Fin 1) q))
          (V c (Pipeline.arrRef spec5 4) (ix2 (0 : Fin 1) q)) := by
  rw [final]

end Cert.KernelIdeal.RegionA5

end
-- ==== Proof.LibFiniteInputs.lean ====
/-
  Finite inputs are real numbers.

  A certificate's usual precondition says of each float argument x that all(|x| < +∞). It prints as a reduction by
  "and", over every axis and from the constant 1, of the comparison of |x| with a broadcast of the word 0x7F800000. On
  the extended reals |x| is max x (-x), that word is ⊤, and the comparison is the linear order's: so when the reduction
  is 1 at its one index, every entry x has max x (-x) < ⊤, which excludes x = ⊤ directly and x = ⊥ through -⊥ = ⊤, and
  what is left is a real number. Generic in the argument's shape and in the axes of the reduction.
-/
import Idealize.ShloMosaic.Lib.ReduceAll
import Idealize.ShloMosaic.Lib.ValueIdx
import Idealize.ShloMosaic.Lib.IdealHost
import Idealize.ShloMosaic.PureOps.Ideal
import Idealize.ShloMosaic.PureOps.Ideal.Laws

noncomputable section

open Idealize.ShloMosaic Idealize.ShloMosaic.ValueIdx

namespace Cert.LibFiniteInputs

/-- The rank-0 shape has one index. -/
instance : Subsingleton (⟨0, ![]⟩ : Shape).Idx := ⟨fun a b => funext fun d => d.elim0⟩

/-- The word 0x7F800000 read as an f32 is +∞. -/
theorem ofBits_inf_f32 : Ideal.ofBits .f32 0x7F800000#32 = ⊤ := by simp [Ideal.ofBits, Ideal.ieee]

/-- An extended real whose absolute value max x (-x) is below ⊤ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- One argument's part of the precondition: if all(|x| < +∞), printed as the reduce by and over all axes of the
    comparison of |x| with the broadcast +∞ word, is 1 at the one index, every entry of x is a real number. -/
theorem real_of_all_finite {S : Shape} {axes : List (Fin S.rank)} (x : FVec Ideal S .f32)
    (hb : (⟨0, ![]⟩ : Shape).BroadcastsInDim S (![] : Fin 0 → Fin S.rank)) (hr : S.ReducesTo axes ⟨0, ![]⟩)
    (hu : 0 < (⟨0, ![]⟩ : Shape).numel)
    (h : Host.reduce IntOp.andi
          (cmpf .olt (Host.absf x) (broadcastInDim S ![] hb (constant (⟨0, ![]⟩ : Shape) .f32 0x7F800000#32)))
          (constantI (⟨0, ![]⟩ : Shape) 1 1#1) hr hu ix0 = 1#1) :
    ∀ i, ∃ r : ℝ, x i = (r : EReal) := by
  intro i
  have e := Host.reduce_andi_all _ _ hr hu ix0 h i
  have e' : Ideal.cmp .olt (max (x i) (-(x i))) ⊤ = 1#1 := by
    rw [← ofBits_inf_f32]; exact e
  refine real_of_abs_lt_top (x i) ?_
  simp only [Ideal.cmp] at e'
  by_contra hc
  simp [hc] at e'

end Cert.LibFiniteInputs

end
-- ==== Proof.PreReal.lean ====
/-
  The precondition read back: every float argument holds real numbers.

  The precondition is the conjunction, over the float arguments, of all(|x| < +∞), printed as a chain of bitwise ands of
  one-bit words, each the reduction by and of the comparison of |x| with the broadcast +∞ word. A bitwise and of one-bit
  words is 1 exactly when both are, so the chain gives each argument's own word; and an entry whose absolute value is
  below +∞ is neither infinity, hence a real number. The two integer arguments (the edge list and the graph
  assignment) carry no condition.
-/
import proofs.«173864_j70188355551324_1_alg».proof.Pre_finite_inputs
import proofs.«173864_j70188355551324_1_alg».proof.Proof.LibFiniteInputs
import proofs.«173864_j70188355551324_1_alg».proof.Proof.LibRealClosed
import Idealize.ShloMosaic.Lib.Affine

noncomputable section

namespace Cert.PreReal

open Idealize.ShloMosaic Cert.Pre_finite_inputs Cert.LibFiniteInputs Cert.LibRealClosed

variable [Facts]

/-- If the precondition's word is 1, every entry of every float argument is a real number. -/
theorem reals_of_pre (a0 : FVec Ideal S50000x128 .f32) (a1 : IVec S2x800000 32) (a2 : IVec S50000 32) (a3 : FVec Ideal S128x64 .f32) (a4 : FVec Ideal S64 .f32) (a5 : FVec Ideal S64x64 .f32) (a6 : FVec Ideal S64 .f32) (a7 : FVec Ideal S64 .f32) (a8 : FVec Ideal S64 .f32) (a9 : FVec Ideal S64x64 .f32) (a10 : FVec Ideal S64 .f32) (a11 : FVec Ideal S64x64 .f32) (a12 : FVec Ideal S64 .f32) (a13 : FVec Ideal S64 .f32) (a14 : FVec Ideal S64 .f32) (a15 : FVec Ideal S64x64 .f32) (a16 : FVec Ideal S64 .f32) (a17 : FVec Ideal S64x64 .f32) (a18 : FVec Ideal S64 .f32) (a19 : FVec Ideal S64 .f32) (a20 : FVec Ideal S64 .f32) (a21 : FVec Ideal S64x1 .f32) (a22 : FVec Ideal S1 .f32)
    (h : fn (F := Ideal) a0 a1 a2 a3 a4 a5 a6 a7 a8 a9 a10 a11 a12 a13 a14 a15 a16 a17 a18 a19 a20 a21 a22 = fun _ => 1#1) :
    AllReal a0 ∧ AllReal a3 ∧ AllReal a4 ∧ AllReal a5 ∧ AllReal a6 ∧ AllReal a7 ∧ AllReal a8 ∧ AllReal a9 ∧ AllReal a10 ∧ AllReal a11 ∧ AllReal a12 ∧ AllReal a13 ∧ AllReal a14 ∧ AllReal a15 ∧ AllReal a16 ∧ AllReal a17 ∧ AllReal a18 ∧ AllReal a19 ∧ AllReal a20 ∧ AllReal a21 ∧ AllReal a22 := by
  have h0 := congrFun h ValueIdx.ix0
  dsimp only [fn, fn_part1, fn_part2, fn_part3, fn_part4, fn_part5, fn_part6, andi] at h0
  simp only [IntOp.andi_eq_one] at h0
  obtain ⟨⟨⟨⟨⟨⟨⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩, h17⟩, h18⟩, h19⟩, h20⟩, h21⟩, h22⟩ := h0
  exact ⟨real_of_all_finite a0 _ _ _ h0,
    real_of_all_finite a3 _ _ _ h3,
    real_of_all_finite a4 _ _ _ h4,
    real_of_all_finite a5 _ _ _ h5,
    real_of_all_finite a6 _ _ _ h6,
    real_of_all_finite a7 _ _ _ h7,
    real_of_all_finite a8 _ _ _ h8,
    real_of_all_finite a9 _ _ _ h9,
    real_of_all_finite a10 _ _ _ h10,
    real_of_all_finite a11 _ _ _ h11,
    real_of_all_finite a12 _ _ _ h12,
    real_of_all_finite a13 _ _ _ h13,
    real_of_all_finite a14 _ _ _ h14,
    real_of_all_finite a15 _ _ _ h15,
    real_of_all_finite a16 _ _ _ h16,
    real_of_all_finite a17 _ _ _ h17,
    real_of_all_finite a18 _ _ _ h18,
    real_of_all_finite a19 _ _ _ h19,
    real_of_all_finite a20 _ _ _ h20,
    real_of_all_finite a21 _ _ _ h21,
    real_of_all_finite a22 _ _ _ h22⟩

end Cert.PreReal

end
-- ==== Proof.Bridge.lean ====
/-
  The tiled program's result is the reference's result, on real arguments.

  Layer by layer: the first region of a layer leaves the dense output u = max (max ((h + agg)·W₁ + b₁) 0 · W₂ + b₂) 0 in
  blocks of rows and the column sums of u and of u² in two rows; the host stretch after it makes the rows of means s/n and
  of variances ss/n − mean²; the second region leaves max ((u − mean)·rsqrt (var + ε)·γ + β) 0. The reference's layer is the
  same normalisation of the same u with the variance as the mean squared deviation. On a real u the two variances are
  one number (the variance law), so the layer's two outputs are equal and real, and the next layer starts from equal real
  inputs. After the third layer both programs apply the same pool and linear head.
-/
import proofs.«173864_j70188355551324_1_alg».proof.Proof.BridgeRef
import proofs.«173864_j70188355551324_1_alg».proof.Proof.BridgeX
import proofs.«173864_j70188355551324_1_alg».proof.Proof.KernelChain
import proofs.«173864_j70188355551324_1_alg».proof.Proof.KernelChainB
import proofs.«173864_j70188355551324_1_alg».proof.Proof.RegionR0
import proofs.«173864_j70188355551324_1_alg».proof.Proof.RegionR2
import proofs.«173864_j70188355551324_1_alg».proof.Proof.RegionR4
import proofs.«173864_j70188355551324_1_alg».proof.Proof.RegionA1
import proofs.«173864_j70188355551324_1_alg».proof.Proof.RegionA3
import proofs.«173864_j70188355551324_1_alg».proof.Proof.RegionA5
import proofs.«173864_j70188355551324_1_alg».proof.Proof.PreReal
import proofs.«173864_j70188355551324_1_alg».proof.Proof.Gen.Pre_finite_inputs
import proofs.«173864_j70188355551324_1_alg».proof.Proof.Gen.KernelIdeal.Frame
import proofs.«173864_j70188355551324_1_alg».proof.Proof.Gen.ReferenceIdeal

noncomputable section

open scoped BigOperators

namespace Cert.Bridge

open Idealize.ShloMosaic Idealize.ShloMosaic.TcCoe Idealize.ShloMosaic.ValueIdx Idealize.SL.Sem
open Cert.LibRealClosed Cert.LibRealHost Cert.Gin
open Cert.KernelIdeal Cert.KernelIdeal.Gen Cert.KernelIdeal.Chain
open Cert.ReferenceIdeal.RefTerm (refLayer128 refLayer64 refOut refTail refNorm refAgg128 refAgg64)

/-- A vector of 64 casts to one row. -/
theorem hc64 : (⟨1, ![64]⟩ : Shape).ShapeCasts ⟨2, ![1, 64]⟩ := Cert.KernelIdeal.Facts₀.shapeCasts_S64_S1x64

variable (m : (ℓ : Loc nD τ sig) → Buf (Elt Ideal) ℓ) (ρ : Dev nD → PrngReg) (c : Dev nD)

/-- The edge list, at its array type. -/
abbrev ei : IVec ⟨2, ![2, 800000]⟩ 32 := m ((c : Thread nD τ).loc main_arg1)

/-! ## Layer 1 -/

section Layer1

/-- Layer 1's input and parameters, at their array types. -/
abbrev x1 : FVec Ideal ⟨2, ![50000, 128]⟩ .f32 := m ((c : Thread nD τ).loc main_arg0)
abbrev w1a : FVec Ideal ⟨2, ![128, 64]⟩ .f32 := m ((c : Thread nD τ).loc main_arg3)
abbrev b1a : FVec Ideal ⟨1, ![64]⟩ .f32 := m ((c : Thread nD τ).loc main_arg4)
abbrev w1b : FVec Ideal ⟨2, ![64, 64]⟩ .f32 := m ((c : Thread nD τ).loc main_arg5)
abbrev b1b : FVec Ideal ⟨1, ![64]⟩ .f32 := m ((c : Thread nD τ).loc main_arg6)
abbrev g1 : FVec Ideal ⟨1, ![64]⟩ .f32 := m ((c : Thread nD τ).loc main_arg7)
abbrev t1 : FVec Ideal ⟨1, ![64]⟩ .f32 := m ((c : Thread nD τ).loc main_arg8)

/-- The dense output of layer 1. -/
abbrev U1 : FVec Ideal ⟨2, ![50000, 64]⟩ .f32 := u128 (x1 m c) (ei m c) (w1a m c) (b1a m c) (w1b m c) (b1b m c) hc64

theorem l1_w1 : V1 m ρ c (Pipeline.arrRef spec0 1) = refAgg128 (x1 m c) (ei m c) :=
  (V1_w1 m ρ c).trans (Cert.BridgeX.agg128_eq _ _)

theorem l1_w3 : V1 m ρ c (Pipeline.arrRef spec0 3) = shapeCast ⟨2, ![1, 64]⟩ (b1a m c) hc64 :=
  (V1_w3 m ρ c).trans (Cert.BridgeX.rowK_eq _ hc64)

theorem l1_w5 : V1 m ρ c (Pipeline.arrRef spec0 5) = shapeCast ⟨2, ![1, 64]⟩ (b1b m c) hc64 :=
  (V1_w5 m ρ c).trans (Cert.BridgeX.rowK_eq _ hc64)

/-- The first region leaves the dense output. -/
theorem l1_u (r : Fin 50000) (q : Fin 64) : (dat0 (V1 m ρ) c).arrAt 6 cfg0.N (ix2 r q) = U1 m c (ix2 r q) :=
  Cert.KernelIdeal.RegionR0.r0_u (V1 m ρ) c (x1 m c) (refAgg128 (x1 m c) (ei m c)) (w1a m c)
    (shapeCast ⟨2, ![1, 64]⟩ (b1a m c) hc64) (w1b m c) (shapeCast ⟨2, ![1, 64]⟩ (b1b m c) hc64)
    (V1_w0 m ρ c) (l1_w1 m ρ c) (V1_w2 m ρ c) (l1_w3 m ρ c) (V1_w4 m ρ c) (l1_w5 m ρ c) r q

/-- … and its column sums. -/
theorem l1_s (q : Fin 64) : (dat0 (V1 m ρ) c).arrAt 7 cfg0.N (ix2 (0 : Fin 1) q) = colSum (U1 m c) q :=
  Cert.KernelIdeal.RegionR0.r0_s (V1 m ρ) c (x1 m c) (refAgg128 (x1 m c) (ei m c)) (w1a m c)
    (shapeCast ⟨2, ![1, 64]⟩ (b1a m c) hc64) (w1b m c) (shapeCast ⟨2, ![1, 64]⟩ (b1b m c) hc64)
    (V1_w0 m ρ c) (l1_w1 m ρ c) (V1_w2 m ρ c) (l1_w3 m ρ c) (V1_w4 m ρ c) (l1_w5 m ρ c) q

/-- … and the column sums of its squares. -/
theorem l1_ss (q : Fin 64) : (dat0 (V1 m ρ) c).arrAt 8 cfg0.N (ix2 (0 : Fin 1) q) = colSumSq (U1 m c) q :=
  Cert.KernelIdeal.RegionR0.r0_ss (V1 m ρ) c (x1 m c) (refAgg128 (x1 m c) (ei m c)) (w1a m c)
    (shapeCast ⟨2, ![1, 64]⟩ (b1a m c) hc64) (w1b m c) (shapeCast ⟨2, ![1, 64]⟩ (b1b m c) hc64)
    (V1_w0 m ρ c) (l1_w1 m ρ c) (V1_w2 m ρ c) (l1_w3 m ρ c) (V1_w4 m ρ c) (l1_w5 m ρ c) q

/-- The second region finds the dense output at its first window. -/
theorem l1_U (r : Fin 50000) (q : Fin 64) : V3 m ρ c (Pipeline.arrRef spec1 0) (ix2 r q) = U1 m c (ix2 r q) := by
  rw [V3_w0]; exact l1_u m ρ c r q

theorem l1_mn (q : Fin 64) : V3 m ρ c (Pipeline.arrRef spec1 1) (ix2 (0 : Fin 1) q)
    = meanK ((dat0 (V1 m ρ) c).arrAt 7 cfg0.N (ix2 (0 : Fin 1) q)) := by
  rw [V3_w1]; exact Cert.BridgeX.meanOfK_apply _ q

theorem l1_vr (q : Fin 64) : V3 m ρ c (Pipeline.arrRef spec1 2) (ix2 (0 : Fin 1) q)
    = varK ((dat0 (V1 m ρ) c).arrAt 7 cfg0.N (ix2 (0 : Fin 1) q)) ((dat0 (V1 m ρ) c).arrAt 8 cfg0.N (ix2 (0 : Fin 1) q)) := by
  rw [V3_w2]; exact Cert.BridgeX.varOfK_apply _ _ q

theorem l1_g (q : Fin 64) : V3 m ρ c (Pipeline.arrRef spec1 3) (ix2 (0 : Fin 1) q) = g1 m c (ix1 q) := by
  rw [V3_w3]; exact Cert.BridgeX.rowK_apply _ q

theorem l1_t (q : Fin 64) : V3 m ρ c (Pipeline.arrRef spec1 4) (ix2 (0 : Fin 1) q) = t1 m c (ix1 q) := by
  rw [V3_w4]; exact Cert.BridgeX.rowK_apply _ q

/-- Layer 1: what the second region leaves is the reference's layer of the same arguments, and it is real. -/
theorem layer1 (hx : AllReal (x1 m c)) (hw1 : AllReal (w1a m c)) (hb1 : AllReal (b1a m c)) (hw2 : AllReal (w1b m c))
    (hb2 : AllReal (b1b m c)) (hg : AllReal (g1 m c)) (ht : AllReal (t1 m c)) :
    (dat1 (V3 m ρ) c).arrAt 5 cfg1.N
        = refLayer128 (x1 m c) (ei m c) (w1a m c) (b1a m c) (w1b m c) (b1b m c) (g1 m c) (t1 m c)
      ∧ AllReal (refLayer128 (x1 m c) (ei m c) (w1a m c) (b1a m c) (w1b m c) (b1b m c) (g1 m c) (t1 m c)) := by
  rw [refLayer128_eq _ _ _ _ _ _ _ _ hc64]
  exact layer_step (U1 m c) (allReal_u128 (ei m c) hc64 hx hw1 hb1 hw2 hb2) (g1 m c) (t1 m c) hg ht
    (V3 m ρ c (Pipeline.arrRef spec1 0)) ((dat1 (V3 m ρ) c).arrAt 5 cfg1.N) (refNorm (U1 m c) (g1 m c) (t1 m c))
    ((dat0 (V1 m ρ) c).arrAt 7 cfg0.N) ((dat0 (V1 m ρ) c).arrAt 8 cfg0.N)
    (V3 m ρ c (Pipeline.arrRef spec1 1)) (V3 m ρ c (Pipeline.arrRef spec1 2))
    (V3 m ρ c (Pipeline.arrRef spec1 3)) (V3 m ρ c (Pipeline.arrRef spec1 4))
    (l1_U m ρ c) (l1_s m ρ c) (l1_ss m ρ c) (l1_mn m ρ c) (l1_vr m ρ c) (l1_g m ρ c) (l1_t m ρ c)
    (fun r q => Cert.KernelIdeal.RegionA1.a1_out (V3 m ρ) c r q) (refNorm_apply _ _ _)

end Layer1

/-! ## Layer 2 -/

section Layer2

/-- Layer 2's parameters, at their array types; its input X is what the layer before left. -/
abbrev w2a : FVec Ideal ⟨2, ![64, 64]⟩ .f32 := m ((c : Thread nD τ).loc main_arg9)
abbrev b2a : FVec Ideal ⟨1, ![64]⟩ .f32 := m ((c : Thread nD τ).loc main_arg10)
abbrev w2b : FVec Ideal ⟨2, ![64, 64]⟩ .f32 := m ((c : Thread nD τ).loc main_arg11)
abbrev b2b : FVec Ideal ⟨1, ![64]⟩ .f32 := m ((c : Thread nD τ).loc main_arg12)
abbrev g2 : FVec Ideal ⟨1, ![64]⟩ .f32 := m ((c : Thread nD τ).loc main_arg13)
abbrev t2 : FVec Ideal ⟨1, ![64]⟩ .f32 := m ((c : Thread nD τ).loc main_arg14)

/-- The dense output of layer 2. -/
abbrev U2 (X : FVec Ideal ⟨2, ![50000, 64]⟩ .f32) : FVec Ideal ⟨2, ![50000, 64]⟩ .f32 := u64 X (ei m c) (w2a m c) (b2a m c) (w2b m c) (b2b m c) hc64

theorem l2_w0 (X : FVec Ideal ⟨2, ![50000, 64]⟩ .f32) (hX : (dat1 (V3 m ρ) c).arrAt 5 cfg1.N = X) : V5 m ρ c (Pipeline.arrRef spec2 0) = X :=
  (V5_w0 m ρ c).trans hX

theorem l2_w1 (X : FVec Ideal ⟨2, ![50000, 64]⟩ .f32) (hX : (dat1 (V3 m ρ) c).arrAt 5 cfg1.N = X) : V5 m ρ c (Pipeline.arrRef spec2 1) = refAgg64 X (ei m c) :=
  (V5_w1 m ρ c).trans ((congrArg (fun h => aggK64 h (ei m c)) hX).trans (Cert.BridgeX.agg64_eq _ _))

theorem l2_w3 (X : FVec Ideal ⟨2, ![50000, 64]⟩ .f32) (hX : (dat1 (V3 m ρ) c).arrAt 5 cfg1.N = X) : V5 m ρ c (Pipeline.arrRef spec2 3) = shapeCast ⟨2, ![1, 64]⟩ (b2a m c) hc64 :=
  (V5_w3 m ρ c).trans (Cert.BridgeX.rowK_eq _ hc64)

theorem l2_w5 (X : FVec Ideal ⟨2, ![50000, 64]⟩ .f32) (hX : (dat1 (V3 m ρ) c).arrAt 5 cfg1.N = X) : V5 m ρ c (Pipeline.arrRef spec2 5) = shapeCast ⟨2, ![1, 64]⟩ (b2b m c) hc64 :=
  (V5_w5 m ρ c).trans (Cert.BridgeX.rowK_eq _ hc64)

/-- The first region leaves the dense output. -/
theorem l2_u (X : FVec Ideal ⟨2, ![50000, 64]⟩ .f32) (hX : (dat1 (V3 m ρ) c).arrAt 5 cfg1.N = X) (r : Fin 50000) (q : Fin 64) : (dat2 (V5 m ρ) c).arrAt 6 cfg2.N (ix2 r q) = U2 m c X (ix2 r q) :=
  Cert.KernelIdeal.RegionR2.r2_u (V5 m ρ) c X (refAgg64 X (ei m c)) (w2a m c)
    (shapeCast ⟨2, ![1, 64]⟩ (b2a m c) hc64) (w2b m c) (shapeCast ⟨2, ![1, 64]⟩ (b2b m c) hc64)
    (l2_w0 m ρ c X hX) (l2_w1 m ρ c X hX) (V5_w2 m ρ c) (l2_w3 m ρ c X hX) (V5_w4 m ρ c) (l2_w5 m ρ c X hX) r q

/-- … and its column sums. -/
theorem l2_s (X : FVec Ideal ⟨2, ![50000, 64]⟩ .f32) (hX : (dat1 (V3 m ρ) c).arrAt 5 cfg1.N = X) (q : Fin 64) : (dat2 (V5 m ρ) c).arrAt 7 cfg2.N (ix2 (0 : Fin 1) q) = colSum (U2 m c X) q :=
  Cert.KernelIdeal.RegionR2.r2_s (V5 m ρ) c X (refAgg64 X (ei m c)) (w2a m c)
    (shapeCast ⟨2, ![1, 64]⟩ (b2a m c) hc64) (w2b m c) (shapeCast ⟨2, ![1, 64]⟩ (b2b m c) hc64)
    (l2_w0 m ρ c X hX) (l2_w1 m ρ c X hX) (V5_w2 m ρ c) (l2_w3 m ρ c X hX) (V5_w4 m ρ c) (l2_w5 m ρ c X hX) q

/-- … and the column sums of its squares. -/
theorem l2_ss (X : FVec Ideal ⟨2, ![50000, 64]⟩ .f32) (hX : (dat1 (V3 m ρ) c).arrAt 5 cfg1.N = X) (q : Fin 64) : (dat2 (V5 m ρ) c).arrAt 8 cfg2.N (ix2 (0 : Fin 1) q) = colSumSq (U2 m c X) q :=
  Cert.KernelIdeal.RegionR2.r2_ss (V5 m ρ) c X (refAgg64 X (ei m c)) (w2a m c)
    (shapeCast ⟨2, ![1, 64]⟩ (b2a m c) hc64) (w2b m c) (shapeCast ⟨2, ![1, 64]⟩ (b2b m c) hc64)
    (l2_w0 m ρ c X hX) (l2_w1 m ρ c X hX) (V5_w2 m ρ c) (l2_w3 m ρ c X hX) (V5_w4 m ρ c) (l2_w5 m ρ c X hX) q

/-- The second region finds the dense output at its first window. -/
theorem l2_U (X : FVec Ideal ⟨2, ![50000, 64]⟩ .f32) (hX : (dat1 (V3 m ρ) c).arrAt 5 cfg1.N = X) (r : Fin 50000) (q : Fin 64) : V7 m ρ c (Pipeline.arrRef spec3 0) (ix2 r q) = U2 m c X (ix2 r q) := by
  rw [V7_w0]; exact l2_u m ρ c X hX r q

theorem l2_mn (X : FVec Ideal ⟨2, ![50000, 64]⟩ .f32) (hX : (dat1 (V3 m ρ) c).arrAt 5 cfg1.N = X) (q : Fin 64) : V7 m ρ c (Pipeline.arrRef spec3 1) (ix2 (0 : Fin 1) q)
    = meanK ((dat2 (V5 m ρ) c).arrAt 7 cfg2.N (ix2 (0 : Fin 1) q)) := by
  rw [V7_w1]; exact Cert.BridgeX.meanOfK_apply _ q

theorem l2_vr (X : FVec Ideal ⟨2, ![50000, 64]⟩ .f32) (hX : (dat1 (V3 m ρ) c).arrAt 5 cfg1.N = X) (q : Fin 64) : V7 m ρ c (Pipeline.arrRef spec3 2) (ix2 (0 : Fin 1) q)
    = varK ((dat2 (V5 m ρ) c).arrAt 7 cfg2.N (ix2 (0 : Fin 1) q)) ((dat2 (V5 m ρ) c).arrAt 8 cfg2.N (ix2 (0 : Fin 1) q)) := by
  rw [V7_w2]; exact Cert.BridgeX.varOfK_apply _ _ q

theorem l2_g (X : FVec Ideal ⟨2, ![50000, 64]⟩ .f32) (hX : (dat1 (V3 m ρ) c).arrAt 5 cfg1.N = X) (q : Fin 64) : V7 m ρ c (Pipeline.arrRef spec3 3) (ix2 (0 : Fin 1) q) = g2 m c (ix1 q) := by
  rw [V7_w3]; exact Cert.BridgeX.rowK_apply _ q

theorem l2_t (X : FVec Ideal ⟨2, ![50000, 64]⟩ .f32) (hX : (dat1 (V3 m ρ) c).arrAt 5 cfg1.N = X) (q : Fin 64) : V7 m ρ c (Pipeline.arrRef spec3 4) (ix2 (0 : Fin 1) q) = t2 m c (ix1 q) := by
  rw [V7_w4]; exact Cert.BridgeX.rowK_apply _ q

/-- Layer 2: what the second region leaves is the reference's layer of the input X the layer before left, and it is real. -/
theorem layer2 (X : FVec Ideal ⟨2, ![50000, 64]⟩ .f32) (hX : (dat1 (V3 m ρ) c).arrAt 5 cfg1.N = X) (hx : AllReal X) (hw1 : AllReal (w2a m c)) (hb1 : AllReal (b2a m c)) (hw2 : AllReal (w2b m c))
    (hb2 : AllReal (b2b m c)) (hg : AllReal (g2 m c)) (ht : AllReal (t2 m c)) :
    (dat3 (V7 m ρ) c).arrAt 5 cfg3.N
        = refLayer64 X (ei m c) (w2a m c) (b2a m c) (w2b m c) (b2b m c) (g2 m c) (t2 m c)
      ∧ AllReal (refLayer64 X (ei m c) (w2a m c) (b2a m c) (w2b m c) (b2b m c) (g2 m c) (t2 m c)) := by
  rw [refLayer64_eq _ _ _ _ _ _ _ _ hc64]
  exact layer_step (U2 m c X) (allReal_u64 (ei m c) hc64 hx hw1 hb1 hw2 hb2) (g2 m c) (t2 m c) hg ht
    (V7 m ρ c (Pipeline.arrRef spec3 0)) ((dat3 (V7 m ρ) c).arrAt 5 cfg3.N) (refNorm (U2 m c X) (g2 m c) (t2 m c))
    ((dat2 (V5 m ρ) c).arrAt 7 cfg2.N) ((dat2 (V5 m ρ) c).arrAt 8 cfg2.N)
    (V7 m ρ c (Pipeline.arrRef spec3 1)) (V7 m ρ c (Pipeline.arrRef spec3 2))
    (V7 m ρ c (Pipeline.arrRef spec3 3)) (V7 m ρ c (Pipeline.arrRef spec3 4))
    (l2_U m ρ c X hX) (l2_s m ρ c X hX) (l2_ss m ρ c X hX) (l2_mn m ρ c X hX) (l2_vr m ρ c X hX) (l2_g m ρ c X hX) (l2_t m ρ c X hX)
    (fun r q => Cert.KernelIdeal.RegionA3.a3_out (V7 m ρ) c r q) (refNorm_apply _ _ _)

end Layer2

/-! ## Layer 3 -/

section Layer3

/-- Layer 3's parameters, at their array types; its input X is what the layer before left. -/
abbrev w3a : FVec Ideal ⟨2, ![64, 64]⟩ .f32 := m ((c : Thread nD τ).loc main_arg15)
abbrev b3a : FVec Ideal ⟨1, ![64]⟩ .f32 := m ((c : Thread nD τ).loc main_arg16)
abbrev w3b : FVec Ideal ⟨2, ![64, 64]⟩ .f32 := m ((c : Thread nD τ).loc main_arg17)
abbrev b3b : FVec Ideal ⟨1, ![64]⟩ .f32 := m ((c : Thread nD τ).loc main_arg18)
abbrev g3 : FVec Ideal ⟨1, ![64]⟩ .f32 := m ((c : Thread nD τ).loc main_arg19)
abbrev t3 : FVec Ideal ⟨1, ![64]⟩ .f32 := m ((c : Thread nD τ).loc main_arg20)

/-- The dense output of layer 3. -/
abbrev U3 (X : FVec Ideal ⟨2, ![50000, 64]⟩ .f32) : FVec Ideal ⟨2, ![50000, 64]⟩ .f32 := u64 X (ei m c) (w3a m c) (b3a m c) (w3b m c) (b3b m c) hc64

theorem l3_w0 (X : FVec Ideal ⟨2, ![50000, 64]⟩ .f32) (hX : (dat3 (V7 m ρ) c).arrAt 5 cfg3.N = X) : V9 m ρ c (Pipeline.arrRef spec4 0) = X :=
  (V9_w0 m ρ c).trans hX

theorem l3_w1 (X : FVec Ideal ⟨2, ![50000, 64]⟩ .f32) (hX : (dat3 (V7 m ρ) c).arrAt 5 cfg3.N = X) : V9 m ρ c (Pipeline.arrRef spec4 1) = refAgg64 X (ei m c) :=
  (V9_w1 m ρ c).trans ((congrArg (fun h => aggK64 h (ei m c)) hX).trans (Cert.BridgeX.agg64_eq _ _))

theorem l3_w3 (X : FVec Ideal ⟨2, ![50000, 64]⟩ .f32) (hX : (dat3 (V7 m ρ) c).arrAt 5 cfg3.N = X) : V9 m ρ c (Pipeline.arrRef spec4 3) = shapeCast ⟨2, ![1, 64]⟩ (b3a m c) hc64 :=
  (V9_w3 m ρ c).trans (Cert.BridgeX.rowK_eq _ hc64)

theorem l3_w5 (X : FVec Ideal ⟨2, ![50000, 64]⟩ .f32) (hX : (dat3 (V7 m ρ) c).arrAt 5 cfg3.N = X) : V9 m ρ c (Pipeline.arrRef spec4 5) = shapeCast ⟨2, ![1, 64]⟩ (b3b m c) hc64 :=
  (V9_w5 m ρ c).trans (Cert.BridgeX.rowK_eq _ hc64)

/-- The first region leaves the dense output. -/
theorem l3_u (X : FVec Ideal ⟨2, ![50000, 64]⟩ .f32) (hX : (dat3 (V7 m ρ) c).arrAt 5 cfg3.N = X) (r : Fin 50000) (q : Fin 64) : (dat4 (V9 m ρ) c).arrAt 6 cfg4.N (ix2 r q) = U3 m c X (ix2 r q) :=
  Cert.KernelIdeal.RegionR4.r4_u (V9 m ρ) c X (refAgg64 X (ei m c)) (w3a m c)
    (shapeCast ⟨2, ![1, 64]⟩ (b3a m c) hc64) (w3b m c) (shapeCast ⟨2, ![1, 64]⟩ (b3b m c) hc64)
    (l3_w0 m ρ c X hX) (l3_w1 m ρ c X hX) (V9_w2 m ρ c) (l3_w3 m ρ c X hX) (V9_w4 m ρ c) (l3_w5 m ρ c X hX) r q

/-- … and its column sums. -/
theorem l3_s (X : FVec Ideal ⟨2, ![50000, 64]⟩ .f32) (hX : (dat3 (V7 m ρ) c).arrAt 5 cfg3.N = X) (q : Fin 64) : (dat4 (V9 m ρ) c).arrAt 7 cfg4.N (ix2 (0 : Fin 1) q) = colSum (U3 m c X) q :=
  Cert.KernelIdeal.RegionR4.r4_s (V9 m ρ) c X (refAgg64 X (ei m c)) (w3a m c)
    (shapeCast ⟨2, ![1, 64]⟩ (b3a m c) hc64) (w3b m c) (shapeCast ⟨2, ![1, 64]⟩ (b3b m c) hc64)
    (l3_w0 m ρ c X hX) (l3_w1 m ρ c X hX) (V9_w2 m ρ c) (l3_w3 m ρ c X hX) (V9_w4 m ρ c) (l3_w5 m ρ c X hX) q

/-- … and the column sums of its squares. -/
theorem l3_ss (X : FVec Ideal ⟨2, ![50000, 64]⟩ .f32) (hX : (dat3 (V7 m ρ) c).arrAt 5 cfg3.N = X) (q : Fin 64) : (dat4 (V9 m ρ) c).arrAt 8 cfg4.N (ix2 (0 : Fin 1) q) = colSumSq (U3 m c X) q :=
  Cert.KernelIdeal.RegionR4.r4_ss (V9 m ρ) c X (refAgg64 X (ei m c)) (w3a m c)
    (shapeCast ⟨2, ![1, 64]⟩ (b3a m c) hc64) (w3b m c) (shapeCast ⟨2, ![1, 64]⟩ (b3b m c) hc64)
    (l3_w0 m ρ c X hX) (l3_w1 m ρ c X hX) (V9_w2 m ρ c) (l3_w3 m ρ c X hX) (V9_w4 m ρ c) (l3_w5 m ρ c X hX) q

/-- The second region finds the dense output at its first window. -/
theorem l3_U (X : FVec Ideal ⟨2, ![50000, 64]⟩ .f32) (hX : (dat3 (V7 m ρ) c).arrAt 5 cfg3.N = X) (r : Fin 50000) (q : Fin 64) : V11 m ρ c (Pipeline.arrRef spec5 0) (ix2 r q) = U3 m c X (ix2 r q) := by
  rw [V11_w0]; exact l3_u m ρ c X hX r q

theorem l3_mn (X : FVec Ideal ⟨2, ![50000, 64]⟩ .f32) (hX : (dat3 (V7 m ρ) c).arrAt 5 cfg3.N = X) (q : Fin 64) : V11 m ρ c (Pipeline.arrRef spec5 1) (ix2 (0 : Fin 1) q)
    = meanK ((dat4 (V9 m ρ) c).arrAt 7 cfg4.N (ix2 (0 : Fin 1) q)) := by
  rw [V11_w1]; exact Cert.BridgeX.meanOfK_apply _ q

theorem l3_vr (X : FVec Ideal ⟨2, ![50000, 64]⟩ .f32) (hX : (dat3 (V7 m ρ) c).arrAt 5 cfg3.N = X) (q : Fin 64) : V11 m ρ c (Pipeline.arrRef spec5 2) (ix2 (0 : Fin 1) q)
    = varK ((dat4 (V9 m ρ) c).arrAt 7 cfg4.N (ix2 (0 : Fin 1) q)) ((dat4 (V9 m ρ) c).arrAt 8 cfg4.N (ix2 (0 : Fin 1) q)) := by
  rw [V11_w2]; exact Cert.BridgeX.varOfK_apply _ _ q

theorem l3_g (X : FVec Ideal ⟨2, ![50000, 64]⟩ .f32) (hX : (dat3 (V7 m ρ) c).arrAt 5 cfg3.N = X) (q : Fin 64) : V11 m ρ c (Pipeline.arrRef spec5 3) (ix2 (0 : Fin 1) q) = g3 m c (ix1 q) := by
  rw [V11_w3]; exact Cert.BridgeX.rowK_apply _ q

theorem l3_t (X : FVec Ideal ⟨2, ![50000, 64]⟩ .f32) (hX : (dat3 (V7 m ρ) c).arrAt 5 cfg3.N = X) (q : Fin 64) : V11 m ρ c (Pipeline.arrRef spec5 4) (ix2 (0 : Fin 1) q) = t3 m c (ix1 q) := by
  rw [V11_w4]; exact Cert.BridgeX.rowK_apply _ q

/-- Layer 3: what the second region leaves is the reference's layer of the input X the layer before left, and it is real. -/
theorem layer3 (X : FVec Ideal ⟨2, ![50000, 64]⟩ .f32) (hX : (dat3 (V7 m ρ) c).arrAt 5 cfg3.N = X) (hx : AllReal X) (hw1 : AllReal (w3a m c)) (hb1 : AllReal (b3a m c)) (hw2 : AllReal (w3b m c))
    (hb2 : AllReal (b3b m c)) (hg : AllReal (g3 m c)) (ht : AllReal (t3 m c)) :
    (dat5 (V11 m ρ) c).arrAt 5 cfg5.N
        = refLayer64 X (ei m c) (w3a m c) (b3a m c) (w3b m c) (b3b m c) (g3 m c) (t3 m c)
      ∧ AllReal (refLayer64 X (ei m c) (w3a m c) (b3a m c) (w3b m c) (b3b m c) (g3 m c) (t3 m c)) := by
  rw [refLayer64_eq _ _ _ _ _ _ _ _ hc64]
  exact layer_step (U3 m c X) (allReal_u64 (ei m c) hc64 hx hw1 hb1 hw2 hb2) (g3 m c) (t3 m c) hg ht
    (V11 m ρ c (Pipeline.arrRef spec5 0)) ((dat5 (V11 m ρ) c).arrAt 5 cfg5.N) (refNorm (U3 m c X) (g3 m c) (t3 m c))
    ((dat4 (V9 m ρ) c).arrAt 7 cfg4.N) ((dat4 (V9 m ρ) c).arrAt 8 cfg4.N)
    (V11 m ρ c (Pipeline.arrRef spec5 1)) (V11 m ρ c (Pipeline.arrRef spec5 2))
    (V11 m ρ c (Pipeline.arrRef spec5 3)) (V11 m ρ c (Pipeline.arrRef spec5 4))
    (l3_U m ρ c X hX) (l3_s m ρ c X hX) (l3_ss m ρ c X hX) (l3_mn m ρ c X hX) (l3_vr m ρ c X hX) (l3_g m ρ c X hX) (l3_t m ρ c X hX)
    (fun r q => Cert.KernelIdeal.RegionA5.a5_out (V11 m ρ) c r q) (refNorm_apply _ _ _)

end Layer3

/-! ## The result -/

/-- On arguments satisfying the precondition the tiled program's result buffer at the last boundary is the
    reference's composed term of the same arguments: three layers, each equal and real, then the same pool and head. -/
theorem result_eq
    (hpre : Cert.Pre_finite_inputs.fn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) = fun _ => 1#1) :
    W13 m ρ c (Proc.devRef .tc main_v76)
      = refOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) := by
  obtain ⟨h0, h3, h4, h5, h6, h7, h8, h9, h10, h11, h12, h13, h14, h15, h16, h17, h18, h19, h20, h21, h22⟩ := Cert.PreReal.reals_of_pre _ _ _ _ _ _ _ _ _ _ _ _ _ _ _ _ _ _ _ _ _ _ _ hpre
  obtain ⟨e1, r1⟩ := layer1 m ρ c h0 h3 h4 h5 h6 h7 h8
  obtain ⟨e2, r2⟩ := layer2 m ρ c _ e1 r1 h9 h10 h11 h12 h13 h14
  obtain ⟨e3, r3⟩ := layer3 m ρ c _ e2 r2 h15 h16 h17 h18 h19 h20
  rw [W13_v76, e3]
  unfold Cert.ReferenceIdeal.RefTerm.refOut
  exact Cert.BridgeX.tail_eq _ _ _ _

end Cert.Bridge

end
-- ==== Proof.lean ====
/-
  The certificate of the three-layer graph network: a tiled program (six kernel regions among host gathers and scatters)
  against a plain reference.

  Each layer is h ↦ max (BN (max (max ((h + agg)·W₁ + b₁) 0 · W₂ + b₂) 0)) 0 with agg the sum over incoming edges of the
  source rows. The tiled program runs the dense stages on blocks of 5000 rows, accumulating the column sums of the result
  and of its square over the ten blocks, forms mean = s/n and var = ss/n − mean² on the host, and normalises in a second
  region; the reference forms var as the mean squared deviation. On real inputs (the precondition) the two variances are
  one number, every intermediate stays real, and the two programs' results agree entry by entry; the pool and the linear
  head after the last layer are the same host operations on both sides.

  The three frames: the two tiled programs' frames are the generated ones; the reference's is its run with the result
  dropped. The idealisation rewrote nothing, so there is nothing to preserve.
-/
import proofs.«173864_j70188355551324_1_alg».proof.Defs
import proofs.«173864_j70188355551324_1_alg».proof.Proof.Gen.Kernel
import proofs.«173864_j70188355551324_1_alg».proof.Proof.Gen.Kernel.Frame
import proofs.«173864_j70188355551324_1_alg».proof.Proof.Gen.KernelIdeal
import proofs.«173864_j70188355551324_1_alg».proof.Proof.Gen.KernelIdeal.Frame
import proofs.«173864_j70188355551324_1_alg».proof.Proof.Gen.ReferenceIdeal
import proofs.«173864_j70188355551324_1_alg».proof.Proof.Gen.Pre_finite_inputs
import proofs.«173864_j70188355551324_1_alg».proof.Proof.KernelRun
import proofs.«173864_j70188355551324_1_alg».proof.Proof.RefRun
import proofs.«173864_j70188355551324_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- Both programs end, the tiled one with its result at the last boundary's contents and the reference at its composed
    term of arguments that agree; on real arguments these are one array. -/
theorem algebraic : Cert.algebraic_KernelIdeal_ReferenceIdeal := by
  intro m ρ m' ρ' hpre hagree
  refine ⟨fun c => Cert.KernelIdeal.Gen.W13 m ρ c (Proc.devRef .tc Cert.KernelIdeal.main_v76),
    Cert.KernelIdeal.RunValue.run_W13 m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12, e13, e14, e15, e16, e17, e18, e19, e20, e21, e22⟩ := hagree c
  rw [e0, e1, e2, e3, e4, e5, e6, e7, e8, e9, e10, e11, e12, e13, e14, e15, e16, e17, e18, e19, e20, e21, e22]
  exact (Cert.Bridge.result_eq m ρ c (hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
